-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x255x64x64 : Shape := ⟨4, ![16, 255, 64, 64]⟩
abbrev S_ : Shape := ⟨0, ![]⟩

class Facts : Prop where
  bcast_S_S16x255x64x64 : S_.BroadcastsInDim S16x255x64x64 (![] : Fin 0 → Fin S16x255x64x64.rank)
  reducesTo_S16x255x64x64_S_d0_1_2_3 : S16x255x64x64.ReducesTo [0, 1, 2, 3] S_
  h_S_ : 0 < S_.numel

variable [Facts]

def fn {F : FTy → Type} [FloatOps F] (main_arg0 : FVec F S16x255x64x64 .f32) : IVec S_ 1 :=
  let main_v0 : FVec F S16x255x64x64 .f32 := Host.absf main_arg0
  let main_cst : FVec F S_ .f32 := constant S_ .f32 0x7F800000#32
  let main_v1 : FVec F S16x255x64x64 .f32 := broadcastInDim S16x255x64x64 ![] bcast_S_S16x255x64x64 main_cst
  let main_v2 : IVec S16x255x64x64 1 := cmpf .olt main_v0 main_v1
  let main_c : IVec S_ 1 := constantI S_ 1 1#1
  let main_v3 : IVec S_ 1 := (fun x v => Host.reduce IntOp.andi x v reducesTo_S16x255x64x64_S_d0_1_2_3 h_S_) main_v2 main_c
  main_v3
-- ==== Kernel.lean ====
abbrev S16x255x64x64 : Shape := ⟨4, ![16, 255, 64, 64]⟩
abbrev S48x85x4096 : Shape := ⟨3, ![48, 85, 4096]⟩
abbrev S5570560 : Shape := ⟨1, ![5570560]⟩
abbrev S85x512 : Shape := ⟨2, ![85, 512]⟩
abbrev S10880 : Shape := ⟨1, ![10880]⟩
abbrev S_ : Shape := ⟨0, ![]⟩
abbrev S16 : Shape := ⟨1, ![16]⟩
abbrev S1x85x512 : Shape := ⟨3, ![1, 85, 512]⟩
abbrev S1x16 : Shape := ⟨2, ![1, 16]⟩
abbrev S32x4096x85 : Shape := ⟨3, ![32, 4096, 85]⟩
abbrev S8x85x4096 : Shape := ⟨3, ![8, 85, 4096]⟩
abbrev S8x4096x85 : Shape := ⟨3, ![8, 4096, 85]⟩
abbrev S16x4096x85 : Shape := ⟨3, ![16, 4096, 85]⟩
abbrev S48x4096x85 : Shape := ⟨3, ![48, 4096, 85]⟩
abbrev S16x3x64x64x85 : Shape := ⟨5, ![16, 3, 64, 64, 85]⟩

abbrev nBuf : Table → Nat
  | .hbm => 7
  | .local .tc .vmem => 4
  | .local .scVector .vmem => 4
  | _ => 0

abbrev bufTy : (tb : Table) → Fin (nBuf tb) → BufTy
  | .hbm, ⟨0, _⟩ => ⟨S16x255x64x64, .f32⟩
  | .hbm, ⟨1, _⟩ => ⟨S48x85x4096, .f32⟩
  | .hbm, ⟨2, _⟩ => ⟨S5570560, .f32⟩
  | .hbm, ⟨3, _⟩ => ⟨S32x4096x85, .f32⟩
  | .hbm, ⟨4, _⟩ => ⟨S16x4096x85, .f32⟩
  | .hbm, ⟨5, _⟩ => ⟨S48x4096x85, .f32⟩
  | .hbm, ⟨6, _⟩ => ⟨S16x3x64x64x85, .f32⟩
  | .local .tc .vmem, ⟨0, _⟩ => ⟨S8x85x4096, .f32⟩
  | .local .tc .vmem, ⟨1, _⟩ => ⟨S8x85x4096, .f32⟩
  | .local .tc .vmem, ⟨2, _⟩ => ⟨S8x4096x85, .f32⟩
  | .local .tc .vmem, ⟨3, _⟩ => ⟨S8x4096x85, .f32⟩
  | .local .scVector .vmem, ⟨0, _⟩ => ⟨S85x512, .f32⟩
  | .local .scVector .vmem, ⟨1, _⟩ => ⟨S85x512, .f32⟩
  | .local .scVector .vmem, ⟨2, _⟩ => ⟨S10880, .f32⟩
  | .local .scVector .vmem, ⟨3, _⟩ => ⟨S10880, .f32⟩
  | _, _ => ⟨S16x255x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.muli v1 c4_i32
  let c0_i32 : BitVec 32 := 0#32
  let v6 : BitVec 32 := Scalar.addi v5 c0_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v6 c8_i32
  let c0_i32_4 : BitVec 32 := 0#32
  let v20 : BitVec 1 := Scalar.cmpi .ne v19 c0_i32_4
  let v21 : BitVec 1 := Scalar.andi v18 v20
  let v7 : BitVec 32 := Scalar.divsi v6 c8_i32
  let c1_i32 : BitVec 32 := 1#32
  let v22 : BitVec 32 := Scalar.subi v7 c1_i32
  let v23 : BitVec 32 := Scalar.select v21 v22 v7
  let v24 : BitVec 32 := Scalar.addi c32_i32 v23
  let c0_i32_11 : BitVec 32 := 0#32
  let c8_i32_5 : BitVec 32 := 8#32
  let c0_i32_6 : BitVec 32 := 0#32
  let v25 : BitVec 1 := Scalar.cmpi .eq c8_i32_5 c0_i32_6
  let c1_i32_7 : BitVec 32 := 1#32
  let v26 : BitVec 32 := Scalar.select v25 c1_i32_7 c8_i32_5
  let v27 : BitVec 32 := Scalar.remsi v6 v26
  let c0_i32_9 : BitVec 32 := 0#32
  let v29 : BitVec 1 := Scalar.cmpi .slt v27 c0_i32_9
  let c0_i32_10 : BitVec 32 := 0#32
  let v30 : BitVec 1 := Scalar.cmpi .slt v26 c0_i32_10
  let v31 : BitVec 1 := Scalar.xori v29 v30
  let c0_i32_8 : BitVec 32 := 0#32
  let v28 : BitVec 1 := Scalar.cmpi .ne v27 c0_i32_8
  let v32 : BitVec 1 := Scalar.andi v31 v28
  let v33 : BitVec 32 := Scalar.addi v27 v26
  let v34 : BitVec 32 := Scalar.select v32 v33 v27
  let c512_i32 : BitVec 32 := 512#32
  let v35 : BitVec 32 := Scalar.muli v34 c512_i32
  ![v24.toNat, 0, v35.toNat]
@[reducible] def k0_t1_loop : Scf.Loop 32 :=
  let c0_i32_13 : BitVec 32 := 0#32
  let c2_i32_14 : BitVec 32 := 2#32
  let v40 : BitVec 32 := Scalar.addi c0_i32_13 c2_i32_14
  let c1_i32_15 : BitVec 32 := 1#32
  ⟨c0_i32_13, v40, c1_i32_15⟩
def k0_cond1 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c1_i32_24 : BitVec 32 := 1#32
  let v55 : BitVec 32 := Scalar.addi v54 c1_i32_24
  let c4_i32_25 : BitVec 32 := 4#32
  let v56 : BitVec 1 := Scalar.cmpi .slt v55 c4_i32_25
  let v57 : BitVec 32 := Scalar.extui v56
  let c0_i32_26 : BitVec 32 := 0#32
  let v58 : BitVec 1 := Scalar.cmpi .ne v57 c0_i32_26
  v58

def k0_off2 (i : grid0.Coords) (k0_t1 : Fin k0_t1_loop.trips) : Fin 3 → Nat :=
  let c32_i32_163 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c1_i32_154 : BitVec 32 := 1#32
  let v231 : BitVec 32 := Scalar.addi v54 c1_i32_154
  let v233 : BitVec 32 := Scalar.addi v232 v231
  let c0_i32_157 : BitVec 32 := 0#32
  let v235 : BitVec 1 := Scalar.cmpi .sgt v233 c0_i32_157
  let v236 : BitVec 32 := Scalar.extui v235
  let c0_i32_158 : BitVec 32 := 0#32
  let v237 : BitVec 1 := Scalar.cmpi .slt v233 c0_i32_158
  let v238 : BitVec 32 := Scalar.extui v237
  let v239 : BitVec 32 := Scalar.subi v236 v238
  let c8_i32_156 : BitVec 32 := 8#32
  let c0_i32_159 : BitVec 32 := 0#32
  let v240 : BitVec 1 := Scalar.cmpi .sgt c8_i32_156 c0_i32_159
  let v241 : BitVec 32 := Scalar.extui v240
  let c0_i32_160 : BitVec 32 := 0#32
  let v242 : BitVec 1 := Scalar.cmpi .slt c8_i32_156 c0_i32_160
  let v243 : BitVec 32 := Scalar.extui v242
  let v244 : BitVec 32 := Scalar.subi v241 v243
  let v245 : BitVec 1 := Scalar.cmpi .ne v239 v244
  let v246 : BitVec 32 := Scalar.remsi v233 c8_i32_156
  let c0_i32_161 : BitVec 32 := 0#32
  let v247 : BitVec 1 := Scalar.cmpi .ne v246 c0_i32_161
  let v248 : BitVec 1 := Scalar.andi v245 v247
  let v234 : BitVec 32 := Scalar.divsi v233 c8_i32_156
  let c1_i32_162 : BitVec 32 := 1#32
  let v249 : BitVec 32 := Scalar.subi v234 c1_i32_162
  let v250 : BitVec 32 := Scalar.select v248 v249 v234
  let v251 : BitVec 32 := Scalar.addi c32_i32_163 v250
  let c0_i32_171 : BitVec 32 := 0#32
  let c8_i32_164 : BitVec 32 := 8#32
  let c0_i32_165 : BitVec 32 := 0#32
  let v252 : BitVec 1 := Scalar.cmpi .eq c8_i32_164 c0_i32_165
  let c1_i32_166 : BitVec 32 := 1#32
  let v253 : BitVec 32 := Scalar.select v252 c1_i32_166 c8_i32_164
  let v254 : BitVec 32 := Scalar.remsi v233 v253
  let c0_i32_168 : BitVec 32 := 0#32
  let v256 : BitVec 1 := Scalar.cmpi .slt v254 c0_i32_168
  let c0_i32_169 : BitVec 32 := 0#32
  let v257 : BitVec 1 := Scalar.cmpi .slt v253 c0_i32_169
  let v258 : BitVec 1 := Scalar.xori v256 v257
  let c0_i32_167 : BitVec 32 := 0#32
  let v255 : BitVec 1 := Scalar.cmpi .ne v254 c0_i32_167
  let v259 : BitVec 1 := Scalar.andi v258 v255
  let v260 : BitVec 32 := Scalar.addi v254 v253
  let v261 : BitVec 32 := Scalar.select v259 v260 v254
  let c512_i32_170 : BitVec 32 := 512#32
  let v262 : BitVec 32 := Scalar.muli v261 c512_i32_170
  ![v251.toNat, 0, v262.toNat]
def k0_off3 (i : grid0.Coords) (k0_t1 : Fin k0_t1_loop.trips) (c0_i32_23 : BitVec 32) : Fin 3 → Nat :=
  let c32_i32_35 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_27 : BitVec 32 := 4#32
  let v59 : BitVec 32 := Scalar.muli v1 c4_i32_27
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let v54 : BitVec 32 := Scalar.addi v53 c0_i32_23
  let v60 : BitVec 32 := Scalar.addi v59 v54
  let c0_i32_29 : BitVec 32 := 0#32
  let v62 : BitVec 1 := Scalar.cmpi .sgt v60 c0_i32_29
  let v63 : BitVec 32 := Scalar.extui v62
  let c0_i32_30 : BitVec 32 := 0#32
  let v64 : BitVec 1 := Scalar.cmpi .slt v60 c0_i32_30
  let v65 : BitVec 32 := Scalar.extui v64
  let v66 : BitVec 32 := Scalar.subi v63 v65
  let c8_i32_28 : BitVec 32 := 8#32
  let c0_i32_31 : BitVec 32 := 0#32
  let v67 : BitVec 1 := Scalar.cmpi .sgt c8_i32_28 c0_i32_31
  let v68 : BitVec 32 := Scalar.extui v67
  let c0_i32_32 : BitVec 32 := 0#32
  let v69 : BitVec 1 := Scalar.cmpi .slt c8_i32_28 c0_i32_32
  let v70 : BitVec 32 := Scalar.extui v69
  let v71 : BitVec 32 := Scalar.subi v68 v70
  let v72 : BitVec 1 := Scalar.cmpi .ne v66 v71
  let v73 : BitVec 32 := Scalar.remsi v60 c8_i32_28
  let c0_i32_33 : BitVec 32 := 0#32
  let v74 : BitVec 1 := Scalar.cmpi .ne v73 c0_i32_33
  let v75 : BitVec 1 := Scalar.andi v72 v74
  let v61 : BitVec 32 := Scalar.divsi v60 c8_i32_28
  let c1_i32_34 : BitVec 32 := 1#32
  let v76 : BitVec 32 := Scalar.subi v61 c1_i32_34
  let v77 : BitVec 32 := Scalar.select v75 v76 v61
  let v78 : BitVec 32 := Scalar.addi c32_i32_35 v77
  let c0_i32_43 : BitVec 32 := 0#32
  let c8_i32_36 : BitVec 32 := 8#32
  let c0_i32_37 : BitVec 32 := 0#32
  let v79 : BitVec 1 := Scalar.cmpi .eq c8_i32_36 c0_i32_37
  let c1_i32_38 : BitVec 32 := 1#32
  let v80 : BitVec 32 := Scalar.select v79 c1_i32_38 c8_i32_36
  let v81 : BitVec 32 := Scalar.remsi v60 v80
  let c0_i32_40 : BitVec 32 := 0#32
  let v83 : BitVec 1 := Scalar.cmpi .slt v81 c0_i32_40
  let c0_i32_41 : BitVec 32 := 0#32
  let v84 : BitVec 1 := Scalar.cmpi .slt v80 c0_i32_41
  let v85 : BitVec 1 := Scalar.xori v83 v84
  let c0_i32_39 : BitVec 32 := 0#32
  let v82 : BitVec 1 := Scalar.cmpi .ne v81 c0_i32_39
  let v86 : BitVec 1 := Scalar.andi v85 v82
  let v87 : BitVec 32 := Scalar.addi v81 v80
  let v88 : BitVec 32 := Scalar.select v86 v87 v81
  let c512_i32_42 : BitVec 32 := 512#32
  let v89 : BitVec 32 := Scalar.muli v88 c512_i32_42
  ![v78.toNat, 0, v89.toNat]
def k0_cond2 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c4_i32_45 : BitVec 32 := 4#32
  let v94 : BitVec 32 := Scalar.muli v54 c4_i32_45
  let c0_i32_46 : BitVec 32 := 0#32
  let v95 : BitVec 32 := Scalar.addi v94 c0_i32_46
  let c2_i32_47 : BitVec 32 := 2#32
  let v96 : BitVec 1 := Scalar.cmpi .sge v95 c2_i32_47
  let v97 : BitVec 32 := Scalar.extui v96
  let c0_i32_48 : BitVec 32 := 0#32
  let v98 : BitVec 1 := Scalar.cmpi .ne v97 c0_i32_48
  v98

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c43520_i32_156 : BitVec 32 := 43520#32
  let v233 : BitVec 32 := Scalar.muli v232 c43520_i32_156
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c4_i32_45 : BitVec 32 := 4#32
  let v94 : BitVec 32 := Scalar.muli v54 c4_i32_45
  let c0_i32_46 : BitVec 32 := 0#32
  let v95 : BitVec 32 := Scalar.addi v94 c0_i32_46
  let c2_i32_154 : BitVec 32 := 2#32
  let v231 : BitVec 32 := Scalar.subi v95 c2_i32_154
  let c10880_i32_157 : BitVec 32 := 10880#32
  let v234 : BitVec 32 := Scalar.muli v231 c10880_i32_157
  let v235 : BitVec 32 := Scalar.addi v233 v234
  ![v235.toNat]
@[reducible] def k0_t2_loop : Scf.Loop 32 :=
  let c0_i32_49 : BitVec 32 := 0#32
  let c85_i32_50 : BitVec 32 := 85#32
  let v99 : BitVec 32 := Scalar.addi c0_i32_49 c85_i32_50
  let c1_i32_51 : BitVec 32 := 1#32
  ⟨c0_i32_49, v99, c1_i32_51⟩
def k0_off5 (k0_t2 : Fin k0_t2_loop.trips) : Fin 2 → Nat :=
  let c0_i32_155 : BitVec 32 := 0#32
  let c0_i32_49 : BitVec 32 := 0#32
  let c1_i32_51 : BitVec 32 := 1#32
  let arg13 : BitVec 32 := Scf.iv c0_i32_49 c1_i32_51 k0_t2
  let c1_i32_154 : BitVec 32 := 1#32
  let v231 : BitVec 32 := Scalar.muli arg13 c1_i32_154
  let v232 : BitVec 32 := Scalar.addi c0_i32_155 v231
  let v233 : Index := Scalar.indexCast v232
  let c0 : Index := 0#32
  ![v233.toNat, 0]
def k0_off6 (k0_t2 : Fin k0_t2_loop.trips) : Fin 2 → Nat :=
  let c0_i32_155 : BitVec 32 := 0#32
  let c0_i32_49 : BitVec 32 := 0#32
  let c1_i32_51 : BitVec 32 := 1#32
  let arg13 : BitVec 32 := Scf.iv c0_i32_49 c1_i32_51 k0_t2
  let c1_i32_154 : BitVec 32 := 1#32
  let v231 : BitVec 32 := Scalar.muli arg13 c1_i32_154
  let v232 : BitVec 32 := Scalar.addi c0_i32_155 v231
  let v235 : Index := Scalar.indexCast v232
  let c16 : Index := 16#32
  ![v235.toNat, 16]
def k0_off7 (k0_t2 : Fin k0_t2_loop.trips) : Fin 2 → Nat :=
  let c0_i32_155 : BitVec 32 := 0#32
  let c0_i32_49 : BitVec 32 := 0#32
  let c1_i32_51 : BitVec 32 := 1#32
  let arg13 : BitVec 32 := Scf.iv c0_i32_49 c1_i32_51 k0_t2
  let c1_i32_154 : BitVec 32 := 1#32
  let v231 : BitVec 32 := Scalar.muli arg13 c1_i32_154
  let v232 : BitVec 32 := Scalar.addi c0_i32_155 v231
  let v237 : Index := Scalar.indexCast v232
  let c32 : Index := 32#32
  ![v237.toNat, 32]
def k0_off8 (k0_t2 : Fin k0_t2_loop.trips) : Fin 2 → Nat :=
  let c0_i32_155 : BitVec 32 := 0#32
  let c0_i32_49 : BitVec 32 := 0#32
  let c1_i32_51 : BitVec 32 := 1#32
  let arg13 : BitVec 32 := Scf.iv c0_i32_49 c1_i32_51 k0_t2
  let c1_i32_154 : BitVec 32 := 1#32
  let v231 : BitVec 32 := Scalar.muli arg13 c1_i32_154
  let v232 : BitVec 32 := Scalar.addi c0_i32_155 v231
  let v239 : Index := Scalar.indexCast v232
  let c48 : Index := 48#32
  ![v239.toNat, 48]
def k0_off9 (k0_t2 : Fin k0_t2_loop.trips) : Fin 2 → Nat :=
  let c0_i32_155 : BitVec 32 := 0#32
  let c0_i32_49 : BitVec 32 := 0#32
  let c1_i32_51 : BitVec 32 := 1#32
  let arg13 : BitVec 32 := Scf.iv c0_i32_49 c1_i32_51 k0_t2
  let c1_i32_154 : BitVec 32 := 1#32
  let v231 : BitVec 32 := Scalar.muli arg13 c1_i32_154
  let v232 : BitVec 32 := Scalar.addi c0_i32_155 v231
  let v241 : Index := Scalar.indexCast v232
  let c64 : Index := 64#32
  ![v241.toNat, 64]
def k0_off10 (k0_t2 : Fin k0_t2_loop.trips) : Fin 2 → Nat :=
  let c0_i32_155 : BitVec 32 := 0#32
  let c0_i32_49 : BitVec 32 := 0#32
  let c1_i32_51 : BitVec 32 := 1#32
  let arg13 : BitVec 32 := Scf.iv c0_i32_49 c1_i32_51 k0_t2
  let c1_i32_154 : BitVec 32 := 1#32
  let v231 : BitVec 32 := Scalar.muli arg13 c1_i32_154
  let v232 : BitVec 32 := Scalar.addi c0_i32_155 v231
  let v243 : Index := Scalar.indexCast v232
  let c80 : Index := 80#32
  ![v243.toNat, 80]
def k0_off11 (k0_t2 : Fin k0_t2_loop.trips) : Fin 2 → Nat :=
  let c0_i32_155 : BitVec 32 := 0#32
  let c0_i32_49 : BitVec 32 := 0#32
  let c1_i32_51 : BitVec 32 := 1#32
  let arg13 : BitVec 32 := Scf.iv c0_i32_49 c1_i32_51 k0_t2
  let c1_i32_154 : BitVec 32 := 1#32
  let v231 : BitVec 32 := Scalar.muli arg13 c1_i32_154
  let v232 : BitVec 32 := Scalar.addi c0_i32_155 v231
  let v245 : Index := Scalar.indexCast v232
  let c96 : Index := 96#32
  ![v245.toNat, 96]
def k0_off12 (k0_t2 : Fin k0_t2_loop.trips) : Fin 2 → Nat :=
  let c0_i32_155 : BitVec 32 := 0#32
  let c0_i32_49 : BitVec 32 := 0#32
  let c1_i32_51 : BitVec 32 := 1#32
  let arg13 : BitVec 32 := Scf.iv c0_i32_49 c1_i32_51 k0_t2
  let c1_i32_154 : BitVec 32 := 1#32
  let v231 : BitVec 32 := Scalar.muli arg13 c1_i32_154
  let v232 : BitVec 32 := Scalar.addi c0_i32_155 v231
  let v247 : Index := Scalar.indexCast v232
  let c112 : Index := 112#32
  ![v247.toNat, 112]

def k0_chk1 (v251 : IVec S16 32) : Prop :=
  (∀ a x, ((![v251] : Fin 1 → IVec S16 32) a x).toNat < S10880.size a)
instance k0_chk1.dec : ∀ (v251 : IVec S16 32), Decidable (k0_chk1 v251) := fun v251 => decidable_of_iff' _ (Iff.of_eq (k0_chk1.eq_1 v251))
theorem k0_idx1_inb : ∀ (v251 : IVec S16 32) (k0_hw1 : k0_chk1 v251), ∀ a x, ((![v251] : Fin 1 → IVec S16 32) a x).toNat < S10880.size a := fun v251 k0_hw1 => k0_hw1

def k0_chk2 (v254 : IVec S16 32) : Prop :=
  (∀ a x, ((![v254] : Fin 1 → IVec S16 32) a x).toNat < S10880.size a)
instance k0_chk2.dec : ∀ (v254 : IVec S16 32), Decidable (k0_chk2 v254) := fun v254 => decidable_of_iff' _ (Iff.of_eq (k0_chk2.eq_1 v254))
theorem k0_idx2_inb : ∀ (v254 : IVec S16 32) (k0_hw2 : k0_chk2 v254), ∀ a x, ((![v254] : Fin 1 → IVec S16 32) a x).toNat < S10880.size a := fun v254 k0_hw2 => k0_hw2

def k0_chk3 (v257 : IVec S16 32) : Prop :=
  (∀ a x, ((![v257] : Fin 1 → IVec S16 32) a x).toNat < S10880.size a)
instance k0_chk3.dec : ∀ (v257 : IVec S16 32), Decidable (k0_chk3 v257) := fun v257 => decidable_of_iff' _ (Iff.of_eq (k0_chk3.eq_1 v257))
theorem k0_idx3_inb : ∀ (v257 : IVec S16 32) (k0_hw3 : k0_chk3 v257), ∀ a x, ((![v257] : Fin 1 → IVec S16 32) a x).toNat < S10880.size a := fun v257 k0_hw3 => k0_hw3

def k0_chk4 (v260 : IVec S16 32) : Prop :=
  (∀ a x, ((![v260] : Fin 1 → IVec S16 32) a x).toNat < S10880.size a)
instance k0_chk4.dec : ∀ (v260 : IVec S16 32), Decidable (k0_chk4 v260) := fun v260 => decidable_of_iff' _ (Iff.of_eq (k0_chk4.eq_1 v260))
theorem k0_idx4_inb : ∀ (v260 : IVec S16 32) (k0_hw4 : k0_chk4 v260), ∀ a x, ((![v260] : Fin 1 → IVec S16 32) a x).toNat < S10880.size a := fun v260 k0_hw4 => k0_hw4

def k0_chk5 (v263 : IVec S16 32) : Prop :=
  (∀ a x, ((![v263] : Fin 1 → IVec S16 32) a x).toNat < S10880.size a)
instance k0_chk5.dec : ∀ (v263 : IVec S16 32), Decidable (k0_chk5 v263) := fun v263 => decidable_of_iff' _ (Iff.of_eq (k0_chk5.eq_1 v263))
theorem k0_idx5_inb : ∀ (v263 : IVec S16 32) (k0_hw5 : k0_chk5 v263), ∀ a x, ((![v263] : Fin 1 → IVec S16 32) a x).toNat < S10880.size a := fun v263 k0_hw5 => k0_hw5

def k0_chk6 (v266 : IVec S16 32) : Prop :=
  (∀ a x, ((![v266] : Fin 1 → IVec S16 32) a x).toNat < S10880.size a)
instance k0_chk6.dec : ∀ (v266 : IVec S16 32), Decidable (k0_chk6 v266) := fun v266 => decidable_of_iff' _ (Iff.of_eq (k0_chk6.eq_1 v266))
theorem k0_idx6_inb : ∀ (v266 : IVec S16 32) (k0_hw6 : k0_chk6 v266), ∀ a x, ((![v266] : Fin 1 → IVec S16 32) a x).toNat < S10880.size a := fun v266 k0_hw6 => k0_hw6

def k0_chk7 (v269 : IVec S16 32) : Prop :=
  (∀ a x, ((![v269] : Fin 1 → IVec S16 32) a x).toNat < S10880.size a)
instance k0_chk7.dec : ∀ (v269 : IVec S16 32), Decidable (k0_chk7 v269) := fun v269 => decidable_of_iff' _ (Iff.of_eq (k0_chk7.eq_1 v269))
theorem k0_idx7_inb : ∀ (v269 : IVec S16 32) (k0_hw7 : k0_chk7 v269), ∀ a x, ((![v269] : Fin 1 → IVec S16 32) a x).toNat < S10880.size a := fun v269 k0_hw7 => k0_hw7

def k0_chk8 (v272 : IVec S16 32) : Prop :=
  (∀ a x, ((![v272] : Fin 1 → IVec S16 32) a x).toNat < S10880.size a)
instance k0_chk8.dec : ∀ (v272 : IVec S16 32), Decidable (k0_chk8 v272) := fun v272 => decidable_of_iff' _ (Iff.of_eq (k0_chk8.eq_1 v272))
theorem k0_idx8_inb : ∀ (v272 : IVec S16 32) (k0_hw8 : k0_chk8 v272), ∀ a x, ((![v272] : Fin 1 → IVec S16 32) a x).toNat < S10880.size a := fun v272 k0_hw8 => k0_hw8
def k0_off13 (i : grid0.Coords) (k0_t1 : Fin k0_t1_loop.trips) (c0_i32_23 : BitVec 32) (c0_i32_46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_53 : BitVec 32 := 4#32
  let v100 : BitVec 32 := Scalar.muli v1 c4_i32_53
  let c43520_i32_54 : BitVec 32 := 43520#32
  let v101 : BitVec 32 := Scalar.muli v100 c43520_i32_54
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let v54 : BitVec 32 := Scalar.addi v53 c0_i32_23
  let c4_i32_45 : BitVec 32 := 4#32
  let v94 : BitVec 32 := Scalar.muli v54 c4_i32_45
  let v95 : BitVec 32 := Scalar.addi v94 c0_i32_46
  let c10880_i32 : BitVec 32 := 10880#32
  let v102 : BitVec 32 := Scalar.muli v95 c10880_i32
  let v103 : BitVec 32 := Scalar.addi v101 v102
  ![v103.toNat]
def k0_cond3 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c4_i32_55 : BitVec 32 := 4#32
  let v106 : BitVec 32 := Scalar.muli v54 c4_i32_55
  let c1_i32_56 : BitVec 32 := 1#32
  let v107 : BitVec 32 := Scalar.addi v106 c1_i32_56
  let c2_i32_57 : BitVec 32 := 2#32
  let v108 : BitVec 1 := Scalar.cmpi .sge v107 c2_i32_57
  let v109 : BitVec 32 := Scalar.extui v108
  let c0_i32_58 : BitVec 32 := 0#32
  let v110 : BitVec 1 := Scalar.cmpi .ne v109 c0_i32_58
  v110

def k0_off14 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c43520_i32_156 : BitVec 32 := 43520#32
  let v233 : BitVec 32 := Scalar.muli v232 c43520_i32_156
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c4_i32_55 : BitVec 32 := 4#32
  let v106 : BitVec 32 := Scalar.muli v54 c4_i32_55
  let c1_i32_56 : BitVec 32 := 1#32
  let v107 : BitVec 32 := Scalar.addi v106 c1_i32_56
  let c2_i32_154 : BitVec 32 := 2#32
  let v231 : BitVec 32 := Scalar.subi v107 c2_i32_154
  let c10880_i32_157 : BitVec 32 := 10880#32
  let v234 : BitVec 32 := Scalar.muli v231 c10880_i32_157
  let v235 : BitVec 32 := Scalar.addi v233 v234
  ![v235.toNat]
@[reducible] def k0_t3_loop : Scf.Loop 32 :=
  let c0_i32_59 : BitVec 32 := 0#32
  let c85_i32_60 : BitVec 32 := 85#32
  let v111 : BitVec 32 := Scalar.addi c0_i32_59 c85_i32_60
  let c1_i32_61 : BitVec 32 := 1#32
  ⟨c0_i32_59, v111, c1_i32_61⟩
def k0_off15 (k0_t3 : Fin k0_t3_loop.trips) : Fin 2 → Nat :=
  let c0_i32_155 : BitVec 32 := 0#32
  let c0_i32_59 : BitVec 32 := 0#32
  let c1_i32_61 : BitVec 32 := 1#32
  let arg13 : BitVec 32 := Scf.iv c0_i32_59 c1_i32_61 k0_t3
  let c1_i32_154 : BitVec 32 := 1#32
  let v231 : BitVec 32 := Scalar.muli arg13 c1_i32_154
  let v232 : BitVec 32 := Scalar.addi c0_i32_155 v231
  let v233 : Index := Scalar.indexCast v232
  let c128 : Index := 128#32
  ![v233.toNat, 128]
def k0_off16 (k0_t3 : Fin k0_t3_loop.trips) : Fin 2 → Nat :=
  let c0_i32_155 : BitVec 32 := 0#32
  let c0_i32_59 : BitVec 32 := 0#32
  let c1_i32_61 : BitVec 32 := 1#32
  let arg13 : BitVec 32 := Scf.iv c0_i32_59 c1_i32_61 k0_t3
  let c1_i32_154 : BitVec 32 := 1#32
  let v231 : BitVec 32 := Scalar.muli arg13 c1_i32_154
  let v232 : BitVec 32 := Scalar.addi c0_i32_155 v231
  let v235 : Index := Scalar.indexCast v232
  let c144 : Index := 144#32
  ![v235.toNat, 144]
def k0_off17 (k0_t3 : Fin k0_t3_loop.trips) : Fin 2 → Nat :=
  let c0_i32_155 : BitVec 32 := 0#32
  let c0_i32_59 : BitVec 32 := 0#32
  let c1_i32_61 : BitVec 32 := 1#32
  let arg13 : BitVec 32 := Scf.iv c0_i32_59 c1_i32_61 k0_t3
  let c1_i32_154 : BitVec 32 := 1#32
  let v231 : BitVec 32 := Scalar.muli arg13 c1_i32_154
  let v232 : BitVec 32 := Scalar.addi c0_i32_155 v231
  let v237 : Index := Scalar.indexCast v232
  let c160 : Index := 160#32
  ![v237.toNat, 160]
def k0_off18 (k0_t3 : Fin k0_t3_loop.trips) : Fin 2 → Nat :=
  let c0_i32_155 : BitVec 32 := 0#32
  let c0_i32_59 : BitVec 32 := 0#32
  let c1_i32_61 : BitVec 32 := 1#32
  let arg13 : BitVec 32 := Scf.iv c0_i32_59 c1_i32_61 k0_t3
  let c1_i32_154 : BitVec 32 := 1#32
  let v231 : BitVec 32 := Scalar.muli arg13 c1_i32_154
  let v232 : BitVec 32 := Scalar.addi c0_i32_155 v231
  let v239 : Index := Scalar.indexCast v232
  let c176 : Index := 176#32
  ![v239.toNat, 176]
def k0_off19 (k0_t3 : Fin k0_t3_loop.trips) : Fin 2 → Nat :=
  let c0_i32_155 : BitVec 32 := 0#32
  let c0_i32_59 : BitVec 32 := 0#32
  let c1_i32_61 : BitVec 32 := 1#32
  let arg13 : BitVec 32 := Scf.iv c0_i32_59 c1_i32_61 k0_t3
  let c1_i32_154 : BitVec 32 := 1#32
  let v231 : BitVec 32 := Scalar.muli arg13 c1_i32_154
  let v232 : BitVec 32 := Scalar.addi c0_i32_155 v231
  let v241 : Index := Scalar.indexCast v232
  let c192 : Index := 192#32
  ![v241.toNat, 192]
def k0_off20 (k0_t3 : Fin k0_t3_loop.trips) : Fin 2 → Nat :=
  let c0_i32_155 : BitVec 32 := 0#32
  let c0_i32_59 : BitVec 32 := 0#32
  let c1_i32_61 : BitVec 32 := 1#32
  let arg13 : BitVec 32 := Scf.iv c0_i32_59 c1_i32_61 k0_t3
  let c1_i32_154 : BitVec 32 := 1#32
  let v231 : BitVec 32 := Scalar.muli arg13 c1_i32_154
  let v232 : BitVec 32 := Scalar.addi c0_i32_155 v231
  let v243 : Index := Scalar.indexCast v232
  let c208 : Index := 208#32
  ![v243.toNat, 208]
def k0_off21 (k0_t3 : Fin k0_t3_loop.trips) : Fin 2 → Nat :=
  let c0_i32_155 : BitVec 32 := 0#32
  let c0_i32_59 : BitVec 32 := 0#32
  let c1_i32_61 : BitVec 32 := 1#32
  let arg13 : BitVec 32 := Scf.iv c0_i32_59 c1_i32_61 k0_t3
  let c1_i32_154 : BitVec 32 := 1#32
  let v231 : BitVec 32 := Scalar.muli arg13 c1_i32_154
  let v232 : BitVec 32 := Scalar.addi c0_i32_155 v231
  let v245 : Index := Scalar.indexCast v232
  let c224 : Index := 224#32
  ![v245.toNat, 224]
def k0_off22 (k0_t3 : Fin k0_t3_loop.trips) : Fin 2 → Nat :=
  let c0_i32_155 : BitVec 32 := 0#32
  let c0_i32_59 : BitVec 32 := 0#32
  let c1_i32_61 : BitVec 32 := 1#32
  let arg13 : BitVec 32 := Scf.iv c0_i32_59 c1_i32_61 k0_t3
  let c1_i32_154 : BitVec 32 := 1#32
  let v231 : BitVec 32 := Scalar.muli arg13 c1_i32_154
  let v232 : BitVec 32 := Scalar.addi c0_i32_155 v231
  let v247 : Index := Scalar.indexCast v232
  let c240 : Index := 240#32
  ![v247.toNat, 240]

def k0_chk9 (v251 : IVec S16 32) : Prop :=
  (∀ a x, ((![v251] : Fin 1 → IVec S16 32) a x).toNat < S10880.size a)
instance k0_chk9.dec : ∀ (v251 : IVec S16 32), Decidable (k0_chk9 v251) := fun v251 => decidable_of_iff' _ (Iff.of_eq (k0_chk9.eq_1 v251))
theorem k0_idx9_inb : ∀ (v251 : IVec S16 32) (k0_hw9 : k0_chk9 v251), ∀ a x, ((![v251] : Fin 1 → IVec S16 32) a x).toNat < S10880.size a := fun v251 k0_hw9 => k0_hw9

def k0_chk10 (v254 : IVec S16 32) : Prop :=
  (∀ a x, ((![v254] : Fin 1 → IVec S16 32) a x).toNat < S10880.size a)
instance k0_chk10.dec : ∀ (v254 : IVec S16 32), Decidable (k0_chk10 v254) := fun v254 => decidable_of_iff' _ (Iff.of_eq (k0_chk10.eq_1 v254))
theorem k0_idx10_inb : ∀ (v254 : IVec S16 32) (k0_hw10 : k0_chk10 v254), ∀ a x, ((![v254] : Fin 1 → IVec S16 32) a x).toNat < S10880.size a := fun v254 k0_hw10 => k0_hw10

def k0_chk11 (v257 : IVec S16 32) : Prop :=
  (∀ a x, ((![v257] : Fin 1 → IVec S16 32) a x).toNat < S10880.size a)
instance k0_chk11.dec : ∀ (v257 : IVec S16 32), Decidable (k0_chk11 v257) := fun v257 => decidable_of_iff' _ (Iff.of_eq (k0_chk11.eq_1 v257))
theorem k0_idx11_inb : ∀ (v257 : IVec S16 32) (k0_hw11 : k0_chk11 v257), ∀ a x, ((![v257] : Fin 1 → IVec S16 32) a x).toNat < S10880.size a := fun v257 k0_hw11 => k0_hw11

def k0_chk12 (v260 : IVec S16 32) : Prop :=
  (∀ a x, ((![v260] : Fin 1 → IVec S16 32) a x).toNat < S10880.size a)
instance k0_chk12.dec : ∀ (v260 : IVec S16 32), Decidable (k0_chk12 v260) := fun v260 => decidable_of_iff' _ (Iff.of_eq (k0_chk12.eq_1 v260))
theorem k0_idx12_inb : ∀ (v260 : IVec S16 32) (k0_hw12 : k0_chk12 v260), ∀ a x, ((![v260] : Fin 1 → IVec S16 32) a x).toNat < S10880.size a := fun v260 k0_hw12 => k0_hw12

def k0_chk13 (v263 : IVec S16 32) : Prop :=
  (∀ a x, ((![v263] : Fin 1 → IVec S16 32) a x).toNat < S10880.size a)
instance k0_chk13.dec : ∀ (v263 : IVec S16 32), Decidable (k0_chk13 v263) := fun v263 => decidable_of_iff' _ (Iff.of_eq (k0_chk13.eq_1 v263))
theorem k0_idx13_inb : ∀ (v263 : IVec S16 32) (k0_hw13 : k0_chk13 v263), ∀ a x, ((![v263] : Fin 1 → IVec S16 32) a x).toNat < S10880.size a := fun v263 k0_hw13 => k0_hw13

def k0_chk14 (v266 : IVec S16 32) : Prop :=
  (∀ a x, ((![v266] : Fin 1 → IVec S16 32) a x).toNat < S10880.size a)
instance k0_chk14.dec : ∀ (v266 : IVec S16 32), Decidable (k0_chk14 v266) := fun v266 => decidable_of_iff' _ (Iff.of_eq (k0_chk14.eq_1 v266))
theorem k0_idx14_inb : ∀ (v266 : IVec S16 32) (k0_hw14 : k0_chk14 v266), ∀ a x, ((![v266] : Fin 1 → IVec S16 32) a x).toNat < S10880.size a := fun v266 k0_hw14 => k0_hw14

def k0_chk15 (v269 : IVec S16 32) : Prop :=
  (∀ a x, ((![v269] : Fin 1 → IVec S16 32) a x).toNat < S10880.size a)
instance k0_chk15.dec : ∀ (v269 : IVec S16 32), Decidable (k0_chk15 v269) := fun v269 => decidable_of_iff' _ (Iff.of_eq (k0_chk15.eq_1 v269))
theorem k0_idx15_inb : ∀ (v269 : IVec S16 32) (k0_hw15 : k0_chk15 v269), ∀ a x, ((![v269] : Fin 1 → IVec S16 32) a x).toNat < S10880.size a := fun v269 k0_hw15 => k0_hw15

def k0_chk16 (v272 : IVec S16 32) : Prop :=
  (∀ a x, ((![v272] : Fin 1 → IVec S16 32) a x).toNat < S10880.size a)
instance k0_chk16.dec : ∀ (v272 : IVec S16 32), Decidable (k0_chk16 v272) := fun v272 => decidable_of_iff' _ (Iff.of_eq (k0_chk16.eq_1 v272))
theorem k0_idx16_inb : ∀ (v272 : IVec S16 32) (k0_hw16 : k0_chk16 v272), ∀ a x, ((![v272] : Fin 1 → IVec S16 32) a x).toNat < S10880.size a := fun v272 k0_hw16 => k0_hw16
def k0_cond4 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c4_i32_66 : BitVec 32 := 4#32
  let v118 : BitVec 32 := Scalar.muli v54 c4_i32_66
  let c2_i32_67 : BitVec 32 := 2#32
  let v119 : BitVec 32 := Scalar.addi v118 c2_i32_67
  let c2_i32_68 : BitVec 32 := 2#32
  let v120 : BitVec 1 := Scalar.cmpi .sge v119 c2_i32_68
  let v121 : BitVec 32 := Scalar.extui v120
  let c0_i32_69 : BitVec 32 := 0#32
  let v122 : BitVec 1 := Scalar.cmpi .ne v121 c0_i32_69
  v122

def k0_off23 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c43520_i32_156 : BitVec 32 := 43520#32
  let v233 : BitVec 32 := Scalar.muli v232 c43520_i32_156
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c4_i32_66 : BitVec 32 := 4#32
  let v118 : BitVec 32 := Scalar.muli v54 c4_i32_66
  let c2_i32_67 : BitVec 32 := 2#32
  let v119 : BitVec 32 := Scalar.addi v118 c2_i32_67
  let c2_i32_154 : BitVec 32 := 2#32
  let v231 : BitVec 32 := Scalar.subi v119 c2_i32_154
  let c10880_i32_157 : BitVec 32 := 10880#32
  let v234 : BitVec 32 := Scalar.muli v231 c10880_i32_157
  let v235 : BitVec 32 := Scalar.addi v233 v234
  ![v235.toNat]
@[reducible] def k0_t4_loop : Scf.Loop 32 :=
  let c0_i32_70 : BitVec 32 := 0#32
  let c85_i32_71 : BitVec 32 := 85#32
  let v123 : BitVec 32 := Scalar.addi c0_i32_70 c85_i32_71
  let c1_i32_72 : BitVec 32 := 1#32
  ⟨c0_i32_70, v123, c1_i32_72⟩
def k0_off24 (k0_t4 : Fin k0_t4_loop.trips) : Fin 2 → Nat :=
  let c0_i32_155 : BitVec 32 := 0#32
  let c0_i32_70 : BitVec 32 := 0#32
  let c1_i32_72 : BitVec 32 := 1#32
  let arg13 : BitVec 32 := Scf.iv c0_i32_70 c1_i32_72 k0_t4
  let c1_i32_154 : BitVec 32 := 1#32
  let v231 : BitVec 32 := Scalar.muli arg13 c1_i32_154
  let v232 : BitVec 32 := Scalar.addi c0_i32_155 v231
  let v233 : Index := Scalar.indexCast v232
  let c256 : Index := 256#32
  ![v233.toNat, 256]
def k0_off25 (k0_t4 : Fin k0_t4_loop.trips) : Fin 2 → Nat :=
  let c0_i32_155 : BitVec 32 := 0#32
  let c0_i32_70 : BitVec 32 := 0#32
  let c1_i32_72 : BitVec 32 := 1#32
  let arg13 : BitVec 32 := Scf.iv c0_i32_70 c1_i32_72 k0_t4
  let c1_i32_154 : BitVec 32 := 1#32
  let v231 : BitVec 32 := Scalar.muli arg13 c1_i32_154
  let v232 : BitVec 32 := Scalar.addi c0_i32_155 v231
  let v235 : Index := Scalar.indexCast v232
  let c272 : Index := 272#32
  ![v235.toNat, 272]
def k0_off26 (k0_t4 : Fin k0_t4_loop.trips) : Fin 2 → Nat :=
  let c0_i32_155 : BitVec 32 := 0#32
  let c0_i32_70 : BitVec 32 := 0#32
  let c1_i32_72 : BitVec 32 := 1#32
  let arg13 : BitVec 32 := Scf.iv c0_i32_70 c1_i32_72 k0_t4
  let c1_i32_154 : BitVec 32 := 1#32
  let v231 : BitVec 32 := Scalar.muli arg13 c1_i32_154
  let v232 : BitVec 32 := Scalar.addi c0_i32_155 v231
  let v237 : Index := Scalar.indexCast v232
  let c288 : Index := 288#32
  ![v237.toNat, 288]
def k0_off27 (k0_t4 : Fin k0_t4_loop.trips) : Fin 2 → Nat :=
  let c0_i32_155 : BitVec 32 := 0#32
  let c0_i32_70 : BitVec 32 := 0#32
  let c1_i32_72 : BitVec 32 := 1#32
  let arg13 : BitVec 32 := Scf.iv c0_i32_70 c1_i32_72 k0_t4
  let c1_i32_154 : BitVec 32 := 1#32
  let v231 : BitVec 32 := Scalar.muli arg13 c1_i32_154
  let v232 : BitVec 32 := Scalar.addi c0_i32_155 v231
  let v239 : Index := Scalar.indexCast v232
  let c304 : Index := 304#32
  ![v239.toNat, 304]
def k0_off28 (k0_t4 : Fin k0_t4_loop.trips) : Fin 2 → Nat :=
  let c0_i32_155 : BitVec 32 := 0#32
  let c0_i32_70 : BitVec 32 := 0#32
  let c1_i32_72 : BitVec 32 := 1#32
  let arg13 : BitVec 32 := Scf.iv c0_i32_70 c1_i32_72 k0_t4
  let c1_i32_154 : BitVec 32 := 1#32
  let v231 : BitVec 32 := Scalar.muli arg13 c1_i32_154
  let v232 : BitVec 32 := Scalar.addi c0_i32_155 v231
  let v241 : Index := Scalar.indexCast v232
  let c320 : Index := 320#32
  ![v241.toNat, 320]
def k0_off29 (k0_t4 : Fin k0_t4_loop.trips) : Fin 2 → Nat :=
  let c0_i32_155 : BitVec 32 := 0#32
  let c0_i32_70 : BitVec 32 := 0#32
  let c1_i32_72 : BitVec 32 := 1#32
  let arg13 : BitVec 32 := Scf.iv c0_i32_70 c1_i32_72 k0_t4
  let c1_i32_154 : BitVec 32 := 1#32
  let v231 : BitVec 32 := Scalar.muli arg13 c1_i32_154
  let v232 : BitVec 32 := Scalar.addi c0_i32_155 v231
  let v243 : Index := Scalar.indexCast v232
  let c336 : Index := 336#32
  ![v243.toNat, 336]
def k0_off30 (k0_t4 : Fin k0_t4_loop.trips) : Fin 2 → Nat :=
  let c0_i32_155 : BitVec 32 := 0#32
  let c0_i32_70 : BitVec 32 := 0#32
  let c1_i32_72 : BitVec 32 := 1#32
  let arg13 : BitVec 32 := Scf.iv c0_i32_70 c1_i32_72 k0_t4
  let c1_i32_154 : BitVec 32 := 1#32
  let v231 : BitVec 32 := Scalar.muli arg13 c1_i32_154
  let v232 : BitVec 32 := Scalar.addi c0_i32_155 v231
  let v245 : Index := Scalar.indexCast v232
  let c352 : Index := 352#32
  ![v245.toNat, 352]
def k0_off31 (k0_t4 : Fin k0_t4_loop.trips) : Fin 2 → Nat :=
  let c0_i32_155 : BitVec 32 := 0#32
  let c0_i32_70 : BitVec 32 := 0#32
  let c1_i32_72 : BitVec 32 := 1#32
  let arg13 : BitVec 32 := Scf.iv c0_i32_70 c1_i32_72 k0_t4
  let c1_i32_154 : BitVec 32 := 1#32
  let v231 : BitVec 32 := Scalar.muli arg13 c1_i32_154
  let v232 : BitVec 32 := Scalar.addi c0_i32_155 v231
  let v247 : Index := Scalar.indexCast v232
  let c368 : Index := 368#32
  ![v247.toNat, 368]

def k0_chk17 (v251 : IVec S16 32) : Prop :=
  (∀ a x, ((![v251] : Fin 1 → IVec S16 32) a x).toNat < S10880.size a)
instance k0_chk17.dec : ∀ (v251 : IVec S16 32), Decidable (k0_chk17 v251) := fun v251 => decidable_of_iff' _ (Iff.of_eq (k0_chk17.eq_1 v251))
theorem k0_idx17_inb : ∀ (v251 : IVec S16 32) (k0_hw17 : k0_chk17 v251), ∀ a x, ((![v251] : Fin 1 → IVec S16 32) a x).toNat < S10880.size a := fun v251 k0_hw17 => k0_hw17

def k0_chk18 (v254 : IVec S16 32) : Prop :=
  (∀ a x, ((![v254] : Fin 1 → IVec S16 32) a x).toNat < S10880.size a)
instance k0_chk18.dec : ∀ (v254 : IVec S16 32), Decidable (k0_chk18 v254) := fun v254 => decidable_of_iff' _ (Iff.of_eq (k0_chk18.eq_1 v254))
theorem k0_idx18_inb : ∀ (v254 : IVec S16 32) (k0_hw18 : k0_chk18 v254), ∀ a x, ((![v254] : Fin 1 → IVec S16 32) a x).toNat < S10880.size a := fun v254 k0_hw18 => k0_hw18

def k0_chk19 (v257 : IVec S16 32) : Prop :=
  (∀ a x, ((![v257] : Fin 1 → IVec S16 32) a x).toNat < S10880.size a)
instance k0_chk19.dec : ∀ (v257 : IVec S16 32), Decidable (k0_chk19 v257) := fun v257 => decidable_of_iff' _ (Iff.of_eq (k0_chk19.eq_1 v257))
theorem k0_idx19_inb : ∀ (v257 : IVec S16 32) (k0_hw19 : k0_chk19 v257), ∀ a x, ((![v257] : Fin 1 → IVec S16 32) a x).toNat < S10880.size a := fun v257 k0_hw19 => k0_hw19

def k0_chk20 (v260 : IVec S16 32) : Prop :=
  (∀ a x, ((![v260] : Fin 1 → IVec S16 32) a x).toNat < S10880.size a)
instance k0_chk20.dec : ∀ (v260 : IVec S16 32), Decidable (k0_chk20 v260) := fun v260 => decidable_of_iff' _ (Iff.of_eq (k0_chk20.eq_1 v260))
theorem k0_idx20_inb : ∀ (v260 : IVec S16 32) (k0_hw20 : k0_chk20 v260), ∀ a x, ((![v260] : Fin 1 → IVec S16 32) a x).toNat < S10880.size a := fun v260 k0_hw20 => k0_hw20

def k0_chk21 (v263 : IVec S16 32) : Prop :=
  (∀ a x, ((![v263] : Fin 1 → IVec S16 32) a x).toNat < S10880.size a)
instance k0_chk21.dec : ∀ (v263 : IVec S16 32), Decidable (k0_chk21 v263) := fun v263 => decidable_of_iff' _ (Iff.of_eq (k0_chk21.eq_1 v263))
theorem k0_idx21_inb : ∀ (v263 : IVec S16 32) (k0_hw21 : k0_chk21 v263), ∀ a x, ((![v263] : Fin 1 → IVec S16 32) a x).toNat < S10880.size a := fun v263 k0_hw21 => k0_hw21

def k0_chk22 (v266 : IVec S16 32) : Prop :=
  (∀ a x, ((![v266] : Fin 1 → IVec S16 32) a x).toNat < S10880.size a)
instance k0_chk22.dec : ∀ (v266 : IVec S16 32), Decidable (k0_chk22 v266) := fun v266 => decidable_of_iff' _ (Iff.of_eq (k0_chk22.eq_1 v266))
theorem k0_idx22_inb : ∀ (v266 : IVec S16 32) (k0_hw22 : k0_chk22 v266), ∀ a x, ((![v266] : Fin 1 → IVec S16 32) a x).toNat < S10880.size a := fun v266 k0_hw22 => k0_hw22

def k0_chk23 (v269 : IVec S16 32) : Prop :=
  (∀ a x, ((![v269] : Fin 1 → IVec S16 32) a x).toNat < S10880.size a)
instance k0_chk23.dec : ∀ (v269 : IVec S16 32), Decidable (k0_chk23 v269) := fun v269 => decidable_of_iff' _ (Iff.of_eq (k0_chk23.eq_1 v269))
theorem k0_idx23_inb : ∀ (v269 : IVec S16 32) (k0_hw23 : k0_chk23 v269), ∀ a x, ((![v269] : Fin 1 → IVec S16 32) a x).toNat < S10880.size a := fun v269 k0_hw23 => k0_hw23

def k0_chk24 (v272 : IVec S16 32) : Prop :=
  (∀ a x, ((![v272] : Fin 1 → IVec S16 32) a x).toNat < S10880.size a)
instance k0_chk24.dec : ∀ (v272 : IVec S16 32), Decidable (k0_chk24 v272) := fun v272 => decidable_of_iff' _ (Iff.of_eq (k0_chk24.eq_1 v272))
theorem k0_idx24_inb : ∀ (v272 : IVec S16 32) (k0_hw24 : k0_chk24 v272), ∀ a x, ((![v272] : Fin 1 → IVec S16 32) a x).toNat < S10880.size a := fun v272 k0_hw24 => k0_hw24
def k0_cond5 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c4_i32_77 : BitVec 32 := 4#32
  let v130 : BitVec 32 := Scalar.muli v54 c4_i32_77
  let c3_i32 : BitVec 32 := 3#32
  let v131 : BitVec 32 := Scalar.addi v130 c3_i32
  let c2_i32_78 : BitVec 32 := 2#32
  let v132 : BitVec 1 := Scalar.cmpi .sge v131 c2_i32_78
  let v133 : BitVec 32 := Scalar.extui v132
  let c0_i32_79 : BitVec 32 := 0#32
  let v134 : BitVec 1 := Scalar.cmpi .ne v133 c0_i32_79
  v134

def k0_off32 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c43520_i32_156 : BitVec 32 := 43520#32
  let v233 : BitVec 32 := Scalar.muli v232 c43520_i32_156
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_22 : BitVec 32 := 2#32
  let v53 : BitVec 32 := Scalar.muli v52 c2_i32_22
  let c0_i32_23 : BitVec 32 := 0#32
  let v54 : BitVec 32 := Scalar.addi v53 c0_i32_23
  let c4_i32_77 : BitVec 32 := 4#32
  let v130 : BitVec 32 := Scalar.muli v54 c4_i32_77
  let c3_i32 : BitVec 32 := 3#32
  let v131 : BitVec 32 := Scalar.addi v130 c3_i32
  let c2_i32_154 : BitVec 32 := 2#32
  let v231 : BitVec 32 := Scalar.subi v131 c2_i32_154
  let c10880_i32_157 : BitVec 32 := 10880#32
  let v234 : BitVec 32 := Scalar.muli v231 c10880_i32_157
  let v235 : BitVec 32 := Scalar.addi v233 v234
  ![v235.toNat]
@[reducible] def k0_t5_loop : Scf.Loop 32 :=
  let c0_i32_80 : BitVec 32 := 0#32
  let c85_i32_81 : BitVec 32 := 85#32
  let v135 : BitVec 32 := Scalar.addi c0_i32_80 c85_i32_81
  let c1_i32_82 : BitVec 32 := 1#32
  ⟨c0_i32_80, v135, c1_i32_82⟩
def k0_off33 (k0_t5 : Fin k0_t5_loop.trips) : Fin 2 → Nat :=
  let c0_i32_155 : BitVec 32 := 0#32
  let c0_i32_80 : BitVec 32 := 0#32
  let c1_i32_82 : BitVec 32 := 1#32
  let arg13 : BitVec 32 := Scf.iv c0_i32_80 c1_i32_82 k0_t5
  let c1_i32_154 : BitVec 32 := 1#32
  let v231 : BitVec 32 := Scalar.muli arg13 c1_i32_154
  let v232 : BitVec 32 := Scalar.addi c0_i32_155 v231
  let v233 : Index := Scalar.indexCast v232
  let c384 : Index := 384#32
  ![v233.toNat, 384]
def k0_off34 (k0_t5 : Fin k0_t5_loop.trips) : Fin 2 → Nat :=
  let c0_i32_155 : BitVec 32 := 0#32
  let c0_i32_80 : BitVec 32 := 0#32
  let c1_i32_82 : BitVec 32 := 1#32
  let arg13 : BitVec 32 := Scf.iv c0_i32_80 c1_i32_82 k0_t5
  let c1_i32_154 : BitVec 32 := 1#32
  let v231 : BitVec 32 := Scalar.muli arg13 c1_i32_154
  let v232 : BitVec 32 := Scalar.addi c0_i32_155 v231
  let v235 : Index := Scalar.indexCast v232
  let c400 : Index := 400#32
  ![v235.toNat, 400]
def k0_off35 (k0_t5 : Fin k0_t5_loop.trips) : Fin 2 → Nat :=
  let c0_i32_155 : BitVec 32 := 0#32
  let c0_i32_80 : BitVec 32 := 0#32
  let c1_i32_82 : BitVec 32 := 1#32
  let arg13 : BitVec 32 := Scf.iv c0_i32_80 c1_i32_82 k0_t5
  let c1_i32_154 : BitVec 32 := 1#32
  let v231 : BitVec 32 := Scalar.muli arg13 c1_i32_154
  let v232 : BitVec 32 := Scalar.addi c0_i32_155 v231
  let v237 : Index := Scalar.indexCast v232
  let c416 : Index := 416#32
  ![v237.toNat, 416]
def k0_off36 (k0_t5 : Fin k0_t5_loop.trips) : Fin 2 → Nat :=
  let c0_i32_155 : BitVec 32 := 0#32
  let c0_i32_80 : BitVec 32 := 0#32
  let c1_i32_82 : BitVec 32 := 1#32
  let arg13 : BitVec 32 := Scf.iv c0_i32_80 c1_i32_82 k0_t5
  let c1_i32_154 : BitVec 32 := 1#32
  let v231 : BitVec 32 := Scalar.muli arg13 c1_i32_154
  let v232 : BitVec 32 := Scalar.addi c0_i32_155 v231
  let v239 : Index := Scalar.indexCast v232
  let c432 : Index := 432#32
  ![v239.toNat, 432]
def k0_off37 (k0_t5 : Fin k0_t5_loop.trips) : Fin 2 → Nat :=
  let c0_i32_155 : BitVec 32 := 0#32
  let c0_i32_80 : BitVec 32 := 0#32
  let c1_i32_82 : BitVec 32 := 1#32
  let arg13 : BitVec 32 := Scf.iv c0_i32_80 c1_i32_82 k0_t5
  let c1_i32_154 : BitVec 32 := 1#32
  let v231 : BitVec 32 := Scalar.muli arg13 c1_i32_154
  let v232 : BitVec 32 := Scalar.addi c0_i32_155 v231
  let v241 : Index := Scalar.indexCast v232
  let c448 : Index := 448#32
  ![v241.toNat, 448]
def k0_off38 (k0_t5 : Fin k0_t5_loop.trips) : Fin 2 → Nat :=
  let c0_i32_155 : BitVec 32 := 0#32
  let c0_i32_80 : BitVec 32 := 0#32
  let c1_i32_82 : BitVec 32 := 1#32
  let arg13 : BitVec 32 := Scf.iv c0_i32_80 c1_i32_82 k0_t5
  let c1_i32_154 : BitVec 32 := 1#32
  let v231 : BitVec 32 := Scalar.muli arg13 c1_i32_154
  let v232 : BitVec 32 := Scalar.addi c0_i32_155 v231
  let v243 : Index := Scalar.indexCast v232
  let c464 : Index := 464#32
  ![v243.toNat, 464]
def k0_off39 (k0_t5 : Fin k0_t5_loop.trips) : Fin 2 → Nat :=
  let c0_i32_155 : BitVec 32 := 0#32
  let c0_i32_80 : BitVec 32 := 0#32
  let c1_i32_82 : BitVec 32 := 1#32
  let arg13 : BitVec 32 := Scf.iv c0_i32_80 c1_i32_82 k0_t5
  let c1_i32_154 : BitVec 32 := 1#32
  let v231 : BitVec 32 := Scalar.muli arg13 c1_i32_154
  let v232 : BitVec 32 := Scalar.addi c0_i32_155 v231
  let v245 : Index := Scalar.indexCast v232
  let c480 : Index := 480#32
  ![v245.toNat, 480]
def k0_off40 (k0_t5 : Fin k0_t5_loop.trips) : Fin 2 → Nat :=
  let c0_i32_155 : BitVec 32 := 0#32
  let c0_i32_80 : BitVec 32 := 0#32
  let c1_i32_82 : BitVec 32 := 1#32
  let arg13 : BitVec 32 := Scf.iv c0_i32_80 c1_i32_82 k0_t5
  let c1_i32_154 : BitVec 32 := 1#32
  let v231 : BitVec 32 := Scalar.muli arg13 c1_i32_154
  let v232 : BitVec 32 := Scalar.addi c0_i32_155 v231
  let v247 : Index := Scalar.indexCast v232
  let c496 : Index := 496#32
  ![v247.toNat, 496]

def k0_chk25 (v251 : IVec S16 32) : Prop :=
  (∀ a x, ((![v251] : Fin 1 → IVec S16 32) a x).toNat < S10880.size a)
instance k0_chk25.dec : ∀ (v251 : IVec S16 32), Decidable (k0_chk25 v251) := fun v251 => decidable_of_iff' _ (Iff.of_eq (k0_chk25.eq_1 v251))
theorem k0_idx25_inb : ∀ (v251 : IVec S16 32) (k0_hw25 : k0_chk25 v251), ∀ a x, ((![v251] : Fin 1 → IVec S16 32) a x).toNat < S10880.size a := fun v251 k0_hw25 => k0_hw25

def k0_chk26 (v254 : IVec S16 32) : Prop :=
  (∀ a x, ((![v254] : Fin 1 → IVec S16 32) a x).toNat < S10880.size a)
instance k0_chk26.dec : ∀ (v254 : IVec S16 32), Decidable (k0_chk26 v254) := fun v254 => decidable_of_iff' _ (Iff.of_eq (k0_chk26.eq_1 v254))
theorem k0_idx26_inb : ∀ (v254 : IVec S16 32) (k0_hw26 : k0_chk26 v254), ∀ a x, ((![v254] : Fin 1 → IVec S16 32) a x).toNat < S10880.size a := fun v254 k0_hw26 => k0_hw26

def k0_chk27 (v257 : IVec S16 32) : Prop :=
  (∀ a x, ((![v257] : Fin 1 → IVec S16 32) a x).toNat < S10880.size a)
instance k0_chk27.dec : ∀ (v257 : IVec S16 32), Decidable (k0_chk27 v257) := fun v257 => decidable_of_iff' _ (Iff.of_eq (k0_chk27.eq_1 v257))
theorem k0_idx27_inb : ∀ (v257 : IVec S16 32) (k0_hw27 : k0_chk27 v257), ∀ a x, ((![v257] : Fin 1 → IVec S16 32) a x).toNat < S10880.size a := fun v257 k0_hw27 => k0_hw27

def k0_chk28 (v260 : IVec S16 32) : Prop :=
  (∀ a x, ((![v260] : Fin 1 → IVec S16 32) a x).toNat < S10880.size a)
instance k0_chk28.dec : ∀ (v260 : IVec S16 32), Decidable (k0_chk28 v260) := fun v260 => decidable_of_iff' _ (Iff.of_eq (k0_chk28.eq_1 v260))
theorem k0_idx28_inb : ∀ (v260 : IVec S16 32) (k0_hw28 : k0_chk28 v260), ∀ a x, ((![v260] : Fin 1 → IVec S16 32) a x).toNat < S10880.size a := fun v260 k0_hw28 => k0_hw28

def k0_chk29 (v263 : IVec S16 32) : Prop :=
  (∀ a x, ((![v263] : Fin 1 → IVec S16 32) a x).toNat < S10880.size a)
instance k0_chk29.dec : ∀ (v263 : IVec S16 32), Decidable (k0_chk29 v263) := fun v263 => decidable_of_iff' _ (Iff.of_eq (k0_chk29.eq_1 v263))
theorem k0_idx29_inb : ∀ (v263 : IVec S16 32) (k0_hw29 : k0_chk29 v263), ∀ a x, ((![v263] : Fin 1 → IVec S16 32) a x).toNat < S10880.size a := fun v263 k0_hw29 => k0_hw29

def k0_chk30 (v266 : IVec S16 32) : Prop :=
  (∀ a x, ((![v266] : Fin 1 → IVec S16 32) a x).toNat < S10880.size a)
instance k0_chk30.dec : ∀ (v266 : IVec S16 32), Decidable (k0_chk30 v266) := fun v266 => decidable_of_iff' _ (Iff.of_eq (k0_chk30.eq_1 v266))
theorem k0_idx30_inb : ∀ (v266 : IVec S16 32) (k0_hw30 : k0_chk30 v266), ∀ a x, ((![v266] : Fin 1 → IVec S16 32) a x).toNat < S10880.size a := fun v266 k0_hw30 => k0_hw30

def k0_chk31 (v269 : IVec S16 32) : Prop :=
  (∀ a x, ((![v269] : Fin 1 → IVec S16 32) a x).toNat < S10880.size a)
instance k0_chk31.dec : ∀ (v269 : IVec S16 32), Decidable (k0_chk31 v269) := fun v269 => decidable_of_iff' _ (Iff.of_eq (k0_chk31.eq_1 v269))
theorem k0_idx31_inb : ∀ (v269 : IVec S16 32) (k0_hw31 : k0_chk31 v269), ∀ a x, ((![v269] : Fin 1 → IVec S16 32) a x).toNat < S10880.size a := fun v269 k0_hw31 => k0_hw31

def k0_chk32 (v272 : IVec S16 32) : Prop :=
  (∀ a x, ((![v272] : Fin 1 → IVec S16 32) a x).toNat < S10880.size a)
instance k0_chk32.dec : ∀ (v272 : IVec S16 32), Decidable (k0_chk32 v272) := fun v272 => decidable_of_iff' _ (Iff.of_eq (k0_chk32.eq_1 v272))
theorem k0_idx32_inb : ∀ (v272 : IVec S16 32) (k0_hw32 : k0_chk32 v272), ∀ a x, ((![v272] : Fin 1 → IVec S16 32) a x).toNat < S10880.size a := fun v272 k0_hw32 => k0_hw32
def k0_cond6 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c1_i32_89 : BitVec 32 := 1#32
  let v144 : BitVec 32 := Scalar.addi v143 c1_i32_89
  let c4_i32_90 : BitVec 32 := 4#32
  let v145 : BitVec 1 := Scalar.cmpi .slt v144 c4_i32_90
  let v146 : BitVec 32 := Scalar.extui v145
  let c0_i32_91 : BitVec 32 := 0#32
  let v147 : BitVec 1 := Scalar.cmpi .ne v146 c0_i32_91
  v147

def k0_off41 (i : grid0.Coords) (k0_t1 : Fin k0_t1_loop.trips) : Fin 3 → Nat :=
  let c32_i32_163 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c1_i32_154 : BitVec 32 := 1#32
  let v231 : BitVec 32 := Scalar.addi v143 c1_i32_154
  let v233 : BitVec 32 := Scalar.addi v232 v231
  let c0_i32_157 : BitVec 32 := 0#32
  let v235 : BitVec 1 := Scalar.cmpi .sgt v233 c0_i32_157
  let v236 : BitVec 32 := Scalar.extui v235
  let c0_i32_158 : BitVec 32 := 0#32
  let v237 : BitVec 1 := Scalar.cmpi .slt v233 c0_i32_158
  let v238 : BitVec 32 := Scalar.extui v237
  let v239 : BitVec 32 := Scalar.subi v236 v238
  let c8_i32_156 : BitVec 32 := 8#32
  let c0_i32_159 : BitVec 32 := 0#32
  let v240 : BitVec 1 := Scalar.cmpi .sgt c8_i32_156 c0_i32_159
  let v241 : BitVec 32 := Scalar.extui v240
  let c0_i32_160 : BitVec 32 := 0#32
  let v242 : BitVec 1 := Scalar.cmpi .slt c8_i32_156 c0_i32_160
  let v243 : BitVec 32 := Scalar.extui v242
  let v244 : BitVec 32 := Scalar.subi v241 v243
  let v245 : BitVec 1 := Scalar.cmpi .ne v239 v244
  let v246 : BitVec 32 := Scalar.remsi v233 c8_i32_156
  let c0_i32_161 : BitVec 32 := 0#32
  let v247 : BitVec 1 := Scalar.cmpi .ne v246 c0_i32_161
  let v248 : BitVec 1 := Scalar.andi v245 v247
  let v234 : BitVec 32 := Scalar.divsi v233 c8_i32_156
  let c1_i32_162 : BitVec 32 := 1#32
  let v249 : BitVec 32 := Scalar.subi v234 c1_i32_162
  let v250 : BitVec 32 := Scalar.select v248 v249 v234
  let v251 : BitVec 32 := Scalar.addi c32_i32_163 v250
  let c0_i32_171 : BitVec 32 := 0#32
  let c8_i32_164 : BitVec 32 := 8#32
  let c0_i32_165 : BitVec 32 := 0#32
  let v252 : BitVec 1 := Scalar.cmpi .eq c8_i32_164 c0_i32_165
  let c1_i32_166 : BitVec 32 := 1#32
  let v253 : BitVec 32 := Scalar.select v252 c1_i32_166 c8_i32_164
  let v254 : BitVec 32 := Scalar.remsi v233 v253
  let c0_i32_168 : BitVec 32 := 0#32
  let v256 : BitVec 1 := Scalar.cmpi .slt v254 c0_i32_168
  let c0_i32_169 : BitVec 32 := 0#32
  let v257 : BitVec 1 := Scalar.cmpi .slt v253 c0_i32_169
  let v258 : BitVec 1 := Scalar.xori v256 v257
  let c0_i32_167 : BitVec 32 := 0#32
  let v255 : BitVec 1 := Scalar.cmpi .ne v254 c0_i32_167
  let v259 : BitVec 1 := Scalar.andi v258 v255
  let v260 : BitVec 32 := Scalar.addi v254 v253
  let v261 : BitVec 32 := Scalar.select v259 v260 v254
  let c512_i32_170 : BitVec 32 := 512#32
  let v262 : BitVec 32 := Scalar.muli v261 c512_i32_170
  ![v251.toNat, 0, v262.toNat]
def k0_cond7 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c4_i32_110 : BitVec 32 := 4#32
  let v183 : BitVec 32 := Scalar.muli v143 c4_i32_110
  let c0_i32_111 : BitVec 32 := 0#32
  let v184 : BitVec 32 := Scalar.addi v183 c0_i32_111
  let c2_i32_112 : BitVec 32 := 2#32
  let v185 : BitVec 1 := Scalar.cmpi .sge v184 c2_i32_112
  let v186 : BitVec 32 := Scalar.extui v185
  let c0_i32_113 : BitVec 32 := 0#32
  let v187 : BitVec 1 := Scalar.cmpi .ne v186 c0_i32_113
  v187

def k0_off42 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c43520_i32_156 : BitVec 32 := 43520#32
  let v233 : BitVec 32 := Scalar.muli v232 c43520_i32_156
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c4_i32_110 : BitVec 32 := 4#32
  let v183 : BitVec 32 := Scalar.muli v143 c4_i32_110
  let c0_i32_111 : BitVec 32 := 0#32
  let v184 : BitVec 32 := Scalar.addi v183 c0_i32_111
  let c2_i32_154 : BitVec 32 := 2#32
  let v231 : BitVec 32 := Scalar.subi v184 c2_i32_154
  let c10880_i32_157 : BitVec 32 := 10880#32
  let v234 : BitVec 32 := Scalar.muli v231 c10880_i32_157
  let v235 : BitVec 32 := Scalar.addi v233 v234
  ![v235.toNat]
@[reducible] def k0_t6_loop : Scf.Loop 32 :=
  let c0_i32_114 : BitVec 32 := 0#32
  let c85_i32_115 : BitVec 32 := 85#32
  let v188 : BitVec 32 := Scalar.addi c0_i32_114 c85_i32_115
  let c1_i32_116 : BitVec 32 := 1#32
  ⟨c0_i32_114, v188, c1_i32_116⟩
def k0_off43 (k0_t6 : Fin k0_t6_loop.trips) : Fin 2 → Nat :=
  let c0_i32_155 : BitVec 32 := 0#32
  let c0_i32_114 : BitVec 32 := 0#32
  let c1_i32_116 : BitVec 32 := 1#32
  let arg13 : BitVec 32 := Scf.iv c0_i32_114 c1_i32_116 k0_t6
  let c1_i32_154 : BitVec 32 := 1#32
  let v231 : BitVec 32 := Scalar.muli arg13 c1_i32_154
  let v232 : BitVec 32 := Scalar.addi c0_i32_155 v231
  let v233 : Index := Scalar.indexCast v232
  let c0 : Index := 0#32
  ![v233.toNat, 0]
def k0_off44 (k0_t6 : Fin k0_t6_loop.trips) : Fin 2 → Nat :=
  let c0_i32_155 : BitVec 32 := 0#32
  let c0_i32_114 : BitVec 32 := 0#32
  let c1_i32_116 : BitVec 32 := 1#32
  let arg13 : BitVec 32 := Scf.iv c0_i32_114 c1_i32_116 k0_t6
  let c1_i32_154 : BitVec 32 := 1#32
  let v231 : BitVec 32 := Scalar.muli arg13 c1_i32_154
  let v232 : BitVec 32 := Scalar.addi c0_i32_155 v231
  let v235 : Index := Scalar.indexCast v232
  let c16 : Index := 16#32
  ![v235.toNat, 16]
def k0_off45 (k0_t6 : Fin k0_t6_loop.trips) : Fin 2 → Nat :=
  let c0_i32_155 : BitVec 32 := 0#32
  let c0_i32_114 : BitVec 32 := 0#32
  let c1_i32_116 : BitVec 32 := 1#32
  let arg13 : BitVec 32 := Scf.iv c0_i32_114 c1_i32_116 k0_t6
  let c1_i32_154 : BitVec 32 := 1#32
  let v231 : BitVec 32 := Scalar.muli arg13 c1_i32_154
  let v232 : BitVec 32 := Scalar.addi c0_i32_155 v231
  let v237 : Index := Scalar.indexCast v232
  let c32 : Index := 32#32
  ![v237.toNat, 32]
def k0_off46 (k0_t6 : Fin k0_t6_loop.trips) : Fin 2 → Nat :=
  let c0_i32_155 : BitVec 32 := 0#32
  let c0_i32_114 : BitVec 32 := 0#32
  let c1_i32_116 : BitVec 32 := 1#32
  let arg13 : BitVec 32 := Scf.iv c0_i32_114 c1_i32_116 k0_t6
  let c1_i32_154 : BitVec 32 := 1#32
  let v231 : BitVec 32 := Scalar.muli arg13 c1_i32_154
  let v232 : BitVec 32 := Scalar.addi c0_i32_155 v231
  let v239 : Index := Scalar.indexCast v232
  let c48 : Index := 48#32
  ![v239.toNat, 48]
def k0_off47 (k0_t6 : Fin k0_t6_loop.trips) : Fin 2 → Nat :=
  let c0_i32_155 : BitVec 32 := 0#32
  let c0_i32_114 : BitVec 32 := 0#32
  let c1_i32_116 : BitVec 32 := 1#32
  let arg13 : BitVec 32 := Scf.iv c0_i32_114 c1_i32_116 k0_t6
  let c1_i32_154 : BitVec 32 := 1#32
  let v231 : BitVec 32 := Scalar.muli arg13 c1_i32_154
  let v232 : BitVec 32 := Scalar.addi c0_i32_155 v231
  let v241 : Index := Scalar.indexCast v232
  let c64 : Index := 64#32
  ![v241.toNat, 64]
def k0_off48 (k0_t6 : Fin k0_t6_loop.trips) : Fin 2 → Nat :=
  let c0_i32_155 : BitVec 32 := 0#32
  let c0_i32_114 : BitVec 32 := 0#32
  let c1_i32_116 : BitVec 32 := 1#32
  let arg13 : BitVec 32 := Scf.iv c0_i32_114 c1_i32_116 k0_t6
  let c1_i32_154 : BitVec 32 := 1#32
  let v231 : BitVec 32 := Scalar.muli arg13 c1_i32_154
  let v232 : BitVec 32 := Scalar.addi c0_i32_155 v231
  let v243 : Index := Scalar.indexCast v232
  let c80 : Index := 80#32
  ![v243.toNat, 80]
def k0_off49 (k0_t6 : Fin k0_t6_loop.trips) : Fin 2 → Nat :=
  let c0_i32_155 : BitVec 32 := 0#32
  let c0_i32_114 : BitVec 32 := 0#32
  let c1_i32_116 : BitVec 32 := 1#32
  let arg13 : BitVec 32 := Scf.iv c0_i32_114 c1_i32_116 k0_t6
  let c1_i32_154 : BitVec 32 := 1#32
  let v231 : BitVec 32 := Scalar.muli arg13 c1_i32_154
  let v232 : BitVec 32 := Scalar.addi c0_i32_155 v231
  let v245 : Index := Scalar.indexCast v232
  let c96 : Index := 96#32
  ![v245.toNat, 96]
def k0_off50 (k0_t6 : Fin k0_t6_loop.trips) : Fin 2 → Nat :=
  let c0_i32_155 : BitVec 32 := 0#32
  let c0_i32_114 : BitVec 32 := 0#32
  let c1_i32_116 : BitVec 32 := 1#32
  let arg13 : BitVec 32 := Scf.iv c0_i32_114 c1_i32_116 k0_t6
  let c1_i32_154 : BitVec 32 := 1#32
  let v231 : BitVec 32 := Scalar.muli arg13 c1_i32_154
  let v232 : BitVec 32 := Scalar.addi c0_i32_155 v231
  let v247 : Index := Scalar.indexCast v232
  let c112 : Index := 112#32
  ![v247.toNat, 112]

def k0_chk33 (v251 : IVec S16 32) : Prop :=
  (∀ a x, ((![v251] : Fin 1 → IVec S16 32) a x).toNat < S10880.size a)
instance k0_chk33.dec : ∀ (v251 : IVec S16 32), Decidable (k0_chk33 v251) := fun v251 => decidable_of_iff' _ (Iff.of_eq (k0_chk33.eq_1 v251))
theorem k0_idx33_inb : ∀ (v251 : IVec S16 32) (k0_hw33 : k0_chk33 v251), ∀ a x, ((![v251] : Fin 1 → IVec S16 32) a x).toNat < S10880.size a := fun v251 k0_hw33 => k0_hw33

def k0_chk34 (v254 : IVec S16 32) : Prop :=
  (∀ a x, ((![v254] : Fin 1 → IVec S16 32) a x).toNat < S10880.size a)
instance k0_chk34.dec : ∀ (v254 : IVec S16 32), Decidable (k0_chk34 v254) := fun v254 => decidable_of_iff' _ (Iff.of_eq (k0_chk34.eq_1 v254))
theorem k0_idx34_inb : ∀ (v254 : IVec S16 32) (k0_hw34 : k0_chk34 v254), ∀ a x, ((![v254] : Fin 1 → IVec S16 32) a x).toNat < S10880.size a := fun v254 k0_hw34 => k0_hw34

def k0_chk35 (v257 : IVec S16 32) : Prop :=
  (∀ a x, ((![v257] : Fin 1 → IVec S16 32) a x).toNat < S10880.size a)
instance k0_chk35.dec : ∀ (v257 : IVec S16 32), Decidable (k0_chk35 v257) := fun v257 => decidable_of_iff' _ (Iff.of_eq (k0_chk35.eq_1 v257))
theorem k0_idx35_inb : ∀ (v257 : IVec S16 32) (k0_hw35 : k0_chk35 v257), ∀ a x, ((![v257] : Fin 1 → IVec S16 32) a x).toNat < S10880.size a := fun v257 k0_hw35 => k0_hw35

def k0_chk36 (v260 : IVec S16 32) : Prop :=
  (∀ a x, ((![v260] : Fin 1 → IVec S16 32) a x).toNat < S10880.size a)
instance k0_chk36.dec : ∀ (v260 : IVec S16 32), Decidable (k0_chk36 v260) := fun v260 => decidable_of_iff' _ (Iff.of_eq (k0_chk36.eq_1 v260))
theorem k0_idx36_inb : ∀ (v260 : IVec S16 32) (k0_hw36 : k0_chk36 v260), ∀ a x, ((![v260] : Fin 1 → IVec S16 32) a x).toNat < S10880.size a := fun v260 k0_hw36 => k0_hw36

def k0_chk37 (v263 : IVec S16 32) : Prop :=
  (∀ a x, ((![v263] : Fin 1 → IVec S16 32) a x).toNat < S10880.size a)
instance k0_chk37.dec : ∀ (v263 : IVec S16 32), Decidable (k0_chk37 v263) := fun v263 => decidable_of_iff' _ (Iff.of_eq (k0_chk37.eq_1 v263))
theorem k0_idx37_inb : ∀ (v263 : IVec S16 32) (k0_hw37 : k0_chk37 v263), ∀ a x, ((![v263] : Fin 1 → IVec S16 32) a x).toNat < S10880.size a := fun v263 k0_hw37 => k0_hw37

def k0_chk38 (v266 : IVec S16 32) : Prop :=
  (∀ a x, ((![v266] : Fin 1 → IVec S16 32) a x).toNat < S10880.size a)
instance k0_chk38.dec : ∀ (v266 : IVec S16 32), Decidable (k0_chk38 v266) := fun v266 => decidable_of_iff' _ (Iff.of_eq (k0_chk38.eq_1 v266))
theorem k0_idx38_inb : ∀ (v266 : IVec S16 32) (k0_hw38 : k0_chk38 v266), ∀ a x, ((![v266] : Fin 1 → IVec S16 32) a x).toNat < S10880.size a := fun v266 k0_hw38 => k0_hw38

def k0_chk39 (v269 : IVec S16 32) : Prop :=
  (∀ a x, ((![v269] : Fin 1 → IVec S16 32) a x).toNat < S10880.size a)
instance k0_chk39.dec : ∀ (v269 : IVec S16 32), Decidable (k0_chk39 v269) := fun v269 => decidable_of_iff' _ (Iff.of_eq (k0_chk39.eq_1 v269))
theorem k0_idx39_inb : ∀ (v269 : IVec S16 32) (k0_hw39 : k0_chk39 v269), ∀ a x, ((![v269] : Fin 1 → IVec S16 32) a x).toNat < S10880.size a := fun v269 k0_hw39 => k0_hw39

def k0_chk40 (v272 : IVec S16 32) : Prop :=
  (∀ a x, ((![v272] : Fin 1 → IVec S16 32) a x).toNat < S10880.size a)
instance k0_chk40.dec : ∀ (v272 : IVec S16 32), Decidable (k0_chk40 v272) := fun v272 => decidable_of_iff' _ (Iff.of_eq (k0_chk40.eq_1 v272))
theorem k0_idx40_inb : ∀ (v272 : IVec S16 32) (k0_hw40 : k0_chk40 v272), ∀ a x, ((![v272] : Fin 1 → IVec S16 32) a x).toNat < S10880.size a := fun v272 k0_hw40 => k0_hw40
def k0_cond8 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c4_i32_121 : BitVec 32 := 4#32
  let v195 : BitVec 32 := Scalar.muli v143 c4_i32_121
  let c1_i32_122 : BitVec 32 := 1#32
  let v196 : BitVec 32 := Scalar.addi v195 c1_i32_122
  let c2_i32_123 : BitVec 32 := 2#32
  let v197 : BitVec 1 := Scalar.cmpi .sge v196 c2_i32_123
  let v198 : BitVec 32 := Scalar.extui v197
  let c0_i32_124 : BitVec 32 := 0#32
  let v199 : BitVec 1 := Scalar.cmpi .ne v198 c0_i32_124
  v199

def k0_off51 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c43520_i32_156 : BitVec 32 := 43520#32
  let v233 : BitVec 32 := Scalar.muli v232 c43520_i32_156
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c4_i32_121 : BitVec 32 := 4#32
  let v195 : BitVec 32 := Scalar.muli v143 c4_i32_121
  let c1_i32_122 : BitVec 32 := 1#32
  let v196 : BitVec 32 := Scalar.addi v195 c1_i32_122
  let c2_i32_154 : BitVec 32 := 2#32
  let v231 : BitVec 32 := Scalar.subi v196 c2_i32_154
  let c10880_i32_157 : BitVec 32 := 10880#32
  let v234 : BitVec 32 := Scalar.muli v231 c10880_i32_157
  let v235 : BitVec 32 := Scalar.addi v233 v234
  ![v235.toNat]
@[reducible] def k0_t7_loop : Scf.Loop 32 :=
  let c0_i32_125 : BitVec 32 := 0#32
  let c85_i32_126 : BitVec 32 := 85#32
  let v200 : BitVec 32 := Scalar.addi c0_i32_125 c85_i32_126
  let c1_i32_127 : BitVec 32 := 1#32
  ⟨c0_i32_125, v200, c1_i32_127⟩
def k0_off52 (k0_t7 : Fin k0_t7_loop.trips) : Fin 2 → Nat :=
  let c0_i32_155 : BitVec 32 := 0#32
  let c0_i32_125 : BitVec 32 := 0#32
  let c1_i32_127 : BitVec 32 := 1#32
  let arg13 : BitVec 32 := Scf.iv c0_i32_125 c1_i32_127 k0_t7
  let c1_i32_154 : BitVec 32 := 1#32
  let v231 : BitVec 32 := Scalar.muli arg13 c1_i32_154
  let v232 : BitVec 32 := Scalar.addi c0_i32_155 v231
  let v233 : Index := Scalar.indexCast v232
  let c128 : Index := 128#32
  ![v233.toNat, 128]
def k0_off53 (k0_t7 : Fin k0_t7_loop.trips) : Fin 2 → Nat :=
  let c0_i32_155 : BitVec 32 := 0#32
  let c0_i32_125 : BitVec 32 := 0#32
  let c1_i32_127 : BitVec 32 := 1#32
  let arg13 : BitVec 32 := Scf.iv c0_i32_125 c1_i32_127 k0_t7
  let c1_i32_154 : BitVec 32 := 1#32
  let v231 : BitVec 32 := Scalar.muli arg13 c1_i32_154
  let v232 : BitVec 32 := Scalar.addi c0_i32_155 v231
  let v235 : Index := Scalar.indexCast v232
  let c144 : Index := 144#32
  ![v235.toNat, 144]
def k0_off54 (k0_t7 : Fin k0_t7_loop.trips) : Fin 2 → Nat :=
  let c0_i32_155 : BitVec 32 := 0#32
  let c0_i32_125 : BitVec 32 := 0#32
  let c1_i32_127 : BitVec 32 := 1#32
  let arg13 : BitVec 32 := Scf.iv c0_i32_125 c1_i32_127 k0_t7
  let c1_i32_154 : BitVec 32 := 1#32
  let v231 : BitVec 32 := Scalar.muli arg13 c1_i32_154
  let v232 : BitVec 32 := Scalar.addi c0_i32_155 v231
  let v237 : Index := Scalar.indexCast v232
  let c160 : Index := 160#32
  ![v237.toNat, 160]
def k0_off55 (k0_t7 : Fin k0_t7_loop.trips) : Fin 2 → Nat :=
  let c0_i32_155 : BitVec 32 := 0#32
  let c0_i32_125 : BitVec 32 := 0#32
  let c1_i32_127 : BitVec 32 := 1#32
  let arg13 : BitVec 32 := Scf.iv c0_i32_125 c1_i32_127 k0_t7
  let c1_i32_154 : BitVec 32 := 1#32
  let v231 : BitVec 32 := Scalar.muli arg13 c1_i32_154
  let v232 : BitVec 32 := Scalar.addi c0_i32_155 v231
  let v239 : Index := Scalar.indexCast v232
  let c176 : Index := 176#32
  ![v239.toNat, 176]
def k0_off56 (k0_t7 : Fin k0_t7_loop.trips) : Fin 2 → Nat :=
  let c0_i32_155 : BitVec 32 := 0#32
  let c0_i32_125 : BitVec 32 := 0#32
  let c1_i32_127 : BitVec 32 := 1#32
  let arg13 : BitVec 32 := Scf.iv c0_i32_125 c1_i32_127 k0_t7
  let c1_i32_154 : BitVec 32 := 1#32
  let v231 : BitVec 32 := Scalar.muli arg13 c1_i32_154
  let v232 : BitVec 32 := Scalar.addi c0_i32_155 v231
  let v241 : Index := Scalar.indexCast v232
  let c192 : Index := 192#32
  ![v241.toNat, 192]
def k0_off57 (k0_t7 : Fin k0_t7_loop.trips) : Fin 2 → Nat :=
  let c0_i32_155 : BitVec 32 := 0#32
  let c0_i32_125 : BitVec 32 := 0#32
  let c1_i32_127 : BitVec 32 := 1#32
  let arg13 : BitVec 32 := Scf.iv c0_i32_125 c1_i32_127 k0_t7
  let c1_i32_154 : BitVec 32 := 1#32
  let v231 : BitVec 32 := Scalar.muli arg13 c1_i32_154
  let v232 : BitVec 32 := Scalar.addi c0_i32_155 v231
  let v243 : Index := Scalar.indexCast v232
  let c208 : Index := 208#32
  ![v243.toNat, 208]
def k0_off58 (k0_t7 : Fin k0_t7_loop.trips) : Fin 2 → Nat :=
  let c0_i32_155 : BitVec 32 := 0#32
  let c0_i32_125 : BitVec 32 := 0#32
  let c1_i32_127 : BitVec 32 := 1#32
  let arg13 : BitVec 32 := Scf.iv c0_i32_125 c1_i32_127 k0_t7
  let c1_i32_154 : BitVec 32 := 1#32
  let v231 : BitVec 32 := Scalar.muli arg13 c1_i32_154
  let v232 : BitVec 32 := Scalar.addi c0_i32_155 v231
  let v245 : Index := Scalar.indexCast v232
  let c224 : Index := 224#32
  ![v245.toNat, 224]
def k0_off59 (k0_t7 : Fin k0_t7_loop.trips) : Fin 2 → Nat :=
  let c0_i32_155 : BitVec 32 := 0#32
  let c0_i32_125 : BitVec 32 := 0#32
  let c1_i32_127 : BitVec 32 := 1#32
  let arg13 : BitVec 32 := Scf.iv c0_i32_125 c1_i32_127 k0_t7
  let c1_i32_154 : BitVec 32 := 1#32
  let v231 : BitVec 32 := Scalar.muli arg13 c1_i32_154
  let v232 : BitVec 32 := Scalar.addi c0_i32_155 v231
  let v247 : Index := Scalar.indexCast v232
  let c240 : Index := 240#32
  ![v247.toNat, 240]

def k0_chk41 (v251 : IVec S16 32) : Prop :=
  (∀ a x, ((![v251] : Fin 1 → IVec S16 32) a x).toNat < S10880.size a)
instance k0_chk41.dec : ∀ (v251 : IVec S16 32), Decidable (k0_chk41 v251) := fun v251 => decidable_of_iff' _ (Iff.of_eq (k0_chk41.eq_1 v251))
theorem k0_idx41_inb : ∀ (v251 : IVec S16 32) (k0_hw41 : k0_chk41 v251), ∀ a x, ((![v251] : Fin 1 → IVec S16 32) a x).toNat < S10880.size a := fun v251 k0_hw41 => k0_hw41

def k0_chk42 (v254 : IVec S16 32) : Prop :=
  (∀ a x, ((![v254] : Fin 1 → IVec S16 32) a x).toNat < S10880.size a)
instance k0_chk42.dec : ∀ (v254 : IVec S16 32), Decidable (k0_chk42 v254) := fun v254 => decidable_of_iff' _ (Iff.of_eq (k0_chk42.eq_1 v254))
theorem k0_idx42_inb : ∀ (v254 : IVec S16 32) (k0_hw42 : k0_chk42 v254), ∀ a x, ((![v254] : Fin 1 → IVec S16 32) a x).toNat < S10880.size a := fun v254 k0_hw42 => k0_hw42

def k0_chk43 (v257 : IVec S16 32) : Prop :=
  (∀ a x, ((![v257] : Fin 1 → IVec S16 32) a x).toNat < S10880.size a)
instance k0_chk43.dec : ∀ (v257 : IVec S16 32), Decidable (k0_chk43 v257) := fun v257 => decidable_of_iff' _ (Iff.of_eq (k0_chk43.eq_1 v257))
theorem k0_idx43_inb : ∀ (v257 : IVec S16 32) (k0_hw43 : k0_chk43 v257), ∀ a x, ((![v257] : Fin 1 → IVec S16 32) a x).toNat < S10880.size a := fun v257 k0_hw43 => k0_hw43

def k0_chk44 (v260 : IVec S16 32) : Prop :=
  (∀ a x, ((![v260] : Fin 1 → IVec S16 32) a x).toNat < S10880.size a)
instance k0_chk44.dec : ∀ (v260 : IVec S16 32), Decidable (k0_chk44 v260) := fun v260 => decidable_of_iff' _ (Iff.of_eq (k0_chk44.eq_1 v260))
theorem k0_idx44_inb : ∀ (v260 : IVec S16 32) (k0_hw44 : k0_chk44 v260), ∀ a x, ((![v260] : Fin 1 → IVec S16 32) a x).toNat < S10880.size a := fun v260 k0_hw44 => k0_hw44

def k0_chk45 (v263 : IVec S16 32) : Prop :=
  (∀ a x, ((![v263] : Fin 1 → IVec S16 32) a x).toNat < S10880.size a)
instance k0_chk45.dec : ∀ (v263 : IVec S16 32), Decidable (k0_chk45 v263) := fun v263 => decidable_of_iff' _ (Iff.of_eq (k0_chk45.eq_1 v263))
theorem k0_idx45_inb : ∀ (v263 : IVec S16 32) (k0_hw45 : k0_chk45 v263), ∀ a x, ((![v263] : Fin 1 → IVec S16 32) a x).toNat < S10880.size a := fun v263 k0_hw45 => k0_hw45

def k0_chk46 (v266 : IVec S16 32) : Prop :=
  (∀ a x, ((![v266] : Fin 1 → IVec S16 32) a x).toNat < S10880.size a)
instance k0_chk46.dec : ∀ (v266 : IVec S16 32), Decidable (k0_chk46 v266) := fun v266 => decidable_of_iff' _ (Iff.of_eq (k0_chk46.eq_1 v266))
theorem k0_idx46_inb : ∀ (v266 : IVec S16 32) (k0_hw46 : k0_chk46 v266), ∀ a x, ((![v266] : Fin 1 → IVec S16 32) a x).toNat < S10880.size a := fun v266 k0_hw46 => k0_hw46

def k0_chk47 (v269 : IVec S16 32) : Prop :=
  (∀ a x, ((![v269] : Fin 1 → IVec S16 32) a x).toNat < S10880.size a)
instance k0_chk47.dec : ∀ (v269 : IVec S16 32), Decidable (k0_chk47 v269) := fun v269 => decidable_of_iff' _ (Iff.of_eq (k0_chk47.eq_1 v269))
theorem k0_idx47_inb : ∀ (v269 : IVec S16 32) (k0_hw47 : k0_chk47 v269), ∀ a x, ((![v269] : Fin 1 → IVec S16 32) a x).toNat < S10880.size a := fun v269 k0_hw47 => k0_hw47

def k0_chk48 (v272 : IVec S16 32) : Prop :=
  (∀ a x, ((![v272] : Fin 1 → IVec S16 32) a x).toNat < S10880.size a)
instance k0_chk48.dec : ∀ (v272 : IVec S16 32), Decidable (k0_chk48 v272) := fun v272 => decidable_of_iff' _ (Iff.of_eq (k0_chk48.eq_1 v272))
theorem k0_idx48_inb : ∀ (v272 : IVec S16 32) (k0_hw48 : k0_chk48 v272), ∀ a x, ((![v272] : Fin 1 → IVec S16 32) a x).toNat < S10880.size a := fun v272 k0_hw48 => k0_hw48
def k0_cond9 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c4_i32_132 : BitVec 32 := 4#32
  let v207 : BitVec 32 := Scalar.muli v143 c4_i32_132
  let c2_i32_133 : BitVec 32 := 2#32
  let v208 : BitVec 32 := Scalar.addi v207 c2_i32_133
  let c2_i32_134 : BitVec 32 := 2#32
  let v209 : BitVec 1 := Scalar.cmpi .sge v208 c2_i32_134
  let v210 : BitVec 32 := Scalar.extui v209
  let c0_i32_135 : BitVec 32 := 0#32
  let v211 : BitVec 1 := Scalar.cmpi .ne v210 c0_i32_135
  v211

def k0_off60 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c43520_i32_156 : BitVec 32 := 43520#32
  let v233 : BitVec 32 := Scalar.muli v232 c43520_i32_156
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c4_i32_132 : BitVec 32 := 4#32
  let v207 : BitVec 32 := Scalar.muli v143 c4_i32_132
  let c2_i32_133 : BitVec 32 := 2#32
  let v208 : BitVec 32 := Scalar.addi v207 c2_i32_133
  let c2_i32_154 : BitVec 32 := 2#32
  let v231 : BitVec 32 := Scalar.subi v208 c2_i32_154
  let c10880_i32_157 : BitVec 32 := 10880#32
  let v234 : BitVec 32 := Scalar.muli v231 c10880_i32_157
  let v235 : BitVec 32 := Scalar.addi v233 v234
  ![v235.toNat]
@[reducible] def k0_t8_loop : Scf.Loop 32 :=
  let c0_i32_136 : BitVec 32 := 0#32
  let c85_i32_137 : BitVec 32 := 85#32
  let v212 : BitVec 32 := Scalar.addi c0_i32_136 c85_i32_137
  let c1_i32_138 : BitVec 32 := 1#32
  ⟨c0_i32_136, v212, c1_i32_138⟩
def k0_off61 (k0_t8 : Fin k0_t8_loop.trips) : Fin 2 → Nat :=
  let c0_i32_155 : BitVec 32 := 0#32
  let c0_i32_136 : BitVec 32 := 0#32
  let c1_i32_138 : BitVec 32 := 1#32
  let arg13 : BitVec 32 := Scf.iv c0_i32_136 c1_i32_138 k0_t8
  let c1_i32_154 : BitVec 32 := 1#32
  let v231 : BitVec 32 := Scalar.muli arg13 c1_i32_154
  let v232 : BitVec 32 := Scalar.addi c0_i32_155 v231
  let v233 : Index := Scalar.indexCast v232
  let c256 : Index := 256#32
  ![v233.toNat, 256]
def k0_off62 (k0_t8 : Fin k0_t8_loop.trips) : Fin 2 → Nat :=
  let c0_i32_155 : BitVec 32 := 0#32
  let c0_i32_136 : BitVec 32 := 0#32
  let c1_i32_138 : BitVec 32 := 1#32
  let arg13 : BitVec 32 := Scf.iv c0_i32_136 c1_i32_138 k0_t8
  let c1_i32_154 : BitVec 32 := 1#32
  let v231 : BitVec 32 := Scalar.muli arg13 c1_i32_154
  let v232 : BitVec 32 := Scalar.addi c0_i32_155 v231
  let v235 : Index := Scalar.indexCast v232
  let c272 : Index := 272#32
  ![v235.toNat, 272]
def k0_off63 (k0_t8 : Fin k0_t8_loop.trips) : Fin 2 → Nat :=
  let c0_i32_155 : BitVec 32 := 0#32
  let c0_i32_136 : BitVec 32 := 0#32
  let c1_i32_138 : BitVec 32 := 1#32
  let arg13 : BitVec 32 := Scf.iv c0_i32_136 c1_i32_138 k0_t8
  let c1_i32_154 : BitVec 32 := 1#32
  let v231 : BitVec 32 := Scalar.muli arg13 c1_i32_154
  let v232 : BitVec 32 := Scalar.addi c0_i32_155 v231
  let v237 : Index := Scalar.indexCast v232
  let c288 : Index := 288#32
  ![v237.toNat, 288]
def k0_off64 (k0_t8 : Fin k0_t8_loop.trips) : Fin 2 → Nat :=
  let c0_i32_155 : BitVec 32 := 0#32
  let c0_i32_136 : BitVec 32 := 0#32
  let c1_i32_138 : BitVec 32 := 1#32
  let arg13 : BitVec 32 := Scf.iv c0_i32_136 c1_i32_138 k0_t8
  let c1_i32_154 : BitVec 32 := 1#32
  let v231 : BitVec 32 := Scalar.muli arg13 c1_i32_154
  let v232 : BitVec 32 := Scalar.addi c0_i32_155 v231
  let v239 : Index := Scalar.indexCast v232
  let c304 : Index := 304#32
  ![v239.toNat, 304]
def k0_off65 (k0_t8 : Fin k0_t8_loop.trips) : Fin 2 → Nat :=
  let c0_i32_155 : BitVec 32 := 0#32
  let c0_i32_136 : BitVec 32 := 0#32
  let c1_i32_138 : BitVec 32 := 1#32
  let arg13 : BitVec 32 := Scf.iv c0_i32_136 c1_i32_138 k0_t8
  let c1_i32_154 : BitVec 32 := 1#32
  let v231 : BitVec 32 := Scalar.muli arg13 c1_i32_154
  let v232 : BitVec 32 := Scalar.addi c0_i32_155 v231
  let v241 : Index := Scalar.indexCast v232
  let c320 : Index := 320#32
  ![v241.toNat, 320]
def k0_off66 (k0_t8 : Fin k0_t8_loop.trips) : Fin 2 → Nat :=
  let c0_i32_155 : BitVec 32 := 0#32
  let c0_i32_136 : BitVec 32 := 0#32
  let c1_i32_138 : BitVec 32 := 1#32
  let arg13 : BitVec 32 := Scf.iv c0_i32_136 c1_i32_138 k0_t8
  let c1_i32_154 : BitVec 32 := 1#32
  let v231 : BitVec 32 := Scalar.muli arg13 c1_i32_154
  let v232 : BitVec 32 := Scalar.addi c0_i32_155 v231
  let v243 : Index := Scalar.indexCast v232
  let c336 : Index := 336#32
  ![v243.toNat, 336]
def k0_off67 (k0_t8 : Fin k0_t8_loop.trips) : Fin 2 → Nat :=
  let c0_i32_155 : BitVec 32 := 0#32
  let c0_i32_136 : BitVec 32 := 0#32
  let c1_i32_138 : BitVec 32 := 1#32
  let arg13 : BitVec 32 := Scf.iv c0_i32_136 c1_i32_138 k0_t8
  let c1_i32_154 : BitVec 32 := 1#32
  let v231 : BitVec 32 := Scalar.muli arg13 c1_i32_154
  let v232 : BitVec 32 := Scalar.addi c0_i32_155 v231
  let v245 : Index := Scalar.indexCast v232
  let c352 : Index := 352#32
  ![v245.toNat, 352]
def k0_off68 (k0_t8 : Fin k0_t8_loop.trips) : Fin 2 → Nat :=
  let c0_i32_155 : BitVec 32 := 0#32
  let c0_i32_136 : BitVec 32 := 0#32
  let c1_i32_138 : BitVec 32 := 1#32
  let arg13 : BitVec 32 := Scf.iv c0_i32_136 c1_i32_138 k0_t8
  let c1_i32_154 : BitVec 32 := 1#32
  let v231 : BitVec 32 := Scalar.muli arg13 c1_i32_154
  let v232 : BitVec 32 := Scalar.addi c0_i32_155 v231
  let v247 : Index := Scalar.indexCast v232
  let c368 : Index := 368#32
  ![v247.toNat, 368]

def k0_chk49 (v251 : IVec S16 32) : Prop :=
  (∀ a x, ((![v251] : Fin 1 → IVec S16 32) a x).toNat < S10880.size a)
instance k0_chk49.dec : ∀ (v251 : IVec S16 32), Decidable (k0_chk49 v251) := fun v251 => decidable_of_iff' _ (Iff.of_eq (k0_chk49.eq_1 v251))
theorem k0_idx49_inb : ∀ (v251 : IVec S16 32) (k0_hw49 : k0_chk49 v251), ∀ a x, ((![v251] : Fin 1 → IVec S16 32) a x).toNat < S10880.size a := fun v251 k0_hw49 => k0_hw49

def k0_chk50 (v254 : IVec S16 32) : Prop :=
  (∀ a x, ((![v254] : Fin 1 → IVec S16 32) a x).toNat < S10880.size a)
instance k0_chk50.dec : ∀ (v254 : IVec S16 32), Decidable (k0_chk50 v254) := fun v254 => decidable_of_iff' _ (Iff.of_eq (k0_chk50.eq_1 v254))
theorem k0_idx50_inb : ∀ (v254 : IVec S16 32) (k0_hw50 : k0_chk50 v254), ∀ a x, ((![v254] : Fin 1 → IVec S16 32) a x).toNat < S10880.size a := fun v254 k0_hw50 => k0_hw50

def k0_chk51 (v257 : IVec S16 32) : Prop :=
  (∀ a x, ((![v257] : Fin 1 → IVec S16 32) a x).toNat < S10880.size a)
instance k0_chk51.dec : ∀ (v257 : IVec S16 32), Decidable (k0_chk51 v257) := fun v257 => decidable_of_iff' _ (Iff.of_eq (k0_chk51.eq_1 v257))
theorem k0_idx51_inb : ∀ (v257 : IVec S16 32) (k0_hw51 : k0_chk51 v257), ∀ a x, ((![v257] : Fin 1 → IVec S16 32) a x).toNat < S10880.size a := fun v257 k0_hw51 => k0_hw51

def k0_chk52 (v260 : IVec S16 32) : Prop :=
  (∀ a x, ((![v260] : Fin 1 → IVec S16 32) a x).toNat < S10880.size a)
instance k0_chk52.dec : ∀ (v260 : IVec S16 32), Decidable (k0_chk52 v260) := fun v260 => decidable_of_iff' _ (Iff.of_eq (k0_chk52.eq_1 v260))
theorem k0_idx52_inb : ∀ (v260 : IVec S16 32) (k0_hw52 : k0_chk52 v260), ∀ a x, ((![v260] : Fin 1 → IVec S16 32) a x).toNat < S10880.size a := fun v260 k0_hw52 => k0_hw52

def k0_chk53 (v263 : IVec S16 32) : Prop :=
  (∀ a x, ((![v263] : Fin 1 → IVec S16 32) a x).toNat < S10880.size a)
instance k0_chk53.dec : ∀ (v263 : IVec S16 32), Decidable (k0_chk53 v263) := fun v263 => decidable_of_iff' _ (Iff.of_eq (k0_chk53.eq_1 v263))
theorem k0_idx53_inb : ∀ (v263 : IVec S16 32) (k0_hw53 : k0_chk53 v263), ∀ a x, ((![v263] : Fin 1 → IVec S16 32) a x).toNat < S10880.size a := fun v263 k0_hw53 => k0_hw53

def k0_chk54 (v266 : IVec S16 32) : Prop :=
  (∀ a x, ((![v266] : Fin 1 → IVec S16 32) a x).toNat < S10880.size a)
instance k0_chk54.dec : ∀ (v266 : IVec S16 32), Decidable (k0_chk54 v266) := fun v266 => decidable_of_iff' _ (Iff.of_eq (k0_chk54.eq_1 v266))
theorem k0_idx54_inb : ∀ (v266 : IVec S16 32) (k0_hw54 : k0_chk54 v266), ∀ a x, ((![v266] : Fin 1 → IVec S16 32) a x).toNat < S10880.size a := fun v266 k0_hw54 => k0_hw54

def k0_chk55 (v269 : IVec S16 32) : Prop :=
  (∀ a x, ((![v269] : Fin 1 → IVec S16 32) a x).toNat < S10880.size a)
instance k0_chk55.dec : ∀ (v269 : IVec S16 32), Decidable (k0_chk55 v269) := fun v269 => decidable_of_iff' _ (Iff.of_eq (k0_chk55.eq_1 v269))
theorem k0_idx55_inb : ∀ (v269 : IVec S16 32) (k0_hw55 : k0_chk55 v269), ∀ a x, ((![v269] : Fin 1 → IVec S16 32) a x).toNat < S10880.size a := fun v269 k0_hw55 => k0_hw55

def k0_chk56 (v272 : IVec S16 32) : Prop :=
  (∀ a x, ((![v272] : Fin 1 → IVec S16 32) a x).toNat < S10880.size a)
instance k0_chk56.dec : ∀ (v272 : IVec S16 32), Decidable (k0_chk56 v272) := fun v272 => decidable_of_iff' _ (Iff.of_eq (k0_chk56.eq_1 v272))
theorem k0_idx56_inb : ∀ (v272 : IVec S16 32) (k0_hw56 : k0_chk56 v272), ∀ a x, ((![v272] : Fin 1 → IVec S16 32) a x).toNat < S10880.size a := fun v272 k0_hw56 => k0_hw56
def k0_cond10 (k0_t1 : Fin k0_t1_loop.trips) : BitVec 1 :=
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c4_i32_143 : BitVec 32 := 4#32
  let v219 : BitVec 32 := Scalar.muli v143 c4_i32_143
  let c3_i32_144 : BitVec 32 := 3#32
  let v220 : BitVec 32 := Scalar.addi v219 c3_i32_144
  let c2_i32_145 : BitVec 32 := 2#32
  let v221 : BitVec 1 := Scalar.cmpi .sge v220 c2_i32_145
  let v222 : BitVec 32 := Scalar.extui v221
  let c0_i32_146 : BitVec 32 := 0#32
  let v223 : BitVec 1 := Scalar.cmpi .ne v222 c0_i32_146
  v223

def k0_off69 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_155 : BitVec 32 := 4#32
  let v232 : BitVec 32 := Scalar.muli v1 c4_i32_155
  let c43520_i32_156 : BitVec 32 := 43520#32
  let v233 : BitVec 32 := Scalar.muli v232 c43520_i32_156
  let c0_i32_21 : BitVec 32 := 0#32
  let c0_i32_13 : BitVec 32 := 0#32
  let c1_i32_15 : BitVec 32 := 1#32
  let arg12 : BitVec 32 := Scf.iv c0_i32_13 c1_i32_15 k0_t1
  let c1_i32_20 : BitVec 32 := 1#32
  let v51 : BitVec 32 := Scalar.muli arg12 c1_i32_20
  let v52 : BitVec 32 := Scalar.addi c0_i32_21 v51
  let c2_i32_87 : BitVec 32 := 2#32
  let v142 : BitVec 32 := Scalar.muli v52 c2_i32_87
  let c1_i32_88 : BitVec 32 := 1#32
  let v143 : BitVec 32 := Scalar.addi v142 c1_i32_88
  let c4_i32_143 : BitVec 32 := 4#32
  let v219 : BitVec 32 := Scalar.muli v143 c4_i32_143
  let c3_i32_144 : BitVec 32 := 3#32
  let v220 : BitVec 32 := Scalar.addi v219 c3_i32_144
  let c2_i32_154 : BitVec 32 := 2#32
  let v231 : BitVec 32 := Scalar.subi v220 c2_i32_154
  let c10880_i32_157 : BitVec 32 := 10880#32
  let v234 : BitVec 32 := Scalar.muli v231 c10880_i32_157
  let v235 : BitVec 32 := Scalar.addi v233 v234
  ![v235.toNat]
@[reducible] def k0_t9_loop : Scf.Loop 32 :=
  let c0_i32_147 : BitVec 32 := 0#32
  let c85_i32_148 : BitVec 32 := 85#32
  let v224 : BitVec 32 := Scalar.addi c0_i32_147 c85_i32_148
  let c1_i32_149 : BitVec 32 := 1#32
  ⟨c0_i32_147, v224, c1_i32_149⟩
def k0_off70 (k0_t9 : Fin k0_t9_loop.trips) : Fin 2 → Nat :=
  let c0_i32_155 : BitVec 32 := 0#32
  let c0_i32_147 : BitVec 32 := 0#32
  let c1_i32_149 : BitVec 32 := 1#32
  let arg13 : BitVec 32 := Scf.iv c0_i32_147 c1_i32_149 k0_t9
  let c1_i32_154 : BitVec 32 := 1#32
  let v231 : BitVec 32 := Scalar.muli arg13 c1_i32_154
  let v232 : BitVec 32 := Scalar.addi c0_i32_155 v231
  let v233 : Index := Scalar.indexCast v232
  let c384 : Index := 384#32
  ![v233.toNat, 384]
def k0_off71 (k0_t9 : Fin k0_t9_loop.trips) : Fin 2 → Nat :=
  let c0_i32_155 : BitVec 32 := 0#32
  let c0_i32_147 : BitVec 32 := 0#32
  let c1_i32_149 : BitVec 32 := 1#32
  let arg13 : BitVec 32 := Scf.iv c0_i32_147 c1_i32_149 k0_t9
  let c1_i32_154 : BitVec 32 := 1#32
  let v231 : BitVec 32 := Scalar.muli arg13 c1_i32_154
  let v232 : BitVec 32 := Scalar.addi c0_i32_155 v231
  let v235 : Index := Scalar.indexCast v232
  let c400 : Index := 400#32
  ![v235.toNat, 400]
def k0_off72 (k0_t9 : Fin k0_t9_loop.trips) : Fin 2 → Nat :=
  let c0_i32_155 : BitVec 32 := 0#32
  let c0_i32_147 : BitVec 32 := 0#32
  let c1_i32_149 : BitVec 32 := 1#32
  let arg13 : BitVec 32 := Scf.iv c0_i32_147 c1_i32_149 k0_t9
  let c1_i32_154 : BitVec 32 := 1#32
  let v231 : BitVec 32 := Scalar.muli arg13 c1_i32_154
  let v232 : BitVec 32 := Scalar.addi c0_i32_155 v231
  let v237 : Index := Scalar.indexCast v232
  let c416 : Index := 416#32
  ![v237.toNat, 416]
def k0_off73 (k0_t9 : Fin k0_t9_loop.trips) : Fin 2 → Nat :=
  let c0_i32_155 : BitVec 32 := 0#32
  let c0_i32_147 : BitVec 32 := 0#32
  let c1_i32_149 : BitVec 32 := 1#32
  let arg13 : BitVec 32 := Scf.iv c0_i32_147 c1_i32_149 k0_t9
  let c1_i32_154 : BitVec 32 := 1#32
  let v231 : BitVec 32 := Scalar.muli arg13 c1_i32_154
  let v232 : BitVec 32 := Scalar.addi c0_i32_155 v231
  let v239 : Index := Scalar.indexCast v232
  let c432 : Index := 432#32
  ![v239.toNat, 432]
def k0_off74 (k0_t9 : Fin k0_t9_loop.trips) : Fin 2 → Nat :=
  let c0_i32_155 : BitVec 32 := 0#32
  let c0_i32_147 : BitVec 32 := 0#32
  let c1_i32_149 : BitVec 32 := 1#32
  let arg13 : BitVec 32 := Scf.iv c0_i32_147 c1_i32_149 k0_t9
  let c1_i32_154 : BitVec 32 := 1#32
  let v231 : BitVec 32 := Scalar.muli arg13 c1_i32_154
  let v232 : BitVec 32 := Scalar.addi c0_i32_155 v231
  let v241 : Index := Scalar.indexCast v232
  let c448 : Index := 448#32
  ![v241.toNat, 448]
def k0_off75 (k0_t9 : Fin k0_t9_loop.trips) : Fin 2 → Nat :=
  let c0_i32_155 : BitVec 32 := 0#32
  let c0_i32_147 : BitVec 32 := 0#32
  let c1_i32_149 : BitVec 32 := 1#32
  let arg13 : BitVec 32 := Scf.iv c0_i32_147 c1_i32_149 k0_t9
  let c1_i32_154 : BitVec 32 := 1#32
  let v231 : BitVec 32 := Scalar.muli arg13 c1_i32_154
  let v232 : BitVec 32 := Scalar.addi c0_i32_155 v231
  let v243 : Index := Scalar.indexCast v232
  let c464 : Index := 464#32
  ![v243.toNat, 464]
def k0_off76 (k0_t9 : Fin k0_t9_loop.trips) : Fin 2 → Nat :=
  let c0_i32_155 : BitVec 32 := 0#32
  let c0_i32_147 : BitVec 32 := 0#32
  let c1_i32_149 : BitVec 32 := 1#32
  let arg13 : BitVec 32 := Scf.iv c0_i32_147 c1_i32_149 k0_t9
  let c1_i32_154 : BitVec 32 := 1#32
  let v231 : BitVec 32 := Scalar.muli arg13 c1_i32_154
  let v232 : BitVec 32 := Scalar.addi c0_i32_155 v231
  let v245 : Index := Scalar.indexCast v232
  let c480 : Index := 480#32
  ![v245.toNat, 480]
def k0_off77 (k0_t9 : Fin k0_t9_loop.trips) : Fin 2 → Nat :=
  let c0_i32_155 : BitVec 32 := 0#32
  let c0_i32_147 : BitVec 32 := 0#32
  let c1_i32_149 : BitVec 32 := 1#32
  let arg13 : BitVec 32 := Scf.iv c0_i32_147 c1_i32_149 k0_t9
  let c1_i32_154 : BitVec 32 := 1#32
  let v231 : BitVec 32 := Scalar.muli arg13 c1_i32_154
  let v232 : BitVec 32 := Scalar.addi c0_i32_155 v231
  let v247 : Index := Scalar.indexCast v232
  let c496 : Index := 496#32
  ![v247.toNat, 496]

def k0_chk57 (v251 : IVec S16 32) : Prop :=
  (∀ a x, ((![v251] : Fin 1 → IVec S16 32) a x).toNat < S10880.size a)
instance k0_chk57.dec : ∀ (v251 : IVec S16 32), Decidable (k0_chk57 v251) := fun v251 => decidable_of_iff' _ (Iff.of_eq (k0_chk57.eq_1 v251))
theorem k0_idx57_inb : ∀ (v251 : IVec S16 32) (k0_hw57 : k0_chk57 v251), ∀ a x, ((![v251] : Fin 1 → IVec S16 32) a x).toNat < S10880.size a := fun v251 k0_hw57 => k0_hw57

def k0_chk58 (v254 : IVec S16 32) : Prop :=
  (∀ a x, ((![v254] : Fin 1 → IVec S16 32) a x).toNat < S10880.size a)
instance k0_chk58.dec : ∀ (v254 : IVec S16 32), Decidable (k0_chk58 v254) := fun v254 => decidable_of_iff' _ (Iff.of_eq (k0_chk58.eq_1 v254))
theorem k0_idx58_inb : ∀ (v254 : IVec S16 32) (k0_hw58 : k0_chk58 v254), ∀ a x, ((![v254] : Fin 1 → IVec S16 32) a x).toNat < S10880.size a := fun v254 k0_hw58 => k0_hw58

def k0_chk59 (v257 : IVec S16 32) : Prop :=
  (∀ a x, ((![v257] : Fin 1 → IVec S16 32) a x).toNat < S10880.size a)
instance k0_chk59.dec : ∀ (v257 : IVec S16 32), Decidable (k0_chk59 v257) := fun v257 => decidable_of_iff' _ (Iff.of_eq (k0_chk59.eq_1 v257))
theorem k0_idx59_inb : ∀ (v257 : IVec S16 32) (k0_hw59 : k0_chk59 v257), ∀ a x, ((![v257] : Fin 1 → IVec S16 32) a x).toNat < S10880.size a := fun v257 k0_hw59 => k0_hw59

def k0_chk60 (v260 : IVec S16 32) : Prop :=
  (∀ a x, ((![v260] : Fin 1 → IVec S16 32) a x).toNat < S10880.size a)
instance k0_chk60.dec : ∀ (v260 : IVec S16 32), Decidable (k0_chk60 v260) := fun v260 => decidable_of_iff' _ (Iff.of_eq (k0_chk60.eq_1 v260))
theorem k0_idx60_inb : ∀ (v260 : IVec S16 32) (k0_hw60 : k0_chk60 v260), ∀ a x, ((![v260] : Fin 1 → IVec S16 32) a x).toNat < S10880.size a := fun v260 k0_hw60 => k0_hw60

def k0_chk61 (v263 : IVec S16 32) : Prop :=
  (∀ a x, ((![v263] : Fin 1 → IVec S16 32) a x).toNat < S10880.size a)
instance k0_chk61.dec : ∀ (v263 : IVec S16 32), Decidable (k0_chk61 v263) := fun v263 => decidable_of_iff' _ (Iff.of_eq (k0_chk61.eq_1 v263))
theorem k0_idx61_inb : ∀ (v263 : IVec S16 32) (k0_hw61 : k0_chk61 v263), ∀ a x, ((![v263] : Fin 1 → IVec S16 32) a x).toNat < S10880.size a := fun v263 k0_hw61 => k0_hw61

def k0_chk62 (v266 : IVec S16 32) : Prop :=
  (∀ a x, ((![v266] : Fin 1 → IVec S16 32) a x).toNat < S10880.size a)
instance k0_chk62.dec : ∀ (v266 : IVec S16 32), Decidable (k0_chk62 v266) := fun v266 => decidable_of_iff' _ (Iff.of_eq (k0_chk62.eq_1 v266))
theorem k0_idx62_inb : ∀ (v266 : IVec S16 32) (k0_hw62 : k0_chk62 v266), ∀ a x, ((![v266] : Fin 1 → IVec S16 32) a x).toNat < S10880.size a := fun v266 k0_hw62 => k0_hw62

def k0_chk63 (v269 : IVec S16 32) : Prop :=
  (∀ a x, ((![v269] : Fin 1 → IVec S16 32) a x).toNat < S10880.size a)
instance k0_chk63.dec : ∀ (v269 : IVec S16 32), Decidable (k0_chk63 v269) := fun v269 => decidable_of_iff' _ (Iff.of_eq (k0_chk63.eq_1 v269))
theorem k0_idx63_inb : ∀ (v269 : IVec S16 32) (k0_hw63 : k0_chk63 v269), ∀ a x, ((![v269] : Fin 1 → IVec S16 32) a x).toNat < S10880.size a := fun v269 k0_hw63 => k0_hw63

def k0_chk64 (v272 : IVec S16 32) : Prop :=
  (∀ a x, ((![v272] : Fin 1 → IVec S16 32) a x).toNat < S10880.size a)
instance k0_chk64.dec : ∀ (v272 : IVec S16 32), Decidable (k0_chk64 v272) := fun v272 => decidable_of_iff' _ (Iff.of_eq (k0_chk64.eq_1 v272))
theorem k0_idx64_inb : ∀ (v272 : IVec S16 32) (k0_hw64 : k0_chk64 v272), ∀ a x, ((![v272] : Fin 1 → IVec S16 32) a x).toNat < S10880.size a := fun v272 k0_hw64 => k0_hw64
def k0_off78 (i : grid0.Coords) (c152320_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_17 : BitVec 32 := 4#32
  let v41 : BitVec 32 := Scalar.muli v1 c4_i32_17
  let c43520_i32 : BitVec 32 := 43520#32
  let v42 : BitVec 32 := Scalar.muli v41 c43520_i32
  let v43 : BitVec 32 := Scalar.addi v42 c152320_i32
  ![v43.toNat]
abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x85x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x4096x85 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16x255x64x64_S48x85x4096 : S16x255x64x64.ShapeCasts S48x85x4096
  iota_S16_d0_w32_scVector : S16.Iotas .scVector 32 [0]
  squeezes_S1x85x512_S85x512 : S1x85x512.Squeezes S85x512
  h_S1x16 : 0 < S1x16.numel
  shapeCasts_S1x16_S16 : S1x16.ShapeCasts S16
  h_S10880 : 0 < S10880.numel
  inb_S8x85x4096_S8x85x4096_0_0_0 : ∀ a, (![0, 0, 0] : Fin 3 → Nat) a + S8x85x4096.size a ≤ S8x85x4096.size a
  h_S8x85x4096 : 0 < S8x85x4096.numel
  shapeCasts_S8x85x4096_S8x85x4096 : S8x85x4096.ShapeCasts S8x85x4096
  transposes_S8x85x4096_p0_2_1_S8x4096x85 : S8x85x4096.Transposes [0, 2, 1] S8x4096x85
  inb_S8x4096x85_S8x4096x85_0_0_0 : ∀ a, (![0, 0, 0] : Fin 3 → Nat) a + S8x4096x85.size a ≤ S8x4096x85.size a
  h_S8x4096x85 : 0 < S8x4096x85.numel
  shapeCasts_S5570560_S16x4096x85 : S5570560.ShapeCasts S16x4096x85
  concatenates_S32x4096x85_S16x4096x85_S48x4096x85_d0 : Shape.Concatenates [S32x4096x85, S16x4096x85] S48x4096x85 0
  shapeCasts_S48x4096x85_S16x3x64x64x85 : S48x4096x85.ShapeCasts S16x3x64x64x85
  hcc0_scratch4 : 0 + S_.numel ≤ 8
  hcc0_scratch5 : 1 + S_.numel ≤ 8
  hcc0_scratch6 : 2 + S_.numel ≤ 8
  hcc0_scratch7 : 3 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x85x512.size a ≤ S48x85x4096.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S1x85x512.size a ≤ S48x85x4096.size a
  k0_off3_inb : ∀ (i : grid0.Coords) (k0_t1 : Fin k0_t1_loop.trips), ∀ (r : Fin 2), ∀ a, (k0_off3 i k0_t1 (BitVec.ofNat 32 r.val)) a + S1x85x512.size a ≤ S48x85x4096.size a
  k0_off4_inb : ∀ (i : grid0.Coords) (k0_t1 : Fin k0_t1_loop.trips), ∀ (k0_h2 : k0_cond2 k0_t1 = 1#1), ∀ a, (k0_off4 i k0_t1) a + S10880.size a ≤ S5570560.size a
  k0_t2_ok : k0_t2_loop.OK
  k0_off5_inb : ∀ k0_t2 : Fin k0_t2_loop.trips, ∀ a, (k0_off5 k0_t2) a + S1x16.size a ≤ S85x512.size a
  k0_off6_inb : ∀ k0_t2 : Fin k0_t2_loop.trips, ∀ a, (k0_off6 k0_t2) a + S1x16.size a ≤ S85x512.size a
  k0_off7_inb : ∀ k0_t2 : Fin k0_t2_loop.trips, ∀ a, (k0_off7 k0_t2) a + S1x16.size a ≤ S85x512.size a
  k0_off8_inb : ∀ k0_t2 : Fin k0_t2_loop.trips, ∀ a, (k0_off8 k0_t2) a + S1x16.size a ≤ S85x512.size a
  k0_off9_inb : ∀ k0_t2 : Fin k0_t2_loop.trips, ∀ a, (k0_off9 k0_t2) a + S1x16.size a ≤ S85x512.size a
  k0_off10_inb : ∀ k0_t2 : Fin k0_t2_loop.trips, ∀ a, (k0_off10 k0_t2) a + S1x16.size a ≤ S85x512.size a
  k0_off11_inb : ∀ k0_t2 : Fin k0_t2_loop.trips, ∀ a, (k0_off11 k0_t2) a + S1x16.size a ≤ S85x512.size a
  k0_off12_inb : ∀ k0_t2 : Fin k0_t2_loop.trips, ∀ a, (k0_off12 k0_t2) a + S1x16.size a ≤ S85x512.size a
  k0_off13_inb : ∀ (i : grid0.Coords) (k0_t1 : Fin k0_t1_loop.trips), ∀ (r₁ : Fin 2) (r₂ : Fin 4), ∀ a, (k0_off13 i k0_t1 (BitVec.ofNat 32 r₁.val) (BitVec.ofNat 32 r₂.val)) a + S10880.size a ≤ S5570560.size a
  k0_off14_inb : ∀ (i : grid0.Coords) (k0_t1 : Fin k0_t1_loop.trips), ∀ (k0_h3 : k0_cond3 k0_t1 = 1#1), ∀ a, (k0_off14 i k0_t1) a + S10880.size a ≤ S5570560.size a
  k0_t3_ok : k0_t3_loop.OK
  k0_off15_inb : ∀ k0_t3 : Fin k0_t3_loop.trips, ∀ a, (k0_off15 k0_t3) a + S1x16.size a ≤ S85x512.size a
  k0_off16_inb : ∀ k0_t3 : Fin k0_t3_loop.trips, ∀ a, (k0_off16 k0_t3) a + S1x16.size a ≤ S85x512.size a
  k0_off17_inb : ∀ k0_t3 : Fin k0_t3_loop.trips, ∀ a, (k0_off17 k0_t3) a + S1x16.size a ≤ S85x512.size a
  k0_off18_inb : ∀ k0_t3 : Fin k0_t3_loop.trips, ∀ a, (k0_off18 k0_t3) a + S1x16.size a ≤ S85x512.size a
  k0_off19_inb : ∀ k0_t3 : Fin k0_t3_loop.trips, ∀ a, (k0_off19 k0_t3) a + S1x16.size a ≤ S85x512.size a
  k0_off20_inb : ∀ k0_t3 : Fin k0_t3_loop.trips, ∀ a, (k0_off20 k0_t3) a + S1x16.size a ≤ S85x512.size a
  k0_off21_inb : ∀ k0_t3 : Fin k0_t3_loop.trips, ∀ a, (k0_off21 k0_t3) a + S1x16.size a ≤ S85x512.size a
  k0_off22_inb : ∀ k0_t3 : Fin k0_t3_loop.trips, ∀ a, (k0_off22 k0_t3) a + S1x16.size a ≤ S85x512.size a
  k0_off23_inb : ∀ (i : grid0.Coords) (k0_t1 : Fin k0_t1_loop.trips), ∀ (k0_h4 : k0_cond4 k0_t1 = 1#1), ∀ a, (k0_off23 i k0_t1) a + S10880.size a ≤ S5570560.size a
  k0_t4_ok : k0_t4_loop.OK
  k0_off24_inb : ∀ k0_t4 : Fin k0_t4_loop.trips, ∀ a, (k0_off24 k0_t4) a + S1x16.size a ≤ S85x512.size a
  k0_off25_inb : ∀ k0_t4 : Fin k0_t4_loop.trips, ∀ a, (k0_off25 k0_t4) a + S1x16.size a ≤ S85x512.size a
  k0_off26_inb : ∀ k0_t4 : Fin k0_t4_loop.trips, ∀ a, (k0_off26 k0_t4) a + S1x16.size a ≤ S85x512.size a
  k0_off27_inb : ∀ k0_t4 : Fin k0_t4_loop.trips, ∀ a, (k0_off27 k0_t4) a + S1x16.size a ≤ S85x512.size a
  k0_off28_inb : ∀ k0_t4 : Fin k0_t4_loop.trips, ∀ a, (k0_off28 k0_t4) a + S1x16.size a ≤ S85x512.size a
  k0_off29_inb : ∀ k0_t4 : Fin k0_t4_loop.trips, ∀ a, (k0_off29 k0_t4) a + S1x16.size a ≤ S85x512.size a
  k0_off30_inb : ∀ k0_t4 : Fin k0_t4_loop.trips, ∀ a, (k0_off30 k0_t4) a + S1x16.size a ≤ S85x512.size a
  k0_off31_inb : ∀ k0_t4 : Fin k0_t4_loop.trips, ∀ a, (k0_off31 k0_t4) a + S1x16.size a ≤ S85x512.size a
  k0_off32_inb : ∀ (i : grid0.Coords) (k0_t1 : Fin k0_t1_loop.trips), ∀ (k0_h5 : k0_cond5 k0_t1 = 1#1), ∀ a, (k0_off32 i k0_t1) a + S10880.size a ≤ S5570560.size a
  k0_t5_ok : k0_t5_loop.OK
  k0_off33_inb : ∀ k0_t5 : Fin k0_t5_loop.trips, ∀ a, (k0_off33 k0_t5) a + S1x16.size a ≤ S85x512.size a
  k0_off34_inb : ∀ k0_t5 : Fin k0_t5_loop.trips, ∀ a, (k0_off34 k0_t5) a + S1x16.size a ≤ S85x512.size a
  k0_off35_inb : ∀ k0_t5 : Fin k0_t5_loop.trips, ∀ a, (k0_off35 k0_t5) a + S1x16.size a ≤ S85x512.size a
  k0_off36_inb : ∀ k0_t5 : Fin k0_t5_loop.trips, ∀ a, (k0_off36 k0_t5) a + S1x16.size a ≤ S85x512.size a
  k0_off37_inb : ∀ k0_t5 : Fin k0_t5_loop.trips, ∀ a, (k0_off37 k0_t5) a + S1x16.size a ≤ S85x512.size a
  k0_off38_inb : ∀ k0_t5 : Fin k0_t5_loop.trips, ∀ a, (k0_off38 k0_t5) a + S1x16.size a ≤ S85x512.size a
  k0_off39_inb : ∀ k0_t5 : Fin k0_t5_loop.trips, ∀ a, (k0_off39 k0_t5) a + S1x16.size a ≤ S85x512.size a
  k0_off40_inb : ∀ k0_t5 : Fin k0_t5_loop.trips, ∀ a, (k0_off40 k0_t5) a + S1x16.size a ≤ S85x512.size a
  k0_off41_inb : ∀ (i : grid0.Coords) (k0_t1 : Fin k0_t1_loop.trips), ∀ (k0_h6 : k0_cond6 k0_t1 = 1#1), ∀ a, (k0_off41 i k0_t1) a + S1x85x512.size a ≤ S48x85x4096.size a
  k0_off42_inb : ∀ (i : grid0.Coords) (k0_t1 : Fin k0_t1_loop.trips), ∀ (k0_h7 : k0_cond7 k0_t1 = 1#1), ∀ a, (k0_off42 i k0_t1) a + S10880.size a ≤ S5570560.size a
  k0_t6_ok : k0_t6_loop.OK
  k0_off43_inb : ∀ k0_t6 : Fin k0_t6_loop.trips, ∀ a, (k0_off43 k0_t6) a + S1x16.size a ≤ S85x512.size a
  k0_off44_inb : ∀ k0_t6 : Fin k0_t6_loop.trips, ∀ a, (k0_off44 k0_t6) a + S1x16.size a ≤ S85x512.size a
  k0_off45_inb : ∀ k0_t6 : Fin k0_t6_loop.trips, ∀ a, (k0_off45 k0_t6) a + S1x16.size a ≤ S85x512.size a
  k0_off46_inb : ∀ k0_t6 : Fin k0_t6_loop.trips, ∀ a, (k0_off46 k0_t6) a + S1x16.size a ≤ S85x512.size a
  k0_off47_inb : ∀ k0_t6 : Fin k0_t6_loop.trips, ∀ a, (k0_off47 k0_t6) a + S1x16.size a ≤ S85x512.size a
  k0_off48_inb : ∀ k0_t6 : Fin k0_t6_loop.trips, ∀ a, (k0_off48 k0_t6) a + S1x16.size a ≤ S85x512.size a
  k0_off49_inb : ∀ k0_t6 : Fin k0_t6_loop.trips, ∀ a, (k0_off49 k0_t6) a + S1x16.size a ≤ S85x512.size a
  k0_off50_inb : ∀ k0_t6 : Fin k0_t6_loop.trips, ∀ a, (k0_off50 k0_t6) a + S1x16.size a ≤ S85x512.size a
  k0_off51_inb : ∀ (i : grid0.Coords) (k0_t1 : Fin k0_t1_loop.trips), ∀ (k0_h8 : k0_cond8 k0_t1 = 1#1), ∀ a, (k0_off51 i k0_t1) a + S10880.size a ≤ S5570560.size a
  k0_t7_ok : k0_t7_loop.OK
  k0_off52_inb : ∀ k0_t7 : Fin k0_t7_loop.trips, ∀ a, (k0_off52 k0_t7) a + S1x16.size a ≤ S85x512.size a
  k0_off53_inb : ∀ k0_t7 : Fin k0_t7_loop.trips, ∀ a, (k0_off53 k0_t7) a + S1x16.size a ≤ S85x512.size a
  k0_off54_inb : ∀ k0_t7 : Fin k0_t7_loop.trips, ∀ a, (k0_off54 k0_t7) a + S1x16.size a ≤ S85x512.size a
  k0_off55_inb : ∀ k0_t7 : Fin k0_t7_loop.trips, ∀ a, (k0_off55 k0_t7) a + S1x16.size a ≤ S85x512.size a
  k0_off56_inb : ∀ k0_t7 : Fin k0_t7_loop.trips, ∀ a, (k0_off56 k0_t7) a + S1x16.size a ≤ S85x512.size a
  k0_off57_inb : ∀ k0_t7 : Fin k0_t7_loop.trips, ∀ a, (k0_off57 k0_t7) a + S1x16.size a ≤ S85x512.size a
  k0_off58_inb : ∀ k0_t7 : Fin k0_t7_loop.trips, ∀ a, (k0_off58 k0_t7) a + S1x16.size a ≤ S85x512.size a
  k0_off59_inb : ∀ k0_t7 : Fin k0_t7_loop.trips, ∀ a, (k0_off59 k0_t7) a + S1x16.size a ≤ S85x512.size a
  k0_off60_inb : ∀ (i : grid0.Coords) (k0_t1 : Fin k0_t1_loop.trips), ∀ (k0_h9 : k0_cond9 k0_t1 = 1#1), ∀ a, (k0_off60 i k0_t1) a + S10880.size a ≤ S5570560.size a
  k0_t8_ok : k0_t8_loop.OK
  k0_off61_inb : ∀ k0_t8 : Fin k0_t8_loop.trips, ∀ a, (k0_off61 k0_t8) a + S1x16.size a ≤ S85x512.size a
  k0_off62_inb : ∀ k0_t8 : Fin k0_t8_loop.trips, ∀ a, (k0_off62 k0_t8) a + S1x16.size a ≤ S85x512.size a
  k0_off63_inb : ∀ k0_t8 : Fin k0_t8_loop.trips, ∀ a, (k0_off63 k0_t8) a + S1x16.size a ≤ S85x512.size a
  k0_off64_inb : ∀ k0_t8 : Fin k0_t8_loop.trips, ∀ a, (k0_off64 k0_t8) a + S1x16.size a ≤ S85x512.size a
  k0_off65_inb : ∀ k0_t8 : Fin k0_t8_loop.trips, ∀ a, (k0_off65 k0_t8) a + S1x16.size a ≤ S85x512.size a
  k0_off66_inb : ∀ k0_t8 : Fin k0_t8_loop.trips, ∀ a, (k0_off66 k0_t8) a + S1x16.size a ≤ S85x512.size a
  k0_off67_inb : ∀ k0_t8 : Fin k0_t8_loop.trips, ∀ a, (k0_off67 k0_t8) a + S1x16.size a ≤ S85x512.size a
  k0_off68_inb : ∀ k0_t8 : Fin k0_t8_loop.trips, ∀ a, (k0_off68 k0_t8) a + S1x16.size a ≤ S85x512.size a
  k0_off69_inb : ∀ (i : grid0.Coords) (k0_t1 : Fin k0_t1_loop.trips), ∀ (k0_h10 : k0_cond10 k0_t1 = 1#1), ∀ a, (k0_off69 i k0_t1) a + S10880.size a ≤ S5570560.size a
  k0_t9_ok : k0_t9_loop.OK
  k0_off70_inb : ∀ k0_t9 : Fin k0_t9_loop.trips, ∀ a, (k0_off70 k0_t9) a + S1x16.size a ≤ S85x512.size a
  k0_off71_inb : ∀ k0_t9 : Fin k0_t9_loop.trips, ∀ a, (k0_off71 k0_t9) a + S1x16.size a ≤ S85x512.size a
  k0_off72_inb : ∀ k0_t9 : Fin k0_t9_loop.trips, ∀ a, (k0_off72 k0_t9) a + S1x16.size a ≤ S85x512.size a
  k0_off73_inb : ∀ k0_t9 : Fin k0_t9_loop.trips, ∀ a, (k0_off73 k0_t9) a + S1x16.size a ≤ S85x512.size a
  k0_off74_inb : ∀ k0_t9 : Fin k0_t9_loop.trips, ∀ a, (k0_off74 k0_t9) a + S1x16.size a ≤ S85x512.size a
  k0_off75_inb : ∀ k0_t9 : Fin k0_t9_loop.trips, ∀ a, (k0_off75 k0_t9) a + S1x16.size a ≤ S85x512.size a
  k0_off76_inb : ∀ k0_t9 : Fin k0_t9_loop.trips, ∀ a, (k0_off76 k0_t9) a + S1x16.size a ≤ S85x512.size a
  k0_off77_inb : ∀ k0_t9 : Fin k0_t9_loop.trips, ∀ a, (k0_off77 k0_t9) a + S1x16.size a ≤ S85x512.size a
  k0_off78_inb : ∀ i : grid0.Coords, ∀ (r : Fin 2), ∀ a, (k0_off78 i (BitVec.ofNat 32 (152320 + 10880 * r.val))) a + S10880.size a ≤ S5570560.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x85x4096.size a ≤ S48x85x4096.size a
  hwx1_0 : ∀ i : grid1.Coords, EltTy.bits .f32 = 32 ∨ (Rect.block (s := S48x85x4096) S8x85x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x4096x85.size a ≤ S32x4096x85.size a
  hwx1_1 : ∀ i : grid1.Coords, EltTy.bits .f32 = 32 ∨ (Rect.block (s := S32x4096x85) S8x4096x85.size (cc1_transform_1 i) (hinb1_1 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7

abbrev win1_0 : Pipeline.Window sig grid1 :=
  Pipeline.Window.ofSpec (Memref.whole main_v0) S8x85x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8x4096x85.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16x255x64x64 : Shape := ⟨4, ![16, 255, 64, 64]⟩
abbrev S16x3x85x64x64 : Shape := ⟨5, ![16, 3, 85, 64, 64]⟩
abbrev S16x3x64x64x85 : Shape := ⟨5, ![16, 3, 64, 64, 85]⟩

abbrev nBuf : Space → Nat
  | .hbm => 3
  | .vmem => 0
  | .smem => 0
  | _ => 0

abbrev bufTy : (tb : Table) → Fin (tcTables nBuf tb) → BufTy
  | .hbm, ⟨0, _⟩ => ⟨S16x255x64x64, .f32⟩
  | .hbm, ⟨1, _⟩ => ⟨S16x3x85x64x64, .f32⟩
  | .hbm, ⟨2, _⟩ => ⟨S16x3x64x64x85, .f32⟩
  | _, _ => ⟨S16x255x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  shapeCasts_S16x255x64x64_S16x3x85x64x64 : S16x255x64x64.ShapeCasts S16x3x85x64x64
  transposes_S16x3x85x64x64_S16x3x64x64x85_0_1_3_4_2 : S16x3x85x64x64.Transposes [0, 1, 3, 4, 2] S16x3x64x64x85

variable [Facts₀]

class Facts : Prop extends Facts₀ where

variable [Facts]
-- ==== Proof.KernelSetup.lean ====
/-
  Shared set-up for the kernel's program: the program as the SparseCore launch theorem sees it (one
  vector-subcore call, one TensorCore pipeline), the ghost-state algebra (the launch handshakes' rounds, the
  TensorCore pipeline's staging cells' rounds, and the local transfers' counters) and the names of the arrays.
-/
import proofs.«218930_g44392781971697_cont_8to1c4_23_28_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218930_g44392781971697_cont_8to1c4_23_28_alg».proof.Proof.Gen.Kernel
import proofs.«218930_g44392781971697_cont_8to1c4_23_28_alg».proof.Proof.Gen.Kernel.Skeleton
import proofs.«218930_g44392781971697_cont_8to1c4_23_28_alg».proof.Proof.Gen.Kernel.Launch

noncomputable section

namespace Cert.Proof.KernelSetup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays, as locations of device `d` -/

abbrev pLoc (d : Dev nD) : Loc nD τ sig := (SparseCore.T d).loc main_arg0
abbrev xLoc (d : Dev nD) : Loc nD τ sig := (SparseCore.T d).loc main_v0
abbrev sLoc (d : Dev nD) : Loc nD τ sig := (SparseCore.T d).loc main_v1
abbrev tLoc (d : Dev nD) : Loc nD τ sig := (SparseCore.T d).loc main_v2

end Cert.Proof.KernelSetup

end
-- ==== Proof.KernelRegion.lean ====
/-
  The TensorCore pallas_call of the program — slabs 0 … 31 of the input, eight at a time, each block [8, 85, 4096]
  transposed to [8, 4096, 85] — as one region of the TensorCore's program inside the SparseCore launch: the body's
  triple, the pipeline's proof data (each input block fetched whole; each output block the transposed input block,
  written back whole), and the region's rule from the arrays held at a valuation, the TensorCore owing nothing, to
  the output array at what the four write-backs leave.
-/
import proofs.«218930_g44392781971697_cont_8to1c4_23_28_alg».proof.Proof.KernelSetup
import proofs.«218930_g44392781971697_cont_8to1c4_23_28_alg».proof.Proof.Gen.Kernel.Points
import Idealize.ShloMosaic.Lib.Pipeline.Regions
import Idealize.ShloMosaic.Lib.Pipeline.FrameBody
import Idealize.ShloMosaic.Lib.Tactic

set_option maxRecDepth 16384

noncomputable section

namespace Cert.Proof.KernelRegion

open Cert.Kernel Cert.Kernel.Gen Cert.Proof.KernelSetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- No pipeline of the program has a prefetched table. -/
abbrev adm : (p : Fin 1) → (pcfgs (F := F) p).Adm := fun p => (cfgs p).toPCfg_adm

/-! ## The call, under the program's own table and under the extended one -/

/-- The printed call is the pipeline's own call read over the extended signature. -/
theorem call_lifted : (Prog.lift (.customCall (SparseCore.inner (Pipeline.entry (0 : Fin 1))) ()) :
      Prog (TpuEff nD τ sig (Elt F) (SparseCore.Sig (ΛP (F := F)) 1) .tc) PUnit)
    = SparseCore.liftProg (Prog.lift (.customCall (Pipeline.entry (0 : Fin 1)) ()) : Prog (TpuEff nD τ sig (Elt F) (ΛP (F := F)) .tc) PUnit) := rfl

/-- A proof about the pipeline's call under the program's table is one about the printed call under the extended table. -/
theorem wp_call_lift (d : Dev nD) (Φ : PUnit → sProp 𝕄) :
    wp frame (wpE (D (F := F)) 𝒱 (T d) none) Set.univ
        (Prog.lift (.customCall (Pipeline.entry (0 : Fin 1)) ()) : Prog (TpuEff nD τ sig (Elt F) (ΛP (F := F)) .tc) PUnit) Φ
      ⊢ wp frame (wpE ((K (F := F)).defs (D (F := F))) 𝒱 (T d) none) Set.univ
          (Prog.lift (.customCall (SparseCore.inner (Pipeline.entry (0 : Fin 1))) ())) Φ := by
  rw [call_lifted]
  exact (K (F := F)).wp_liftProg (D (F := F)) 𝒱 (T d) Set.univ none
    (Prog.lift (.customCall (Pipeline.entry (0 : Fin 1)) ()) : Prog (TpuEff nD τ sig (Elt F) (ΛP (F := F)) .tc) PUnit) Φ

/-! ## The body -/

/-- The body's two accesses: the whole input block, the whole output block. -/
abbrev rIn : Rect S8x85x4096 := Rect.unit (s := S8x85x4096) ![0, 0, 0] S8x85x4096.size inb_S8x85x4096_S8x85x4096_0_0_0
abbrev rOut : Rect S8x4096x85 := Rect.unit (s := S8x4096x85) ![0, 0, 0] S8x4096x85.size inb_S8x4096x85_S8x4096x85_0_0_0

/-- What the body leaves in the output block's buffer, from the input block: its one store, of the transposed block. -/
def outBlk (x0 : Vec F S8x85x4096 .f32) : Vec F S8x4096x85 .f32 :=
  View.canon [⟨rOut, k1_pay1 (View.ld x0 rIn)⟩]

/-- The one store covers the buffer. -/
theorem cover_out (p0 : Vec F S8x4096x85 .f32) (y : S8x4096x85.Idx) :
    ∃ pc ∈ ([⟨rOut, p0⟩] : List (View.Piece (Elt F) S8x4096x85 .f32)), y ∈ pc.1.set :=
  View.cover_of_tiled [⟨rOut, p0⟩] S8x4096x85.size (by rfl) y

set_option maxHeartbeats 1000000 in
/-- The body on whole staging memrefs: the input's at contents `x0`, the output's at anything, to the input's as it was and
    the output's at `outBlk x0`. -/
theorem sound_kernel (c : Dev nD) (E : Set ℕ) (i : grid1.Coords)
    (arg1 : Memref sig .tc .vmem S8x85x4096 .f32) (harg1 : arg1.IsWhole) (arg2 : Memref sig .tc .vmem S8x4096x85 .f32) (harg2 : arg2.IsWhole)
    (x0 : Vec F S8x85x4096 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ Kk ⟨⟩))
      ⊢ wp frame (wpE (defs₀ (F := F)) Variants.none c none) E (cc1__transpose_body i arg1 harg1 arg2 harg2) Kk := by
  simp only [cc1__transpose_body_eq_skeleton]; unfold cc1__transpose_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

-- the TensorCore's arrays as the region finds them
variable (Vr : Valuation τ sig (Elt F))

/-- The same, indexed by the TensorCore's own references. -/
abbrev Vtc (d : Dev nD) (b : Ref sig .tc) : Buf (Elt F) ((d : Thread nD τ).loc b) := Vr (Proc.devRef .tc b)

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (Vtc Vr d (Pipeline.arrRef spec1 w))

/-- The (semaphore, index) pairs of the TensorCore of `d` that sit at the levels of the first call or below: every pair
    its waits have recorded when the region is entered, and every pair the pipeline's own waits add. -/
abbrev lowPairs (d : Dev nD) : Set (SemLoc sig × HIx 1) := {p | (K (F := F)).lev ((T d), p.1) p.2 ≤ 8}

/-- The proof data on device `d`: the arrays as the region finds them; after the body the input's buffer at its block and
    the output's at the transposed block; no invariant; nothing owed; full shares. -/
def dats (_ : Fin 1) (d : Dev nD) : Dat τ (Elt F) (HIx 1) ℕ UU ℕ cfg1 d where
  A w := Vtc Vr d (Pipeline.arrRef spec1 w)
  after w t := match w with
    | ⟨0, _⟩ => iblk Vr d 0 t
    | ⟨1, _⟩ => outBlk (iblk Vr d 0 t)
  Φ _ := iprop(emp)
  q _ := fullShare
  owed _ := 0
  recorded _ := lowPairs (F := F) d

theorem A_eq (d : Dev nD) (w : Fin cfg1.W) : (dats Vr 0 d).A w = Vtc Vr d (Pipeline.arrRef spec1 w) := by dsimp only [dats]
theorem after_in (d : Dev nD) (t : Fin cfg1.N) : (dats Vr 0 d).after 0 t = iblk Vr d 0 t := by dsimp only [dats]
theorem after_out (d : Dev nD) (t : Fin cfg1.N) : (dats Vr 0 d).after 1 t = outBlk (iblk Vr d 0 t) := by dsimp only [dats]

/-- The input's current staging buffer holds its block at every point. -/
theorem before_in (d : Dev nD) (t : Fin cfg1.N) (dd) : (dats Vr 0 d).before 0 t dd = iblk Vr d 0 t :=
  ((dats Vr 0 d).before_in_eq_fetched 0 rfl (fun _ => rfl) (fun _ _ _ => rfl)
      (fun t => by rw [after_in]; unfold Dat.blockOf iblk; rw [A_eq]; try rfl) t dd).trans
    (by unfold Dat.fetched Dat.blockOf iblk; rw [A_eq]; try rfl)

/-! ## The body obligation -/

/-- What the body is called with at point `t`, -/
def bodyPre (d : Dev nD) (t : Fin cfg1.N) : sProp 𝕄 :=
  iprop((dats Vr 0 d).Φ t.castSucc ∗ (dats Vr 0 d).owesAt (none : HIx 1) t.castSucc
    ∗ (∃ dd, owns (d : Thread nD τ) (st1_0 t) fullShare ((dats Vr 0 d).before 0 t dd))
    ∗ (∃ dd, owns (d : Thread nD τ) (st1_1 t) fullShare ((dats Vr 0 d).before 1 t dd)))

/-- and what it returns. -/
def bodyPost (d : Dev nD) (t : Fin cfg1.N) : sProp 𝕄 :=
  iprop((dats Vr 0 d).Φ t.succ ∗ (dats Vr 0 d).owesAt (none : HIx 1) t.succ
    ∗ owns (d : Thread nD τ) (st1_0 t) fullShare ((dats Vr 0 d).after 0 t)
    ∗ owns (d : Thread nD τ) (st1_1 t) fullShare ((dats Vr 0 d).after 1 t))

theorem sound_body (d : Dev nD) (t : Fin cfg1.N) :
    bodyPre Vr d t ⊢ wp frame (wpE (defs₀ (F := F)) Variants.none d none) Set.univ (bodyAt1 t) (fun _ => bodyPost Vr d t) := by
  unfold bodyPre bodyPost bodyAt1
  simp only [before_in]
  rw [show (dats Vr 0 d).Φ t.succ = (dats Vr 0 d).Φ t.castSucc from rfl,
    show (dats Vr 0 d).owesAt (none : HIx 1) t.succ = (dats Vr 0 d).owesAt (none : HIx 1) t.castSucc from rfl,
    after_in, after_out]
  iintro ⟨HΦ, Ho, ⟨%d0, H0⟩, ⟨%d1, H1⟩⟩
  iapply (sound_kernel d Set.univ (grid1.coords t) _ _ _ _ (iblk Vr d 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (d : Dev nD) : BodyObligation (dats (F := F) Vr 0 d) (defs₀ (F := F)) Variants.none (none : HIx 1) Set.univ := fun t => by
  rw [bigSep_W1, bigSep_W1]
  exact sound_body Vr d t

/-! ## The region -/

/-- The TensorCore's unscoped references, as device buffers: the arrays of @main. -/
def ucRefs : Finset (DevRef τ sig) := (StableHlo.tcRefs τ sig).filter fun b => ¬ b.isScoped

omit [FloatOps F] in
/-- The TensorCore's unscoped buffers at a valuation are that set held at it. -/
theorem unscopedBufs_held (c : Dev nD) (W : Valuation τ sig (Elt F)) :
    (unscopedBufs c (fun b => W (Proc.devRef .tc b)) : sProp 𝕄) = StableHlo.held (c : Thread nD τ) ucRefs W := by
  unfold unscopedBufs StableHlo.held ucRefs StableHlo.tcRefs
  rw [Finset.filter_map, bigSep_map]
  rfl

/-- The TensorCore of `d` owing nothing, every pair its waits have recorded at the first call's levels or below. -/
def owesLow (d : Dev nD) : sProp 𝕄 :=
  iprop(∃ W, ⌜(K (F := F)).WBelow (T d) W 8⌝ ∗ owes (T d) (0 : CellTallies nD τ sig (HIx 1)) W)

/-- What the region is entered from: @main's arrays at the valuation, nothing owed; -/
def regPre (d : Dev nD) : sProp 𝕄 := iprop(StableHlo.held (d : Thread nD τ) ucRefs Vr ∗ owesLow (F := F) d)
/-- and what it leaves: the two windowed arrays after the four write-backs, the other arrays untouched, nothing owed. -/
def regPost (d : Dev nD) : sProp 𝕄 :=
  iprop((dats Vr 0 d).arrays ((dats Vr 0 d).arrAt · cfg1.N) ∗ Pipeline.unscopedRest spec1 d (Vtc Vr d) ∗ owesLow (F := F) d)

/-- Owing nothing below the first call's levels is owing nothing within the proof data's bound; -/
theorem owesLow_owesAt (d : Dev nD) (t : Fin (cfg1.N + 1)) :
    owesLow (F := F) d ⊢ ((dats Vr 0 d).owesAt (none : HIx 1) t : sProp 𝕄) := by
  unfold owesLow Pipeline.Dat.owesAt Pipeline.owesWithin
  iintro ⟨%W, %hW, HO⟩
  iexists W; isplitr
  · ipureintro; exact fun p hp => Or.inl (hW p (Finset.mem_coe.mp hp))
  iexact HO

/-- and back: the pairs the pipeline's own waits record sit at index `none`, the lowest level. -/
theorem owesAt_owesLow (d : Dev nD) (t : Fin (cfg1.N + 1)) :
    ((dats Vr 0 d).owesAt (none : HIx 1) t : sProp 𝕄) ⊢ owesLow (F := F) d := by
  unfold owesLow Pipeline.Dat.owesAt Pipeline.owesWithin
  iintro ⟨%W, %hW, HO⟩
  iexists W; isplitr
  · ipureintro; intro p hp
    rcases hW (Finset.mem_coe.mpr hp) with h | ⟨w, s, rfl⟩
    · exact h
    · exact Nat.zero_le _
  iexact HO

/-- ENTRY: the two windowed arrays to the pipeline, the other arrays past it. -/
theorem reg_entry (c : Dev nD) :
    regPre Vr c ⊢ iprop((dats Vr 0 c).arrays ((dats Vr 0 c).arrAt · 0) ∗ (dats Vr 0 c).owesAt (none : HIx 1) 0
      ∗ Pipeline.unscopedRest spec1 c (Vtc Vr c) : sProp 𝕄) := by
  unfold regPre
  rw [← unscopedBufs_held]
  have hsplit := Pipeline.arrays_of_unscopedBufs (pcfgs (F := F)) adm (dats Vr) launch1.win launch1.arr_whole c
    ((dats Vr 0 c).share_full fun _ => rfl) (Vtc Vr c) fun _ => rfl
  iintro ⟨Hub, HO⟩
  ihave H := hsplit $$ Hub
  icases H with ⟨Ha, Hrest⟩
  isplitl [Ha]; · iexact Ha
  isplitl [HO]; · iapply (owesLow_owesAt Vr c 0); iexact HO
  iexact Hrest

/-! ### The record's four entailments -/

theorem reg_hentry (c : Dev nD) :
    iprop(regPre Vr c ∗ Pipeline.ownSems0 (Ix := HIx 1) (Name := ℕ) (U := UU) (Lvl := ℕ) (Val := Elt F) (τ := τ) (fun k : PEmpty => k.elim) c
        ∗ levAts (K (F := F)).L (K (F := F)).lev)
      ⊢ |={Set.univ}=> iprop((dats Vr 0 c).arrays ((dats Vr 0 c).arrAt · 0)
          ∗ Pipeline.prefHeld (pcfgs (F := F) 0).pre c (fun _ => fullShare) (adm (F := F) 0).1
          ∗ (dats Vr 0 c).owesAt (none : HIx 1) 0 ∗ (iprop(emp) : sProp 𝕄) ∗ Pipeline.unscopedRest spec1 c (Vtc Vr c)) := by
  iintro ⟨Hpre, Hos, Hlev⟩
  ihave H := (reg_entry Vr c) $$ Hpre
  icases H with ⟨Ha, HO, Hrest⟩
  imodintro
  isplitl [Ha]; · iexact Ha
  isplitr; · unfold Pipeline.prefHeld; rw [show (Finset.univ : Finset (Fin 0)) = ∅ from rfl, BI.bigSep_empty]; iempintro
  isplitl [HO]; · iexact HO
  isplitr; · iempintro
  iexact Hrest

theorem reg_hexit (c : Dev nD) :
    iprop((dats Vr 0 c).arrays ((dats Vr 0 c).arrAt · cfg1.N) ∗ (dats Vr 0 c).owesAt (none : HIx 1) (Fin.last cfg1.N)
        ∗ (iprop(emp) : sProp 𝕄) ∗ Pipeline.unscopedRest spec1 c (Vtc Vr c))
      ⊢ |={Set.univ}=> regPost Vr c := by
  unfold regPost
  iintro ⟨Ha, HO, He, HZ⟩
  imodintro
  isplitl [Ha]; · iexact Ha
  isplitl [HZ]; · iexact HZ
  iapply (owesAt_owesLow Vr c _); iexact HO

theorem reg_hout (c : Dev nD) :
    (iprop(emp) : sProp 𝕄) ⊢ iprop((iprop(emp) : sProp 𝕄)
      ∗ Pipeline.ownSems0 (Ix := HIx 1) (Name := ℕ) (U := UU) (Lvl := ℕ) (Val := Elt F) (τ := τ) (fun k : PEmpty => k.elim) c
      ∗ Pipeline.scopedRest spec1 c) := by
  rw [Pipeline.ownSems0_none, scopedRest1_eq]
  iintro H
  isplitl [H]; · iexact H
  isplitr <;> iempintro

set_option maxHeartbeats 1000000 in
/-- The region's record: the generated layout facts, no semaphore of the kernel's own, the body obligation, and the
    entry and exit: the two windowed arrays go to the pipeline, the other arrays bypass it, nothing enters the invariant. -/
def reg : Pipeline.RegionSeg (pcfgs (F := F)) adm (dats Vr) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation Vr c).loose
  hwaits := Pipeline.hwaits_of_owed_zero _ _ _ _ (K (F := F)).L (K (F := F)).lev 0 fun _ _ => rfl
  pre := regPre Vr
  post := regPost Vr
  X _ := iprop(emp)
  Y _ := iprop(emp)
  Z c := Pipeline.unscopedRest spec1 c (Vtc Vr c)
  hentry := reg_hentry Vr
  hin c := sep_elim_left
  hout := reg_hout
  hexit := reg_hexit Vr

set_option maxHeartbeats 1000000 in
/-- The region rule at the launch theorem's indices, levels and names, for any proof data and record. -/
theorem wp_region_of [∀ e, Nonempty (Elt F e)]
    (pdats : (p : Fin 1) → (c : Dev nD) → Dat τ (Elt F) (HIx 1) ℕ UU ℕ (Pipeline.pin (pcfgs (F := F)) adm p) c)
    (R : Pipeline.RegionSeg (pcfgs (F := F)) adm pdats (none : HIx 1) defs₀ 𝒱₀ (K (F := F)).L (K (F := F)).lev 0)
    (d : Dev nD) (Φ : PUnit → sProp 𝕄) :
    iprop((iprop(boundary (T d) ∗ R.post d) -∗ wp frame (wpE (D (F := F)) 𝒱 (T d) none) Set.univ (.ret ⟨⟩) Φ)
        ∗ boundary (T d) ∗ R.pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ
          (Prog.lift (.customCall (Pipeline.entry (0 : Fin 1)) ()) : Prog (TpuEff nD τ sig (Elt F) (ΛP (F := F)) .tc) PUnit) Φ :=
  Pipeline.RegionSeg.wp (pcfgs (F := F)) adm pdats (none : HIx 1) cellOf_inj EP defs₀ 𝒱₀
    (K (F := F)).L (K (F := F)).lev R d none (fun _ h => nomatch h) (fun _ => .ret ⟨⟩) Φ

/-- The staging cells' launch ghost state of device `d`: what the launch element funds and the region consumes. -/
abbrev cellsG (d : Dev nD) : sProp 𝕄 :=
  iprop(Pipeline.cellsGhost (Pipeline.pin (pcfgs (F := F)) adm) EP 0 d ∗ Pipeline.toksInit (Pipeline.pin (pcfgs (F := F)) adm) EP 0 d)

/-- A continuation that takes `A` runs the return from `A`. -/
theorem wand_ret (d : Dev nD) (A : sProp 𝕄) (Φ : PUnit → sProp 𝕄) :
    iprop(A -∗ Φ ⟨⟩) ⊢ iprop(A -∗ wp frame (wpE (D (F := F)) 𝒱 (T d) none) Set.univ (.ret ⟨⟩) Φ) := by
  iintro Hk H
  rw [wp_ret]; imodintro
  iapply Hk; iexact H

/-- THE REGION, as @main's proof meets it: from the boundary, the arrays held at `Vr`, the TensorCore owing nothing, the
    level facts and the staging cells' launch ghost state, the printed call runs to the boundary and what the region leaves. -/
theorem wp_region [∀ e, Nonempty (Elt F e)] (d : Dev nD) (Φ : PUnit → sProp 𝕄) :
    iprop((iprop(boundary (T d) ∗ regPost Vr d) -∗ Φ ⟨⟩)
        ∗ boundary (T d) ∗ regPre Vr d ∗ levAts (K (F := F)).L (K (F := F)).lev ∗ cellsG (F := F) d)
      ⊢ wp frame (wpE ((K (F := F)).defs (D (F := F))) 𝒱 (T d) none) Set.univ
          (Prog.lift (.customCall (SparseCore.inner (Pipeline.entry (0 : Fin 1))) ())) Φ := by
  refine BI.Entails.trans ?_ (wp_call_lift d Φ)
  have h := wp_region_of (dats Vr) (reg Vr) d Φ
  rw [show (reg Vr).post = regPost Vr from rfl, show (reg Vr).pre = regPre Vr from rfl] at h
  exact (sep_mono (wand_ret d _ Φ) .rfl).trans h

end Cert.Proof.KernelRegion

end
-- ==== Proof.KernelPay.lean ====
/-
  What the SparseCore call moves between the TensorCore and the vector subcores: the input viewed as 48 slabs of
  85 rows of 4096 words is read by every tile under a read share of its own; the flat output of the call is cut into
  512 pieces of 10880 words, sixteen consecutive pieces per tile, tile (c, s) owning pieces 16·(2s + c) … 16·(2s + c) + 15.
  A tile takes its pieces at the launch contents and hands them back at the one whole-array function `Sv`:
  word ((n·4096 + r)·85 + o) of the output is word (32 + n, o, r) of the input.
-/
import proofs.«218930_g44392781971697_cont_8to1c4_23_28_alg».proof.Proof.KernelSetup
import Idealize.ShloMosaic.Lib.ValueIdx

noncomputable section

namespace Cert.Proof.KernelPay

open Cert.Kernel Cert.Kernel.Gen Cert.Proof.KernelSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The input viewed as [48, 85, 4096]: what the first host operation leaves in `main_v0`. -/
def Xv (d : Dev nD) : Buf (Elt F) (xLoc d) :=
  shapeCast S48x85x4096 (m (pLoc d)) shapeCasts_S16x255x64x64_S48x85x4096

/-- Slab, row and column of flat word `j` of the SparseCore's output. -/
theorem slab_lt (j : ℕ) (hj : j < 5570560) : 32 + j / 348160 < 48 := by omega
theorem col_lt (j : ℕ) : j % 85 < 85 := Nat.mod_lt _ (by decide)
theorem row_lt (j : ℕ) : j / 85 % 4096 < 4096 := Nat.mod_lt _ (by decide)

/-- The flat array the SparseCore call leaves in `main_v1`: slabs 32 … 47 of the input, each transposed. -/
def Sv (d : Dev nD) : Buf (Elt F) (sLoc d) := fun j =>
  Xv m d (ValueIdx.ix3 (⟨32 + (j 0).val / 348160, slab_lt _ (j 0).isLt⟩ : Fin 48) (⟨(j 0).val % 85, col_lt _⟩ : Fin 85) (⟨(j 0).val / 85 % 4096, row_lt _⟩ : Fin 4096))

theorem hdiv512 : 512 ∣ S5570560.size 0 := ⟨10880, rfl⟩
/-- The `j`-th block of 10880 words of the output. -/
abbrev pieceR (j : Fin 512) : Rect S5570560 := Rect.part (s := S5570560) (a₀ := 0) hdiv512 j
abbrev piece (j : Fin 512) : Finset S5570560.Idx := ((Memref.whole main_v1_scv : Memref sig .scVector .hbm S5570560 .f32).view.slice (pieceR j)).set

theorem pieceIx_lt (c : Fin 2) (s : Fin 16) (k : Fin 16) : (2 * s.val + c.val) * 16 + k.val < 512 := by omega
/-- Piece `k` of tile `(c, s)`. -/
abbrev pieceOf (c : Fin 2) (s : Fin 16) (k : Fin 16) : Fin 512 := ⟨(2 * s.val + c.val) * 16 + k.val, pieceIx_lt c s k⟩

/-- Tile `(c, s)`'s read share of the input. -/
abbrev tileShare (c : Fin 2) (s : Fin 16) : PosShare TreeShare := Transfers.shareTok (Transfers.shareTok fullShare 2 c) 16 s

/-- What a tile takes, and what it hands back. -/
def goR (d : Dev nD) (c : Fin 2) (s : Fin 16) : sProp 𝕄 :=
  iprop((xLoc d ↦{tileShare c s} Xv m d) ∗ bigSep Finset.univ fun k : Fin 16 => sLoc d ↦[piece (pieceOf c s k)]{fullShare} m (sLoc d))
def tdR (d : Dev nD) (c : Fin 2) (s : Fin 16) : sProp 𝕄 :=
  iprop((xLoc d ↦{tileShare c s} Xv m d) ∗ bigSep Finset.univ fun k : Fin 16 => sLoc d ↦[piece (pieceOf c s k)]{fullShare} Sv m d)

instance goR_storable (d : Dev nD) (c : Fin 2) (s : Fin 16) : BI.Storable (upEmb : UEmb _ 𝕄) (goR m d c s) := by unfold goR; infer_instance
instance tdR_storable (d : Dev nD) (c : Fin 2) (s : Fin 16) : BI.Storable (upEmb : UEmb _ 𝕄) (tdR m d c s) := by unfold tdR; infer_instance

/-- The one call hands SparseCore `c` its sixteen tiles' shares and pieces, and takes them back. -/
def P : (K (F := F)).Pay (nD := nD) (Val := Elt F) (Name := ℕ) (U := UU) where
  st := fun q d c => match q with | 0 => bigSep Finset.univ fun s : Fin 16 => goR m d (Fin.cast nCore_zero c) s
  dn := fun q d c => match q with | 0 => bigSep Finset.univ fun s : Fin 16 => tdR m d (Fin.cast nCore_zero c) s
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun s : Fin 16 => goR m d (Fin.cast nCore_zero c) s))
  dn q d c := match q with | 0 => (inferInstance : BI.Storable (upEmb : UEmb _ 𝕄) (bigSep Finset.univ fun s : Fin 16 => tdR m d (Fin.cast nCore_zero c) s))
  go q d c i := match q with | 0 => (inferInstance : BI.Storable (upEmb : UEmb _ 𝕄) (goR m d (Fin.cast nCore_zero c) (Fin.cast nSub_zero i)))
  td q d c i := match q with | 0 => (inferInstance : BI.Storable (upEmb : UEmb _ 𝕄) (tdR m d (Fin.cast nCore_zero c) (Fin.cast nSub_zero i)))

/-- A SparseCore's operands are its tiles' and its results theirs. -/
theorem vecSplit : (K (F := F)).VecSplit' (P m) 0 := by
  intro d c
  show (bigSep Finset.univ fun s : Fin 16 => goR m d (Fin.cast nCore_zero c) s) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m d (Fin.cast nCore_zero c) (Fin.cast nSub_zero i))
          -∗ bigSep Finset.univ fun s : Fin 16 => tdR m d (Fin.cast nCore_zero c) s))
  rw [show (bigSep Finset.univ fun i : Fin ((K (F := F)).nSub 0) => goR m d (Fin.cast nCore_zero c) (Fin.cast nSub_zero i))
        = bigSep Finset.univ fun s : Fin 16 => goR m d (Fin.cast nCore_zero c) s from bigSep_congr fun _ _ => congrArg _ (Fin.ext rfl),
    show (bigSep Finset.univ fun i : Fin ((K (F := F)).nSub 0) => tdR m d (Fin.cast nCore_zero c) (Fin.cast nSub_zero i))
        = bigSep Finset.univ fun s : Fin 16 => tdR m d (Fin.cast nCore_zero c) s from bigSep_congr fun _ _ => congrArg _ (Fin.ext rfl)]
  iintro H; imodintro
  isplitl [H]; · iexact H
  iintro H; iexact H

end Cert.Proof.KernelPay

end
-- ==== Proof.KernelCall.lean ====
/-
  What the TensorCore hands the SparseCore call and takes back, in whole arrays: the input array, held whole, is dealt as
  one read share per tile (two SparseCores, sixteen tiles each) beside the remainders of the two divisions, and put back;
  the call's flat output array, held whole, is its 512 blocks of 10880 words, grouped sixteen consecutive blocks per tile.
-/
import proofs.«218930_g44392781971697_cont_8to1c4_23_28_alg».proof.Proof.KernelPay

noncomputable section

namespace Cert.Proof.KernelCall

open Cert.Kernel Cert.Kernel.Gen Cert.Proof.KernelSetup Cert.Proof.KernelPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The output's blocks -/

theorem piece_eq (j : Fin 512) : KernelPay.piece j = (pieceR j).set := by
  show ((View.whole (main_v1_scv : Ref sig .scVector)).slice (pieceR j)).set = _
  rw [View.set_slice]; exact Finset.map_refl

theorem pieces_disjoint : ∀ i ∈ (Finset.univ : Finset (Fin 512)), ∀ j ∈ (Finset.univ : Finset (Fin 512)), i ≠ j → Disjoint (KernelPay.piece i) (KernelPay.piece j) :=
  fun i _ j _ h => by rw [piece_eq, piece_eq]; exact Rect.part_disjoint hdiv512 h

theorem pieces_cover : (Finset.univ : Finset (Fin 512)).biUnion KernelPay.piece = Finset.univ :=
  (Finset.biUnion_congr rfl fun i _ => piece_eq i).trans (Rect.biUnion_part hdiv512)

/-- Block `(2s + c)·16 + k` is tile `(c, s)`'s `k`-th: the blocks, counted by tile. -/
def tileEquiv : (Fin 2 × Fin 16 × Fin 16) ≃ Fin 512 where
  toFun x := KernelPay.pieceOf x.1 x.2.1 x.2.2
  invFun j := (⟨j.val / 16 % 2, Nat.mod_lt _ (by decide)⟩, ⟨j.val / 32, by have := j.isLt; omega⟩, ⟨j.val % 16, Nat.mod_lt _ (by decide)⟩)
  left_inv := by
    rintro ⟨c, s, k⟩
    have hc := c.isLt; have hs := s.isLt; have hk := k.isLt
    refine Prod.ext (Fin.ext ?_) (Prod.ext (Fin.ext ?_) (Fin.ext ?_)) <;> simp only [KernelPay.pieceOf] <;> omega
  right_inv := by
    intro j
    have hj := j.isLt
    refine Fin.ext ?_; simp only [KernelPay.pieceOf]; omega

/-- The output array, whole, is its blocks grouped by tile. -/
theorem sPts_tiles (d : Dev nD) (f : Buf (Elt F) (sLoc d)) :
    (sLoc d ↦{fullShare} f : sProp 𝕄)
      = bigSep Finset.univ fun c : Fin 2 => bigSep Finset.univ fun s : Fin 16 => bigSep Finset.univ fun k : Fin 16 =>
          sLoc d ↦[KernelPay.piece (KernelPay.pieceOf c s k)]{fullShare} f := by
  rw [show (sLoc d ↦{fullShare} f : sProp 𝕄) = bigSep Finset.univ fun j : Fin 512 => sLoc d ↦[KernelPay.piece j]{fullShare} f from by
      rw [← pointsTo_biUnion Finset.univ (ℓ := sLoc d) KernelPay.piece pieces_disjoint, pieces_cover]; try rfl,
    bigSep_univ_equiv tileEquiv, bigSep_univ_prod]
  refine bigSep_congr fun c _ => ?_
  rw [bigSep_univ_prod]
  rfl

/-! ## The input's read shares -/

/-- What stays with the TensorCore of the input array while the tiles read it: the remainders of the two divisions. -/
def xRem (d : Dev nD) (X : Buf (Elt F) (xLoc d)) : sProp 𝕄 :=
  iprop((xLoc d ↦{Transfers.shareDrop fullShare 2} X)
    ∗ bigSep Finset.univ fun c : Fin 2 => xLoc d ↦{Transfers.shareDrop (Transfers.shareTok fullShare 2 c) 16} X)

/-- The whole array divides between the two SparseCores, -/
theorem whole_split (d : Dev nD) (X : Buf (Elt F) (xLoc d)) :
    (xLoc d ↦{fullShare} X : sProp 𝕄)
      ⊢ iprop((xLoc d ↦{Transfers.shareDrop fullShare 2} X) ∗ bigSep Finset.univ fun c : Fin 2 => xLoc d ↦{Transfers.shareTok fullShare 2 c} X) :=
  Transfers.pointsTo_toks_split fullShare 2

/-- and is put back from them. -/
theorem whole_join (d : Dev nD) (X : Buf (Elt F) (xLoc d)) :
    iprop((xLoc d ↦{Transfers.shareDrop fullShare 2} X) ∗ bigSep Finset.univ fun c : Fin 2 => xLoc d ↦{Transfers.shareTok fullShare 2 c} X)
      ⊢ (xLoc d ↦{fullShare} X : sProp 𝕄) :=
  Transfers.pointsTo_toks_join fullShare 2

/-- Each SparseCore's share divides among its sixteen tiles, -/
theorem core_split (d : Dev nD) (X : Buf (Elt F) (xLoc d)) :
    (bigSep Finset.univ fun c : Fin 2 => (xLoc d ↦{Transfers.shareTok fullShare 2 c} X : sProp 𝕄))
      ⊢ iprop((bigSep Finset.univ fun c : Fin 2 => xLoc d ↦{Transfers.shareDrop (Transfers.shareTok fullShare 2 c) 16} X)
          ∗ bigSep Finset.univ fun c : Fin 2 => bigSep Finset.univ fun s : Fin 16 => xLoc d ↦{tileShare c s} X) :=
  (bigSep_mono fun c _ => Transfers.pointsTo_toks_split (Transfers.shareTok fullShare 2 c) 16).trans (Entails.of_eq (bigSep_sep' _ _ _))

/-- and is put back from them. -/
theorem core_join (d : Dev nD) (X : Buf (Elt F) (xLoc d)) :
    iprop((bigSep Finset.univ fun c : Fin 2 => xLoc d ↦{Transfers.shareDrop (Transfers.shareTok fullShare 2 c) 16} X)
          ∗ bigSep Finset.univ fun c : Fin 2 => bigSep Finset.univ fun s : Fin 16 => xLoc d ↦{tileShare c s} X)
      ⊢ bigSep Finset.univ fun c : Fin 2 => (xLoc d ↦{Transfers.shareTok fullShare 2 c} X : sProp 𝕄) :=
  (Entails.of_eq (bigSep_sep' _ _ _).symm).trans (bigSep_mono fun c _ => Transfers.pointsTo_toks_join (Transfers.shareTok fullShare 2 c) 16)

/-- The input array, whole, is the tiles' read shares and the remainders. -/
theorem xPts_split (d : Dev nD) (X : Buf (Elt F) (xLoc d)) :
    (xLoc d ↦{fullShare} X : sProp 𝕄)
      ⊢ iprop(xRem d X ∗ bigSep Finset.univ fun c : Fin 2 => bigSep Finset.univ fun s : Fin 16 => xLoc d ↦{tileShare c s} X) := by
  unfold xRem
  iintro H
  ihave H2 := (whole_split d X) $$ H
  icases H2 with ⟨Hd, Hc⟩
  ihave Hc' := (core_split d X) $$ Hc
  icases Hc' with ⟨Hr, Ht⟩
  isplitl [Hd Hr]
  · isplitl [Hd]; · iexact Hd
    iexact Hr
  iexact Ht

theorem xPts_join (d : Dev nD) (X : Buf (Elt F) (xLoc d)) :
    iprop(xRem d X ∗ bigSep Finset.univ fun c : Fin 2 => bigSep Finset.univ fun s : Fin 16 => xLoc d ↦{tileShare c s} X)
      ⊢ (xLoc d ↦{fullShare} X : sProp 𝕄) := by
  unfold xRem
  iintro ⟨⟨Hd, Hr⟩, Ht⟩
  iapply (whole_join d X)
  isplitl [Hd]; · iexact Hd
  iapply (core_join d X)
  isplitl [Hr]; · iexact Hr
  iexact Ht

/-! ## What the call takes and hands back -/

variable (m : (ℓ : Loc nD τ sig) → Buf (Elt F) ℓ)

theorem st0_eq (d : Dev nD) :
    (bigSep Finset.univ fun c : Fin ((K (F := F)).nCore 0) => (P m).st 0 d c)
      = iprop((bigSep Finset.univ fun c : Fin 2 => bigSep Finset.univ fun s : Fin 16 => xLoc d ↦{tileShare c s} Xv m d)
          ∗ bigSep Finset.univ fun c : Fin 2 => bigSep Finset.univ fun s : Fin 16 => bigSep Finset.univ fun k : Fin 16 =>
              sLoc d ↦[KernelPay.piece (KernelPay.pieceOf c s k)]{fullShare} m (sLoc d)) := by
  have hc : ∀ c : Fin 2, Fin.cast (nCore_zero (F := F)) c = c := fun c => Fin.ext rfl
  show (bigSep (Finset.univ : Finset (Fin 2)) fun c => bigSep Finset.univ fun s : Fin 16 => goR m d (Fin.cast nCore_zero c) s) = _
  simp only [hc]
  unfold goR
  rw [← bigSep_sep']
  refine bigSep_congr fun c _ => ?_
  rw [← bigSep_sep']

theorem dn0_eq (d : Dev nD) :
    (bigSep Finset.univ fun c : Fin ((K (F := F)).nCore 0) => (P m).dn 0 d c)
      = iprop((bigSep Finset.univ fun c : Fin 2 => bigSep Finset.univ fun s : Fin 16 => xLoc d ↦{tileShare c s} Xv m d)
          ∗ bigSep Finset.univ fun c : Fin 2 => bigSep Finset.univ fun s : Fin 16 => bigSep Finset.univ fun k : Fin 16 =>
              sLoc d ↦[KernelPay.piece (KernelPay.pieceOf c s k)]{fullShare} Sv m d) := by
  have hc : ∀ c : Fin 2, Fin.cast (nCore_zero (F := F)) c = c := fun c => Fin.ext rfl
  show (bigSep (Finset.univ : Finset (Fin 2)) fun c => bigSep Finset.univ fun s : Fin 16 => tdR m d (Fin.cast nCore_zero c) s) = _
  simp only [hc]
  unfold tdR
  rw [← bigSep_sep']
  refine bigSep_congr fun c _ => ?_
  rw [← bigSep_sep']

/-- The call's operands from the two arrays held whole, -/
theorem call_give (d : Dev nD) :
    iprop((xLoc d ↦{fullShare} Xv m d) ∗ (sLoc d ↦{fullShare} m (sLoc d)))
      ⊢ (iprop(xRem d (Xv m d) ∗ bigSep Finset.univ fun c : Fin ((K (F := F)).nCore 0) => (P m).st 0 d c) : sProp 𝕄) := by
  rw [st0_eq, sPts_tiles]
  iintro ⟨Hx, Hs⟩
  ihave Hx' := (xPts_split d (Xv m d)) $$ Hx
  icases Hx' with ⟨Hr, Ht⟩
  isplitl [Hr]; · iexact Hr
  isplitl [Ht]; · iexact Ht
  iexact Hs

/-- and the two arrays whole again from its results: the input as it was, the output at the transposed slabs. -/
theorem call_take (d : Dev nD) :
    (iprop(xRem d (Xv m d) ∗ bigSep Finset.univ fun c : Fin ((K (F := F)).nCore 0) => (P m).dn 0 d c) : sProp 𝕄)
      ⊢ iprop((xLoc d ↦{fullShare} Xv m d) ∗ (sLoc d ↦{fullShare} Sv m d)) := by
  rw [dn0_eq, sPts_tiles]
  iintro ⟨Hr, Ht, Hs⟩
  isplitl [Hr Ht]
  · iapply (xPts_join d (Xv m d))
    isplitl [Hr]; · iexact Hr
    iexact Ht
  iexact Hs

end Cert.Proof.KernelCall

end
-- ==== Proof.KernelLaunch.lean ====
/-
  The launch of the kernel's program: the launch element of the ghost state, @main on the TensorCore — the
  reshape, the SparseCore call, the TensorCore region, the three host operations —, and the program's run.
-/
import proofs.«218930_g44392781971697_cont_8to1c4_23_28_alg».proof.Proof.KernelRegion
import proofs.«218930_g44392781971697_cont_8to1c4_23_28_alg».proof.Proof.KernelPay
import proofs.«218930_g44392781971697_cont_8to1c4_23_28_alg».proof.Proof.KernelCall

noncomputable section

namespace Cert.Proof.KernelLaunch

open Cert.Kernel Cert.Kernel.Gen Cert.Proof.KernelSetup Cert.Proof.KernelPay Cert.Proof.KernelCall Cert.Proof.KernelRegion

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays and operations -/

abbrev a' : DevRef τ sig := Proc.devRef .tc (main_arg0 : Ref sig .tc)
abbrev x' : DevRef τ sig := Proc.devRef .tc (main_v0 : Ref sig .tc)
abbrev s' : DevRef τ sig := Proc.devRef .tc (main_v1 : Ref sig .tc)
abbrev t' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)

abbrev oLoc (d : Dev nD) : Loc nD τ sig := (SparseCore.T d).loc main_v5

/-- The four host operations of @main. -/
abbrev opR0 : HloOp τ sig (Elt F) := StableHlo.reshape main_arg0 main_v0 rfl shapeCasts_S16x255x64x64_S48x85x4096
abbrev opR3 : HloOp τ sig (Elt F) := StableHlo.reshape main_v1 main_v3 rfl shapeCasts_S5570560_S16x4096x85
abbrev opC4 : HloOp τ sig (Elt F) :=
  StableHlo.binary main_v2 main_v3 main_v4 ((fun a b => concatenate S48x4096x85 0 [⟨S32x4096x85, a⟩, ⟨S16x4096x85, b⟩] concatenates_S32x4096x85_S16x4096x85_S48x4096x85_d0) : (⟨S32x4096x85, .f32⟩ : BufTy).Contents (Elt F) → (⟨S16x4096x85, .f32⟩ : BufTy).Contents (Elt F) → (⟨S48x4096x85, .f32⟩ : BufTy).Contents (Elt F))
abbrev opR5 : HloOp τ sig (Elt F) := StableHlo.reshape main_v4 main_v5 rfl shapeCasts_S48x4096x85_S16x3x64x64x85

omit [FloatOps F] in
theorem ucRefs_eq : (ucRefs : Finset (DevRef τ sig)) = {a', x', s', t', r3', r4', r5'} := by decide

omit [FloatOps F] in
/-- The seven arrays of @main, one by one. -/
theorem held_ucRefs (d : Dev nD) (W : Valuation τ sig (Elt F)) :
    (held (T d) ucRefs W : sProp 𝕄) = iprop((pLoc d ↦{fullShare} W a') ∗ (xLoc d ↦{fullShare} W x') ∗ (sLoc d ↦{fullShare} W s')
      ∗ (tLoc d ↦{fullShare} W t') ∗ ((SparseCore.T d).loc main_v3 ↦{fullShare} W r3') ∗ ((SparseCore.T d).loc main_v4 ↦{fullShare} W r4')
      ∗ (oLoc d ↦{fullShare} W r5')) := by
  unfold held
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem hR0 : (opR0 (F := F)).bufs ⊆ ucRefs := by rw [show (opR0 (F := F)).bufs = {a', x'} from rfl, ucRefs_eq]; decide
theorem hR3 : (opR3 (F := F)).bufs ⊆ ucRefs := by rw [show (opR3 (F := F)).bufs = {s', r3'} from rfl, ucRefs_eq]; decide
theorem hC4 : (opC4 (F := F)).bufs ⊆ ucRefs := by rw [show (opC4 (F := F)).bufs = {t', r3', r4'} from rfl, ucRefs_eq]; decide
theorem hR5 : (opR5 (F := F)).bufs ⊆ ucRefs := by rw [show (opR5 (F := F)).bufs = {r4', r5'} from rfl, ucRefs_eq]; decide

/-! ## The arrays' contents along @main -/

/-- At launch; -/
def V0 (d : Dev nD) : Valuation τ sig (Elt F) := fun b => m (d, b)
/-- after the first reshape; -/
def V1 (d : Dev nD) : Valuation τ sig (Elt F) := (opR0 (F := F)).result (V0 m d)
/-- after the SparseCore call; -/
def V2 (d : Dev nD) : Valuation τ sig (Elt F) := Function.update (V1 m d) s' (Sv m d)
/-- what the TensorCore region leaves in its output array: the four blocks written back, as the pipeline library computes them; -/
def Tv (d : Dev nD) : Buf (Elt F) (tLoc d) := (dats (V2 m d) 0 d).arrAt 1 cfg1.N
/-- after the region; -/
def V3 (d : Dev nD) : Valuation τ sig (Elt F) := Function.update (V2 m d) t' (Tv m d)
/-- after the three host operations: reshape of the call's output, concatenation, reshape. -/
def V4 (d : Dev nD) : Valuation τ sig (Elt F) := (opR5 (F := F)).result ((opC4 (F := F)).result ((opR3 (F := F)).result (V3 m d)))
/-- The program's result. -/
def Out (d : Dev nD) : Buf (Elt F) (oLoc d) := V4 m d r5'

theorem V1_x (d : Dev nD) : V1 m d x' = Xv m d := by
  unfold V1; rw [StableHlo.reshape_result]; rfl
theorem V1_ne (d : Dev nD) {r : Ref sig .tc} (h : r ≠ main_v0) : V1 m d (Proc.devRef .tc r) = m ((SparseCore.T d).loc r) := by
  unfold V1; rw [StableHlo.reshape_result_ne (h := h)]; rfl

/-! ## The TensorCore's handshake state after the one call -/

/-- What the TensorCore holds after the call besides its debts (none): its position on its `done` cell and the rounds reached. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the last call the TensorCore owes nothing. -/
theorem tcSt_one (d : Dev nD) : ((K (F := F)).tcSt EH d 1 : sProp 𝕄) = iprop(owesLow (F := F) d ∗ tcRest (F := F) d) := by
  unfold SparseCore.Cfg.tcSt owesLow tcRest
  rw [(K (F := F)).Otc_end d (le_refl 1)]

/-- The same, as the call's rule states the TensorCore's state after call `0`. -/
theorem tcSt_after (d : Dev nD) :
    ((K (F := F)).tcSt EH d ((0 : Fin 1).val + 1) : sProp 𝕄) = iprop(owesLow (F := F) d ∗ tcRest (F := F) d) := tcSt_one d

/-! ## The launch element -/

/-- The handshakes' rounds; the TensorCore pipeline's staging cells' rounds; no counter. -/
def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

/-- The staging cells' rounds fund each device's cells' launch ghost state and duty tokens. -/
theorem cells_fund :
    (BI.own (EP (initOf (Pipeline.cells cfgs cellOf_inj) (Pipeline.launchToks cfgs cellOf_inj))) : sProp 𝕄)
      ⊢ iprop(|==> bigSep Finset.univ fun d : Dev nD => cellsG (F := F) d) := by
  have e1 : (bigSep Finset.univ fun c : Dev nD => bigSep Finset.univ fun p : Fin 1 => (Pipeline.cellsGhost cfgs EP p c : sProp 𝕄))
      = bigSep Finset.univ fun c : Dev nD => Pipeline.cellsGhost cfgs EP 0 c := bigSep_congr fun c _ => bigSep_univ_of_subsingleton (0 : Fin 1)
  have e2 : (bigSep Finset.univ fun c : Dev nD => bigSep Finset.univ fun p : Fin 1 => (Pipeline.toksInit cfgs EP p c : sProp 𝕄))
      = bigSep Finset.univ fun c : Dev nD => Pipeline.toksInit cfgs EP 0 c := bigSep_congr fun c _ => bigSep_univ_of_subsingleton (0 : Fin 1)
  refine (Pipeline.fund_ghost cfgs EP cellOf_inj).trans ?_
  rw [e1, e2, ← bigSep_sep']

omit [FloatOps F] in
/-- The staging cells' component of the ghost state, reached through the pair's right half, is `EP`. -/
theorem own_EP (x : UP) :
    (BI.own (((Emb.inl : Emb UP (UP × Counters)).trans (embR : Emb (UP × Counters) 𝕄)) x) : sProp 𝕄) = BI.own (EP x) := rfl

theorem hu₀ : (ownU (u₀ (F := F)) : sProp 𝕄)
    ⊢ |={Set.univ}=> iprop(BI.own (EH (initOf (K (F := F)).hsCells (K (F := F)).hsToks)) ∗ (bigSep Finset.univ fun d : Dev nD => cellsG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (own_EP (F := F) _)) $$ HP
  imod (cells_fund (F := F)) $$ HP' with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays, chain by chain -/

omit [FloatOps F] in
/-- At launch the TensorCore's unscoped buffers are the seven arrays held at the launch contents. -/
theorem unscoped_held (d : Dev nD) :
    (unscopedBufs d (fun b => m ((SparseCore.T d).loc b)) : sProp 𝕄) = held (T d) ucRefs (V0 m d) :=
  unscopedBufs_held d (V0 m d)

theorem V2_s (d : Dev nD) : V2 m d s' = Sv m d := Function.update_self _ _ _
theorem V2_ne (d : Dev nD) {b : DevRef τ sig} (h : b ≠ s') : V2 m d b = V1 m d b := Function.update_of_ne h _ _
theorem V3_t (d : Dev nD) : V3 m d t' = Tv m d := Function.update_self _ _ _
theorem V3_ne (d : Dev nD) {b : DevRef τ sig} (h : b ≠ t') : V3 m d b = V2 m d b := Function.update_of_ne h _ _

/-- After the first reshape: the input's view in `main_v0`, every other array as launched. -/
theorem held_V1 (d : Dev nD) :
    (held (T d) ucRefs ((opR0 (F := F)).result (V0 m d)) : sProp 𝕄) = iprop((pLoc d ↦{fullShare} m (pLoc d)) ∗ (xLoc d ↦{fullShare} Xv m d) ∗ (sLoc d ↦{fullShare} m (sLoc d))
      ∗ (tLoc d ↦{fullShare} m (tLoc d)) ∗ ((SparseCore.T d).loc main_v3 ↦{fullShare} m ((SparseCore.T d).loc main_v3))
      ∗ ((SparseCore.T d).loc main_v4 ↦{fullShare} m ((SparseCore.T d).loc main_v4)) ∗ (oLoc d ↦{fullShare} m (oLoc d))) := by
  show (held (T d) ucRefs (V1 m d) : sProp 𝕄) = _
  rw [held_ucRefs, V1_x, V1_ne m d (r := main_arg0) (by decide), V1_ne m d (r := main_v1) (by decide), V1_ne m d (r := main_v2) (by decide),
    V1_ne m d (r := main_v3) (by decide), V1_ne m d (r := main_v4) (by decide), V1_ne m d (r := main_v5) (by decide)]

/-- After the call: the same with the call's output in `main_v1`. -/
theorem held_V2 (d : Dev nD) :
    (held (T d) ucRefs (V2 m d) : sProp 𝕄) = iprop((pLoc d ↦{fullShare} m (pLoc d)) ∗ (xLoc d ↦{fullShare} Xv m d) ∗ (sLoc d ↦{fullShare} Sv m d)
      ∗ (tLoc d ↦{fullShare} m (tLoc d)) ∗ ((SparseCore.T d).loc main_v3 ↦{fullShare} m ((SparseCore.T d).loc main_v3))
      ∗ ((SparseCore.T d).loc main_v4 ↦{fullShare} m ((SparseCore.T d).loc main_v4)) ∗ (oLoc d ↦{fullShare} m (oLoc d))) := by
  rw [held_ucRefs, V2_s, V2_ne m d (b := a') (by decide), V2_ne m d (b := x') (by decide), V2_ne m d (b := t') (by decide),
    V2_ne m d (b := r3') (by decide), V2_ne m d (b := r4') (by decide), V2_ne m d (b := r5') (by decide),
    V1_x, V1_ne m d (r := main_arg0) (by decide), V1_ne m d (r := main_v2) (by decide),
    V1_ne m d (r := main_v3) (by decide), V1_ne m d (r := main_v4) (by decide), V1_ne m d (r := main_v5) (by decide)]

/-- What the region leaves is the seven arrays held with its output array at what the write-backs left. -/
theorem regPost_held (d : Dev nD) : regPost (V2 m d) d ⊢ (iprop(held (T d) ucRefs (V3 m d) ∗ owesLow (F := F) d) : sProp 𝕄) := by
  unfold regPost
  rw [Pipeline.arrays_eq cfgs (dats (V2 m d)) 0 d launch1.arr_whole ((dats (V2 m d) 0 d).share_full fun _ => rfl), bigSep_W1,
    unscopedRest1_eq, held_ucRefs, V3_t, V3_ne m d (b := a') (by decide), V3_ne m d (b := x') (by decide), V3_ne m d (b := s') (by decide),
    V3_ne m d (b := r3') (by decide), V3_ne m d (b := r4') (by decide), V3_ne m d (b := r5') (by decide)]
  rw [show (dats (V2 m d) 0 d).arrAt 0 cfg1.N = V2 m d x' from ((dats (V2 m d) 0 d).arrAt_in 0 rfl _).trans (A_eq (V2 m d) d 0)]
  iintro ⟨⟨H0, H1⟩, ⟨Ha, Hs, H3, H4, H5⟩, HO⟩
  isplitr [HO]
  · isplitl [Ha]; · iexact Ha
    isplitl [H0]; · iexact H0
    isplitl [Hs]; · iexact Hs
    isplitl [H1]; · iexact H1
    isplitl [H3]; · iexact H3
    isplitl [H4]; · iexact H4
    iexact H5
  iexact HO

/-- The input array comes through @main untouched. -/
theorem V4_a (d : Dev nD) : V4 m d a' = m (pLoc d) := by
  unfold V4
  rw [StableHlo.reshape_result_ne (h := (by decide : main_arg0 ≠ main_v5)), StableHlo.binary_result_ne (h := (by decide : main_arg0 ≠ main_v4)),
    StableHlo.reshape_result_ne (h := (by decide : main_arg0 ≠ main_v3)), V3_ne m d (b := a') (by decide), V2_ne m d (b := a') (by decide),
    V1_ne m d (r := main_arg0) (by decide)]

/-! ## @main on the TensorCore -/

/-- What @main leaves the claim: the input array as launched, the result array at the program's result. -/
def FIN (d : Dev nD) : sProp 𝕄 := iprop((pLoc d ↦{fullShare} m (pLoc d)) ∗ (oLoc d ↦{fullShare} Out m d))

/-- After the last host operation the seven arrays hold, among them, the input as launched and the program's result. -/
theorem fin_of_held (d : Dev nD) :
    (held (T d) ucRefs ((opR5 (F := F)).result ((opC4 (F := F)).result ((opR3 (F := F)).result (V3 m d)))) : sProp 𝕄) ⊢ FIN m d := by
  show (held (T d) ucRefs (V4 m d) : sProp 𝕄) ⊢ _
  unfold FIN Out
  rw [held_ucRefs, V4_a]
  iintro ⟨Ha, -, -, -, -, -, H5⟩
  isplitl [Ha]; · iexact Ha
  iexact H5

set_option maxHeartbeats 1000000 in
/-- @main on device `d`'s TensorCore: the reshape; the SparseCore call, handed the tiles' read shares of the input and
    their blocks of the output and handing them back; the TensorCore region; the three host operations. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ cellsG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the first reshape
  iapply (wp_hlo_within 𝒱 (SparseCore.T d) none Set.univ (op := opR0) (S := ucRefs) hR0 (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨Ha, Hx, Hs, Ht, H3, H4, H5⟩
  -- the call: the input dealt as read shares, the output as blocks; both whole again after it
  ihave Hgive := (call_give m d) $$ [Hx Hs]
  · isplitl [Hx]; · iexact Hx
    iexact Hs
  icases Hgive with ⟨Hrem, Hstq⟩
  iapply ((K (F := F)).wp_run (D (F := F)) 𝒱 (EH := EH) (P := P m) κ d 0) $$ [Hst Hstq Hrem Hb Ha Ht H3 H4 H5 HG]
  isplitr; · iexact Hctx
  isplitl [Hst]; · iexact Hst
  isplitl [Hstq]; · iexact Hstq
  iintro ⟨Hst, Hdn⟩
  ihave Htake := (call_take m d) $$ [Hrem Hdn]
  · isplitl [Hrem]; · iexact Hrem
    iexact Hdn
  icases Htake with ⟨Hx, Hs⟩
  -- the region: entered owing nothing, from the seven arrays held
  ihave Hst' := (Entails.of_eq (tcSt_after (F := F) d)) $$ Hst
  icases Hst' with ⟨HO, Hrest⟩
  ihave #Hlev := (SparseCore.Cfg.ctx_levAts (K := K (F := F)) (EH := EH) (P := P m) κ) $$ Hctx
  ihave Hheld := (Entails.of_eq (held_V2 m d).symm) $$ [Ha Hx Hs Ht H3 H4 H5]
  · isplitl [Ha]; · iexact Ha
    isplitl [Hx]; · iexact Hx
    isplitl [Hs]; · iexact Hs
    isplitl [Ht]; · iexact Ht
    isplitl [H3]; · iexact H3
    isplitl [H4]; · iexact H4
    iexact H5
  iapply (wp_region (V2 m d) d _) $$ [Hb Hheld HO HG Hrest]
  isplitl [Hrest]
  swap
  · isplitl [Hb]; · iexact Hb
    isplitl [Hheld HO]
    · unfold regPre
      isplitl [Hheld]; · iexact Hheld
      iexact HO
    isplitr; · iexact Hlev
    iexact HG
  iintro ⟨Hb, Hpost⟩
  ihave Hp := (regPost_held m d) $$ Hpost
  icases Hp with ⟨Hheld, HO⟩
  -- the three host operations
  iapply (wp_hlo_within 𝒱 (SparseCore.T d) none Set.univ (op := opR3) (S := ucRefs) hR3 (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := opC4) (S := ucRefs) hC4 (V := (opR3 (F := F)).result (V3 m d))) $$ [Hb Hheld]
  · isplitl [Hb]; · iexact Hb
    iexact Hheld
  iintro ⟨Hb, Hheld⟩
  rw [wp_ret]; imodintro
  iapply (wp_hlo_within 𝒱 (SparseCore.T d) none Set.univ (op := opR5) (S := ucRefs) hR5 (V := (opC4 (F := F)).result ((opR3 (F := F)).result (V3 m d)))) $$ [Hb Hheld]
  · isplitl [Hb]; · iexact Hb
    iexact Hheld
  iintro ⟨Hb, Hheld⟩
  rw [wp_ret]; imodintro; imodintro
  isplitl [HO Hrest]
  · iapply (Entails.of_eq (tcSt_one (F := F) d).symm)
    isplitl [HO]; · iexact HO
    iexact Hrest
  iapply (fin_of_held m d); iexact Hheld

/-! ## The final memory, the run -/

def fq (d : Dev nD) (st : Phys nD τ sig (Elt F)) : Prop := st.mem.mem (oLoc d) = Out m d ∧ st.mem.mem (pLoc d) = m (pLoc d)

theorem hfin (d : Dev nD) (st : Phys nD τ sig (Elt F)) : iprop(FIN m d ∗ SI st) ⊢ (⌜fq m d st⌝ : sProp 𝕄) := by
  unfold FIN
  iintro ⟨⟨Hp, Ho⟩, HSI⟩
  ihave H := (persistent_entails_right (SI_pointsTo_agree (st := st) (ℓ := pLoc d) (I := Finset.univ) (q := fullShare) (f := m (pLoc d)))) $$ [HSI Hp]
  · isplitl [HSI] <;> iassumption
  icases H with ⟨%h1, HSI, -⟩
  ihave H := (SI_pointsTo_agree (st := st) (ℓ := oLoc d) (I := Finset.univ) (q := fullShare) (f := Out m d)) $$ [HSI Ho]
  · isplitl [HSI] <;> iassumption
  icases H with %h2
  ipureintro; exact ⟨funext fun i => h2 i (Finset.mem_univ i), funext fun i => h1 i (Finset.mem_univ i)⟩

/-- The program's post: on every device the result array at the program's result, the input array as launched. -/
def QC : PUnit × MemSt nD τ sig (Elt F) → Prop := fun r => ∀ c : Dev nD,
  r.2.mem ((c.tc : Thread nD τ).loc main_v5) = Out m c ∧ r.2.mem ((c.tc : Thread nD τ).loc main_arg0) = m ((c.tc : Thread nD τ).loc main_arg0)

/-- THE RUN, from the tile's body obligation: every weakly fair execution of the program's threads from `m` with every
    semaphore at zero terminates, nothing faulting, with the result array at `Out m` and the input array unchanged. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => cellsG (F := F) d) (FIN m) (u₀ (F := F)) (sep_elim_left.trans (hu₀ m)) (hmain m ρ) (fq m) (hfin m) (QC m) (fun _ h => h)

end Cert.Proof.KernelLaunch

end
-- ==== Proof.LibStoreIdx.lean ====
/-
  What an unmasked, non-accumulating indexed store leaves in a buffer when its lanes name pairwise distinct elements:
  the element a lane names holds that lane's value, every other element is unchanged.
-/
import Idealize.ShloMosaic.PureOps

namespace Cert.Proof.LibStoreIdx

open Idealize.ShloMosaic

variable {F : FTy → Type} [FloatOps F] {s : Shape} {e : EltTy} {d : Fin 1 → Nat}

/-- One lane's step of the store, unmasked and without accumulation. -/
def step (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (step idxs v h) f := by
  unfold storeIdx
  congr 1

theorem foldl_other (idxs : Fin s.rank → IVec ⟨1, d⟩ 32) (v : Vec F ⟨1, d⟩ e) (h : ∀ a x, (idxs a x).toNat < s.size a)
    (l : List (Fin (d 0))) (g : Vec F s e) (j : s.Idx) (hj : ∀ k ∈ l, idxAt idxs h (Shape.ofLane k) ≠ j) :
    l.foldl (step idxs v h) g j = g j := by
  induction l generalizing g with
  | nil => rfl
  | cons k l ih =>
    rw [List.foldl_cons, ih _ (fun k' hk' => hj k' (List.mem_cons_of_mem _ hk'))]
    unfold step
    rw [if_neg]
    intro hEq
    exact hj k (List.mem_cons_self ..) (funext fun a => Fin.ext (hEq a).symm)

theorem foldl_hit (idxs : Fin s.rank → IVec ⟨1, d⟩ 32) (v : Vec F ⟨1, d⟩ e) (h : ∀ a x, (idxs a x).toNat < s.size a)
    (hinj : ∀ k k' : Fin (d 0), idxAt idxs h (Shape.ofLane k) = idxAt idxs h (Shape.ofLane k') → k = k')
    (l : List (Fin (d 0))) (hl : l.Nodup) (g : Vec F s e) (k : Fin (d 0)) (hk : k ∈ l) :
    l.foldl (step idxs v h) g (idxAt idxs h (Shape.ofLane k)) = v (Shape.ofLane k) := by
  induction l generalizing g with
  | nil => cases hk
  | cons k0 l ih =>
    rw [List.foldl_cons]
    rcases List.mem_cons.mp hk with rfl | hk'
    · rw [foldl_other idxs v h l _ _ (fun k' hk' e => (List.nodup_cons.mp hl).1 (by have h1 := hinj _ _ e; subst h1; exact hk'))]
      unfold step
      rw [if_pos (fun _ => rfl)]
    · exact ih (List.nodup_cons.mp hl).2 _ hk'

/-- The element lane `k` names holds lane `k`'s value. -/
theorem storeIdx_hit (f : Vec F s e) (idxs : Fin s.rank → IVec ⟨1, d⟩ 32) (v : Vec F ⟨1, d⟩ e)
    (h : ∀ a x, (idxs a x).toNat < s.size a)
    (hinj : ∀ k k' : Fin (d 0), idxAt idxs h (Shape.ofLane k) = idxAt idxs h (Shape.ofLane k') → k = k') (k : Fin (d 0)) :
    storeIdx f idxs v (fun _ => 1#1) false h (idxAt idxs h (Shape.ofLane k)) = v (Shape.ofLane k) := by
  rw [storeIdx_eq_foldl]
  exact foldl_hit idxs v h hinj _ (List.nodup_finRange _) f k (List.mem_finRange k)

/-- An element no lane names is unchanged. -/
theorem storeIdx_other (f : Vec F s e) (idxs : Fin s.rank → IVec ⟨1, d⟩ 32) (v : Vec F ⟨1, d⟩ e)
    (h : ∀ a x, (idxs a x).toNat < s.size a) (j : s.Idx) (hj : ∀ k : Fin (d 0), idxAt idxs h (Shape.ofLane k) ≠ j) :
    storeIdx f idxs v (fun _ => 1#1) false h j = f j := by
  rw [storeIdx_eq_foldl]
  exact foldl_other idxs v h _ f j (fun k _ => hj k)

end Cert.Proof.LibStoreIdx
-- ==== Proof.KernelRow.lean ====
/-
  One row of the transposition. The quarter buffer has 128·85 words; word sp·85 + c is to hold element (c, col + sp)
  of the source block. Row k of the source is scattered by eight indexed stores of sixteen lanes: store ub sends lane l to
  word 85·(16·ub + l) + k. The words written by the eight stores are pairwise distinct and are exactly the words
  sp·85 + k, so after them every column c ≤ k of the quarter is in place.
-/
import Idealize.ShloMosaic.Lib.ValueIdx
import proofs.«218930_g44392781971697_cont_8to1c4_23_28_alg».proof.Proof.LibStoreIdx

namespace Cert.Proof.KernelRow

open Idealize.ShloMosaic Idealize.ShloMosaic.ValueIdx Cert.Proof.LibStoreIdx

abbrev T16 : Shape := ⟨1, ![16]⟩
abbrev TQ : Shape := ⟨1, ![10880]⟩
abbrev TB : Shape := ⟨2, ![85, 512]⟩

variable {F : FTy → Type} [FloatOps F]

/-- Word `sp·85 + c` of the quarter. -/
def qIx (sp : Fin 128) (c : Fin 85) : TQ.Idx := ix1 (⟨sp.val * 85 + c.val, by omega⟩ : Fin 10880)

/-- After `k` rows of the source have been scattered, word `sp·85 + c` of the quarter holds element `(c, col + sp)` of the
    source, for every `c < k`. -/
def Done (fin : TB.Idx → Elt F .f32) (col : ℕ) (hcol : col + 128 ≤ 512) (k : ℕ) (f : TQ.Idx → Elt F .f32) : Prop :=
  ∀ (sp : Fin 128) (c : Fin 85), c.val < k → f (qIx sp c) = fin (ix2 c (⟨col + sp.val, by omega⟩ : Fin 512))

theorem done_zero (fin : TB.Idx → Elt F .f32) (col : ℕ) (hcol : col + 128 ≤ 512) (f : TQ.Idx → Elt F .f32) : Done fin col hcol 0 f :=
  fun _ _ h => absurd h (Nat.not_lt_zero _)

abbrev D16 : Fin 1 → ℕ := ![16]

theorem ofLane_eq (l : Fin (D16 0)) : (Shape.ofLane (d := D16) l : T16.Idx) = ix1 (⟨l.val, l.isLt⟩ : Fin 16) := by
  funext a
  obtain rfl : a = 0 := Subsingleton.elim _ _
  rfl

/-- One indexed store of row `k`: lanes to words `85·l + (1360·ub + k)`. -/
theorem store_row (k : ℕ) (hk : k < 85) (ub : ℕ) (hub : ub < 8) (g : Vec F TQ .f32) (idx : IVec T16 32)
    (hidx : ∀ x : T16.Idx, (idx x).toNat = 85 * (x 0).val + (ub * 1360 + k)) (v : Vec F T16 .f32)
    (h : ∀ a x, ((![idx] : Fin 1 → IVec T16 32) a x).toNat < TQ.size a) (sp : Fin 128) (c : Fin 85) :
    storeIdx g ![idx] v (fun _ => 1#1) false h (qIx sp c)
      = if c.val = k ∧ sp.val / 16 = ub then v (ix1 (⟨sp.val % 16, Nat.mod_lt _ (by decide)⟩ : Fin 16)) else g (qIx sp c) := by
  have hposv : ∀ l : Fin (D16 0), ((idxAt (s := TQ) ![idx] h (Shape.ofLane (d := D16) l)) 0).val = 85 * l.val + (ub * 1360 + k) := by
    intro l
    show (idx (Shape.ofLane (d := D16) l)).toNat = _
    rw [hidx]; rfl
  have hinj : ∀ l l' : Fin (D16 0), idxAt (s := TQ) ![idx] h (Shape.ofLane (d := D16) l) = idxAt (s := TQ) ![idx] h (Shape.ofLane (d := D16) l') → l = l' := by
    intro l l' e
    have e0 : ((idxAt (s := TQ) ![idx] h (Shape.ofLane (d := D16) l)) 0).val = ((idxAt (s := TQ) ![idx] h (Shape.ofLane (d := D16) l')) 0).val :=
      congrArg (fun j : TQ.Idx => (j 0).val) e
    rw [hposv, hposv] at e0
    exact Fin.ext (by omega)
  have hsp := sp.isLt
  have hc := c.isLt
  split
  next hcase =>
    obtain ⟨hck, hdiv⟩ := hcase
    have hj : qIx sp c = idxAt (s := TQ) ![idx] h (Shape.ofLane (d := D16) (⟨sp.val % 16, Nat.mod_lt _ (by decide)⟩ : Fin (D16 0))) := by
      funext a
      obtain rfl : a = 0 := Subsingleton.elim _ _
      apply Fin.ext
      rw [hposv]
      show sp.val * 85 + c.val = 85 * (sp.val % 16) + (ub * 1360 + k)
      omega
    rw [hj, storeIdx_hit g ![idx] v h hinj, ofLane_eq]
  next hcase =>
    apply storeIdx_other
    intro l e
    have e0 : ((idxAt (s := TQ) ![idx] h (Shape.ofLane (d := D16) l)) 0).val = ((qIx sp c) 0).val :=
      congrArg (fun j : TQ.Idx => (j 0).val) e
    rw [hposv] at e0
    have e1 : 85 * l.val + (ub * 1360 + k) = sp.val * 85 + c.val := e0
    have hl : l.val < 16 := l.isLt
    exact hcase ⟨by omega, by omega⟩

/-- Store `ub` of a row, as a function of the quarter's contents. -/
def stq (idx : Fin 8 → IVec T16 32) (v : Fin 8 → Vec F T16 .f32)
    (h : ∀ ub, ∀ a x, ((![idx ub] : Fin 1 → IVec T16 32) a x).toNat < TQ.size a) (ub : Fin 8) (g : Vec F TQ .f32) : Vec F TQ .f32 :=
  storeIdx g ![idx ub] (v ub) (fun _ => 1#1) false (h ub)

theorem stq_apply (k : ℕ) (hk : k < 85) (idx : Fin 8 → IVec T16 32) (v : Fin 8 → Vec F T16 .f32)
    (h : ∀ ub, ∀ a x, ((![idx ub] : Fin 1 → IVec T16 32) a x).toNat < TQ.size a)
    (hidx : ∀ (ub : Fin 8) (x : T16.Idx), (idx ub x).toNat = 85 * (x 0).val + (ub.val * 1360 + k))
    (ub : Fin 8) (g : Vec F TQ .f32) (sp : Fin 128) (c : Fin 85) :
    stq idx v h ub g (qIx sp c)
      = if c.val = k ∧ sp.val / 16 = ub.val then v ub (ix1 (⟨sp.val % 16, Nat.mod_lt _ (by decide)⟩ : Fin 16)) else g (qIx sp c) :=
  store_row k hk ub.val ub.isLt g (idx ub) (hidx ub) (v ub) (h ub) sp c

/-- The eight stores of row `k` put column `k` of the quarter in place and leave the earlier columns as they were. -/
theorem done_step (fin : TB.Idx → Elt F .f32) (col : ℕ) (hcol : col + 128 ≤ 512) (k : ℕ) (hk : k < 85) (f : Vec F TQ .f32)
    (hf : Done fin col hcol k f) (idx : Fin 8 → IVec T16 32) (v : Fin 8 → Vec F T16 .f32)
    (h : ∀ ub, ∀ a x, ((![idx ub] : Fin 1 → IVec T16 32) a x).toNat < TQ.size a)
    (hidx : ∀ (ub : Fin 8) (x : T16.Idx), (idx ub x).toNat = 85 * (x 0).val + (ub.val * 1360 + k))
    (hv : ∀ (ub : Fin 8) (l : Fin 16), v ub (ix1 l) = fin (ix2 (⟨k, hk⟩ : Fin 85) (⟨col + (16 * ub.val + l.val), by omega⟩ : Fin 512))) :
    Done fin col hcol (k + 1)
      (stq idx v h 7 (stq idx v h 6 (stq idx v h 5 (stq idx v h 4 (stq idx v h 3 (stq idx v h 2 (stq idx v h 1 (stq idx v h 0 f)))))))) := by
  intro sp c hc1
  have hsp := sp.isLt
  simp only [stq_apply k hk idx v h hidx]
  by_cases hck : c.val = k
  · have hfin : ∀ ub : Fin 8, sp.val / 16 = ub.val →
        v ub (ix1 (⟨sp.val % 16, Nat.mod_lt _ (by decide)⟩ : Fin 16)) = fin (ix2 c (⟨col + sp.val, by omega⟩ : Fin 512)) := by
      intro ub hub
      rw [hv]
      congr 1
      · congr 1
        · exact Fin.ext hck.symm
        · apply Fin.ext; show col + (16 * ub.val + sp.val % 16) = col + sp.val; omega
    split_ifs with h7 h6 h5 h4 h3 h2 h1 h0
    · exact hfin 7 h7.2
    · exact hfin 6 h6.2
    · exact hfin 5 h5.2
    · exact hfin 4 h4.2
    · exact hfin 3 h3.2
    · exact hfin 2 h2.2
    · exact hfin 1 h1.2
    · exact hfin 0 h0.2
    · exfalso
      have e7 : sp.val / 16 ≠ 7 := fun e => h7 ⟨hck, e⟩
      have e6 : sp.val / 16 ≠ 6 := fun e => h6 ⟨hck, e⟩
      have e5 : sp.val / 16 ≠ 5 := fun e => h5 ⟨hck, e⟩
      have e4 : sp.val / 16 ≠ 4 := fun e => h4 ⟨hck, e⟩
      have e3 : sp.val / 16 ≠ 3 := fun e => h3 ⟨hck, e⟩
      have e2 : sp.val / 16 ≠ 2 := fun e => h2 ⟨hck, e⟩
      have e1 : sp.val / 16 ≠ 1 := fun e => h1 ⟨hck, e⟩
      have e0 : sp.val / 16 ≠ 0 := fun e => h0 ⟨hck, e⟩
      omega
  · have hlt : c.val < k := by omega
    simp only [hck, false_and, if_false]
    exact hf sp c hlt

/-- The same with the eight stores named one by one (the form a run of the eight stores leaves). -/
theorem done_step8 (fin : TB.Idx → Elt F .f32) (col : ℕ) (hcol : col + 128 ≤ 512) (k : ℕ) (hk : k < 85) (f : Vec F TQ .f32)
    (hf : Done fin col hcol k f) (i0 i1 i2 i3 i4 i5 i6 i7 : IVec T16 32) (v0 v1 v2 v3 v4 v5 v6 v7 : Vec F T16 .f32)
    (h0 : ∀ a x, ((![i0] : Fin 1 → IVec T16 32) a x).toNat < TQ.size a) (h1 : ∀ a x, ((![i1] : Fin 1 → IVec T16 32) a x).toNat < TQ.size a)
    (h2 : ∀ a x, ((![i2] : Fin 1 → IVec T16 32) a x).toNat < TQ.size a) (h3 : ∀ a x, ((![i3] : Fin 1 → IVec T16 32) a x).toNat < TQ.size a)
    (h4 : ∀ a x, ((![i4] : Fin 1 → IVec T16 32) a x).toNat < TQ.size a) (h5 : ∀ a x, ((![i5] : Fin 1 → IVec T16 32) a x).toNat < TQ.size a)
    (h6 : ∀ a x, ((![i6] : Fin 1 → IVec T16 32) a x).toNat < TQ.size a) (h7 : ∀ a x, ((![i7] : Fin 1 → IVec T16 32) a x).toNat < TQ.size a)
    (hi0 : ∀ x : T16.Idx, (i0 x).toNat = 85 * (x 0).val + (0 + k)) (hi1 : ∀ x : T16.Idx, (i1 x).toNat = 85 * (x 0).val + (1360 + k))
    (hi2 : ∀ x : T16.Idx, (i2 x).toNat = 85 * (x 0).val + (2720 + k)) (hi3 : ∀ x : T16.Idx, (i3 x).toNat = 85 * (x 0).val + (4080 + k))
    (hi4 : ∀ x : T16.Idx, (i4 x).toNat = 85 * (x 0).val + (5440 + k)) (hi5 : ∀ x : T16.Idx, (i5 x).toNat = 85 * (x 0).val + (6800 + k))
    (hi6 : ∀ x : T16.Idx, (i6 x).toNat = 85 * (x 0).val + (8160 + k)) (hi7 : ∀ x : T16.Idx, (i7 x).toNat = 85 * (x 0).val + (9520 + k))
    (hv0 : ∀ l : Fin 16, v0 (ix1 l) = fin (ix2 (⟨k, hk⟩ : Fin 85) (⟨col + 0 + l.val, by omega⟩ : Fin 512)))
    (hv1 : ∀ l : Fin 16, v1 (ix1 l) = fin (ix2 (⟨k, hk⟩ : Fin 85) (⟨col + 16 + l.val, by omega⟩ : Fin 512)))
    (hv2 : ∀ l : Fin 16, v2 (ix1 l) = fin (ix2 (⟨k, hk⟩ : Fin 85) (⟨col + 32 + l.val, by omega⟩ : Fin 512)))
    (hv3 : ∀ l : Fin 16, v3 (ix1 l) = fin (ix2 (⟨k, hk⟩ : Fin 85) (⟨col + 48 + l.val, by omega⟩ : Fin 512)))
    (hv4 : ∀ l : Fin 16, v4 (ix1 l) = fin (ix2 (⟨k, hk⟩ : Fin 85) (⟨col + 64 + l.val, by omega⟩ : Fin 512)))
    (hv5 : ∀ l : Fin 16, v5 (ix1 l) = fin (ix2 (⟨k, hk⟩ : Fin 85) (⟨col + 80 + l.val, by omega⟩ : Fin 512)))
    (hv6 : ∀ l : Fin 16, v6 (ix1 l) = fin (ix2 (⟨k, hk⟩ : Fin 85) (⟨col + 96 + l.val, by omega⟩ : Fin 512)))
    (hv7 : ∀ l : Fin 16, v7 (ix1 l) = fin (ix2 (⟨k, hk⟩ : Fin 85) (⟨col + 112 + l.val, by omega⟩ : Fin 512))) :
    Done fin col hcol (k + 1)
      (storeIdx (storeIdx (storeIdx (storeIdx (storeIdx (storeIdx (storeIdx (storeIdx f ![i0] v0 (fun _ => 1#1) false h0)
        ![i1] v1 (fun _ => 1#1) false h1) ![i2] v2 (fun _ => 1#1) false h2) ![i3] v3 (fun _ => 1#1) false h3)
        ![i4] v4 (fun _ => 1#1) false h4) ![i5] v5 (fun _ => 1#1) false h5) ![i6] v6 (fun _ => 1#1) false h6) ![i7] v7 (fun _ => 1#1) false h7) := by
  have key := done_step fin col hcol k hk f hf ![i0, i1, i2, i3, i4, i5, i6, i7] ![v0, v1, v2, v3, v4, v5, v6, v7]
    (fun ub => match ub with | 0 => h0 | 1 => h1 | 2 => h2 | 3 => h3 | 4 => h4 | 5 => h5 | 6 => h6 | 7 => h7)
    (fun ub => match ub with
      | 0 => fun x => by rw [show (![i0, i1, i2, i3, i4, i5, i6, i7] : Fin 8 → IVec T16 32) 0 = i0 from rfl, hi0]; rfl
      | 1 => fun x => by rw [show (![i0, i1, i2, i3, i4, i5, i6, i7] : Fin 8 → IVec T16 32) 1 = i1 from rfl, hi1]; rfl
      | 2 => fun x => by rw [show (![i0, i1, i2, i3, i4, i5, i6, i7] : Fin 8 → IVec T16 32) 2 = i2 from rfl, hi2]; rfl
      | 3 => fun x => by rw [show (![i0, i1, i2, i3, i4, i5, i6, i7] : Fin 8 → IVec T16 32) 3 = i3 from rfl, hi3]; rfl
      | 4 => fun x => by rw [show (![i0, i1, i2, i3, i4, i5, i6, i7] : Fin 8 → IVec T16 32) 4 = i4 from rfl, hi4]; rfl
      | 5 => fun x => by rw [show (![i0, i1, i2, i3, i4, i5, i6, i7] : Fin 8 → IVec T16 32) 5 = i5 from rfl, hi5]; rfl
      | 6 => fun x => by rw [show (![i0, i1, i2, i3, i4, i5, i6, i7] : Fin 8 → IVec T16 32) 6 = i6 from rfl, hi6]; rfl
      | 7 => fun x => by rw [show (![i0, i1, i2, i3, i4, i5, i6, i7] : Fin 8 → IVec T16 32) 7 = i7 from rfl, hi7]; rfl)
    (fun ub => match ub with
      | 0 => fun l => (hv0 l).trans (congrArg fin (congrArg (ix2 _) (Fin.ext (by show col + 0 + l.val = col + (16 * 0 + l.val); omega))))
      | 1 => fun l => (hv1 l).trans (congrArg fin (congrArg (ix2 _) (Fin.ext (by show col + 16 + l.val = col + (16 * 1 + l.val); omega))))
      | 2 => fun l => (hv2 l).trans (congrArg fin (congrArg (ix2 _) (Fin.ext (by show col + 32 + l.val = col + (16 * 2 + l.val); omega))))
      | 3 => fun l => (hv3 l).trans (congrArg fin (congrArg (ix2 _) (Fin.ext (by show col + 48 + l.val = col + (16 * 3 + l.val); omega))))
      | 4 => fun l => (hv4 l).trans (congrArg fin (congrArg (ix2 _) (Fin.ext (by show col + 64 + l.val = col + (16 * 4 + l.val); omega))))
      | 5 => fun l => (hv5 l).trans (congrArg fin (congrArg (ix2 _) (Fin.ext (by show col + 80 + l.val = col + (16 * 5 + l.val); omega))))
      | 6 => fun l => (hv6 l).trans (congrArg fin (congrArg (ix2 _) (Fin.ext (by show col + 96 + l.val = col + (16 * 6 + l.val); omega))))
      | 7 => fun l => (hv7 l).trans (congrArg fin (congrArg (ix2 _) (Fin.ext (by show col + 112 + l.val = col + (16 * 7 + l.val); omega)))))
  exact key

end Cert.Proof.KernelRow
-- ==== Proof.LibLaneIdx.lean ====
/-
  The words of the scatter's index vectors: lane x of the scaled lane numbers holds 85·x, and adding a splat of a small
  word n gives 85·x + n with no wrap-around.
-/
import Idealize.ShloMosaic.PureOps
import Idealize.ShloMosaic.Lib.Scf

namespace Cert.Proof.LibLaneIdx

open Idealize.ShloMosaic

abbrev S16' : Shape := ⟨1, ![16]⟩

theorem lane_lt (x : S16'.Idx) : (x 0).val < 16 := (x 0).isLt

/-- Lane `x` of `iota · 85` is the word 85·x. -/
theorem scaled_iota_apply (h : S16'.Iotas .scVector 32 [0]) (x : S16'.Idx) :
    (muli (iota .scVector S16' 32 [0] h) (broadcast S16' 85#32) x).toNat = 85 * (x 0).val := by
  have hx := lane_lt x
  simp only [muli, IntOp.muli, iota, broadcast, List.foldl_cons, List.foldl_nil, Nat.zero_mul, Nat.zero_add]
  rw [BitVec.toNat_mul, BitVec.toNat_ofNat, BitVec.toNat_ofNat]
  omega

/-- Adding a splat of a small word. -/
theorem add_splat_apply (v4 : IVec S16' 32) (hv4 : ∀ x, (v4 x).toNat = 85 * (x 0).val) (w : BitVec 32) (n : ℕ) (hw : w.toNat = n) (hn : n < 1000000)
    (x : S16'.Idx) : (addi v4 (broadcast S16' w) x).toNat = 85 * (x 0).val + n := by
  have hx := lane_lt x
  simp only [addi, IntOp.addi, broadcast]
  rw [BitVec.toNat_add, hv4, hw]
  omega

/-- The loop's induction word plus a literal offset. -/
theorem off_word (OFF : ℕ) (hOFF : OFF < 100000) (k : ℕ) (hk : k < 85) :
    (Scalar.addi (BitVec.ofNat 32 OFF) (Scalar.addi 0#32 (Scalar.muli (Scf.iv 0#32 1#32 k) 1#32))).toNat = OFF + k := by
  simp only [Scalar.addi, Scalar.muli, IntOp.addi, IntOp.muli, Scf.iv]
  simp only [BitVec.toNat_add, BitVec.toNat_mul, BitVec.toNat_ofNat]
  omega

end Cert.Proof.LibLaneIdx
-- ==== Proof.KernelLoopKit.lean ====
/-
  The tools of the eight row loops of a tile's task. A row loop walks the 85 rows of a source block (one of the two input
  scratches) and scatters row k, in eight indexed stores of sixteen lanes, into a quarter buffer (one of the two output
  scratches) so that word sp·85 + k of the quarter holds element (k, col + sp) of the source. Here: the range check of the
  index vectors, the indexed store's rule restated over the buffer's plain contents, a row load read at a lane, and the
  loops' invariants.
-/
import proofs.«218930_g44392781971697_cont_8to1c4_23_28_alg».proof.Proof.KernelPay
import proofs.«218930_g44392781971697_cont_8to1c4_23_28_alg».proof.Proof.KernelRow
import proofs.«218930_g44392781971697_cont_8to1c4_23_28_alg».proof.Proof.LibLaneIdx
import Idealize.ShloMosaic.Lib.ValueLayout

noncomputable section

namespace Cert.Proof.KernelLoopKit

open Cert.Kernel Cert.Kernel.Gen Cert.Proof.KernelSetup Cert.Proof.KernelPay Cert.Proof.KernelRow Cert.Proof.LibLaneIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev xV : Memref sig .scVector .hbm S48x85x4096 .f32 := Memref.whole main_v0_scv
abbrev oV : Memref sig .scVector .hbm S5570560 .f32 := Memref.whole main_v1_scv
abbrev sA : Memref sig .scVector .vmem S85x512 .f32 := Memref.whole cc0_scratch0
abbrev sB : Memref sig .scVector .vmem S85x512 .f32 := Memref.whole cc0_scratch1
abbrev sC : Memref sig .scVector .vmem S10880 .f32 := Memref.whole cc0_scratch2
abbrev sD : Memref sig .scVector .vmem S10880 .f32 := Memref.whole cc0_scratch3

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Every index of a row's scatter is inside the quarter. -/
theorem chk_gen (v4 : IVec S16 32) (hv4 : ∀ x, (v4 x).toNat = 85 * (x 0).val) (w : BitVec 32) (n : ℕ) (hw : w.toNat = n) (hn : n + 1275 < 10880) :
    ∀ a x, ((![addi v4 (broadcast S16 w)] : Fin 1 → IVec S16 32) a x).toNat < S10880.size a := by
  intro a x
  obtain rfl : a = 0 := Subsingleton.elim _ _
  show (addi v4 (broadcast S16 w) x).toNat < 10880
  rw [add_splat_apply v4 hv4 w n hw (by omega) x]
  have := lane_lt x
  omega

omit [FloatOps F] in
theorem pts_accC (f : Buf (Elt F) ((thr d L).loc cc0_scratch2)) :
    (((sC).access (Rect.whole S10880)).loc (thr d L) ↦[((sC).access (Rect.whole S10880)).set]{fullShare} f : sProp 𝕄)
      = ((sC).view.loc (thr d L) ↦{fullShare} f) := by
  have h : ((sC).access (Rect.whole S10880) : View sig .scVector _ _ _).set = Finset.univ := Memref.set_access_whole cc0_scratch2
  rw [h]

omit [FloatOps F] in
/-- After an indexed store through the whole-buffer view, the buffer holds the scatter of what it held. -/
theorem pts_accC_store [FloatOps F] (f : Buf (Elt F) ((thr d L).loc cc0_scratch2)) (idxs : Fin S10880.rank → IVec S16 32) (v : Vec F S16 .f32)
    (mask : IVec S16 1) (add : Bool) (h : ∀ a x, (idxs a x).toNat < S10880.size a) :
    (((sC).access (Rect.whole S10880)).loc (thr d L) ↦[((sC).access (Rect.whole S10880)).set]{fullShare}
        (((sC).access (Rect.whole S10880)).write (Elt F) f
          (storeIdx (((sC).access (Rect.whole S10880)).read (Elt F) f) idxs v mask add h) Finset.univ) : sProp 𝕄)
      = ((sC).view.loc (thr d L) ↦{fullShare} storeIdx f idxs v mask add h) := by
  have hw : ((sC).access (Rect.whole S10880)).write (Elt F) f
      (storeIdx (((sC).access (Rect.whole S10880)).read (Elt F) f) idxs v mask add h) Finset.univ
        = storeIdx (((sC).access (Rect.whole S10880)).read (Elt F) f) idxs v mask add h :=
    Memref.write_access_whole_univ (Elt F) cc0_scratch2 f _
  have hr : ((sC).access (Rect.whole S10880)).read (Elt F) f = f := Memref.read_access_whole (Elt F) cc0_scratch2 f
  rw [hw, hr]
  exact pts_accC d L _

omit [FloatOps F] in
theorem pts_accD (f : Buf (Elt F) ((thr d L).loc cc0_scratch3)) :
    (((sD).access (Rect.whole S10880)).loc (thr d L) ↦[((sD).access (Rect.whole S10880)).set]{fullShare} f : sProp 𝕄)
      = ((sD).view.loc (thr d L) ↦{fullShare} f) := by
  have h : ((sD).access (Rect.whole S10880) : View sig .scVector _ _ _).set = Finset.univ := Memref.set_access_whole cc0_scratch3
  rw [h]

omit [FloatOps F] in
/-- After an indexed store through the whole-buffer view, the buffer holds the scatter of what it held. -/
theorem pts_accD_store [FloatOps F] (f : Buf (Elt F) ((thr d L).loc cc0_scratch3)) (idxs : Fin S10880.rank → IVec S16 32) (v : Vec F S16 .f32)
    (mask : IVec S16 1) (add : Bool) (h : ∀ a x, (idxs a x).toNat < S10880.size a) :
    (((sD).access (Rect.whole S10880)).loc (thr d L) ↦[((sD).access (Rect.whole S10880)).set]{fullShare}
        (((sD).access (Rect.whole S10880)).write (Elt F) f
          (storeIdx (((sD).access (Rect.whole S10880)).read (Elt F) f) idxs v mask add h) Finset.univ) : sProp 𝕄)
      = ((sD).view.loc (thr d L) ↦{fullShare} storeIdx f idxs v mask add h) := by
  have hw : ((sD).access (Rect.whole S10880)).write (Elt F) f
      (storeIdx (((sD).access (Rect.whole S10880)).read (Elt F) f) idxs v mask add h) Finset.univ
        = storeIdx (((sD).access (Rect.whole S10880)).read (Elt F) f) idxs v mask add h :=
    Memref.write_access_whole_univ (Elt F) cc0_scratch3 f _
  have hr : ((sD).access (Rect.whole S10880)).read (Elt F) f = f := Memref.read_access_whole (Elt F) cc0_scratch3 f
  rw [hw, hr]
  exact pts_accD d L _

/-- A sixteen-lane load of row `r` of a source block at column `c0`, reshaped to a lane vector, read at lane `l`. -/
theorem load_rowA (fin : S85x512.Idx → Elt F .f32) (off : Fin 2 → ℕ) (hinb : ∀ a, off a + S1x16.size a ≤ S85x512.size a)
    (r c0 : ℕ) (hoff : off = ![r, c0]) (hr : r < 85) (hc0 : c0 + 16 ≤ 512) (l : Fin 16) :
    shapeCast S16 (View.readAt (Elt F) (sA).view (Rect.unit (s := S85x512) off S1x16.size hinb).toLoadRect fin) shapeCasts_S1x16_S16 (ValueIdx.ix1 l)
      = fin (ValueIdx.ix2 (⟨r, hr⟩ : Fin 85) (⟨c0 + l.val, by omega⟩ : Fin 512)) := by
  subst hoff
  rw [ValueIdx.shapeCast_1a_a_apply, View.readAt_apply]
  show fin _ = fin _
  congr 1
  funext a
  match a with
  | ⟨0, _⟩ => apply Fin.ext; show r + 1 * 0 = r; omega
  | ⟨1, _⟩ => apply Fin.ext; show c0 + 1 * l.val = c0 + l.val; omega

/-- A sixteen-lane load of row `r` of a source block at column `c0`, reshaped to a lane vector, read at lane `l`. -/
theorem load_rowB (fin : S85x512.Idx → Elt F .f32) (off : Fin 2 → ℕ) (hinb : ∀ a, off a + S1x16.size a ≤ S85x512.size a)
    (r c0 : ℕ) (hoff : off = ![r, c0]) (hr : r < 85) (hc0 : c0 + 16 ≤ 512) (l : Fin 16) :
    shapeCast S16 (View.readAt (Elt F) (sB).view (Rect.unit (s := S85x512) off S1x16.size hinb).toLoadRect fin) shapeCasts_S1x16_S16 (ValueIdx.ix1 l)
      = fin (ValueIdx.ix2 (⟨r, hr⟩ : Fin 85) (⟨c0 + l.val, by omega⟩ : Fin 512)) := by
  subst hoff
  rw [ValueIdx.shapeCast_1a_a_apply, View.readAt_apply]
  show fin _ = fin _
  congr 1
  funext a
  match a with
  | ⟨0, _⟩ => apply Fin.ext; show r + 1 * 0 = r; omega
  | ⟨1, _⟩ => apply Fin.ext; show c0 + 1 * l.val = c0 + l.val; omega

set_option hygiene false in
/-- One indexed store into the first quarter buffer, by the indexed store's rule. -/
macro "scat_storeC" : tactic => `(tactic| (
  ihave Hq := (Entails.of_eq (pts_accC d L _).symm) $$ Hq
  iapply (SparseCore.wp_vectorStoreIdx 𝒱₀ (thr d L) none Set.univ (base := sC)) $$ Hq
  iintro Hq
  ihave Hq := (Entails.of_eq (pts_accC_store d L _ _ _ _ _ _)) $$ Hq))

set_option hygiene false in
/-- One indexed store into the second quarter buffer, by the indexed store's rule. -/
macro "scat_storeD" : tactic => `(tactic| (
  ihave Hq := (Entails.of_eq (pts_accD d L _).symm) $$ Hq
  iapply (SparseCore.wp_vectorStoreIdx 𝒱₀ (thr d L) none Set.univ (base := sD)) $$ Hq
  iintro Hq
  ihave Hq := (Entails.of_eq (pts_accD_store d L _ _ _ _ _ _)) $$ Hq))

set_option hygiene false in
/-- The run between two stores of a row: the next index vector's range check, at its literal offset. -/
macro "row_run" n:num : tactic => `(tactic| (
  sl_exec (disch := exact chk_gen v4 hv4 _ ($n + k.val) (off_word $n (by omega) k.val hk) (by omega))))

/-- The row loop's invariant, source block `sA` and quarter buffer `sC`: the source as it is, the quarter with its first `k` columns in place. -/
def invAC (fin : S85x512.Idx → Elt F .f32) (col : ℕ) (hcol : col + 128 ≤ 512) (k : ℕ) (_ : PUnit) : sProp 𝕄 :=
  iprop((sA.view.loc (thr d L) ↦{fullShare} fin) ∗ ∃ f, ⌜Done fin col hcol k f⌝ ∗ (sC.view.loc (thr d L) ↦{fullShare} f))

/-- The row loop's invariant, source block `sA` and quarter buffer `sD`: the source as it is, the quarter with its first `k` columns in place. -/
def invAD (fin : S85x512.Idx → Elt F .f32) (col : ℕ) (hcol : col + 128 ≤ 512) (k : ℕ) (_ : PUnit) : sProp 𝕄 :=
  iprop((sA.view.loc (thr d L) ↦{fullShare} fin) ∗ ∃ f, ⌜Done fin col hcol k f⌝ ∗ (sD.view.loc (thr d L) ↦{fullShare} f))

/-- The row loop's invariant, source block `sB` and quarter buffer `sC`: the source as it is, the quarter with its first `k` columns in place. -/
def invBC (fin : S85x512.Idx → Elt F .f32) (col : ℕ) (hcol : col + 128 ≤ 512) (k : ℕ) (_ : PUnit) : sProp 𝕄 :=
  iprop((sB.view.loc (thr d L) ↦{fullShare} fin) ∗ ∃ f, ⌜Done fin col hcol k f⌝ ∗ (sC.view.loc (thr d L) ↦{fullShare} f))

/-- The row loop's invariant, source block `sB` and quarter buffer `sD`: the source as it is, the quarter with its first `k` columns in place. -/
def invBD (fin : S85x512.Idx → Elt F .f32) (col : ℕ) (hcol : col + 128 ≤ 512) (k : ℕ) (_ : PUnit) : sProp 𝕄 :=
  iprop((sB.view.loc (thr d L) ↦{fullShare} fin) ∗ ∃ f, ⌜Done fin col hcol k f⌝ ∗ (sD.view.loc (thr d L) ↦{fullShare} f))

end Cert.Proof.KernelLoopKit
end
-- ==== Proof.KernelLoopsA.lean ====
/-
  Four of the eight row loops of a tile's task, each run at its invariant: after k rows the quarter buffer's first k columns
  are in place (the eight indexed stores of row k by the one-row lemma), so after the 85 rows the quarter holds the
  transposed block of 128 columns of the source.
-/
import proofs.«218930_g44392781971697_cont_8to1c4_23_28_alg».proof.Proof.KernelPay
import proofs.«218930_g44392781971697_cont_8to1c4_23_28_alg».proof.Proof.KernelRow
import proofs.«218930_g44392781971697_cont_8to1c4_23_28_alg».proof.Proof.LibLaneIdx
import proofs.«218930_g44392781971697_cont_8to1c4_23_28_alg».proof.Proof.KernelLoopKit

noncomputable section

namespace Cert.Proof.KernelLoopsA

open Cert.Proof.KernelLoopKit  Cert.Kernel Cert.Kernel.Gen Cert.Proof.KernelSetup Cert.Proof.KernelPay Cert.Proof.KernelRow Cert.Proof.LibLaneIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

set_option maxHeartbeats 4000000 in
/-- Row loop 2: the rows of source block `sA`, columns 0 … 127, into quarter buffer `sC`. -/
theorem loop_t2 (v1 : BitVec 32) (v4 : IVec S16 32) (hv4 : ∀ x, (v4 x).toNat = 85 * (x 0).val) (t1 : Fin k0_t1_loop.trips) (v54 v80 v81 : BitVec 32) (v86 : BitVec 1)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sA.view.loc (thr d L) ↦{fullShare} fin) ∗ (sC.view.loc (thr d L) ↦{fullShare} fout))
      ⊢ iprop(((sA.view.loc (thr d L) ↦{fullShare} fin) ∗ (∃ f, ⌜Done fin 0 (by omega) 85 f⌝ ∗ (sC.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t2_loop.for k0_t2_ok PUnit.unit (k0_t2_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v54 v80 v81 v86) >>= rest) Q) := by
  iintro ⟨Hs, Hq⟩ Hk
  sl_for (invAC d L fin 0 (by omega)) $$ [Hs Hq]
  case region =>
    intro k _
    have hk : k.val < 85 := Nat.lt_of_lt_of_le k.isLt k0_t2_abs.2.1
    unfold invAC
    iintro ⟨Hs, %f, %hf, Hq⟩
    row_run 0
    scat_storeC
    row_run 1360
    scat_storeC
    row_run 2720
    scat_storeC
    row_run 4080
    scat_storeC
    row_run 5440
    scat_storeC
    row_run 6800
    scat_storeC
    row_run 8160
    scat_storeC
    row_run 9520
    scat_storeC
    sl_exec
    sl_step
    isplitl [Hs]; · iexact Hs
    iexists _; isplitr
    rotate_left
    · iexact Hq
    · ipureintro
      refine done_step8 fin 0 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowA fin _ _ k.val (0 + 0) (k0_off5_eq k) hk (by omega) l
      case v1 => exact fun l => load_rowA fin _ _ k.val (0 + 16) (k0_off6_eq k) hk (by omega) l
      case v2 => exact fun l => load_rowA fin _ _ k.val (0 + 32) (k0_off7_eq k) hk (by omega) l
      case v3 => exact fun l => load_rowA fin _ _ k.val (0 + 48) (k0_off8_eq k) hk (by omega) l
      case v4 => exact fun l => load_rowA fin _ _ k.val (0 + 64) (k0_off9_eq k) hk (by omega) l
      case v5 => exact fun l => load_rowA fin _ _ k.val (0 + 80) (k0_off10_eq k) hk (by omega) l
      case v6 => exact fun l => load_rowA fin _ _ k.val (0 + 96) (k0_off11_eq k) hk (by omega) l
      case v7 => exact fun l => load_rowA fin _ _ k.val (0 + 112) (k0_off12_eq k) hk (by omega) l
  · unfold invAC
    isplitl [Hs]; · iexact Hs
    iexists fout; isplitr
    · ipureintro; exact done_zero fin 0 (by omega) fout
    · iexact Hq
  iintro %_ HI
  unfold invAC
  icases HI with ⟨Hs, %f, %hf, Hq⟩
  iapply Hk
  isplitl [Hs]; · iexact Hs
  iexists f; isplitr
  · ipureintro
    have e : (Scf.trips k0_t2_loop.lb k0_t2_loop.ub k0_t2_loop.st) = 85 := by decide
    rw [e] at hf; exact hf
  · iexact Hq

set_option maxHeartbeats 4000000 in
/-- Row loop 3: the rows of source block `sA`, columns 128 … 255, into quarter buffer `sD`. -/
theorem loop_t3 (v1 : BitVec 32) (v4 : IVec S16 32) (hv4 : ∀ x, (v4 x).toNat = 85 * (x 0).val) (t1 : Fin k0_t1_loop.trips) (v54 v80 v81 : BitVec 32) (v86 : BitVec 1)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sA.view.loc (thr d L) ↦{fullShare} fin) ∗ (sD.view.loc (thr d L) ↦{fullShare} fout))
      ⊢ iprop(((sA.view.loc (thr d L) ↦{fullShare} fin) ∗ (∃ f, ⌜Done fin 128 (by omega) 85 f⌝ ∗ (sD.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t3_loop.for k0_t3_ok PUnit.unit (k0_t3_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v54 v80 v81 v86) >>= rest) Q) := by
  iintro ⟨Hs, Hq⟩ Hk
  sl_for (invAD d L fin 128 (by omega)) $$ [Hs Hq]
  case region =>
    intro k _
    have hk : k.val < 85 := Nat.lt_of_lt_of_le k.isLt k0_t3_abs.2.1
    unfold invAD
    iintro ⟨Hs, %f, %hf, Hq⟩
    row_run 0
    scat_storeD
    row_run 1360
    scat_storeD
    row_run 2720
    scat_storeD
    row_run 4080
    scat_storeD
    row_run 5440
    scat_storeD
    row_run 6800
    scat_storeD
    row_run 8160
    scat_storeD
    row_run 9520
    scat_storeD
    sl_exec
    sl_step
    isplitl [Hs]; · iexact Hs
    iexists _; isplitr
    rotate_left
    · iexact Hq
    · ipureintro
      refine done_step8 fin 128 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowA fin _ _ k.val (128 + 0) (k0_off15_eq k) hk (by omega) l
      case v1 => exact fun l => load_rowA fin _ _ k.val (128 + 16) (k0_off16_eq k) hk (by omega) l
      case v2 => exact fun l => load_rowA fin _ _ k.val (128 + 32) (k0_off17_eq k) hk (by omega) l
      case v3 => exact fun l => load_rowA fin _ _ k.val (128 + 48) (k0_off18_eq k) hk (by omega) l
      case v4 => exact fun l => load_rowA fin _ _ k.val (128 + 64) (k0_off19_eq k) hk (by omega) l
      case v5 => exact fun l => load_rowA fin _ _ k.val (128 + 80) (k0_off20_eq k) hk (by omega) l
      case v6 => exact fun l => load_rowA fin _ _ k.val (128 + 96) (k0_off21_eq k) hk (by omega) l
      case v7 => exact fun l => load_rowA fin _ _ k.val (128 + 112) (k0_off22_eq k) hk (by omega) l
  · unfold invAD
    isplitl [Hs]; · iexact Hs
    iexists fout; isplitr
    · ipureintro; exact done_zero fin 128 (by omega) fout
    · iexact Hq
  iintro %_ HI
  unfold invAD
  icases HI with ⟨Hs, %f, %hf, Hq⟩
  iapply Hk
  isplitl [Hs]; · iexact Hs
  iexists f; isplitr
  · ipureintro
    have e : (Scf.trips k0_t3_loop.lb k0_t3_loop.ub k0_t3_loop.st) = 85 := by decide
    rw [e] at hf; exact hf
  · iexact Hq

set_option maxHeartbeats 4000000 in
/-- Row loop 4: the rows of source block `sA`, columns 256 … 383, into quarter buffer `sC`. -/
theorem loop_t4 (v1 : BitVec 32) (v4 : IVec S16 32) (hv4 : ∀ x, (v4 x).toNat = 85 * (x 0).val) (t1 : Fin k0_t1_loop.trips) (v52 v54 : BitVec 32)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sA.view.loc (thr d L) ↦{fullShare} fin) ∗ (sC.view.loc (thr d L) ↦{fullShare} fout))
      ⊢ iprop(((sA.view.loc (thr d L) ↦{fullShare} fin) ∗ (∃ f, ⌜Done fin 256 (by omega) 85 f⌝ ∗ (sC.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t4_loop.for k0_t4_ok PUnit.unit (k0_t4_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v52 v54) >>= rest) Q) := by
  iintro ⟨Hs, Hq⟩ Hk
  sl_for (invAC d L fin 256 (by omega)) $$ [Hs Hq]
  case region =>
    intro k _
    have hk : k.val < 85 := Nat.lt_of_lt_of_le k.isLt k0_t4_abs.2.1
    unfold invAC
    iintro ⟨Hs, %f, %hf, Hq⟩
    row_run 0
    scat_storeC
    row_run 1360
    scat_storeC
    row_run 2720
    scat_storeC
    row_run 4080
    scat_storeC
    row_run 5440
    scat_storeC
    row_run 6800
    scat_storeC
    row_run 8160
    scat_storeC
    row_run 9520
    scat_storeC
    sl_exec
    sl_step
    isplitl [Hs]; · iexact Hs
    iexists _; isplitr
    rotate_left
    · iexact Hq
    · ipureintro
      refine done_step8 fin 256 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowA fin _ _ k.val (256 + 0) (k0_off24_eq k) hk (by omega) l
      case v1 => exact fun l => load_rowA fin _ _ k.val (256 + 16) (k0_off25_eq k) hk (by omega) l
      case v2 => exact fun l => load_rowA fin _ _ k.val (256 + 32) (k0_off26_eq k) hk (by omega) l
      case v3 => exact fun l => load_rowA fin _ _ k.val (256 + 48) (k0_off27_eq k) hk (by omega) l
      case v4 => exact fun l => load_rowA fin _ _ k.val (256 + 64) (k0_off28_eq k) hk (by omega) l
      case v5 => exact fun l => load_rowA fin _ _ k.val (256 + 80) (k0_off29_eq k) hk (by omega) l
      case v6 => exact fun l => load_rowA fin _ _ k.val (256 + 96) (k0_off30_eq k) hk (by omega) l
      case v7 => exact fun l => load_rowA fin _ _ k.val (256 + 112) (k0_off31_eq k) hk (by omega) l
  · unfold invAC
    isplitl [Hs]; · iexact Hs
    iexists fout; isplitr
    · ipureintro; exact done_zero fin 256 (by omega) fout
    · iexact Hq
  iintro %_ HI
  unfold invAC
  icases HI with ⟨Hs, %f, %hf, Hq⟩
  iapply Hk
  isplitl [Hs]; · iexact Hs
  iexists f; isplitr
  · ipureintro
    have e : (Scf.trips k0_t4_loop.lb k0_t4_loop.ub k0_t4_loop.st) = 85 := by decide
    rw [e] at hf; exact hf
  · iexact Hq

set_option maxHeartbeats 4000000 in
/-- Row loop 5: the rows of source block `sA`, columns 384 … 511, into quarter buffer `sD`. -/
theorem loop_t5 (v1 : BitVec 32) (v4 : IVec S16 32) (hv4 : ∀ x, (v4 x).toNat = 85 * (x 0).val) (t1 : Fin k0_t1_loop.trips) (v52 v54 : BitVec 32)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sA.view.loc (thr d L) ↦{fullShare} fin) ∗ (sD.view.loc (thr d L) ↦{fullShare} fout))
      ⊢ iprop(((sA.view.loc (thr d L) ↦{fullShare} fin) ∗ (∃ f, ⌜Done fin 384 (by omega) 85 f⌝ ∗ (sD.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t5_loop.for k0_t5_ok PUnit.unit (k0_t5_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v52 v54) >>= rest) Q) := by
  iintro ⟨Hs, Hq⟩ Hk
  sl_for (invAD d L fin 384 (by omega)) $$ [Hs Hq]
  case region =>
    intro k _
    have hk : k.val < 85 := Nat.lt_of_lt_of_le k.isLt k0_t5_abs.2.1
    unfold invAD
    iintro ⟨Hs, %f, %hf, Hq⟩
    row_run 0
    scat_storeD
    row_run 1360
    scat_storeD
    row_run 2720
    scat_storeD
    row_run 4080
    scat_storeD
    row_run 5440
    scat_storeD
    row_run 6800
    scat_storeD
    row_run 8160
    scat_storeD
    row_run 9520
    scat_storeD
    sl_exec
    sl_step
    isplitl [Hs]; · iexact Hs
    iexists _; isplitr
    rotate_left
    · iexact Hq
    · ipureintro
      refine done_step8 fin 384 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowA fin _ _ k.val (384 + 0) (k0_off33_eq k) hk (by omega) l
      case v1 => exact fun l => load_rowA fin _ _ k.val (384 + 16) (k0_off34_eq k) hk (by omega) l
      case v2 => exact fun l => load_rowA fin _ _ k.val (384 + 32) (k0_off35_eq k) hk (by omega) l
      case v3 => exact fun l => load_rowA fin _ _ k.val (384 + 48) (k0_off36_eq k) hk (by omega) l
      case v4 => exact fun l => load_rowA fin _ _ k.val (384 + 64) (k0_off37_eq k) hk (by omega) l
      case v5 => exact fun l => load_rowA fin _ _ k.val (384 + 80) (k0_off38_eq k) hk (by omega) l
      case v6 => exact fun l => load_rowA fin _ _ k.val (384 + 96) (k0_off39_eq k) hk (by omega) l
      case v7 => exact fun l => load_rowA fin _ _ k.val (384 + 112) (k0_off40_eq k) hk (by omega) l
  · unfold invAD
    isplitl [Hs]; · iexact Hs
    iexists fout; isplitr
    · ipureintro; exact done_zero fin 384 (by omega) fout
    · iexact Hq
  iintro %_ HI
  unfold invAD
  icases HI with ⟨Hs, %f, %hf, Hq⟩
  iapply Hk
  isplitl [Hs]; · iexact Hs
  iexists f; isplitr
  · ipureintro
    have e : (Scf.trips k0_t5_loop.lb k0_t5_loop.ub k0_t5_loop.st) = 85 := by decide
    rw [e] at hf; exact hf
  · iexact Hq

end Cert.Proof.KernelLoopsA
end
-- ==== Proof.KernelLoopsB.lean ====
/-
  Four of the eight row loops of a tile's task, each run at its invariant: after k rows the quarter buffer's first k columns
  are in place (the eight indexed stores of row k by the one-row lemma), so after the 85 rows the quarter holds the
  transposed block of 128 columns of the source.
-/
import proofs.«218930_g44392781971697_cont_8to1c4_23_28_alg».proof.Proof.KernelPay
import proofs.«218930_g44392781971697_cont_8to1c4_23_28_alg».proof.Proof.KernelRow
import proofs.«218930_g44392781971697_cont_8to1c4_23_28_alg».proof.Proof.LibLaneIdx
import proofs.«218930_g44392781971697_cont_8to1c4_23_28_alg».proof.Proof.KernelLoopKit

noncomputable section

namespace Cert.Proof.KernelLoopsB

open Cert.Proof.KernelLoopKit  Cert.Kernel Cert.Kernel.Gen Cert.Proof.KernelSetup Cert.Proof.KernelPay Cert.Proof.KernelRow Cert.Proof.LibLaneIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

set_option maxHeartbeats 4000000 in
/-- Row loop 6: the rows of source block `sB`, columns 0 … 127, into quarter buffer `sC`. -/
theorem loop_t6 (v1 : BitVec 32) (v4 : IVec S16 32) (hv4 : ∀ x, (v4 x).toNat = 85 * (x 0).val) (t1 : Fin k0_t1_loop.trips) (v143 : BitVec 32)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sB.view.loc (thr d L) ↦{fullShare} fin) ∗ (sC.view.loc (thr d L) ↦{fullShare} fout))
      ⊢ iprop(((sB.view.loc (thr d L) ↦{fullShare} fin) ∗ (∃ f, ⌜Done fin 0 (by omega) 85 f⌝ ∗ (sC.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t6_loop.for k0_t6_ok PUnit.unit (k0_t6_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v143) >>= rest) Q) := by
  iintro ⟨Hs, Hq⟩ Hk
  sl_for (invBC d L fin 0 (by omega)) $$ [Hs Hq]
  case region =>
    intro k _
    have hk : k.val < 85 := Nat.lt_of_lt_of_le k.isLt k0_t6_abs.2.1
    unfold invBC
    iintro ⟨Hs, %f, %hf, Hq⟩
    row_run 0
    scat_storeC
    row_run 1360
    scat_storeC
    row_run 2720
    scat_storeC
    row_run 4080
    scat_storeC
    row_run 5440
    scat_storeC
    row_run 6800
    scat_storeC
    row_run 8160
    scat_storeC
    row_run 9520
    scat_storeC
    sl_exec
    sl_step
    isplitl [Hs]; · iexact Hs
    iexists _; isplitr
    rotate_left
    · iexact Hq
    · ipureintro
      refine done_step8 fin 0 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowB fin _ _ k.val (0 + 0) (k0_off43_eq k) hk (by omega) l
      case v1 => exact fun l => load_rowB fin _ _ k.val (0 + 16) (k0_off44_eq k) hk (by omega) l
      case v2 => exact fun l => load_rowB fin _ _ k.val (0 + 32) (k0_off45_eq k) hk (by omega) l
      case v3 => exact fun l => load_rowB fin _ _ k.val (0 + 48) (k0_off46_eq k) hk (by omega) l
      case v4 => exact fun l => load_rowB fin _ _ k.val (0 + 64) (k0_off47_eq k) hk (by omega) l
      case v5 => exact fun l => load_rowB fin _ _ k.val (0 + 80) (k0_off48_eq k) hk (by omega) l
      case v6 => exact fun l => load_rowB fin _ _ k.val (0 + 96) (k0_off49_eq k) hk (by omega) l
      case v7 => exact fun l => load_rowB fin _ _ k.val (0 + 112) (k0_off50_eq k) hk (by omega) l
  · unfold invBC
    isplitl [Hs]; · iexact Hs
    iexists fout; isplitr
    · ipureintro; exact done_zero fin 0 (by omega) fout
    · iexact Hq
  iintro %_ HI
  unfold invBC
  icases HI with ⟨Hs, %f, %hf, Hq⟩
  iapply Hk
  isplitl [Hs]; · iexact Hs
  iexists f; isplitr
  · ipureintro
    have e : (Scf.trips k0_t6_loop.lb k0_t6_loop.ub k0_t6_loop.st) = 85 := by decide
    rw [e] at hf; exact hf
  · iexact Hq

set_option maxHeartbeats 4000000 in
/-- Row loop 7: the rows of source block `sB`, columns 128 … 255, into quarter buffer `sD`. -/
theorem loop_t7 (v1 : BitVec 32) (v4 : IVec S16 32) (hv4 : ∀ x, (v4 x).toNat = 85 * (x 0).val) (t1 : Fin k0_t1_loop.trips) (v143 : BitVec 32)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sB.view.loc (thr d L) ↦{fullShare} fin) ∗ (sD.view.loc (thr d L) ↦{fullShare} fout))
      ⊢ iprop(((sB.view.loc (thr d L) ↦{fullShare} fin) ∗ (∃ f, ⌜Done fin 128 (by omega) 85 f⌝ ∗ (sD.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t7_loop.for k0_t7_ok PUnit.unit (k0_t7_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v143) >>= rest) Q) := by
  iintro ⟨Hs, Hq⟩ Hk
  sl_for (invBD d L fin 128 (by omega)) $$ [Hs Hq]
  case region =>
    intro k _
    have hk : k.val < 85 := Nat.lt_of_lt_of_le k.isLt k0_t7_abs.2.1
    unfold invBD
    iintro ⟨Hs, %f, %hf, Hq⟩
    row_run 0
    scat_storeD
    row_run 1360
    scat_storeD
    row_run 2720
    scat_storeD
    row_run 4080
    scat_storeD
    row_run 5440
    scat_storeD
    row_run 6800
    scat_storeD
    row_run 8160
    scat_storeD
    row_run 9520
    scat_storeD
    sl_exec
    sl_step
    isplitl [Hs]; · iexact Hs
    iexists _; isplitr
    rotate_left
    · iexact Hq
    · ipureintro
      refine done_step8 fin 128 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowB fin _ _ k.val (128 + 0) (k0_off52_eq k) hk (by omega) l
      case v1 => exact fun l => load_rowB fin _ _ k.val (128 + 16) (k0_off53_eq k) hk (by omega) l
      case v2 => exact fun l => load_rowB fin _ _ k.val (128 + 32) (k0_off54_eq k) hk (by omega) l
      case v3 => exact fun l => load_rowB fin _ _ k.val (128 + 48) (k0_off55_eq k) hk (by omega) l
      case v4 => exact fun l => load_rowB fin _ _ k.val (128 + 64) (k0_off56_eq k) hk (by omega) l
      case v5 => exact fun l => load_rowB fin _ _ k.val (128 + 80) (k0_off57_eq k) hk (by omega) l
      case v6 => exact fun l => load_rowB fin _ _ k.val (128 + 96) (k0_off58_eq k) hk (by omega) l
      case v7 => exact fun l => load_rowB fin _ _ k.val (128 + 112) (k0_off59_eq k) hk (by omega) l
  · unfold invBD
    isplitl [Hs]; · iexact Hs
    iexists fout; isplitr
    · ipureintro; exact done_zero fin 128 (by omega) fout
    · iexact Hq
  iintro %_ HI
  unfold invBD
  icases HI with ⟨Hs, %f, %hf, Hq⟩
  iapply Hk
  isplitl [Hs]; · iexact Hs
  iexists f; isplitr
  · ipureintro
    have e : (Scf.trips k0_t7_loop.lb k0_t7_loop.ub k0_t7_loop.st) = 85 := by decide
    rw [e] at hf; exact hf
  · iexact Hq

set_option maxHeartbeats 4000000 in
/-- Row loop 8: the rows of source block `sB`, columns 256 … 383, into quarter buffer `sC`. -/
theorem loop_t8 (v4 : IVec S16 32) (hv4 : ∀ x, (v4 x).toNat = 85 * (x 0).val)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sB.view.loc (thr d L) ↦{fullShare} fin) ∗ (sC.view.loc (thr d L) ↦{fullShare} fout))
      ⊢ iprop(((sB.view.loc (thr d L) ↦{fullShare} fin) ∗ (∃ f, ⌜Done fin 256 (by omega) 85 f⌝ ∗ (sC.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t8_loop.for k0_t8_ok PUnit.unit (k0_t8_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v4) >>= rest) Q) := by
  iintro ⟨Hs, Hq⟩ Hk
  sl_for (invBC d L fin 256 (by omega)) $$ [Hs Hq]
  case region =>
    intro k _
    have hk : k.val < 85 := Nat.lt_of_lt_of_le k.isLt k0_t8_abs.2.1
    unfold invBC
    iintro ⟨Hs, %f, %hf, Hq⟩
    row_run 0
    scat_storeC
    row_run 1360
    scat_storeC
    row_run 2720
    scat_storeC
    row_run 4080
    scat_storeC
    row_run 5440
    scat_storeC
    row_run 6800
    scat_storeC
    row_run 8160
    scat_storeC
    row_run 9520
    scat_storeC
    sl_exec
    sl_step
    isplitl [Hs]; · iexact Hs
    iexists _; isplitr
    rotate_left
    · iexact Hq
    · ipureintro
      refine done_step8 fin 256 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowB fin _ _ k.val (256 + 0) (k0_off61_eq k) hk (by omega) l
      case v1 => exact fun l => load_rowB fin _ _ k.val (256 + 16) (k0_off62_eq k) hk (by omega) l
      case v2 => exact fun l => load_rowB fin _ _ k.val (256 + 32) (k0_off63_eq k) hk (by omega) l
      case v3 => exact fun l => load_rowB fin _ _ k.val (256 + 48) (k0_off64_eq k) hk (by omega) l
      case v4 => exact fun l => load_rowB fin _ _ k.val (256 + 64) (k0_off65_eq k) hk (by omega) l
      case v5 => exact fun l => load_rowB fin _ _ k.val (256 + 80) (k0_off66_eq k) hk (by omega) l
      case v6 => exact fun l => load_rowB fin _ _ k.val (256 + 96) (k0_off67_eq k) hk (by omega) l
      case v7 => exact fun l => load_rowB fin _ _ k.val (256 + 112) (k0_off68_eq k) hk (by omega) l
  · unfold invBC
    isplitl [Hs]; · iexact Hs
    iexists fout; isplitr
    · ipureintro; exact done_zero fin 256 (by omega) fout
    · iexact Hq
  iintro %_ HI
  unfold invBC
  icases HI with ⟨Hs, %f, %hf, Hq⟩
  iapply Hk
  isplitl [Hs]; · iexact Hs
  iexists f; isplitr
  · ipureintro
    have e : (Scf.trips k0_t8_loop.lb k0_t8_loop.ub k0_t8_loop.st) = 85 := by decide
    rw [e] at hf; exact hf
  · iexact Hq

set_option maxHeartbeats 4000000 in
/-- Row loop 9: the rows of source block `sB`, columns 384 … 511, into quarter buffer `sD`. -/
theorem loop_t9 (v4 : IVec S16 32) (hv4 : ∀ x, (v4 x).toNat = 85 * (x 0).val)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sB.view.loc (thr d L) ↦{fullShare} fin) ∗ (sD.view.loc (thr d L) ↦{fullShare} fout))
      ⊢ iprop(((sB.view.loc (thr d L) ↦{fullShare} fin) ∗ (∃ f, ⌜Done fin 384 (by omega) 85 f⌝ ∗ (sD.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t9_loop.for k0_t9_ok PUnit.unit (k0_t9_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v4) >>= rest) Q) := by
  iintro ⟨Hs, Hq⟩ Hk
  sl_for (invBD d L fin 384 (by omega)) $$ [Hs Hq]
  case region =>
    intro k _
    have hk : k.val < 85 := Nat.lt_of_lt_of_le k.isLt k0_t9_abs.2.1
    unfold invBD
    iintro ⟨Hs, %f, %hf, Hq⟩
    row_run 0
    scat_storeD
    row_run 1360
    scat_storeD
    row_run 2720
    scat_storeD
    row_run 4080
    scat_storeD
    row_run 5440
    scat_storeD
    row_run 6800
    scat_storeD
    row_run 8160
    scat_storeD
    row_run 9520
    scat_storeD
    sl_exec
    sl_step
    isplitl [Hs]; · iexact Hs
    iexists _; isplitr
    rotate_left
    · iexact Hq
    · ipureintro
      refine done_step8 fin 384 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowB fin _ _ k.val (384 + 0) (k0_off70_eq k) hk (by omega) l
      case v1 => exact fun l => load_rowB fin _ _ k.val (384 + 16) (k0_off71_eq k) hk (by omega) l
      case v2 => exact fun l => load_rowB fin _ _ k.val (384 + 32) (k0_off72_eq k) hk (by omega) l
      case v3 => exact fun l => load_rowB fin _ _ k.val (384 + 48) (k0_off73_eq k) hk (by omega) l
      case v4 => exact fun l => load_rowB fin _ _ k.val (384 + 64) (k0_off74_eq k) hk (by omega) l
      case v5 => exact fun l => load_rowB fin _ _ k.val (384 + 80) (k0_off75_eq k) hk (by omega) l
      case v6 => exact fun l => load_rowB fin _ _ k.val (384 + 96) (k0_off76_eq k) hk (by omega) l
      case v7 => exact fun l => load_rowB fin _ _ k.val (384 + 112) (k0_off77_eq k) hk (by omega) l
  · unfold invBD
    isplitl [Hs]; · iexact Hs
    iexists fout; isplitr
    · ipureintro; exact done_zero fin 384 (by omega) fout
    · iexact Hq
  iintro %_ HI
  unfold invBD
  icases HI with ⟨Hs, %f, %hf, Hq⟩
  iapply Hk
  isplitl [Hs]; · iexact Hs
  iexists f; isplitr
  · ipureintro
    have e : (Scf.trips k0_t9_loop.lb k0_t9_loop.ub k0_t9_loop.st) = 85 := by decide
    rw [e] at hf; exact hf
  · iexact Hq

end Cert.Proof.KernelLoopsB
end
-- ==== Proof.KernelChunks.lean ====
/-
  The blocks of the input a tile fetches, in closed form. Tile (c, s) is worker w = 2·s + c and fetches chunks 4·w … 4·w + 3
  of the sixteen slabs 32 … 47: chunk q is rows 0 … 84 and columns 512·(q mod 8) … 512·(q mod 8) + 511 of slab 32 + q / 8.
-/
import proofs.«218930_g44392781971697_cont_8to1c4_23_28_alg».proof.Proof.Gen.Kernel

namespace Cert.Proof.KernelChunks

open Cert.Kernel Cert.Kernel.Gen
open Idealize.ShloMosaic

/-- The worker number of a tile. -/
abbrev wOf (L : grid0.Coords) : ℕ := 2 * (L 1).val + (L 0).val

/-- Chunk `q`'s offsets in the input viewed as [48, 85, 4096]. -/
abbrev chunkOff (q : ℕ) : Fin 3 → ℕ := ![32 + q / 8, 0, q % 8 * 512]

set_option maxRecDepth 100000 in
theorem off1_eq : ∀ L : grid0.Coords, k0_off1 L = chunkOff (4 * wOf L) := by decide +kernel
set_option maxRecDepth 100000 in
theorem off2_eq : ∀ (L : grid0.Coords) (t1 : Fin k0_t1_loop.trips), k0_off2 L t1 = chunkOff (4 * wOf L + 2 * t1.val + 1) := by decide +kernel
set_option maxRecDepth 100000 in
theorem off41_eq : ∀ (L : grid0.Coords) (t1 : Fin k0_t1_loop.trips), k0_off41 L t1 = chunkOff (4 * wOf L + 2 * t1.val + 2) := by decide +kernel

end Cert.Proof.KernelChunks
-- ==== Proof.QuarterArith.lean ====
/-
  The arithmetic of one quarter-chunk of the flat array of 16 transposed slabs (16 · 4096 · 85 = 5570560 elements,
  a slab being 4096 · 85 = 348160 of them).

  The flat array is written by 32 tiles; tile `w` writes 4 chunks of 512 positions, chunk `t` of tile `w` being chunk
  `4 · w + t` of the 128 chunks (8 to a slab), and a chunk is written as 4 quarters of 128 positions; a quarter is
  128 · 85 = 10880 consecutive elements. Element `(sp, c)` of quarter `h` of chunk `4 · w + t` (position `sp` of the
  quarter, output `c`) is element
      qj w t h sp c = ((4 · w + t) · 512 + h · 128 + sp) · 85 + c
  of the flat array. Here: it lies inside the array; which slab, which position of the slab's row and which output it
  is; its offset as a sum over the binary digits of the tile and chunk numbers; and which quarter of all 512 it
  lies in, and where. All linear arithmetic with division by literals.
-/

namespace Cert.Proof.QuarterArith

/-- Element `(sp, c)` of quarter `h` of chunk `t` of tile `w`, as an element of the flat array. -/
abbrev qj (w t h sp c : Nat) : Nat := ((4 * w + t) * 512 + h * 128 + sp) * 85 + c

/-- The element lies inside the flat array. -/
theorem quarter_lt (w t h sp c : Nat) (hw : w < 32) (ht : t < 4) (hh : h < 4) (hsp : sp < 128) (hc : c < 85) :
    qj w t h sp c < 5570560 := by
  show ((4 * w + t) * 512 + h * 128 + sp) * 85 + c < 5570560
  omega

/-- Its slab: eight chunks to a slab. -/
theorem quarter_slab (w t h sp c : Nat) (hh : h < 4) (hsp : sp < 128) (hc : c < 85) :
    qj w t h sp c / 348160 = (4 * w + t) / 8 := by
  show (((4 * w + t) * 512 + h * 128 + sp) * 85 + c) / 348160 = (4 * w + t) / 8
  omega

/-- Its output (the fastest axis). -/
theorem quarter_col (w t h sp c : Nat) (hc : c < 85) : qj w t h sp c % 85 = c := by
  show (((4 * w + t) * 512 + h * 128 + sp) * 85 + c) % 85 = c
  omega

/-- Its position within the slab's row of 4096. -/
theorem quarter_row (w t h sp c : Nat) (hh : h < 4) (hsp : sp < 128) (hc : c < 85) :
    qj w t h sp c / 85 % 4096 = (4 * w + t) % 8 * 512 + h * 128 + sp := by
  show (((4 * w + t) * 512 + h * 128 + sp) * 85 + c) / 85 % 4096 = (4 * w + t) % 8 * 512 + h * 128 + sp
  omega

/-- Its offset by the digits of the tile number `w = 2 · s + cc` and of the chunk number `t = 2 · t1 + b`
    (4 · w · 43520 = 348160 · s + 174080 · cc, a chunk being 512 · 85 = 43520 elements). -/
theorem quarter_off (w t h sp c s cc t1 b : Nat) (hw : w = 2 * s + cc) (ht : t = 2 * t1 + b) :
    qj w t h sp c = 348160 * s + 174080 * cc + 87040 * t1 + 43520 * b + 10880 * h + (sp * 85 + c) := by
  show ((4 * w + t) * 512 + h * 128 + sp) * 85 + c = _
  omega

/-- The quarter it lies in, of all 32 · 4 · 4 = 512 quarters. -/
theorem quarter_piece (w t h sp c : Nat) (hsp : sp < 128) (hc : c < 85) :
    qj w t h sp c / 10880 = w * 16 + t * 4 + h := by
  show (((4 * w + t) * 512 + h * 128 + sp) * 85 + c) / 10880 = w * 16 + t * 4 + h
  omega

/-- Where in that quarter. -/
theorem quarter_piece_off (w t h sp c : Nat) (hsp : sp < 128) (hc : c < 85) :
    qj w t h sp c % 10880 = sp * 85 + c := by
  show (((4 * w + t) * 512 + h * 128 + sp) * 85 + c) % 10880 = sp * 85 + c
  omega

/-- The slab and the slab's row position together name the element of the 48-slab array the flat element holds:
    slab `32 + (4 · w + t) / 8` at row position `(4 · w + t) % 8 · 512 + h · 128 + sp` is inside [48] × [4096]. -/
theorem quarter_slab_lt (w t : Nat) (hw : w < 32) (ht : t < 4) : (4 * w + t) / 8 < 16 := by omega

/-- The row position is inside the slab's row. -/
theorem quarter_row_lt (w t h sp : Nat) (hh : h < 4) (hsp : sp < 128) : (4 * w + t) % 8 * 512 + h * 128 + sp < 4096 := by
  omega

/-- The flat element read back from its slab, row position and output:
    `qj = ((slab · 4096) + row) · 85 + c`, the form of the flat array's specification. -/
theorem quarter_eq (w t h sp c : Nat) :
    qj w t h sp c = ((4 * w + t) / 8 * 4096 + ((4 * w + t) % 8 * 512 + h * 128 + sp)) * 85 + c := by
  show ((4 * w + t) * 512 + h * 128 + sp) * 85 + c = _
  omega

end Cert.Proof.QuarterArith
-- ==== Proof.KernelPieces.lean ====
/-
  The write-backs of a tile. Quarter h of chunk t = 2·t1 + b of worker w = 2·s + c goes to the 10880 words of the output
  starting at 10880·(16·w + 8·t1 + 4·b + h): the tile's piece number 8·t1 + 4·b + h. If the quarter buffer holds the
  transposed 128 columns of the chunk (word sp·85 + o = element (o, 128·h + sp) of the chunk) then what lands in the piece is
  the output's specification: word j of the output is element (32 + j / 348160, j mod 85, j / 85 mod 4096) of the input.
-/
import proofs.«218930_g44392781971697_cont_8to1c4_23_28_alg».proof.Proof.KernelLoopKit
import proofs.«218930_g44392781971697_cont_8to1c4_23_28_alg».proof.Proof.KernelChunks
import proofs.«218930_g44392781971697_cont_8to1c4_23_28_alg».proof.Proof.QuarterArith

noncomputable section

namespace Cert.Proof.KernelPieces

open Cert.Proof.KernelLoopKit Cert.Proof.KernelChunks Cert.Proof.QuarterArith
open Cert.Kernel Cert.Kernel.Gen Cert.Proof.KernelSetup Cert.Proof.KernelPay Cert.Proof.KernelRow

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

theorem t1_lt (t1 : Fin k0_t1_loop.trips) : t1.val < 2 := Nat.lt_of_lt_of_le t1.isLt k0_t1_abs.2.1

/-- The tile's piece number of the write-back of quarter `h` of chunk `2·t1 + b`. -/
abbrev kq (t1 : Fin k0_t1_loop.trips) (b : Fin 2) (h : Fin 4) : Fin 16 := ⟨8 * t1.val + 4 * b.val + h.val, by have := t1_lt t1; omega⟩

/-- The write-back's target, as the task slices it out of the output. -/
abbrev outM (L : grid0.Coords) (t1 : Fin k0_t1_loop.trips) (b : Fin 2) (h : Fin 4) : Memref sig .scVector .hbm S10880 .f32 :=
  (oV).slice (Rect.unit (s := S5570560) (k0_off13 L t1 (BitVec.ofNat 32 b.val) (BitVec.ofNat 32 h.val)) S10880.size (k0_off13_inb L t1 b h)) (fun _ => rfl)

theorem unit_congr {s : Shape} {o o' sz sz' : Fin s.rank → ℕ} (ho : o = o') (hs : sz = sz') (h : ∀ a, o a + sz a ≤ s.size a) (h' : ∀ a, o' a + sz' a ≤ s.size a) :
    Rect.unit (s := s) o sz h = Rect.unit o' sz' h' := by subst ho; subst hs; rfl

/-- The target is the tile's piece. -/
theorem out_rect (t1 : Fin k0_t1_loop.trips) (b : Fin 2) (h : Fin 4) :
    Rect.unit (s := S5570560) (k0_off13 L t1 (BitVec.ofNat 32 b.val) (BitVec.ofNat 32 h.val)) S10880.size (k0_off13_inb L t1 b h)
      = pieceR (pieceOf (cL L) (sL L) (kq t1 b h)) := by
  unfold pieceR Rect.part Rect.block
  apply unit_congr
  · rw [k0_off13_eq]
    funext a
    obtain rfl : a = 0 := Subsingleton.elim _ _
    have := t1_lt t1
    have hsz : S5570560.size (0 : Fin 1) / 512 = 10880 := by decide
    have ec : (cL L).val = (L 0).val := rfl
    have es : (sL L).val = (L 1).val := rfl
    have e3 : (pieceOf (cL L) (sL L) (kq t1 b h)).val = (2 * (sL L).val + (cL L).val) * 16 + (8 * t1.val + 4 * b.val + h.val) := rfl
    simp only [Shape.partIx, Shape.partSize, ↓reduceIte, hsz, e3, Matrix.cons_val_zero]
    omega
  · funext a
    obtain rfl : a = 0 := Subsingleton.elim _ _
    have hsz : S5570560.size (0 : Fin 1) / 512 = 10880 := by decide
    simp only [Shape.partSize, ↓reduceIte, hsz]
    rfl

theorem out_set (t1 : Fin k0_t1_loop.trips) (b : Fin 2) (h : Fin 4) :
    (outM L t1 b h).view.set = piece (pieceOf (cL L) (sL L) (kq t1 b h)) := by
  have e := out_rect L t1 b h
  refine (View.set_slice_whole main_v1_scv _).trans ?_
  refine Eq.trans ?_ (View.set_slice_whole main_v1_scv _).symm
  rw [e]

/-- A piece held in the TensorCore's spelling is the target held in the task's. -/
theorem pts_out (t1 : Fin k0_t1_loop.trips) (b : Fin 2) (h : Fin 4) (f : Buf (Elt F) (sLoc d)) :
    (sLoc d ↦[piece (pieceOf (cL L) (sL L) (kq t1 b h))]{fullShare} f : sProp 𝕄)
      = ((outM L t1 b h).view.loc (thr d L) ↦[(outM L t1 b h).view.set]{fullShare} f) := by
  rw [out_set]

/-! ## What lands in a piece -/

theorem w_lt : wOf L < 32 := by
  have h0 : (L 0).val < 2 := (L 0).isLt
  have h1 : (L 1).val < 16 := (L 1).isLt
  show 2 * (L 1).val + (L 0).val < 32
  omega

/-- Chunk `q` of the input: rows 0 … 84, columns 512·(q mod 8) … of slab 32 + q / 8. -/
def chunkFn (q : ℕ) (hq : q < 128) : S85x512.Idx → Elt F .f32 := fun j =>
  Xv m d (ValueIdx.ix3 (⟨32 + q / 8, by omega⟩ : Fin 48) (⟨(j 0).val, (j 0).isLt⟩ : Fin 85)
    (⟨q % 8 * 512 + (j 1).val, by have := (j 1).isLt; have h512 : (j 1).val < 512 := this; omega⟩ : Fin 4096))

/-- The specification of the call's output at word `j` of quarter `h` of chunk `4·w + t`. -/
theorem sv_quarter (w t h sp c : ℕ) (hw : w < 32) (ht : t < 4) (hh : h < 4) (hsp : sp < 128) (hc : c < 85) :
    Sv m d (ValueIdx.ix1 (⟨qj w t h sp c, quarter_lt w t h sp c hw ht hh hsp hc⟩ : Fin 5570560))
      = Xv m d (ValueIdx.ix3 (⟨32 + (4 * w + t) / 8, by omega⟩ : Fin 48) (⟨c, hc⟩ : Fin 85)
          (⟨(4 * w + t) % 8 * 512 + h * 128 + sp, by omega⟩ : Fin 4096)) := by
  unfold Sv
  congr 1
  funext a
  match a with
  | ⟨0, _⟩ => apply Fin.ext; show 32 + qj w t h sp c / 348160 = 32 + (4 * w + t) / 8; rw [quarter_slab w t h sp c hh hsp hc]
  | ⟨1, _⟩ => apply Fin.ext; show qj w t h sp c % 85 = c; exact quarter_col w t h sp c hc
  | ⟨2, _⟩ => apply Fin.ext; show qj w t h sp c / 85 % 4096 = _; exact quarter_row w t h sp c hh hsp hc

theorem idx1_ext (i j : S5570560.Idx) (h : (i 0).val = (j 0).val) : i = j := by
  rw [ValueIdx.eq_ix1 i, ValueIdx.eq_ix1 j]; congr 1; exact Fin.ext h
theorem idxQ_ext (i j : S10880.Idx) (h : (i 0).val = (j 0).val) : i = j := by
  rw [ValueIdx.eq_ix1 i, ValueIdx.eq_ix1 j]; congr 1; exact Fin.ext h

/-- What a whole-quarter write leaves at an element of the target. -/
theorem out_written (t1 : Fin k0_t1_loop.trips) (b : Fin 2) (h : Fin 4) (g : Buf (Elt F) (sLoc d)) (w : S10880.Idx → Elt F .f32) (y : S10880.Idx) :
    (outM L t1 b h).view.writes (Elt F) g [⟨Rect.whole S10880, w⟩] ((outM L t1 b h).view.emb y) = w y := by
  have h1 : (outM L t1 b h).view.emb y = ((outM L t1 b h).view.slice (Rect.whole S10880)).emb y :=
    congrArg (outM L t1 b h).view.emb (Rect.emb_whole_apply S10880 y).symm
  show ((outM L t1 b h).view.slice (Rect.whole S10880)).write (Elt F) g w Finset.univ ((outM L t1 b h).view.emb y) = w y
  rw [h1, View.write_emb_of_mem _ _ (Finset.mem_univ y)]
  exact cast_eq _ _

/-- A quarter buffer that holds the transposed columns 128·h … of chunk `2·t1 + b`, written to its target, is the
    output's specification on the tile's piece. -/
theorem piece_done (t1 : Fin k0_t1_loop.trips) (b : Fin 2) (h : Fin 4) (g : Buf (Elt F) (sLoc d)) (fq w : S10880.Idx → Elt F .f32) (hw : w = fq)
    (hq : Done (chunkFn m d (4 * wOf L + 2 * t1.val + b.val) (by have := w_lt L; have := t1_lt t1; omega)) (128 * h.val) (by omega) 85 fq) :
    ∀ i ∈ (outM L t1 b h).view.set, (outM L t1 b h).view.writes (Elt F) g [⟨Rect.whole S10880, w⟩] i = Sv m d i := by
  intro i hi
  obtain ⟨y, -, rfl⟩ := Finset.mem_map.mp hi
  have hy : (y 0).val < 10880 := (y 0).isLt
  have hwl := w_lt L
  have ht1 := t1_lt t1
  have hsp : (y 0).val / 85 < 128 := by omega
  have hc : (y 0).val % 85 < 85 := Nat.mod_lt _ (by decide)
  have hyq : y = qIx ⟨(y 0).val / 85, hsp⟩ ⟨(y 0).val % 85, hc⟩ := by
    apply idxQ_ext
    show (y 0).val = (y 0).val / 85 * 85 + (y 0).val % 85
    omega
  have hemb : (outM L t1 b h).view.emb y
      = ValueIdx.ix1 (⟨qj (wOf L) (2 * t1.val + b.val) h.val ((y 0).val / 85) ((y 0).val % 85),
          quarter_lt _ _ _ _ _ hwl (by omega) h.isLt hsp hc⟩ : Fin 5570560) := by
    apply idx1_ext
    have e1 := k0_off13_eq L t1 b h
    have e2 := quarter_off (wOf L) (2 * t1.val + b.val) h.val ((y 0).val / 85) ((y 0).val % 85) (L 1).val (L 0).val t1.val b.val rfl rfl
    show (k0_off13 L t1 (BitVec.ofNat 32 b.val) (BitVec.ofNat 32 h.val)) 0 + 1 * (y 0).val
      = qj (wOf L) (2 * t1.val + b.val) h.val ((y 0).val / 85) ((y 0).val % 85)
    rw [e1, e2]
    show 348160 * (L 1).val + 174080 * (L 0).val + 87040 * t1.val + 43520 * b.val + 10880 * h.val + 1 * (y 0).val = _
    omega
  rw [out_written d L t1 b h g w y, hemb, sv_quarter m d (wOf L) (2 * t1.val + b.val) h.val _ _ hwl (by omega) h.isLt hsp hc, hw]
  have hq' := hq ⟨(y 0).val / 85, hsp⟩ ⟨(y 0).val % 85, hc⟩ hc
  rw [← hyq] at hq'
  rw [hq']
  unfold chunkFn
  congr 1
  funext a
  match a with
  | ⟨0, _⟩ => apply Fin.ext; show 32 + (4 * wOf L + 2 * t1.val + b.val) / 8 = 32 + (4 * wOf L + (2 * t1.val + b.val)) / 8; rw [Nat.add_assoc]
  | ⟨1, _⟩ => rfl
  | ⟨2, _⟩ => apply Fin.ext; show (4 * wOf L + 2 * t1.val + b.val) % 8 * 512 + (128 * h.val + (y 0).val / 85) = (4 * wOf L + (2 * t1.val + b.val)) % 8 * 512 + h.val * 128 + (y 0).val / 85; rw [Nat.add_assoc (4 * wOf L)]; omega

/-- A chunk fetched whole into input scratch `sA` is that chunk of the input. -/
theorem chunk_inA (q : ℕ) (hq : q < 128) (offs : Fin 3 → ℕ) (hinb : ∀ a, offs a + S1x85x512.size a ≤ S48x85x4096.size a) (hoff : offs = chunkOff q)
    (fa : S85x512.Idx → Elt F .f32) :
    View.write (Elt F) (sA).view fa (ReadAs.same.apply (View.read (Elt F)
        (((xV).slice (Rect.unit (s := S48x85x4096) offs S1x85x512.size hinb) (fun _ => rfl)).squeeze S85x512 squeezes_S1x85x512_S85x512).view (Xv m d))) Finset.univ
      = chunkFn m d q hq := by
  subst hoff
  refine (View.write_whole_univ cc0_scratch0 fa _).trans ?_
  funext j
  show View.read (Elt F) (((xV).slice (Rect.unit (s := S48x85x4096) (chunkOff q) S1x85x512.size hinb) (fun _ => rfl)).squeeze S85x512 squeezes_S1x85x512_S85x512).view (Xv m d) j = chunkFn m d q hq j
  rw [View.read_apply]
  refine (cast_eq _ _).trans ?_
  unfold chunkFn
  congr 1
  have hre : Shape.reshapeEquiv (squeezes_S1x85x512_S85x512).numel_eq j
      = ValueIdx.ix3 (0 : Fin 1) (⟨(j 0).val, (j 0).isLt⟩ : Fin 85) (⟨(j 1).val, (j 1).isLt⟩ : Fin 512) :=
    Shape.reshapeEquiv_eq_of_rowMajor _ (by
      rw [Shape.rowMajor_val_three, Shape.rowMajor_val_two]
      show (0 * 85 + (j 0).val) * 512 + (j 1).val = (j 0).val * 512 + (j 1).val
      omega)
  show (Rect.unit (s := S48x85x4096) (chunkOff q) S1x85x512.size hinb).emb (Shape.reshapeEquiv (squeezes_S1x85x512_S85x512).numel_eq j) = _
  rw [hre]
  funext a
  match a with
  | ⟨0, _⟩ => apply Fin.ext; show 32 + q / 8 + 1 * 0 = 32 + q / 8; omega
  | ⟨1, _⟩ => apply Fin.ext; show 0 + 1 * (j 0).val = (j 0).val; omega
  | ⟨2, _⟩ => apply Fin.ext; show q % 8 * 512 + 1 * (j 1).val = q % 8 * 512 + (j 1).val; omega

/-- A chunk fetched whole into input scratch `sB` is that chunk of the input. -/
theorem chunk_inB (q : ℕ) (hq : q < 128) (offs : Fin 3 → ℕ) (hinb : ∀ a, offs a + S1x85x512.size a ≤ S48x85x4096.size a) (hoff : offs = chunkOff q)
    (fa : S85x512.Idx → Elt F .f32) :
    View.write (Elt F) (sB).view fa (ReadAs.same.apply (View.read (Elt F)
        (((xV).slice (Rect.unit (s := S48x85x4096) offs S1x85x512.size hinb) (fun _ => rfl)).squeeze S85x512 squeezes_S1x85x512_S85x512).view (Xv m d))) Finset.univ
      = chunkFn m d q hq := by
  subst hoff
  refine (View.write_whole_univ cc0_scratch1 fa _).trans ?_
  funext j
  show View.read (Elt F) (((xV).slice (Rect.unit (s := S48x85x4096) (chunkOff q) S1x85x512.size hinb) (fun _ => rfl)).squeeze S85x512 squeezes_S1x85x512_S85x512).view (Xv m d) j = chunkFn m d q hq j
  rw [View.read_apply]
  refine (cast_eq _ _).trans ?_
  unfold chunkFn
  congr 1
  have hre : Shape.reshapeEquiv (squeezes_S1x85x512_S85x512).numel_eq j
      = ValueIdx.ix3 (0 : Fin 1) (⟨(j 0).val, (j 0).isLt⟩ : Fin 85) (⟨(j 1).val, (j 1).isLt⟩ : Fin 512) :=
    Shape.reshapeEquiv_eq_of_rowMajor _ (by
      rw [Shape.rowMajor_val_three, Shape.rowMajor_val_two]
      show (0 * 85 + (j 0).val) * 512 + (j 1).val = (j 0).val * 512 + (j 1).val
      omega)
  show (Rect.unit (s := S48x85x4096) (chunkOff q) S1x85x512.size hinb).emb (Shape.reshapeEquiv (squeezes_S1x85x512_S85x512).numel_eq j) = _
  rw [hre]
  funext a
  match a with
  | ⟨0, _⟩ => apply Fin.ext; show 32 + q / 8 + 1 * 0 = 32 + q / 8; omega
  | ⟨1, _⟩ => apply Fin.ext; show 0 + 1 * (j 0).val = (j 0).val; omega
  | ⟨2, _⟩ => apply Fin.ext; show q % 8 * 512 + 1 * (j 1).val = q % 8 * 512 + (j 1).val; omega

/-- The loops' conclusion along an equation of the source's contents. -/
theorem done_of_eq {fin fin' : S85x512.Idx → Elt F .f32} (e : fin = fin') {col : ℕ} {hcol : col + 128 ≤ 512} {k : ℕ} {f : S10880.Idx → Elt F .f32}
    (h : Done fin col hcol k f) : Done fin' col hcol k f := e ▸ h

/-- A written-back piece, in the task's spelling, is the tile's piece at the output's specification, in the TensorCore's. -/
theorem piece_back (t1 : Fin k0_t1_loop.trips) (b : Fin 2) (h : Fin 4) (g : Buf (Elt F) (sLoc d)) (fq w : S10880.Idx → Elt F .f32) (hw : w = fq)
    (hq : Done (chunkFn m d (4 * wOf L + 2 * t1.val + b.val) (by have := w_lt L; have := t1_lt t1; omega)) (128 * h.val) (by omega) 85 fq) :
    ((outM L t1 b h).view.loc (thr d L) ↦[(outM L t1 b h).view.set]{fullShare} (outM L t1 b h).view.writes (Elt F) g [⟨Rect.whole S10880, w⟩] : sProp 𝕄)
      = (sLoc d ↦[piece (pieceOf (cL L) (sL L) (kq t1 b h))]{fullShare} Sv m d) := by
  rw [pts_out (F := F) d L t1 b h (Sv m d)]
  exact pointsTo_congr (piece_done m d L t1 b h g fq w hw hq)

/-- The waits a task records are all at the kernels' own index. -/
theorem waits_step {W W' : Waits sig (HIx 1)} {a : SemLoc sig × HIx 1} (ha : a.2 = none) (h : ∀ p ∈ W', p ∈ W ∨ p.2 = none) :
    ∀ p ∈ insert a W', p ∈ W ∨ p.2 = none :=
  fun p hp => (Finset.mem_insert.mp hp).elim (fun e => .inr (e ▸ ha)) (h p)

end Cert.Proof.KernelPieces

end
-- ==== Proof.KernelTile.lean ====
/-
  A tile's task, run whole. Worker w = 2·s + c fetches its four chunks of the input (two input scratches, the next chunk
  fetched while the current one is transposed), transposes each chunk quarter by quarter into the two output scratches (the
  eight row loops) and writes each quarter back to its piece of the flat output while the next quarter is computed: at most
  one copy is outstanding on each of the four semaphores, and no buffer is touched between a copy's issue and its wait.
  The two trips of the outer loop are run one after the other; every row loop is run by its invariant. At the end each of
  the tile's sixteen pieces holds the output's specification: word j of the output is element
  (32 + j / 348160, j mod 85, j / 85 mod 4096) of the input viewed as [48, 85, 4096].
-/
import proofs.«218930_g44392781971697_cont_8to1c4_23_28_alg».proof.Proof.KernelLoopsA
import proofs.«218930_g44392781971697_cont_8to1c4_23_28_alg».proof.Proof.KernelLoopsB
import proofs.«218930_g44392781971697_cont_8to1c4_23_28_alg».proof.Proof.KernelPieces

noncomputable section

namespace Cert.Proof.KernelTile

open Cert.Proof.KernelLoopKit Cert.Proof.KernelLoopsA Cert.Proof.KernelLoopsB Cert.Proof.KernelPieces Cert.Proof.KernelChunks
open Cert.Kernel Cert.Kernel.Gen Cert.Proof.KernelSetup Cert.Proof.KernelPay Cert.Proof.KernelRow Cert.Proof.LibLaneIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

abbrev cell (k : DmaSem sig) : GSem nD τ sig := (thr d L, .dma k)
omit [FloatOps F] in
theorem ownSems0_V :
    (ownSems0 (thr d L) : sProp 𝕄)
      = iprop(semVal (cell d L cc0_scratch4.sem) 0 ∗ semVal (cell d L cc0_scratch5.sem) 0 ∗ semVal (cell d L cc0_scratch6.sem) 0 ∗ semVal (cell d L cc0_scratch7.sem) 0
          ∗ bigSep (((((ownCells (thr d L)).erase (cell d L cc0_scratch4.sem)).erase (cell d L cc0_scratch5.sem)).erase (cell d L cc0_scratch6.sem)).erase (cell d L cc0_scratch7.sem))
              fun g => semVal g 0) := by
  unfold SparseCore.Cfg.ownSems0
  rw [SparseCore.bigSep_erase' ((mem_ownCells (g := cell d L cc0_scratch4.sem)).mpr ⟨rfl, by
      show (SemLoc.dma cc0_scratch4.sem : SemLoc sig).isScoped .scVector = true; decide⟩),
    SparseCore.bigSep_erase' (Finset.mem_erase.mpr ⟨by simp [cell]; decide, (mem_ownCells (g := cell d L cc0_scratch5.sem)).mpr ⟨rfl, by
      show (SemLoc.dma cc0_scratch5.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scratch6.sem)).mpr ⟨rfl, by show (SemLoc.dma cc0_scratch6.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide,
      (mem_ownCells (g := cell d L cc0_scratch7.sem)).mpr ⟨rfl, by show (SemLoc.dma cc0_scratch7.sem : SemLoc sig).isScoped .scVector = true; decide⟩⟩⟩⟩)]

omit [FloatOps F] in
/-- The four scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_x (q : PosShare TreeShare) (f : Buf (Elt F) (xLoc d)) :
    ((xV).view.loc (thr d L) ↦{q} f : sProp 𝕄) = xLoc d ↦{q} f := rfl
omit [FloatOps F] in
theorem pts_sA (f : Buf (Elt F) ((thr d L).loc cc0_scratch0)) :
    ((sA).view.loc (thr d L) ↦{fullShare} f : sProp 𝕄) = (thr d L).loc cc0_scratch0 ↦{fullShare} f := rfl
omit [FloatOps F] in
theorem pts_sB (f : Buf (Elt F) ((thr d L).loc cc0_scratch1)) :
    ((sB).view.loc (thr d L) ↦{fullShare} f : sProp 𝕄) = (thr d L).loc cc0_scratch1 ↦{fullShare} f := rfl
omit [FloatOps F] in
theorem pts_sC (f : Buf (Elt F) ((thr d L).loc cc0_scratch2)) :
    ((sC).view.loc (thr d L) ↦{fullShare} f : sProp 𝕄) = (thr d L).loc cc0_scratch2 ↦{fullShare} f := rfl
omit [FloatOps F] in
theorem pts_sD (f : Buf (Elt F) ((thr d L).loc cc0_scratch3)) :
    ((sD).view.loc (thr d L) ↦{fullShare} f : sProp 𝕄) = (thr d L).loc cc0_scratch3 ↦{fullShare} f := rfl

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

omit [FloatOps F] in
theorem q_lt (t1 : Fin k0_t1_loop.trips) (b : Fin 2) : 4 * wOf L + 2 * t1.val + b.val < 128 := by
  have := w_lt L; have := t1_lt t1; omega

abbrev T0 : Fin k0_t1_loop.trips := ⟨0, by decide⟩
abbrev T1 : Fin k0_t1_loop.trips := ⟨1, by decide⟩

set_option maxHeartbeats 8000000 in
/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ goR m d (cL L) (sL L)
        ∗ scopedBufs (thr d L) ∗ scopedSems0 (thr d L) ∗ owes (thr d L) O W)
      ⊢ wp frame (wpE (defs₀ (F := F)) 𝒱₀ (thr d L) none) Set.univ
          (cc0_sc_kernel L xV (Memref.isWhole_whole _) oV (Memref.isWhole_whole _) sA (Memref.isWhole_whole _) sB (Memref.isWhole_whole _)
            sC (Memref.isWhole_whole _) sD (Memref.isWhole_whole _) cc0_scratch4 cc0_scratch5 cc0_scratch6 cc0_scratch7)
          fun _ => iprop(tdR m d (cL L) (sL L) ∗ scopedBufs (thr d L) ∗ scopedSems0 (thr d L)
            ∗ ∃ W', ⌜∀ p ∈ W', p ∈ W ∨ p.2 = none⌝ ∗ owes (thr d L) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  unfold goR
  iintro ⟨#Hlv, -, ⟨Hx, Ho⟩, ⟨⟨%fa, Ha⟩, ⟨%fb, Hb⟩, ⟨%fc, Hc⟩, ⟨%fd, Hd⟩, Hbufs⟩, ⟨Hs4, Hs5, Hs6, Hs7, Hsems⟩, HO⟩
  ihave Hmw := ((K (F := F)).mayWaits_none (thr := thr d L) hO) $$ Hlv
  ihave Hx' := (Entails.of_eq (pts_x (F := F) d L _ _).symm) $$ Hx
  ihave Ha' := (Entails.of_eq (pts_sA (F := F) d L _).symm) $$ Ha
  ihave Hb' := (Entails.of_eq (pts_sB (F := F) d L _).symm) $$ Hb
  ihave Hc' := (Entails.of_eq (pts_sC (F := F) d L _).symm) $$ Hc
  ihave Hd' := (Entails.of_eq (pts_sD (F := F) d L _).symm) $$ Hd
  ihave Hx2 := (Transfers.pointsTo_toks (tileShare (cL L) (sL L)) 2).1 $$ Hx'
  icases Hx2 with ⟨Hxd, Hxt⟩
  ihave Hxt' := (Entails.of_eq (bigSep_W1 _)) $$ Hxt
  icases Hxt' with ⟨Hx0, Hx1⟩
  ihave Ho' := (Entails.of_eq (bigSep_fin16 _)) $$ Ho
  icases Ho' with ⟨Ho0, Ho1, Ho2, Ho3, Ho4, Ho5, Ho6, Ho7, Ho8, Ho9, Ho10, Ho11, Ho12, Ho13, Ho14, Ho15⟩
  ihave Ho0 := (Entails.of_eq (pts_out (F := F) d L T0 0 0 _)) $$ Ho0
  ihave Ho1 := (Entails.of_eq (pts_out (F := F) d L T0 0 1 _)) $$ Ho1
  ihave Ho2 := (Entails.of_eq (pts_out (F := F) d L T0 0 2 _)) $$ Ho2
  ihave Ho3 := (Entails.of_eq (pts_out (F := F) d L T0 0 3 _)) $$ Ho3
  ihave Ho4 := (Entails.of_eq (pts_out (F := F) d L T0 1 0 _)) $$ Ho4
  ihave Ho5 := (Entails.of_eq (pts_out (F := F) d L T0 1 1 _)) $$ Ho5
  ihave Ho6 := (Entails.of_eq (pts_out (F := F) d L T0 1 2 _)) $$ Ho6
  ihave Ho7 := (Entails.of_eq (pts_out (F := F) d L T0 1 3 _)) $$ Ho7
  ihave Ho8 := (Entails.of_eq (pts_out (F := F) d L T1 0 0 _)) $$ Ho8
  ihave Ho9 := (Entails.of_eq (pts_out (F := F) d L T1 0 1 _)) $$ Ho9
  ihave Ho10 := (Entails.of_eq (pts_out (F := F) d L T1 0 2 _)) $$ Ho10
  ihave Ho11 := (Entails.of_eq (pts_out (F := F) d L T1 0 3 _)) $$ Ho11
  ihave Ho12 := (Entails.of_eq (pts_out (F := F) d L T1 1 0 _)) $$ Ho12
  ihave Ho13 := (Entails.of_eq (pts_out (F := F) d L T1 1 1 _)) $$ Ho13
  ihave Ho14 := (Entails.of_eq (pts_out (F := F) d L T1 1 2 _)) $$ Ho14
  ihave Ho15 := (Entails.of_eq (pts_out (F := F) d L T1 1 3 _)) $$ Ho15
  sl_exec
  sl_unroll
  sl_exec
  iapply (loop_t2 (F := F) d L _ _ (fun x => scaled_iota_apply iota_S16_d0_w32_scVector x) _ _ _ _ _ _ _ _ _) $$ [Ha' Hc']
  · isplitl [Ha']; · iexact Ha'
    iexact Hc'
  iintro ⟨Ha', %q0, %hq0, Hc'⟩
  sl_exec
  iapply (loop_t3 (F := F) d L _ _ (fun x => scaled_iota_apply iota_S16_d0_w32_scVector x) _ _ _ _ _ _ _ _ _) $$ [Ha' Hd']
  · isplitl [Ha']; · iexact Ha'
    iexact Hd'
  iintro ⟨Ha', %q1, %hq1, Hd'⟩
  sl_exec
  iapply (loop_t4 (F := F) d L _ _ (fun x => scaled_iota_apply iota_S16_d0_w32_scVector x) _ _ _ _ _ _ _) $$ [Ha' Hc']
  · isplitl [Ha']; · iexact Ha'
    iexact Hc'
  iintro ⟨Ha', %q2, %hq2, Hc'⟩
  sl_exec
  iapply (loop_t5 (F := F) d L _ _ (fun x => scaled_iota_apply iota_S16_d0_w32_scVector x) _ _ _ _ _ _ _) $$ [Ha' Hd']
  · isplitl [Ha']; · iexact Ha'
    iexact Hd'
  iintro ⟨Ha', %q3, %hq3, Hd'⟩
  sl_exec
  iapply (loop_t6 (F := F) d L _ _ (fun x => scaled_iota_apply iota_S16_d0_w32_scVector x) _ _ _ _ _ _) $$ [Hb' Hc']
  · isplitl [Hb']; · iexact Hb'
    iexact Hc'
  iintro ⟨Hb', %q4, %hq4, Hc'⟩
  sl_exec
  iapply (loop_t7 (F := F) d L _ _ (fun x => scaled_iota_apply iota_S16_d0_w32_scVector x) _ _ _ _ _ _) $$ [Hb' Hd']
  · isplitl [Hb']; · iexact Hb'
    iexact Hd'
  iintro ⟨Hb', %q5, %hq5, Hd'⟩
  sl_exec
  iapply (loop_t8 (F := F) d L _ (fun x => scaled_iota_apply iota_S16_d0_w32_scVector x) _ _ _ _) $$ [Hb' Hc']
  · isplitl [Hb']; · iexact Hb'
    iexact Hc'
  iintro ⟨Hb', %q6, %hq6, Hc'⟩
  sl_exec
  iapply (loop_t9 (F := F) d L _ (fun x => scaled_iota_apply iota_S16_d0_w32_scVector x) _ _ _ _) $$ [Hb' Hd']
  · isplitl [Hb']; · iexact Hb'
    iexact Hd'
  iintro ⟨Hb', %q7, %hq7, Hd'⟩
  sl_exec
  iapply (loop_t2 (F := F) d L _ _ (fun x => scaled_iota_apply iota_S16_d0_w32_scVector x) _ _ _ _ _ _ _ _ _) $$ [Ha' Hc']
  · isplitl [Ha']; · iexact Ha'
    iexact Hc'
  iintro ⟨Ha', %q8, %hq8, Hc'⟩
  sl_exec
  iapply (loop_t3 (F := F) d L _ _ (fun x => scaled_iota_apply iota_S16_d0_w32_scVector x) _ _ _ _ _ _ _ _ _) $$ [Ha' Hd']
  · isplitl [Ha']; · iexact Ha'
    iexact Hd'
  iintro ⟨Ha', %q9, %hq9, Hd'⟩
  sl_exec
  iapply (loop_t4 (F := F) d L _ _ (fun x => scaled_iota_apply iota_S16_d0_w32_scVector x) _ _ _ _ _ _ _) $$ [Ha' Hc']
  · isplitl [Ha']; · iexact Ha'
    iexact Hc'
  iintro ⟨Ha', %q10, %hq10, Hc'⟩
  sl_exec
  iapply (loop_t5 (F := F) d L _ _ (fun x => scaled_iota_apply iota_S16_d0_w32_scVector x) _ _ _ _ _ _ _) $$ [Ha' Hd']
  · isplitl [Ha']; · iexact Ha'
    iexact Hd'
  iintro ⟨Ha', %q11, %hq11, Hd'⟩
  sl_exec
  iapply (loop_t6 (F := F) d L _ _ (fun x => scaled_iota_apply iota_S16_d0_w32_scVector x) _ _ _ _ _ _) $$ [Hb' Hc']
  · isplitl [Hb']; · iexact Hb'
    iexact Hc'
  iintro ⟨Hb', %q12, %hq12, Hc'⟩
  sl_exec
  iapply (loop_t7 (F := F) d L _ _ (fun x => scaled_iota_apply iota_S16_d0_w32_scVector x) _ _ _ _ _ _) $$ [Hb' Hd']
  · isplitl [Hb']; · iexact Hb'
    iexact Hd'
  iintro ⟨Hb', %q13, %hq13, Hd'⟩
  sl_exec
  iapply (loop_t8 (F := F) d L _ (fun x => scaled_iota_apply iota_S16_d0_w32_scVector x) _ _ _ _) $$ [Hb' Hc']
  · isplitl [Hb']; · iexact Hb'
    iexact Hc'
  iintro ⟨Hb', %q14, %hq14, Hc'⟩
  sl_exec
  iapply (loop_t9 (F := F) d L _ (fun x => scaled_iota_apply iota_S16_d0_w32_scVector x) _ _ _ _) $$ [Hb' Hd']
  · isplitl [Hb']; · iexact Hb'
    iexact Hd'
  iintro ⟨Hb', %q15, %hq15, Hd'⟩
  sl_exec
  sl_step
  -- what the four chunks hold: the input's blocks
  have hch00 := fun (fa : S85x512.Idx → Elt F .f32) => chunk_inA m d (4 * wOf L + 2 * (T0).val + (0 : Fin 2).val) (q_lt L T0 0) (k0_off1 L) (k0_off1_inb L) (off1_eq L) fa
  have hch01 := fun (fa : S85x512.Idx → Elt F .f32) => chunk_inB m d (4 * wOf L + 2 * (T0).val + (1 : Fin 2).val) (q_lt L T0 1) (k0_off2 L T0) (k0_off2_inb L T0 (by decide)) (off2_eq L T0) fa
  have hch10 := fun (fa : S85x512.Idx → Elt F .f32) => chunk_inA m d (4 * wOf L + 2 * (T1).val + (0 : Fin 2).val) (q_lt L T1 0) (k0_off41 L T0) (k0_off41_inb L T0 (by decide)) ((off41_eq L T0).trans (congrArg chunkOff (by show 4 * wOf L + 2 * 0 + 2 = 4 * wOf L + 2 * 1 + 0; omega))) fa
  have hch11 := fun (fa : S85x512.Idx → Elt F .f32) => chunk_inB m d (4 * wOf L + 2 * (T1).val + (1 : Fin 2).val) (q_lt L T1 1) (k0_off2 L T1) (k0_off2_inb L T1 (by decide)) (off2_eq L T1) fa
  have hd0 := done_of_eq (hch00 _) hq0
  have hd1 := done_of_eq (hch00 _) hq1
  have hd2 := done_of_eq (hch00 _) hq2
  have hd3 := done_of_eq (hch00 _) hq3
  have hd4 := done_of_eq (hch01 _) hq4
  have hd5 := done_of_eq (hch01 _) hq5
  have hd6 := done_of_eq (hch01 _) hq6
  have hd7 := done_of_eq (hch01 _) hq7
  have hd8 := done_of_eq (hch10 _) hq8
  have hd9 := done_of_eq (hch10 _) hq9
  have hd10 := done_of_eq (hch10 _) hq10
  have hd11 := done_of_eq (hch10 _) hq11
  have hd12 := done_of_eq (hch11 _) hq12
  have hd13 := done_of_eq (hch11 _) hq13
  have hd14 := done_of_eq (hch11 _) hq14
  have hd15 := done_of_eq (hch11 _) hq15
  ihave Ho0 := (Entails.of_eq (piece_back (F := F) m d L T0 0 0 (outM L T0 0 0).view.junk q0 (tile_body.sl.dma0_2 q0) rfl hd0)) $$ Ho0
  ihave Ho1 := (Entails.of_eq (piece_back (F := F) m d L T0 0 1 (outM L T0 0 1).view.junk q1 (tile_body.sl.dma0_3 q1) rfl hd1)) $$ Ho1
  ihave Ho2 := (Entails.of_eq (piece_back (F := F) m d L T0 0 2 (outM L T0 0 2).view.junk q2 (tile_body.sl.dma0_4 q2) rfl hd2)) $$ Ho2
  ihave Ho3 := (Entails.of_eq (piece_back (F := F) m d L T0 0 3 (outM L T0 0 3).view.junk q3 (tile_body.sl.dma0_5 q3) rfl hd3)) $$ Ho3
  ihave Ho4 := (Entails.of_eq (piece_back (F := F) m d L T0 1 0 (outM L T0 1 0).view.junk q4 (tile_body.sl.dma0_7 q4) rfl hd4)) $$ Ho4
  ihave Ho5 := (Entails.of_eq (piece_back (F := F) m d L T0 1 1 (outM L T0 1 1).view.junk q5 (tile_body.sl.dma0_8 q5) rfl hd5)) $$ Ho5
  ihave Ho6 := (Entails.of_eq (piece_back (F := F) m d L T0 1 2 (outM L T0 1 2).view.junk q6 (tile_body.sl.dma0_9 q6) rfl hd6)) $$ Ho6
  ihave Ho7 := (Entails.of_eq (piece_back (F := F) m d L T0 1 3 (outM L T0 1 3).view.junk q7 (tile_body.sl.dma0_10 q7) rfl hd7)) $$ Ho7
  ihave Ho8 := (Entails.of_eq (piece_back (F := F) m d L T1 0 0 (outM L T1 0 0).view.junk q8 (tile_body.sl.dma0_12 q8) rfl hd8)) $$ Ho8
  ihave Ho9 := (Entails.of_eq (piece_back (F := F) m d L T1 0 1 (outM L T1 0 1).view.junk q9 (tile_body.sl.dma0_13 q9) rfl hd9)) $$ Ho9
  ihave Ho10 := (Entails.of_eq (piece_back (F := F) m d L T1 0 2 (outM L T1 0 2).view.junk q10 (tile_body.sl.dma0_14 q10) rfl hd10)) $$ Ho10
  ihave Ho11 := (Entails.of_eq (piece_back (F := F) m d L T1 0 3 (outM L T1 0 3).view.junk q11 (tile_body.sl.dma0_15 q11) rfl hd11)) $$ Ho11
  ihave Ho12 := (Entails.of_eq (piece_back (F := F) m d L T1 1 0 (outM L T1 1 0).view.junk q12 (tile_body.sl.dma0_16 q12) rfl hd12)) $$ Ho12
  ihave Ho13 := (Entails.of_eq (piece_back (F := F) m d L T1 1 1 (outM L T1 1 1).view.junk q13 (tile_body.sl.dma0_17 q13) rfl hd13)) $$ Ho13
  ihave Ho14 := (Entails.of_eq (piece_back (F := F) m d L T1 1 2 (m (sLoc d)) q14 (tile_body.sl.dma0_18 q14) rfl hd14)) $$ Ho14
  ihave Ho15 := (Entails.of_eq (piece_back (F := F) m d L T1 1 3 (m (sLoc d)) q15 (tile_body.sl.dma0_19 q15) rfl hd15)) $$ Ho15
  -- the read share of the input, whole again
  ihave Hxt := (Entails.of_eq (bigSep_W1 (fun i : Fin 2 => ((xV).view.loc (thr d L) ↦{Transfers.shareTok (tileShare (cL L) (sL L)) 2 i} Xv m d : sProp 𝕄))).symm) $$ [Hx0 Hx1]
  · isplitl [Hx0]; · iexact Hx0
    iexact Hx1
  ihave Hx := (Transfers.pointsTo_toks (tileShare (cL L) (sL L)) 2).2 $$ [Hxd Hxt]
  · isplitl [Hxd]; · iexact Hxd
    iexact Hxt
  unfold tdR
  isplitl [Hx Ho0 Ho1 Ho2 Ho3 Ho4 Ho5 Ho6 Ho7 Ho8 Ho9 Ho10 Ho11 Ho12 Ho13 Ho14 Ho15]
  · isplitl [Hx]; · iexact Hx
    rw [bigSep_fin16]
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  isplitl [Ha' Hb' Hc' Hd' Hbufs]
  · isplitl [Ha']; · iexists _; iexact Ha'
    isplitl [Hb']; · iexists _; iexact Hb'
    isplitl [Hc']; · iexists _; iexact Hc'
    isplitl [Hd']; · iexists _; iexact Hd'
    iexact Hbufs
  isplitl [Hs4 Hs5 Hs6 Hs7 Hsems]
  · isplitl [Hs4]; · iexact Hs4
    isplitl [Hs5]; · iexact Hs5
    isplitl [Hs6]; · iexact Hs6
    isplitl [Hs7]; · iexact Hs7
    iexact Hsems
  iexists _; isplitr
  rotate_left
  · iexact HO
  · ipureintro
    repeat (apply waits_step rfl)
    exact fun p hp => .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s)
          xV (Memref.isWhole_whole _) oV (Memref.isWhole_whole _) sA (Memref.isWhole_whole _) sB (Memref.isWhole_whole _)
          sC (Memref.isWhole_whole _) sD (Memref.isWhole_whole _) cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's obligation of the one call: its task takes the tile's read share and pieces, and hands the pieces back at the
    output's specification. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KernelTile
end
-- ==== Proof.KernelIdealSetup.lean ====
/-
  Shared set-up for the idealized kernel's program: the program as the SparseCore launch theorem sees it (one
  vector-subcore call, one TensorCore pipeline), the ghost-state algebra (the launch handshakes' rounds, the
  TensorCore pipeline's staging cells' rounds, and the local transfers' counters) and the names of the arrays.
-/
import proofs.«218930_g44392781971697_cont_8to1c4_23_28_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218930_g44392781971697_cont_8to1c4_23_28_alg».proof.Proof.Gen.KernelIdeal
import proofs.«218930_g44392781971697_cont_8to1c4_23_28_alg».proof.Proof.Gen.KernelIdeal.Skeleton
import proofs.«218930_g44392781971697_cont_8to1c4_23_28_alg».proof.Proof.Gen.KernelIdeal.Launch

noncomputable section

namespace Cert.Proof.KernelIdealSetup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays, as locations of device `d` -/

abbrev pLoc (d : Dev nD) : Loc nD τ sig := (SparseCore.T d).loc main_arg0
abbrev xLoc (d : Dev nD) : Loc nD τ sig := (SparseCore.T d).loc main_v0
abbrev sLoc (d : Dev nD) : Loc nD τ sig := (SparseCore.T d).loc main_v1
abbrev tLoc (d : Dev nD) : Loc nD τ sig := (SparseCore.T d).loc main_v2

end Cert.Proof.KernelIdealSetup

end
-- ==== Proof.KernelIdealRegion.lean ====
/-
  The TensorCore pallas_call of the program — slabs 0 … 31 of the input, eight at a time, each block [8, 85, 4096]
  transposed to [8, 4096, 85] — as one region of the TensorCore's program inside the SparseCore launch: the body's
  triple, the pipeline's proof data (each input block fetched whole; each output block the transposed input block,
  written back whole), and the region's rule from the arrays held at a valuation, the TensorCore owing nothing, to
  the output array at what the four write-backs leave.
-/
import proofs.«218930_g44392781971697_cont_8to1c4_23_28_alg».proof.Proof.KernelIdealSetup
import proofs.«218930_g44392781971697_cont_8to1c4_23_28_alg».proof.Proof.Gen.KernelIdeal.Points
import Idealize.ShloMosaic.Lib.Pipeline.Regions
import Idealize.ShloMosaic.Lib.Pipeline.FrameBody
import Idealize.ShloMosaic.Lib.Tactic

set_option maxRecDepth 16384

noncomputable section

namespace Cert.Proof.KernelIdealRegion

open Cert.KernelIdeal Cert.KernelIdeal.Gen Cert.Proof.KernelIdealSetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- No pipeline of the program has a prefetched table. -/
abbrev adm : (p : Fin 1) → (pcfgs (F := F) p).Adm := fun p => (cfgs p).toPCfg_adm

/-! ## The call, under the program's own table and under the extended one -/

/-- The printed call is the pipeline's own call read over the extended signature. -/
theorem call_lifted : (Prog.lift (.customCall (SparseCore.inner (Pipeline.entry (0 : Fin 1))) ()) :
      Prog (TpuEff nD τ sig (Elt F) (SparseCore.Sig (ΛP (F := F)) 1) .tc) PUnit)
    = SparseCore.liftProg (Prog.lift (.customCall (Pipeline.entry (0 : Fin 1)) ()) : Prog (TpuEff nD τ sig (Elt F) (ΛP (F := F)) .tc) PUnit) := rfl

/-- A proof about the pipeline's call under the program's table is one about the printed call under the extended table. -/
theorem wp_call_lift (d : Dev nD) (Φ : PUnit → sProp 𝕄) :
    wp frame (wpE (D (F := F)) 𝒱 (T d) none) Set.univ
        (Prog.lift (.customCall (Pipeline.entry (0 : Fin 1)) ()) : Prog (TpuEff nD τ sig (Elt F) (ΛP (F := F)) .tc) PUnit) Φ
      ⊢ wp frame (wpE ((K (F := F)).defs (D (F := F))) 𝒱 (T d) none) Set.univ
          (Prog.lift (.customCall (SparseCore.inner (Pipeline.entry (0 : Fin 1))) ())) Φ := by
  rw [call_lifted]
  exact (K (F := F)).wp_liftProg (D (F := F)) 𝒱 (T d) Set.univ none
    (Prog.lift (.customCall (Pipeline.entry (0 : Fin 1)) ()) : Prog (TpuEff nD τ sig (Elt F) (ΛP (F := F)) .tc) PUnit) Φ

/-! ## The body -/

/-- The body's two accesses: the whole input block, the whole output block. -/
abbrev rIn : Rect S8x85x4096 := Rect.unit (s := S8x85x4096) ![0, 0, 0] S8x85x4096.size inb_S8x85x4096_S8x85x4096_0_0_0
abbrev rOut : Rect S8x4096x85 := Rect.unit (s := S8x4096x85) ![0, 0, 0] S8x4096x85.size inb_S8x4096x85_S8x4096x85_0_0_0

/-- What the body leaves in the output block's buffer, from the input block: its one store, of the transposed block. -/
def outBlk (x0 : Vec F S8x85x4096 .f32) : Vec F S8x4096x85 .f32 :=
  View.canon [⟨rOut, k1_pay1 (View.ld x0 rIn)⟩]

/-- The one store covers the buffer. -/
theorem cover_out (p0 : Vec F S8x4096x85 .f32) (y : S8x4096x85.Idx) :
    ∃ pc ∈ ([⟨rOut, p0⟩] : List (View.Piece (Elt F) S8x4096x85 .f32)), y ∈ pc.1.set :=
  View.cover_of_tiled [⟨rOut, p0⟩] S8x4096x85.size (by rfl) y

set_option maxHeartbeats 1000000 in
/-- The body on whole staging memrefs: the input's at contents `x0`, the output's at anything, to the input's as it was and
    the output's at `outBlk x0`. -/
theorem sound_kernel (c : Dev nD) (E : Set ℕ) (i : grid1.Coords)
    (arg1 : Memref sig .tc .vmem S8x85x4096 .f32) (harg1 : arg1.IsWhole) (arg2 : Memref sig .tc .vmem S8x4096x85 .f32) (harg2 : arg2.IsWhole)
    (x0 : Vec F S8x85x4096 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ Kk ⟨⟩))
      ⊢ wp frame (wpE (defs₀ (F := F)) Variants.none c none) E (cc1__transpose_body i arg1 harg1 arg2 harg2) Kk := by
  simp only [cc1__transpose_body_eq_skeleton]; unfold cc1__transpose_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

-- the TensorCore's arrays as the region finds them
variable (Vr : Valuation τ sig (Elt F))

/-- The same, indexed by the TensorCore's own references. -/
abbrev Vtc (d : Dev nD) (b : Ref sig .tc) : Buf (Elt F) ((d : Thread nD τ).loc b) := Vr (Proc.devRef .tc b)

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (Vtc Vr d (Pipeline.arrRef spec1 w))

/-- The (semaphore, index) pairs of the TensorCore of `d` that sit at the levels of the first call or below: every pair
    its waits have recorded when the region is entered, and every pair the pipeline's own waits add. -/
abbrev lowPairs (d : Dev nD) : Set (SemLoc sig × HIx 1) := {p | (K (F := F)).lev ((T d), p.1) p.2 ≤ 8}

/-- The proof data on device `d`: the arrays as the region finds them; after the body the input's buffer at its block and
    the output's at the transposed block; no invariant; nothing owed; full shares. -/
def dats (_ : Fin 1) (d : Dev nD) : Dat τ (Elt F) (HIx 1) ℕ UU ℕ cfg1 d where
  A w := Vtc Vr d (Pipeline.arrRef spec1 w)
  after w t := match w with
    | ⟨0, _⟩ => iblk Vr d 0 t
    | ⟨1, _⟩ => outBlk (iblk Vr d 0 t)
  Φ _ := iprop(emp)
  q _ := fullShare
  owed _ := 0
  recorded _ := lowPairs (F := F) d

theorem A_eq (d : Dev nD) (w : Fin cfg1.W) : (dats Vr 0 d).A w = Vtc Vr d (Pipeline.arrRef spec1 w) := by dsimp only [dats]
theorem after_in (d : Dev nD) (t : Fin cfg1.N) : (dats Vr 0 d).after 0 t = iblk Vr d 0 t := by dsimp only [dats]
theorem after_out (d : Dev nD) (t : Fin cfg1.N) : (dats Vr 0 d).after 1 t = outBlk (iblk Vr d 0 t) := by dsimp only [dats]

/-- The input's current staging buffer holds its block at every point. -/
theorem before_in (d : Dev nD) (t : Fin cfg1.N) (dd) : (dats Vr 0 d).before 0 t dd = iblk Vr d 0 t :=
  ((dats Vr 0 d).before_in_eq_fetched 0 rfl (fun _ => rfl) (fun _ _ _ => rfl)
      (fun t => by rw [after_in]; unfold Dat.blockOf iblk; rw [A_eq]; try rfl) t dd).trans
    (by unfold Dat.fetched Dat.blockOf iblk; rw [A_eq]; try rfl)

/-! ## The body obligation -/

/-- What the body is called with at point `t`, -/
def bodyPre (d : Dev nD) (t : Fin cfg1.N) : sProp 𝕄 :=
  iprop((dats Vr 0 d).Φ t.castSucc ∗ (dats Vr 0 d).owesAt (none : HIx 1) t.castSucc
    ∗ (∃ dd, owns (d : Thread nD τ) (st1_0 t) fullShare ((dats Vr 0 d).before 0 t dd))
    ∗ (∃ dd, owns (d : Thread nD τ) (st1_1 t) fullShare ((dats Vr 0 d).before 1 t dd)))

/-- and what it returns. -/
def bodyPost (d : Dev nD) (t : Fin cfg1.N) : sProp 𝕄 :=
  iprop((dats Vr 0 d).Φ t.succ ∗ (dats Vr 0 d).owesAt (none : HIx 1) t.succ
    ∗ owns (d : Thread nD τ) (st1_0 t) fullShare ((dats Vr 0 d).after 0 t)
    ∗ owns (d : Thread nD τ) (st1_1 t) fullShare ((dats Vr 0 d).after 1 t))

theorem sound_body (d : Dev nD) (t : Fin cfg1.N) :
    bodyPre Vr d t ⊢ wp frame (wpE (defs₀ (F := F)) Variants.none d none) Set.univ (bodyAt1 t) (fun _ => bodyPost Vr d t) := by
  unfold bodyPre bodyPost bodyAt1
  simp only [before_in]
  rw [show (dats Vr 0 d).Φ t.succ = (dats Vr 0 d).Φ t.castSucc from rfl,
    show (dats Vr 0 d).owesAt (none : HIx 1) t.succ = (dats Vr 0 d).owesAt (none : HIx 1) t.castSucc from rfl,
    after_in, after_out]
  iintro ⟨HΦ, Ho, ⟨%d0, H0⟩, ⟨%d1, H1⟩⟩
  iapply (sound_kernel d Set.univ (grid1.coords t) _ _ _ _ (iblk Vr d 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (d : Dev nD) : BodyObligation (dats (F := F) Vr 0 d) (defs₀ (F := F)) Variants.none (none : HIx 1) Set.univ := fun t => by
  rw [bigSep_W1, bigSep_W1]
  exact sound_body Vr d t

/-! ## The region -/

/-- The TensorCore's unscoped references, as device buffers: the arrays of @main. -/
def ucRefs : Finset (DevRef τ sig) := (StableHlo.tcRefs τ sig).filter fun b => ¬ b.isScoped

omit [FloatOps F] in
/-- The TensorCore's unscoped buffers at a valuation are that set held at it. -/
theorem unscopedBufs_held (c : Dev nD) (W : Valuation τ sig (Elt F)) :
    (unscopedBufs c (fun b => W (Proc.devRef .tc b)) : sProp 𝕄) = StableHlo.held (c : Thread nD τ) ucRefs W := by
  unfold unscopedBufs StableHlo.held ucRefs StableHlo.tcRefs
  rw [Finset.filter_map, bigSep_map]
  rfl

/-- The TensorCore of `d` owing nothing, every pair its waits have recorded at the first call's levels or below. -/
def owesLow (d : Dev nD) : sProp 𝕄 :=
  iprop(∃ W, ⌜(K (F := F)).WBelow (T d) W 8⌝ ∗ owes (T d) (0 : CellTallies nD τ sig (HIx 1)) W)

/-- What the region is entered from: @main's arrays at the valuation, nothing owed; -/
def regPre (d : Dev nD) : sProp 𝕄 := iprop(StableHlo.held (d : Thread nD τ) ucRefs Vr ∗ owesLow (F := F) d)
/-- and what it leaves: the two windowed arrays after the four write-backs, the other arrays untouched, nothing owed. -/
def regPost (d : Dev nD) : sProp 𝕄 :=
  iprop((dats Vr 0 d).arrays ((dats Vr 0 d).arrAt · cfg1.N) ∗ Pipeline.unscopedRest spec1 d (Vtc Vr d) ∗ owesLow (F := F) d)

/-- Owing nothing below the first call's levels is owing nothing within the proof data's bound; -/
theorem owesLow_owesAt (d : Dev nD) (t : Fin (cfg1.N + 1)) :
    owesLow (F := F) d ⊢ ((dats Vr 0 d).owesAt (none : HIx 1) t : sProp 𝕄) := by
  unfold owesLow Pipeline.Dat.owesAt Pipeline.owesWithin
  iintro ⟨%W, %hW, HO⟩
  iexists W; isplitr
  · ipureintro; exact fun p hp => Or.inl (hW p (Finset.mem_coe.mp hp))
  iexact HO

/-- and back: the pairs the pipeline's own waits record sit at index `none`, the lowest level. -/
theorem owesAt_owesLow (d : Dev nD) (t : Fin (cfg1.N + 1)) :
    ((dats Vr 0 d).owesAt (none : HIx 1) t : sProp 𝕄) ⊢ owesLow (F := F) d := by
  unfold owesLow Pipeline.Dat.owesAt Pipeline.owesWithin
  iintro ⟨%W, %hW, HO⟩
  iexists W; isplitr
  · ipureintro; intro p hp
    rcases hW (Finset.mem_coe.mpr hp) with h | ⟨w, s, rfl⟩
    · exact h
    · exact Nat.zero_le _
  iexact HO

/-- ENTRY: the two windowed arrays to the pipeline, the other arrays past it. -/
theorem reg_entry (c : Dev nD) :
    regPre Vr c ⊢ iprop((dats Vr 0 c).arrays ((dats Vr 0 c).arrAt · 0) ∗ (dats Vr 0 c).owesAt (none : HIx 1) 0
      ∗ Pipeline.unscopedRest spec1 c (Vtc Vr c) : sProp 𝕄) := by
  unfold regPre
  rw [← unscopedBufs_held]
  have hsplit := Pipeline.arrays_of_unscopedBufs (pcfgs (F := F)) adm (dats Vr) launch1.win launch1.arr_whole c
    ((dats Vr 0 c).share_full fun _ => rfl) (Vtc Vr c) fun _ => rfl
  iintro ⟨Hub, HO⟩
  ihave H := hsplit $$ Hub
  icases H with ⟨Ha, Hrest⟩
  isplitl [Ha]; · iexact Ha
  isplitl [HO]; · iapply (owesLow_owesAt Vr c 0); iexact HO
  iexact Hrest

/-! ### The record's four entailments -/

theorem reg_hentry (c : Dev nD) :
    iprop(regPre Vr c ∗ Pipeline.ownSems0 (Ix := HIx 1) (Name := ℕ) (U := UU) (Lvl := ℕ) (Val := Elt F) (τ := τ) (fun k : PEmpty => k.elim) c
        ∗ levAts (K (F := F)).L (K (F := F)).lev)
      ⊢ |={Set.univ}=> iprop((dats Vr 0 c).arrays ((dats Vr 0 c).arrAt · 0)
          ∗ Pipeline.prefHeld (pcfgs (F := F) 0).pre c (fun _ => fullShare) (adm (F := F) 0).1
          ∗ (dats Vr 0 c).owesAt (none : HIx 1) 0 ∗ (iprop(emp) : sProp 𝕄) ∗ Pipeline.unscopedRest spec1 c (Vtc Vr c)) := by
  iintro ⟨Hpre, Hos, Hlev⟩
  ihave H := (reg_entry Vr c) $$ Hpre
  icases H with ⟨Ha, HO, Hrest⟩
  imodintro
  isplitl [Ha]; · iexact Ha
  isplitr; · unfold Pipeline.prefHeld; rw [show (Finset.univ : Finset (Fin 0)) = ∅ from rfl, BI.bigSep_empty]; iempintro
  isplitl [HO]; · iexact HO
  isplitr; · iempintro
  iexact Hrest

theorem reg_hexit (c : Dev nD) :
    iprop((dats Vr 0 c).arrays ((dats Vr 0 c).arrAt · cfg1.N) ∗ (dats Vr 0 c).owesAt (none : HIx 1) (Fin.last cfg1.N)
        ∗ (iprop(emp) : sProp 𝕄) ∗ Pipeline.unscopedRest spec1 c (Vtc Vr c))
      ⊢ |={Set.univ}=> regPost Vr c := by
  unfold regPost
  iintro ⟨Ha, HO, He, HZ⟩
  imodintro
  isplitl [Ha]; · iexact Ha
  isplitl [HZ]; · iexact HZ
  iapply (owesAt_owesLow Vr c _); iexact HO

theorem reg_hout (c : Dev nD) :
    (iprop(emp) : sProp 𝕄) ⊢ iprop((iprop(emp) : sProp 𝕄)
      ∗ Pipeline.ownSems0 (Ix := HIx 1) (Name := ℕ) (U := UU) (Lvl := ℕ) (Val := Elt F) (τ := τ) (fun k : PEmpty => k.elim) c
      ∗ Pipeline.scopedRest spec1 c) := by
  rw [Pipeline.ownSems0_none, scopedRest1_eq]
  iintro H
  isplitl [H]; · iexact H
  isplitr <;> iempintro

set_option maxHeartbeats 1000000 in
/-- The region's record: the generated layout facts, no semaphore of the kernel's own, the body obligation, and the
    entry and exit: the two windowed arrays go to the pipeline, the other arrays bypass it, nothing enters the invariant. -/
def reg : Pipeline.RegionSeg (pcfgs (F := F)) adm (dats Vr) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation Vr c).loose
  hwaits := Pipeline.hwaits_of_owed_zero _ _ _ _ (K (F := F)).L (K (F := F)).lev 0 fun _ _ => rfl
  pre := regPre Vr
  post := regPost Vr
  X _ := iprop(emp)
  Y _ := iprop(emp)
  Z c := Pipeline.unscopedRest spec1 c (Vtc Vr c)
  hentry := reg_hentry Vr
  hin c := sep_elim_left
  hout := reg_hout
  hexit := reg_hexit Vr

set_option maxHeartbeats 1000000 in
/-- The region rule at the launch theorem's indices, levels and names, for any proof data and record. -/
theorem wp_region_of [∀ e, Nonempty (Elt F e)]
    (pdats : (p : Fin 1) → (c : Dev nD) → Dat τ (Elt F) (HIx 1) ℕ UU ℕ (Pipeline.pin (pcfgs (F := F)) adm p) c)
    (R : Pipeline.RegionSeg (pcfgs (F := F)) adm pdats (none : HIx 1) defs₀ 𝒱₀ (K (F := F)).L (K (F := F)).lev 0)
    (d : Dev nD) (Φ : PUnit → sProp 𝕄) :
    iprop((iprop(boundary (T d) ∗ R.post d) -∗ wp frame (wpE (D (F := F)) 𝒱 (T d) none) Set.univ (.ret ⟨⟩) Φ)
        ∗ boundary (T d) ∗ R.pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ
          (Prog.lift (.customCall (Pipeline.entry (0 : Fin 1)) ()) : Prog (TpuEff nD τ sig (Elt F) (ΛP (F := F)) .tc) PUnit) Φ :=
  Pipeline.RegionSeg.wp (pcfgs (F := F)) adm pdats (none : HIx 1) cellOf_inj EP defs₀ 𝒱₀
    (K (F := F)).L (K (F := F)).lev R d none (fun _ h => nomatch h) (fun _ => .ret ⟨⟩) Φ

/-- The staging cells' launch ghost state of device `d`: what the launch element funds and the region consumes. -/
abbrev cellsG (d : Dev nD) : sProp 𝕄 :=
  iprop(Pipeline.cellsGhost (Pipeline.pin (pcfgs (F := F)) adm) EP 0 d ∗ Pipeline.toksInit (Pipeline.pin (pcfgs (F := F)) adm) EP 0 d)

/-- A continuation that takes `A` runs the return from `A`. -/
theorem wand_ret (d : Dev nD) (A : sProp 𝕄) (Φ : PUnit → sProp 𝕄) :
    iprop(A -∗ Φ ⟨⟩) ⊢ iprop(A -∗ wp frame (wpE (D (F := F)) 𝒱 (T d) none) Set.univ (.ret ⟨⟩) Φ) := by
  iintro Hk H
  rw [wp_ret]; imodintro
  iapply Hk; iexact H

/-- THE REGION, as @main's proof meets it: from the boundary, the arrays held at `Vr`, the TensorCore owing nothing, the
    level facts and the staging cells' launch ghost state, the printed call runs to the boundary and what the region leaves. -/
theorem wp_region [∀ e, Nonempty (Elt F e)] (d : Dev nD) (Φ : PUnit → sProp 𝕄) :
    iprop((iprop(boundary (T d) ∗ regPost Vr d) -∗ Φ ⟨⟩)
        ∗ boundary (T d) ∗ regPre Vr d ∗ levAts (K (F := F)).L (K (F := F)).lev ∗ cellsG (F := F) d)
      ⊢ wp frame (wpE ((K (F := F)).defs (D (F := F))) 𝒱 (T d) none) Set.univ
          (Prog.lift (.customCall (SparseCore.inner (Pipeline.entry (0 : Fin 1))) ())) Φ := by
  refine BI.Entails.trans ?_ (wp_call_lift d Φ)
  have h := wp_region_of (dats Vr) (reg Vr) d Φ
  rw [show (reg Vr).post = regPost Vr from rfl, show (reg Vr).pre = regPre Vr from rfl] at h
  exact (sep_mono (wand_ret d _ Φ) .rfl).trans h

end Cert.Proof.KernelIdealRegion

end
-- ==== Proof.KernelIdealPay.lean ====
/-
  What the SparseCore call moves between the TensorCore and the vector subcores: the input viewed as 48 slabs of
  85 rows of 4096 words is read by every tile under a read share of its own; the flat output of the call is cut into
  512 pieces of 10880 words, sixteen consecutive pieces per tile, tile (c, s) owning pieces 16·(2s + c) … 16·(2s + c) + 15.
  A tile takes its pieces at the launch contents and hands them back at the one whole-array function `Sv`:
  word ((n·4096 + r)·85 + o) of the output is word (32 + n, o, r) of the input.
-/
import proofs.«218930_g44392781971697_cont_8to1c4_23_28_alg».proof.Proof.KernelIdealSetup
import Idealize.ShloMosaic.Lib.ValueIdx

noncomputable section

namespace Cert.Proof.KernelIdealPay

open Cert.KernelIdeal Cert.KernelIdeal.Gen Cert.Proof.KernelIdealSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The input viewed as [48, 85, 4096]: what the first host operation leaves in `main_v0`. -/
def Xv (d : Dev nD) : Buf (Elt F) (xLoc d) :=
  shapeCast S48x85x4096 (m (pLoc d)) shapeCasts_S16x255x64x64_S48x85x4096

/-- Slab, row and column of flat word `j` of the SparseCore's output. -/
theorem slab_lt (j : ℕ) (hj : j < 5570560) : 32 + j / 348160 < 48 := by omega
theorem col_lt (j : ℕ) : j % 85 < 85 := Nat.mod_lt _ (by decide)
theorem row_lt (j : ℕ) : j / 85 % 4096 < 4096 := Nat.mod_lt _ (by decide)

/-- The flat array the SparseCore call leaves in `main_v1`: slabs 32 … 47 of the input, each transposed. -/
def Sv (d : Dev nD) : Buf (Elt F) (sLoc d) := fun j =>
  Xv m d (ValueIdx.ix3 (⟨32 + (j 0).val / 348160, slab_lt _ (j 0).isLt⟩ : Fin 48) (⟨(j 0).val % 85, col_lt _⟩ : Fin 85) (⟨(j 0).val / 85 % 4096, row_lt _⟩ : Fin 4096))

theorem hdiv512 : 512 ∣ S5570560.size 0 := ⟨10880, rfl⟩
/-- The `j`-th block of 10880 words of the output. -/
abbrev pieceR (j : Fin 512) : Rect S5570560 := Rect.part (s := S5570560) (a₀ := 0) hdiv512 j
abbrev piece (j : Fin 512) : Finset S5570560.Idx := ((Memref.whole main_v1_scv : Memref sig .scVector .hbm S5570560 .f32).view.slice (pieceR j)).set

theorem pieceIx_lt (c : Fin 2) (s : Fin 16) (k : Fin 16) : (2 * s.val + c.val) * 16 + k.val < 512 := by omega
/-- Piece `k` of tile `(c, s)`. -/
abbrev pieceOf (c : Fin 2) (s : Fin 16) (k : Fin 16) : Fin 512 := ⟨(2 * s.val + c.val) * 16 + k.val, pieceIx_lt c s k⟩

/-- Tile `(c, s)`'s read share of the input. -/
abbrev tileShare (c : Fin 2) (s : Fin 16) : PosShare TreeShare := Transfers.shareTok (Transfers.shareTok fullShare 2 c) 16 s

/-- What a tile takes, and what it hands back. -/
def goR (d : Dev nD) (c : Fin 2) (s : Fin 16) : sProp 𝕄 :=
  iprop((xLoc d ↦{tileShare c s} Xv m d) ∗ bigSep Finset.univ fun k : Fin 16 => sLoc d ↦[piece (pieceOf c s k)]{fullShare} m (sLoc d))
def tdR (d : Dev nD) (c : Fin 2) (s : Fin 16) : sProp 𝕄 :=
  iprop((xLoc d ↦{tileShare c s} Xv m d) ∗ bigSep Finset.univ fun k : Fin 16 => sLoc d ↦[piece (pieceOf c s k)]{fullShare} Sv m d)

instance goR_storable (d : Dev nD) (c : Fin 2) (s : Fin 16) : BI.Storable (upEmb : UEmb _ 𝕄) (goR m d c s) := by unfold goR; infer_instance
instance tdR_storable (d : Dev nD) (c : Fin 2) (s : Fin 16) : BI.Storable (upEmb : UEmb _ 𝕄) (tdR m d c s) := by unfold tdR; infer_instance

/-- The one call hands SparseCore `c` its sixteen tiles' shares and pieces, and takes them back. -/
def P : (K (F := F)).Pay (nD := nD) (Val := Elt F) (Name := ℕ) (U := UU) where
  st := fun q d c => match q with | 0 => bigSep Finset.univ fun s : Fin 16 => goR m d (Fin.cast nCore_zero c) s
  dn := fun q d c => match q with | 0 => bigSep Finset.univ fun s : Fin 16 => tdR m d (Fin.cast nCore_zero c) s
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun s : Fin 16 => goR m d (Fin.cast nCore_zero c) s))
  dn q d c := match q with | 0 => (inferInstance : BI.Storable (upEmb : UEmb _ 𝕄) (bigSep Finset.univ fun s : Fin 16 => tdR m d (Fin.cast nCore_zero c) s))
  go q d c i := match q with | 0 => (inferInstance : BI.Storable (upEmb : UEmb _ 𝕄) (goR m d (Fin.cast nCore_zero c) (Fin.cast nSub_zero i)))
  td q d c i := match q with | 0 => (inferInstance : BI.Storable (upEmb : UEmb _ 𝕄) (tdR m d (Fin.cast nCore_zero c) (Fin.cast nSub_zero i)))

/-- A SparseCore's operands are its tiles' and its results theirs. -/
theorem vecSplit : (K (F := F)).VecSplit' (P m) 0 := by
  intro d c
  show (bigSep Finset.univ fun s : Fin 16 => goR m d (Fin.cast nCore_zero c) s) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m d (Fin.cast nCore_zero c) (Fin.cast nSub_zero i))
          -∗ bigSep Finset.univ fun s : Fin 16 => tdR m d (Fin.cast nCore_zero c) s))
  rw [show (bigSep Finset.univ fun i : Fin ((K (F := F)).nSub 0) => goR m d (Fin.cast nCore_zero c) (Fin.cast nSub_zero i))
        = bigSep Finset.univ fun s : Fin 16 => goR m d (Fin.cast nCore_zero c) s from bigSep_congr fun _ _ => congrArg _ (Fin.ext rfl),
    show (bigSep Finset.univ fun i : Fin ((K (F := F)).nSub 0) => tdR m d (Fin.cast nCore_zero c) (Fin.cast nSub_zero i))
        = bigSep Finset.univ fun s : Fin 16 => tdR m d (Fin.cast nCore_zero c) s from bigSep_congr fun _ _ => congrArg _ (Fin.ext rfl)]
  iintro H; imodintro
  isplitl [H]; · iexact H
  iintro H; iexact H

end Cert.Proof.KernelIdealPay

end
-- ==== Proof.KernelIdealCall.lean ====
/-
  What the TensorCore hands the SparseCore call and takes back, in whole arrays: the input array, held whole, is dealt as
  one read share per tile (two SparseCores, sixteen tiles each) beside the remainders of the two divisions, and put back;
  the call's flat output array, held whole, is its 512 blocks of 10880 words, grouped sixteen consecutive blocks per tile.
-/
import proofs.«218930_g44392781971697_cont_8to1c4_23_28_alg».proof.Proof.KernelIdealPay

noncomputable section

namespace Cert.Proof.KernelIdealCall

open Cert.KernelIdeal Cert.KernelIdeal.Gen Cert.Proof.KernelIdealSetup Cert.Proof.KernelIdealPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The output's blocks -/

theorem piece_eq (j : Fin 512) : KernelIdealPay.piece j = (pieceR j).set := by
  show ((View.whole (main_v1_scv : Ref sig .scVector)).slice (pieceR j)).set = _
  rw [View.set_slice]; exact Finset.map_refl

theorem pieces_disjoint : ∀ i ∈ (Finset.univ : Finset (Fin 512)), ∀ j ∈ (Finset.univ : Finset (Fin 512)), i ≠ j → Disjoint (KernelIdealPay.piece i) (KernelIdealPay.piece j) :=
  fun i _ j _ h => by rw [piece_eq, piece_eq]; exact Rect.part_disjoint hdiv512 h

theorem pieces_cover : (Finset.univ : Finset (Fin 512)).biUnion KernelIdealPay.piece = Finset.univ :=
  (Finset.biUnion_congr rfl fun i _ => piece_eq i).trans (Rect.biUnion_part hdiv512)

/-- Block `(2s + c)·16 + k` is tile `(c, s)`'s `k`-th: the blocks, counted by tile. -/
def tileEquiv : (Fin 2 × Fin 16 × Fin 16) ≃ Fin 512 where
  toFun x := KernelIdealPay.pieceOf x.1 x.2.1 x.2.2
  invFun j := (⟨j.val / 16 % 2, Nat.mod_lt _ (by decide)⟩, ⟨j.val / 32, by have := j.isLt; omega⟩, ⟨j.val % 16, Nat.mod_lt _ (by decide)⟩)
  left_inv := by
    rintro ⟨c, s, k⟩
    have hc := c.isLt; have hs := s.isLt; have hk := k.isLt
    refine Prod.ext (Fin.ext ?_) (Prod.ext (Fin.ext ?_) (Fin.ext ?_)) <;> simp only [KernelIdealPay.pieceOf] <;> omega
  right_inv := by
    intro j
    have hj := j.isLt
    refine Fin.ext ?_; simp only [KernelIdealPay.pieceOf]; omega

/-- The output array, whole, is its blocks grouped by tile. -/
theorem sPts_tiles (d : Dev nD) (f : Buf (Elt F) (sLoc d)) :
    (sLoc d ↦{fullShare} f : sProp 𝕄)
      = bigSep Finset.univ fun c : Fin 2 => bigSep Finset.univ fun s : Fin 16 => bigSep Finset.univ fun k : Fin 16 =>
          sLoc d ↦[KernelIdealPay.piece (KernelIdealPay.pieceOf c s k)]{fullShare} f := by
  rw [show (sLoc d ↦{fullShare} f : sProp 𝕄) = bigSep Finset.univ fun j : Fin 512 => sLoc d ↦[KernelIdealPay.piece j]{fullShare} f from by
      rw [← pointsTo_biUnion Finset.univ (ℓ := sLoc d) KernelIdealPay.piece pieces_disjoint, pieces_cover]; try rfl,
    bigSep_univ_equiv tileEquiv, bigSep_univ_prod]
  refine bigSep_congr fun c _ => ?_
  rw [bigSep_univ_prod]
  rfl

/-! ## The input's read shares -/

/-- What stays with the TensorCore of the input array while the tiles read it: the remainders of the two divisions. -/
def xRem (d : Dev nD) (X : Buf (Elt F) (xLoc d)) : sProp 𝕄 :=
  iprop((xLoc d ↦{Transfers.shareDrop fullShare 2} X)
    ∗ bigSep Finset.univ fun c : Fin 2 => xLoc d ↦{Transfers.shareDrop (Transfers.shareTok fullShare 2 c) 16} X)

/-- The whole array divides between the two SparseCores, -/
theorem whole_split (d : Dev nD) (X : Buf (Elt F) (xLoc d)) :
    (xLoc d ↦{fullShare} X : sProp 𝕄)
      ⊢ iprop((xLoc d ↦{Transfers.shareDrop fullShare 2} X) ∗ bigSep Finset.univ fun c : Fin 2 => xLoc d ↦{Transfers.shareTok fullShare 2 c} X) :=
  Transfers.pointsTo_toks_split fullShare 2

/-- and is put back from them. -/
theorem whole_join (d : Dev nD) (X : Buf (Elt F) (xLoc d)) :
    iprop((xLoc d ↦{Transfers.shareDrop fullShare 2} X) ∗ bigSep Finset.univ fun c : Fin 2 => xLoc d ↦{Transfers.shareTok fullShare 2 c} X)
      ⊢ (xLoc d ↦{fullShare} X : sProp 𝕄) :=
  Transfers.pointsTo_toks_join fullShare 2

/-- Each SparseCore's share divides among its sixteen tiles, -/
theorem core_split (d : Dev nD) (X : Buf (Elt F) (xLoc d)) :
    (bigSep Finset.univ fun c : Fin 2 => (xLoc d ↦{Transfers.shareTok fullShare 2 c} X : sProp 𝕄))
      ⊢ iprop((bigSep Finset.univ fun c : Fin 2 => xLoc d ↦{Transfers.shareDrop (Transfers.shareTok fullShare 2 c) 16} X)
          ∗ bigSep Finset.univ fun c : Fin 2 => bigSep Finset.univ fun s : Fin 16 => xLoc d ↦{tileShare c s} X) :=
  (bigSep_mono fun c _ => Transfers.pointsTo_toks_split (Transfers.shareTok fullShare 2 c) 16).trans (Entails.of_eq (bigSep_sep' _ _ _))

/-- and is put back from them. -/
theorem core_join (d : Dev nD) (X : Buf (Elt F) (xLoc d)) :
    iprop((bigSep Finset.univ fun c : Fin 2 => xLoc d ↦{Transfers.shareDrop (Transfers.shareTok fullShare 2 c) 16} X)
          ∗ bigSep Finset.univ fun c : Fin 2 => bigSep Finset.univ fun s : Fin 16 => xLoc d ↦{tileShare c s} X)
      ⊢ bigSep Finset.univ fun c : Fin 2 => (xLoc d ↦{Transfers.shareTok fullShare 2 c} X : sProp 𝕄) :=
  (Entails.of_eq (bigSep_sep' _ _ _).symm).trans (bigSep_mono fun c _ => Transfers.pointsTo_toks_join (Transfers.shareTok fullShare 2 c) 16)

/-- The input array, whole, is the tiles' read shares and the remainders. -/
theorem xPts_split (d : Dev nD) (X : Buf (Elt F) (xLoc d)) :
    (xLoc d ↦{fullShare} X : sProp 𝕄)
      ⊢ iprop(xRem d X ∗ bigSep Finset.univ fun c : Fin 2 => bigSep Finset.univ fun s : Fin 16 => xLoc d ↦{tileShare c s} X) := by
  unfold xRem
  iintro H
  ihave H2 := (whole_split d X) $$ H
  icases H2 with ⟨Hd, Hc⟩
  ihave Hc' := (core_split d X) $$ Hc
  icases Hc' with ⟨Hr, Ht⟩
  isplitl [Hd Hr]
  · isplitl [Hd]; · iexact Hd
    iexact Hr
  iexact Ht

theorem xPts_join (d : Dev nD) (X : Buf (Elt F) (xLoc d)) :
    iprop(xRem d X ∗ bigSep Finset.univ fun c : Fin 2 => bigSep Finset.univ fun s : Fin 16 => xLoc d ↦{tileShare c s} X)
      ⊢ (xLoc d ↦{fullShare} X : sProp 𝕄) := by
  unfold xRem
  iintro ⟨⟨Hd, Hr⟩, Ht⟩
  iapply (whole_join d X)
  isplitl [Hd]; · iexact Hd
  iapply (core_join d X)
  isplitl [Hr]; · iexact Hr
  iexact Ht

/-! ## What the call takes and hands back -/

variable (m : (ℓ : Loc nD τ sig) → Buf (Elt F) ℓ)

theorem st0_eq (d : Dev nD) :
    (bigSep Finset.univ fun c : Fin ((K (F := F)).nCore 0) => (P m).st 0 d c)
      = iprop((bigSep Finset.univ fun c : Fin 2 => bigSep Finset.univ fun s : Fin 16 => xLoc d ↦{tileShare c s} Xv m d)
          ∗ bigSep Finset.univ fun c : Fin 2 => bigSep Finset.univ fun s : Fin 16 => bigSep Finset.univ fun k : Fin 16 =>
              sLoc d ↦[KernelIdealPay.piece (KernelIdealPay.pieceOf c s k)]{fullShare} m (sLoc d)) := by
  have hc : ∀ c : Fin 2, Fin.cast (nCore_zero (F := F)) c = c := fun c => Fin.ext rfl
  show (bigSep (Finset.univ : Finset (Fin 2)) fun c => bigSep Finset.univ fun s : Fin 16 => goR m d (Fin.cast nCore_zero c) s) = _
  simp only [hc]
  unfold goR
  rw [← bigSep_sep']
  refine bigSep_congr fun c _ => ?_
  rw [← bigSep_sep']

theorem dn0_eq (d : Dev nD) :
    (bigSep Finset.univ fun c : Fin ((K (F := F)).nCore 0) => (P m).dn 0 d c)
      = iprop((bigSep Finset.univ fun c : Fin 2 => bigSep Finset.univ fun s : Fin 16 => xLoc d ↦{tileShare c s} Xv m d)
          ∗ bigSep Finset.univ fun c : Fin 2 => bigSep Finset.univ fun s : Fin 16 => bigSep Finset.univ fun k : Fin 16 =>
              sLoc d ↦[KernelIdealPay.piece (KernelIdealPay.pieceOf c s k)]{fullShare} Sv m d) := by
  have hc : ∀ c : Fin 2, Fin.cast (nCore_zero (F := F)) c = c := fun c => Fin.ext rfl
  show (bigSep (Finset.univ : Finset (Fin 2)) fun c => bigSep Finset.univ fun s : Fin 16 => tdR m d (Fin.cast nCore_zero c) s) = _
  simp only [hc]
  unfold tdR
  rw [← bigSep_sep']
  refine bigSep_congr fun c _ => ?_
  rw [← bigSep_sep']

/-- The call's operands from the two arrays held whole, -/
theorem call_give (d : Dev nD) :
    iprop((xLoc d ↦{fullShare} Xv m d) ∗ (sLoc d ↦{fullShare} m (sLoc d)))
      ⊢ (iprop(xRem d (Xv m d) ∗ bigSep Finset.univ fun c : Fin ((K (F := F)).nCore 0) => (P m).st 0 d c) : sProp 𝕄) := by
  rw [st0_eq, sPts_tiles]
  iintro ⟨Hx, Hs⟩
  ihave Hx' := (xPts_split d (Xv m d)) $$ Hx
  icases Hx' with ⟨Hr, Ht⟩
  isplitl [Hr]; · iexact Hr
  isplitl [Ht]; · iexact Ht
  iexact Hs

/-- and the two arrays whole again from its results: the input as it was, the output at the transposed slabs. -/
theorem call_take (d : Dev nD) :
    (iprop(xRem d (Xv m d) ∗ bigSep Finset.univ fun c : Fin ((K (F := F)).nCore 0) => (P m).dn 0 d c) : sProp 𝕄)
      ⊢ iprop((xLoc d ↦{fullShare} Xv m d) ∗ (sLoc d ↦{fullShare} Sv m d)) := by
  rw [dn0_eq, sPts_tiles]
  iintro ⟨Hr, Ht, Hs⟩
  isplitl [Hr Ht]
  · iapply (xPts_join d (Xv m d))
    isplitl [Hr]; · iexact Hr
    iexact Ht
  iexact Hs

end Cert.Proof.KernelIdealCall

end
-- ==== Proof.KernelIdealLaunch.lean ====
/-
  The launch of the idealized kernel's program: the launch element of the ghost state, @main on the TensorCore — the
  reshape, the SparseCore call, the TensorCore region, the three host operations —, and the program's run.
-/
import proofs.«218930_g44392781971697_cont_8to1c4_23_28_alg».proof.Proof.KernelIdealRegion
import proofs.«218930_g44392781971697_cont_8to1c4_23_28_alg».proof.Proof.KernelIdealPay
import proofs.«218930_g44392781971697_cont_8to1c4_23_28_alg».proof.Proof.KernelIdealCall

noncomputable section

namespace Cert.Proof.KernelIdealLaunch

open Cert.KernelIdeal Cert.KernelIdeal.Gen Cert.Proof.KernelIdealSetup Cert.Proof.KernelIdealPay Cert.Proof.KernelIdealCall Cert.Proof.KernelIdealRegion

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays and operations -/

abbrev a' : DevRef τ sig := Proc.devRef .tc (main_arg0 : Ref sig .tc)
abbrev x' : DevRef τ sig := Proc.devRef .tc (main_v0 : Ref sig .tc)
abbrev s' : DevRef τ sig := Proc.devRef .tc (main_v1 : Ref sig .tc)
abbrev t' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)

abbrev oLoc (d : Dev nD) : Loc nD τ sig := (SparseCore.T d).loc main_v5

/-- The four host operations of @main. -/
abbrev opR0 : HloOp τ sig (Elt F) := StableHlo.reshape main_arg0 main_v0 rfl shapeCasts_S16x255x64x64_S48x85x4096
abbrev opR3 : HloOp τ sig (Elt F) := StableHlo.reshape main_v1 main_v3 rfl shapeCasts_S5570560_S16x4096x85
abbrev opC4 : HloOp τ sig (Elt F) :=
  StableHlo.binary main_v2 main_v3 main_v4 ((fun a b => concatenate S48x4096x85 0 [⟨S32x4096x85, a⟩, ⟨S16x4096x85, b⟩] concatenates_S32x4096x85_S16x4096x85_S48x4096x85_d0) : (⟨S32x4096x85, .f32⟩ : BufTy).Contents (Elt F) → (⟨S16x4096x85, .f32⟩ : BufTy).Contents (Elt F) → (⟨S48x4096x85, .f32⟩ : BufTy).Contents (Elt F))
abbrev opR5 : HloOp τ sig (Elt F) := StableHlo.reshape main_v4 main_v5 rfl shapeCasts_S48x4096x85_S16x3x64x64x85

omit [FloatOps F] in
theorem ucRefs_eq : (ucRefs : Finset (DevRef τ sig)) = {a', x', s', t', r3', r4', r5'} := by decide

omit [FloatOps F] in
/-- The seven arrays of @main, one by one. -/
theorem held_ucRefs (d : Dev nD) (W : Valuation τ sig (Elt F)) :
    (held (T d) ucRefs W : sProp 𝕄) = iprop((pLoc d ↦{fullShare} W a') ∗ (xLoc d ↦{fullShare} W x') ∗ (sLoc d ↦{fullShare} W s')
      ∗ (tLoc d ↦{fullShare} W t') ∗ ((SparseCore.T d).loc main_v3 ↦{fullShare} W r3') ∗ ((SparseCore.T d).loc main_v4 ↦{fullShare} W r4')
      ∗ (oLoc d ↦{fullShare} W r5')) := by
  unfold held
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem hR0 : (opR0 (F := F)).bufs ⊆ ucRefs := by rw [show (opR0 (F := F)).bufs = {a', x'} from rfl, ucRefs_eq]; decide
theorem hR3 : (opR3 (F := F)).bufs ⊆ ucRefs := by rw [show (opR3 (F := F)).bufs = {s', r3'} from rfl, ucRefs_eq]; decide
theorem hC4 : (opC4 (F := F)).bufs ⊆ ucRefs := by rw [show (opC4 (F := F)).bufs = {t', r3', r4'} from rfl, ucRefs_eq]; decide
theorem hR5 : (opR5 (F := F)).bufs ⊆ ucRefs := by rw [show (opR5 (F := F)).bufs = {r4', r5'} from rfl, ucRefs_eq]; decide

/-! ## The arrays' contents along @main -/

/-- At launch; -/
def V0 (d : Dev nD) : Valuation τ sig (Elt F) := fun b => m (d, b)
/-- after the first reshape; -/
def V1 (d : Dev nD) : Valuation τ sig (Elt F) := (opR0 (F := F)).result (V0 m d)
/-- after the SparseCore call; -/
def V2 (d : Dev nD) : Valuation τ sig (Elt F) := Function.update (V1 m d) s' (Sv m d)
/-- what the TensorCore region leaves in its output array: the four blocks written back, as the pipeline library computes them; -/
def Tv (d : Dev nD) : Buf (Elt F) (tLoc d) := (dats (V2 m d) 0 d).arrAt 1 cfg1.N
/-- after the region; -/
def V3 (d : Dev nD) : Valuation τ sig (Elt F) := Function.update (V2 m d) t' (Tv m d)
/-- after the three host operations: reshape of the call's output, concatenation, reshape. -/
def V4 (d : Dev nD) : Valuation τ sig (Elt F) := (opR5 (F := F)).result ((opC4 (F := F)).result ((opR3 (F := F)).result (V3 m d)))
/-- The program's result. -/
def Out (d : Dev nD) : Buf (Elt F) (oLoc d) := V4 m d r5'

theorem V1_x (d : Dev nD) : V1 m d x' = Xv m d := by
  unfold V1; rw [StableHlo.reshape_result]; rfl
theorem V1_ne (d : Dev nD) {r : Ref sig .tc} (h : r ≠ main_v0) : V1 m d (Proc.devRef .tc r) = m ((SparseCore.T d).loc r) := by
  unfold V1; rw [StableHlo.reshape_result_ne (h := h)]; rfl

/-! ## The TensorCore's handshake state after the one call -/

/-- What the TensorCore holds after the call besides its debts (none): its position on its `done` cell and the rounds reached. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the last call the TensorCore owes nothing. -/
theorem tcSt_one (d : Dev nD) : ((K (F := F)).tcSt EH d 1 : sProp 𝕄) = iprop(owesLow (F := F) d ∗ tcRest (F := F) d) := by
  unfold SparseCore.Cfg.tcSt owesLow tcRest
  rw [(K (F := F)).Otc_end d (le_refl 1)]

/-- The same, as the call's rule states the TensorCore's state after call `0`. -/
theorem tcSt_after (d : Dev nD) :
    ((K (F := F)).tcSt EH d ((0 : Fin 1).val + 1) : sProp 𝕄) = iprop(owesLow (F := F) d ∗ tcRest (F := F) d) := tcSt_one d

/-! ## The launch element -/

/-- The handshakes' rounds; the TensorCore pipeline's staging cells' rounds; no counter. -/
def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

/-- The staging cells' rounds fund each device's cells' launch ghost state and duty tokens. -/
theorem cells_fund :
    (BI.own (EP (initOf (Pipeline.cells cfgs cellOf_inj) (Pipeline.launchToks cfgs cellOf_inj))) : sProp 𝕄)
      ⊢ iprop(|==> bigSep Finset.univ fun d : Dev nD => cellsG (F := F) d) := by
  have e1 : (bigSep Finset.univ fun c : Dev nD => bigSep Finset.univ fun p : Fin 1 => (Pipeline.cellsGhost cfgs EP p c : sProp 𝕄))
      = bigSep Finset.univ fun c : Dev nD => Pipeline.cellsGhost cfgs EP 0 c := bigSep_congr fun c _ => bigSep_univ_of_subsingleton (0 : Fin 1)
  have e2 : (bigSep Finset.univ fun c : Dev nD => bigSep Finset.univ fun p : Fin 1 => (Pipeline.toksInit cfgs EP p c : sProp 𝕄))
      = bigSep Finset.univ fun c : Dev nD => Pipeline.toksInit cfgs EP 0 c := bigSep_congr fun c _ => bigSep_univ_of_subsingleton (0 : Fin 1)
  refine (Pipeline.fund_ghost cfgs EP cellOf_inj).trans ?_
  rw [e1, e2, ← bigSep_sep']

omit [FloatOps F] in
/-- The staging cells' component of the ghost state, reached through the pair's right half, is `EP`. -/
theorem own_EP (x : UP) :
    (BI.own (((Emb.inl : Emb UP (UP × Counters)).trans (embR : Emb (UP × Counters) 𝕄)) x) : sProp 𝕄) = BI.own (EP x) := rfl

theorem hu₀ : (ownU (u₀ (F := F)) : sProp 𝕄)
    ⊢ |={Set.univ}=> iprop(BI.own (EH (initOf (K (F := F)).hsCells (K (F := F)).hsToks)) ∗ (bigSep Finset.univ fun d : Dev nD => cellsG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (own_EP (F := F) _)) $$ HP
  imod (cells_fund (F := F)) $$ HP' with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays, chain by chain -/

omit [FloatOps F] in
/-- At launch the TensorCore's unscoped buffers are the seven arrays held at the launch contents. -/
theorem unscoped_held (d : Dev nD) :
    (unscopedBufs d (fun b => m ((SparseCore.T d).loc b)) : sProp 𝕄) = held (T d) ucRefs (V0 m d) :=
  unscopedBufs_held d (V0 m d)

theorem V2_s (d : Dev nD) : V2 m d s' = Sv m d := Function.update_self _ _ _
theorem V2_ne (d : Dev nD) {b : DevRef τ sig} (h : b ≠ s') : V2 m d b = V1 m d b := Function.update_of_ne h _ _
theorem V3_t (d : Dev nD) : V3 m d t' = Tv m d := Function.update_self _ _ _
theorem V3_ne (d : Dev nD) {b : DevRef τ sig} (h : b ≠ t') : V3 m d b = V2 m d b := Function.update_of_ne h _ _

/-- After the first reshape: the input's view in `main_v0`, every other array as launched. -/
theorem held_V1 (d : Dev nD) :
    (held (T d) ucRefs ((opR0 (F := F)).result (V0 m d)) : sProp 𝕄) = iprop((pLoc d ↦{fullShare} m (pLoc d)) ∗ (xLoc d ↦{fullShare} Xv m d) ∗ (sLoc d ↦{fullShare} m (sLoc d))
      ∗ (tLoc d ↦{fullShare} m (tLoc d)) ∗ ((SparseCore.T d).loc main_v3 ↦{fullShare} m ((SparseCore.T d).loc main_v3))
      ∗ ((SparseCore.T d).loc main_v4 ↦{fullShare} m ((SparseCore.T d).loc main_v4)) ∗ (oLoc d ↦{fullShare} m (oLoc d))) := by
  show (held (T d) ucRefs (V1 m d) : sProp 𝕄) = _
  rw [held_ucRefs, V1_x, V1_ne m d (r := main_arg0) (by decide), V1_ne m d (r := main_v1) (by decide), V1_ne m d (r := main_v2) (by decide),
    V1_ne m d (r := main_v3) (by decide), V1_ne m d (r := main_v4) (by decide), V1_ne m d (r := main_v5) (by decide)]

/-- After the call: the same with the call's output in `main_v1`. -/
theorem held_V2 (d : Dev nD) :
    (held (T d) ucRefs (V2 m d) : sProp 𝕄) = iprop((pLoc d ↦{fullShare} m (pLoc d)) ∗ (xLoc d ↦{fullShare} Xv m d) ∗ (sLoc d ↦{fullShare} Sv m d)
      ∗ (tLoc d ↦{fullShare} m (tLoc d)) ∗ ((SparseCore.T d).loc main_v3 ↦{fullShare} m ((SparseCore.T d).loc main_v3))
      ∗ ((SparseCore.T d).loc main_v4 ↦{fullShare} m ((SparseCore.T d).loc main_v4)) ∗ (oLoc d ↦{fullShare} m (oLoc d))) := by
  rw [held_ucRefs, V2_s, V2_ne m d (b := a') (by decide), V2_ne m d (b := x') (by decide), V2_ne m d (b := t') (by decide),
    V2_ne m d (b := r3') (by decide), V2_ne m d (b := r4') (by decide), V2_ne m d (b := r5') (by decide),
    V1_x, V1_ne m d (r := main_arg0) (by decide), V1_ne m d (r := main_v2) (by decide),
    V1_ne m d (r := main_v3) (by decide), V1_ne m d (r := main_v4) (by decide), V1_ne m d (r := main_v5) (by decide)]

/-- What the region leaves is the seven arrays held with its output array at what the write-backs left. -/
theorem regPost_held (d : Dev nD) : regPost (V2 m d) d ⊢ (iprop(held (T d) ucRefs (V3 m d) ∗ owesLow (F := F) d) : sProp 𝕄) := by
  unfold regPost
  rw [Pipeline.arrays_eq cfgs (dats (V2 m d)) 0 d launch1.arr_whole ((dats (V2 m d) 0 d).share_full fun _ => rfl), bigSep_W1,
    unscopedRest1_eq, held_ucRefs, V3_t, V3_ne m d (b := a') (by decide), V3_ne m d (b := x') (by decide), V3_ne m d (b := s') (by decide),
    V3_ne m d (b := r3') (by decide), V3_ne m d (b := r4') (by decide), V3_ne m d (b := r5') (by decide)]
  rw [show (dats (V2 m d) 0 d).arrAt 0 cfg1.N = V2 m d x' from ((dats (V2 m d) 0 d).arrAt_in 0 rfl _).trans (A_eq (V2 m d) d 0)]
  iintro ⟨⟨H0, H1⟩, ⟨Ha, Hs, H3, H4, H5⟩, HO⟩
  isplitr [HO]
  · isplitl [Ha]; · iexact Ha
    isplitl [H0]; · iexact H0
    isplitl [Hs]; · iexact Hs
    isplitl [H1]; · iexact H1
    isplitl [H3]; · iexact H3
    isplitl [H4]; · iexact H4
    iexact H5
  iexact HO

/-- The input array comes through @main untouched. -/
theorem V4_a (d : Dev nD) : V4 m d a' = m (pLoc d) := by
  unfold V4
  rw [StableHlo.reshape_result_ne (h := (by decide : main_arg0 ≠ main_v5)), StableHlo.binary_result_ne (h := (by decide : main_arg0 ≠ main_v4)),
    StableHlo.reshape_result_ne (h := (by decide : main_arg0 ≠ main_v3)), V3_ne m d (b := a') (by decide), V2_ne m d (b := a') (by decide),
    V1_ne m d (r := main_arg0) (by decide)]

/-! ## @main on the TensorCore -/

/-- What @main leaves the claim: the input array as launched, the result array at the program's result. -/
def FIN (d : Dev nD) : sProp 𝕄 := iprop((pLoc d ↦{fullShare} m (pLoc d)) ∗ (oLoc d ↦{fullShare} Out m d))

/-- After the last host operation the seven arrays hold, among them, the input as launched and the program's result. -/
theorem fin_of_held (d : Dev nD) :
    (held (T d) ucRefs ((opR5 (F := F)).result ((opC4 (F := F)).result ((opR3 (F := F)).result (V3 m d)))) : sProp 𝕄) ⊢ FIN m d := by
  show (held (T d) ucRefs (V4 m d) : sProp 𝕄) ⊢ _
  unfold FIN Out
  rw [held_ucRefs, V4_a]
  iintro ⟨Ha, -, -, -, -, -, H5⟩
  isplitl [Ha]; · iexact Ha
  iexact H5

set_option maxHeartbeats 1000000 in
/-- @main on device `d`'s TensorCore: the reshape; the SparseCore call, handed the tiles' read shares of the input and
    their blocks of the output and handing them back; the TensorCore region; the three host operations. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ cellsG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the first reshape
  iapply (wp_hlo_within 𝒱 (SparseCore.T d) none Set.univ (op := opR0) (S := ucRefs) hR0 (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨Ha, Hx, Hs, Ht, H3, H4, H5⟩
  -- the call: the input dealt as read shares, the output as blocks; both whole again after it
  ihave Hgive := (call_give m d) $$ [Hx Hs]
  · isplitl [Hx]; · iexact Hx
    iexact Hs
  icases Hgive with ⟨Hrem, Hstq⟩
  iapply ((K (F := F)).wp_run (D (F := F)) 𝒱 (EH := EH) (P := P m) κ d 0) $$ [Hst Hstq Hrem Hb Ha Ht H3 H4 H5 HG]
  isplitr; · iexact Hctx
  isplitl [Hst]; · iexact Hst
  isplitl [Hstq]; · iexact Hstq
  iintro ⟨Hst, Hdn⟩
  ihave Htake := (call_take m d) $$ [Hrem Hdn]
  · isplitl [Hrem]; · iexact Hrem
    iexact Hdn
  icases Htake with ⟨Hx, Hs⟩
  -- the region: entered owing nothing, from the seven arrays held
  ihave Hst' := (Entails.of_eq (tcSt_after (F := F) d)) $$ Hst
  icases Hst' with ⟨HO, Hrest⟩
  ihave #Hlev := (SparseCore.Cfg.ctx_levAts (K := K (F := F)) (EH := EH) (P := P m) κ) $$ Hctx
  ihave Hheld := (Entails.of_eq (held_V2 m d).symm) $$ [Ha Hx Hs Ht H3 H4 H5]
  · isplitl [Ha]; · iexact Ha
    isplitl [Hx]; · iexact Hx
    isplitl [Hs]; · iexact Hs
    isplitl [Ht]; · iexact Ht
    isplitl [H3]; · iexact H3
    isplitl [H4]; · iexact H4
    iexact H5
  iapply (wp_region (V2 m d) d _) $$ [Hb Hheld HO HG Hrest]
  isplitl [Hrest]
  swap
  · isplitl [Hb]; · iexact Hb
    isplitl [Hheld HO]
    · unfold regPre
      isplitl [Hheld]; · iexact Hheld
      iexact HO
    isplitr; · iexact Hlev
    iexact HG
  iintro ⟨Hb, Hpost⟩
  ihave Hp := (regPost_held m d) $$ Hpost
  icases Hp with ⟨Hheld, HO⟩
  -- the three host operations
  iapply (wp_hlo_within 𝒱 (SparseCore.T d) none Set.univ (op := opR3) (S := ucRefs) hR3 (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := opC4) (S := ucRefs) hC4 (V := (opR3 (F := F)).result (V3 m d))) $$ [Hb Hheld]
  · isplitl [Hb]; · iexact Hb
    iexact Hheld
  iintro ⟨Hb, Hheld⟩
  rw [wp_ret]; imodintro
  iapply (wp_hlo_within 𝒱 (SparseCore.T d) none Set.univ (op := opR5) (S := ucRefs) hR5 (V := (opC4 (F := F)).result ((opR3 (F := F)).result (V3 m d)))) $$ [Hb Hheld]
  · isplitl [Hb]; · iexact Hb
    iexact Hheld
  iintro ⟨Hb, Hheld⟩
  rw [wp_ret]; imodintro; imodintro
  isplitl [HO Hrest]
  · iapply (Entails.of_eq (tcSt_one (F := F) d).symm)
    isplitl [HO]; · iexact HO
    iexact Hrest
  iapply (fin_of_held m d); iexact Hheld

/-! ## The final memory, the run -/

def fq (d : Dev nD) (st : Phys nD τ sig (Elt F)) : Prop := st.mem.mem (oLoc d) = Out m d ∧ st.mem.mem (pLoc d) = m (pLoc d)

theorem hfin (d : Dev nD) (st : Phys nD τ sig (Elt F)) : iprop(FIN m d ∗ SI st) ⊢ (⌜fq m d st⌝ : sProp 𝕄) := by
  unfold FIN
  iintro ⟨⟨Hp, Ho⟩, HSI⟩
  ihave H := (persistent_entails_right (SI_pointsTo_agree (st := st) (ℓ := pLoc d) (I := Finset.univ) (q := fullShare) (f := m (pLoc d)))) $$ [HSI Hp]
  · isplitl [HSI] <;> iassumption
  icases H with ⟨%h1, HSI, -⟩
  ihave H := (SI_pointsTo_agree (st := st) (ℓ := oLoc d) (I := Finset.univ) (q := fullShare) (f := Out m d)) $$ [HSI Ho]
  · isplitl [HSI] <;> iassumption
  icases H with %h2
  ipureintro; exact ⟨funext fun i => h2 i (Finset.mem_univ i), funext fun i => h1 i (Finset.mem_univ i)⟩

/-- The program's post: on every device the result array at the program's result, the input array as launched. -/
def QC : PUnit × MemSt nD τ sig (Elt F) → Prop := fun r => ∀ c : Dev nD,
  r.2.mem ((c.tc : Thread nD τ).loc main_v5) = Out m c ∧ r.2.mem ((c.tc : Thread nD τ).loc main_arg0) = m ((c.tc : Thread nD τ).loc main_arg0)

/-- THE RUN, from the tile's body obligation: every weakly fair execution of the program's threads from `m` with every
    semaphore at zero terminates, nothing faulting, with the result array at `Out m` and the input array unchanged. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => cellsG (F := F) d) (FIN m) (u₀ (F := F)) (sep_elim_left.trans (hu₀ m)) (hmain m ρ) (fq m) (hfin m) (QC m) (fun _ h => h)

end Cert.Proof.KernelIdealLaunch

end
-- ==== Proof.KernelIdealRow.lean ====
/-
  One row of the transposition. The quarter buffer has 128·85 words; word sp·85 + c is to hold element (c, col + sp)
  of the source block. Row k of the source is scattered by eight indexed stores of sixteen lanes: store ub sends lane l to
  word 85·(16·ub + l) + k. The words written by the eight stores are pairwise distinct and are exactly the words
  sp·85 + k, so after them every column c ≤ k of the quarter is in place.
-/
import Idealize.ShloMosaic.Lib.ValueIdx
import proofs.«218930_g44392781971697_cont_8to1c4_23_28_alg».proof.Proof.LibStoreIdx

namespace Cert.Proof.KernelIdealRow

open Idealize.ShloMosaic Idealize.ShloMosaic.ValueIdx Cert.Proof.LibStoreIdx

abbrev T16 : Shape := ⟨1, ![16]⟩
abbrev TQ : Shape := ⟨1, ![10880]⟩
abbrev TB : Shape := ⟨2, ![85, 512]⟩

variable {F : FTy → Type} [FloatOps F]

/-- Word `sp·85 + c` of the quarter. -/
def qIx (sp : Fin 128) (c : Fin 85) : TQ.Idx := ix1 (⟨sp.val * 85 + c.val, by omega⟩ : Fin 10880)

/-- After `k` rows of the source have been scattered, word `sp·85 + c` of the quarter holds element `(c, col + sp)` of the
    source, for every `c < k`. -/
def Done (fin : TB.Idx → Elt F .f32) (col : ℕ) (hcol : col + 128 ≤ 512) (k : ℕ) (f : TQ.Idx → Elt F .f32) : Prop :=
  ∀ (sp : Fin 128) (c : Fin 85), c.val < k → f (qIx sp c) = fin (ix2 c (⟨col + sp.val, by omega⟩ : Fin 512))

theorem done_zero (fin : TB.Idx → Elt F .f32) (col : ℕ) (hcol : col + 128 ≤ 512) (f : TQ.Idx → Elt F .f32) : Done fin col hcol 0 f :=
  fun _ _ h => absurd h (Nat.not_lt_zero _)

abbrev D16 : Fin 1 → ℕ := ![16]

theorem ofLane_eq (l : Fin (D16 0)) : (Shape.ofLane (d := D16) l : T16.Idx) = ix1 (⟨l.val, l.isLt⟩ : Fin 16) := by
  funext a
  obtain rfl : a = 0 := Subsingleton.elim _ _
  rfl

/-- One indexed store of row `k`: lanes to words `85·l + (1360·ub + k)`. -/
theorem store_row (k : ℕ) (hk : k < 85) (ub : ℕ) (hub : ub < 8) (g : Vec F TQ .f32) (idx : IVec T16 32)
    (hidx : ∀ x : T16.Idx, (idx x).toNat = 85 * (x 0).val + (ub * 1360 + k)) (v : Vec F T16 .f32)
    (h : ∀ a x, ((![idx] : Fin 1 → IVec T16 32) a x).toNat < TQ.size a) (sp : Fin 128) (c : Fin 85) :
    storeIdx g ![idx] v (fun _ => 1#1) false h (qIx sp c)
      = if c.val = k ∧ sp.val / 16 = ub then v (ix1 (⟨sp.val % 16, Nat.mod_lt _ (by decide)⟩ : Fin 16)) else g (qIx sp c) := by
  have hposv : ∀ l : Fin (D16 0), ((idxAt (s := TQ) ![idx] h (Shape.ofLane (d := D16) l)) 0).val = 85 * l.val + (ub * 1360 + k) := by
    intro l
    show (idx (Shape.ofLane (d := D16) l)).toNat = _
    rw [hidx]; rfl
  have hinj : ∀ l l' : Fin (D16 0), idxAt (s := TQ) ![idx] h (Shape.ofLane (d := D16) l) = idxAt (s := TQ) ![idx] h (Shape.ofLane (d := D16) l') → l = l' := by
    intro l l' e
    have e0 : ((idxAt (s := TQ) ![idx] h (Shape.ofLane (d := D16) l)) 0).val = ((idxAt (s := TQ) ![idx] h (Shape.ofLane (d := D16) l')) 0).val :=
      congrArg (fun j : TQ.Idx => (j 0).val) e
    rw [hposv, hposv] at e0
    exact Fin.ext (by omega)
  have hsp := sp.isLt
  have hc := c.isLt
  split
  next hcase =>
    obtain ⟨hck, hdiv⟩ := hcase
    have hj : qIx sp c = idxAt (s := TQ) ![idx] h (Shape.ofLane (d := D16) (⟨sp.val % 16, Nat.mod_lt _ (by decide)⟩ : Fin (D16 0))) := by
      funext a
      obtain rfl : a = 0 := Subsingleton.elim _ _
      apply Fin.ext
      rw [hposv]
      show sp.val * 85 + c.val = 85 * (sp.val % 16) + (ub * 1360 + k)
      omega
    rw [hj, storeIdx_hit g ![idx] v h hinj, ofLane_eq]
  next hcase =>
    apply storeIdx_other
    intro l e
    have e0 : ((idxAt (s := TQ) ![idx] h (Shape.ofLane (d := D16) l)) 0).val = ((qIx sp c) 0).val :=
      congrArg (fun j : TQ.Idx => (j 0).val) e
    rw [hposv] at e0
    have e1 : 85 * l.val + (ub * 1360 + k) = sp.val * 85 + c.val := e0
    have hl : l.val < 16 := l.isLt
    exact hcase ⟨by omega, by omega⟩

/-- Store `ub` of a row, as a function of the quarter's contents. -/
def stq (idx : Fin 8 → IVec T16 32) (v : Fin 8 → Vec F T16 .f32)
    (h : ∀ ub, ∀ a x, ((![idx ub] : Fin 1 → IVec T16 32) a x).toNat < TQ.size a) (ub : Fin 8) (g : Vec F TQ .f32) : Vec F TQ .f32 :=
  storeIdx g ![idx ub] (v ub) (fun _ => 1#1) false (h ub)

theorem stq_apply (k : ℕ) (hk : k < 85) (idx : Fin 8 → IVec T16 32) (v : Fin 8 → Vec F T16 .f32)
    (h : ∀ ub, ∀ a x, ((![idx ub] : Fin 1 → IVec T16 32) a x).toNat < TQ.size a)
    (hidx : ∀ (ub : Fin 8) (x : T16.Idx), (idx ub x).toNat = 85 * (x 0).val + (ub.val * 1360 + k))
    (ub : Fin 8) (g : Vec F TQ .f32) (sp : Fin 128) (c : Fin 85) :
    stq idx v h ub g (qIx sp c)
      = if c.val = k ∧ sp.val / 16 = ub.val then v ub (ix1 (⟨sp.val % 16, Nat.mod_lt _ (by decide)⟩ : Fin 16)) else g (qIx sp c) :=
  store_row k hk ub.val ub.isLt g (idx ub) (hidx ub) (v ub) (h ub) sp c

/-- The eight stores of row `k` put column `k` of the quarter in place and leave the earlier columns as they were. -/
theorem done_step (fin : TB.Idx → Elt F .f32) (col : ℕ) (hcol : col + 128 ≤ 512) (k : ℕ) (hk : k < 85) (f : Vec F TQ .f32)
    (hf : Done fin col hcol k f) (idx : Fin 8 → IVec T16 32) (v : Fin 8 → Vec F T16 .f32)
    (h : ∀ ub, ∀ a x, ((![idx ub] : Fin 1 → IVec T16 32) a x).toNat < TQ.size a)
    (hidx : ∀ (ub : Fin 8) (x : T16.Idx), (idx ub x).toNat = 85 * (x 0).val + (ub.val * 1360 + k))
    (hv : ∀ (ub : Fin 8) (l : Fin 16), v ub (ix1 l) = fin (ix2 (⟨k, hk⟩ : Fin 85) (⟨col + (16 * ub.val + l.val), by omega⟩ : Fin 512))) :
    Done fin col hcol (k + 1)
      (stq idx v h 7 (stq idx v h 6 (stq idx v h 5 (stq idx v h 4 (stq idx v h 3 (stq idx v h 2 (stq idx v h 1 (stq idx v h 0 f)))))))) := by
  intro sp c hc1
  have hsp := sp.isLt
  simp only [stq_apply k hk idx v h hidx]
  by_cases hck : c.val = k
  · have hfin : ∀ ub : Fin 8, sp.val / 16 = ub.val →
        v ub (ix1 (⟨sp.val % 16, Nat.mod_lt _ (by decide)⟩ : Fin 16)) = fin (ix2 c (⟨col + sp.val, by omega⟩ : Fin 512)) := by
      intro ub hub
      rw [hv]
      congr 1
      · congr 1
        · exact Fin.ext hck.symm
        · apply Fin.ext; show col + (16 * ub.val + sp.val % 16) = col + sp.val; omega
    split_ifs with h7 h6 h5 h4 h3 h2 h1 h0
    · exact hfin 7 h7.2
    · exact hfin 6 h6.2
    · exact hfin 5 h5.2
    · exact hfin 4 h4.2
    · exact hfin 3 h3.2
    · exact hfin 2 h2.2
    · exact hfin 1 h1.2
    · exact hfin 0 h0.2
    · exfalso
      have e7 : sp.val / 16 ≠ 7 := fun e => h7 ⟨hck, e⟩
      have e6 : sp.val / 16 ≠ 6 := fun e => h6 ⟨hck, e⟩
      have e5 : sp.val / 16 ≠ 5 := fun e => h5 ⟨hck, e⟩
      have e4 : sp.val / 16 ≠ 4 := fun e => h4 ⟨hck, e⟩
      have e3 : sp.val / 16 ≠ 3 := fun e => h3 ⟨hck, e⟩
      have e2 : sp.val / 16 ≠ 2 := fun e => h2 ⟨hck, e⟩
      have e1 : sp.val / 16 ≠ 1 := fun e => h1 ⟨hck, e⟩
      have e0 : sp.val / 16 ≠ 0 := fun e => h0 ⟨hck, e⟩
      omega
  · have hlt : c.val < k := by omega
    simp only [hck, false_and, if_false]
    exact hf sp c hlt

/-- The same with the eight stores named one by one (the form a run of the eight stores leaves). -/
theorem done_step8 (fin : TB.Idx → Elt F .f32) (col : ℕ) (hcol : col + 128 ≤ 512) (k : ℕ) (hk : k < 85) (f : Vec F TQ .f32)
    (hf : Done fin col hcol k f) (i0 i1 i2 i3 i4 i5 i6 i7 : IVec T16 32) (v0 v1 v2 v3 v4 v5 v6 v7 : Vec F T16 .f32)
    (h0 : ∀ a x, ((![i0] : Fin 1 → IVec T16 32) a x).toNat < TQ.size a) (h1 : ∀ a x, ((![i1] : Fin 1 → IVec T16 32) a x).toNat < TQ.size a)
    (h2 : ∀ a x, ((![i2] : Fin 1 → IVec T16 32) a x).toNat < TQ.size a) (h3 : ∀ a x, ((![i3] : Fin 1 → IVec T16 32) a x).toNat < TQ.size a)
    (h4 : ∀ a x, ((![i4] : Fin 1 → IVec T16 32) a x).toNat < TQ.size a) (h5 : ∀ a x, ((![i5] : Fin 1 → IVec T16 32) a x).toNat < TQ.size a)
    (h6 : ∀ a x, ((![i6] : Fin 1 → IVec T16 32) a x).toNat < TQ.size a) (h7 : ∀ a x, ((![i7] : Fin 1 → IVec T16 32) a x).toNat < TQ.size a)
    (hi0 : ∀ x : T16.Idx, (i0 x).toNat = 85 * (x 0).val + (0 + k)) (hi1 : ∀ x : T16.Idx, (i1 x).toNat = 85 * (x 0).val + (1360 + k))
    (hi2 : ∀ x : T16.Idx, (i2 x).toNat = 85 * (x 0).val + (2720 + k)) (hi3 : ∀ x : T16.Idx, (i3 x).toNat = 85 * (x 0).val + (4080 + k))
    (hi4 : ∀ x : T16.Idx, (i4 x).toNat = 85 * (x 0).val + (5440 + k)) (hi5 : ∀ x : T16.Idx, (i5 x).toNat = 85 * (x 0).val + (6800 + k))
    (hi6 : ∀ x : T16.Idx, (i6 x).toNat = 85 * (x 0).val + (8160 + k)) (hi7 : ∀ x : T16.Idx, (i7 x).toNat = 85 * (x 0).val + (9520 + k))
    (hv0 : ∀ l : Fin 16, v0 (ix1 l) = fin (ix2 (⟨k, hk⟩ : Fin 85) (⟨col + 0 + l.val, by omega⟩ : Fin 512)))
    (hv1 : ∀ l : Fin 16, v1 (ix1 l) = fin (ix2 (⟨k, hk⟩ : Fin 85) (⟨col + 16 + l.val, by omega⟩ : Fin 512)))
    (hv2 : ∀ l : Fin 16, v2 (ix1 l) = fin (ix2 (⟨k, hk⟩ : Fin 85) (⟨col + 32 + l.val, by omega⟩ : Fin 512)))
    (hv3 : ∀ l : Fin 16, v3 (ix1 l) = fin (ix2 (⟨k, hk⟩ : Fin 85) (⟨col + 48 + l.val, by omega⟩ : Fin 512)))
    (hv4 : ∀ l : Fin 16, v4 (ix1 l) = fin (ix2 (⟨k, hk⟩ : Fin 85) (⟨col + 64 + l.val, by omega⟩ : Fin 512)))
    (hv5 : ∀ l : Fin 16, v5 (ix1 l) = fin (ix2 (⟨k, hk⟩ : Fin 85) (⟨col + 80 + l.val, by omega⟩ : Fin 512)))
    (hv6 : ∀ l : Fin 16, v6 (ix1 l) = fin (ix2 (⟨k, hk⟩ : Fin 85) (⟨col + 96 + l.val, by omega⟩ : Fin 512)))
    (hv7 : ∀ l : Fin 16, v7 (ix1 l) = fin (ix2 (⟨k, hk⟩ : Fin 85) (⟨col + 112 + l.val, by omega⟩ : Fin 512))) :
    Done fin col hcol (k + 1)
      (storeIdx (storeIdx (storeIdx (storeIdx (storeIdx (storeIdx (storeIdx (storeIdx f ![i0] v0 (fun _ => 1#1) false h0)
        ![i1] v1 (fun _ => 1#1) false h1) ![i2] v2 (fun _ => 1#1) false h2) ![i3] v3 (fun _ => 1#1) false h3)
        ![i4] v4 (fun _ => 1#1) false h4) ![i5] v5 (fun _ => 1#1) false h5) ![i6] v6 (fun _ => 1#1) false h6) ![i7] v7 (fun _ => 1#1) false h7) := by
  have key := done_step fin col hcol k hk f hf ![i0, i1, i2, i3, i4, i5, i6, i7] ![v0, v1, v2, v3, v4, v5, v6, v7]
    (fun ub => match ub with | 0 => h0 | 1 => h1 | 2 => h2 | 3 => h3 | 4 => h4 | 5 => h5 | 6 => h6 | 7 => h7)
    (fun ub => match ub with
      | 0 => fun x => by rw [show (![i0, i1, i2, i3, i4, i5, i6, i7] : Fin 8 → IVec T16 32) 0 = i0 from rfl, hi0]; rfl
      | 1 => fun x => by rw [show (![i0, i1, i2, i3, i4, i5, i6, i7] : Fin 8 → IVec T16 32) 1 = i1 from rfl, hi1]; rfl
      | 2 => fun x => by rw [show (![i0, i1, i2, i3, i4, i5, i6, i7] : Fin 8 → IVec T16 32) 2 = i2 from rfl, hi2]; rfl
      | 3 => fun x => by rw [show (![i0, i1, i2, i3, i4, i5, i6, i7] : Fin 8 → IVec T16 32) 3 = i3 from rfl, hi3]; rfl
      | 4 => fun x => by rw [show (![i0, i1, i2, i3, i4, i5, i6, i7] : Fin 8 → IVec T16 32) 4 = i4 from rfl, hi4]; rfl
      | 5 => fun x => by rw [show (![i0, i1, i2, i3, i4, i5, i6, i7] : Fin 8 → IVec T16 32) 5 = i5 from rfl, hi5]; rfl
      | 6 => fun x => by rw [show (![i0, i1, i2, i3, i4, i5, i6, i7] : Fin 8 → IVec T16 32) 6 = i6 from rfl, hi6]; rfl
      | 7 => fun x => by rw [show (![i0, i1, i2, i3, i4, i5, i6, i7] : Fin 8 → IVec T16 32) 7 = i7 from rfl, hi7]; rfl)
    (fun ub => match ub with
      | 0 => fun l => (hv0 l).trans (congrArg fin (congrArg (ix2 _) (Fin.ext (by show col + 0 + l.val = col + (16 * 0 + l.val); omega))))
      | 1 => fun l => (hv1 l).trans (congrArg fin (congrArg (ix2 _) (Fin.ext (by show col + 16 + l.val = col + (16 * 1 + l.val); omega))))
      | 2 => fun l => (hv2 l).trans (congrArg fin (congrArg (ix2 _) (Fin.ext (by show col + 32 + l.val = col + (16 * 2 + l.val); omega))))
      | 3 => fun l => (hv3 l).trans (congrArg fin (congrArg (ix2 _) (Fin.ext (by show col + 48 + l.val = col + (16 * 3 + l.val); omega))))
      | 4 => fun l => (hv4 l).trans (congrArg fin (congrArg (ix2 _) (Fin.ext (by show col + 64 + l.val = col + (16 * 4 + l.val); omega))))
      | 5 => fun l => (hv5 l).trans (congrArg fin (congrArg (ix2 _) (Fin.ext (by show col + 80 + l.val = col + (16 * 5 + l.val); omega))))
      | 6 => fun l => (hv6 l).trans (congrArg fin (congrArg (ix2 _) (Fin.ext (by show col + 96 + l.val = col + (16 * 6 + l.val); omega))))
      | 7 => fun l => (hv7 l).trans (congrArg fin (congrArg (ix2 _) (Fin.ext (by show col + 112 + l.val = col + (16 * 7 + l.val); omega)))))
  exact key

end Cert.Proof.KernelIdealRow
-- ==== Proof.KernelIdealLoopKit.lean ====
/-
  The tools of the eight row loops of a tile's task. A row loop walks the 85 rows of a source block (one of the two input
  scratches) and scatters row k, in eight indexed stores of sixteen lanes, into a quarter buffer (one of the two output
  scratches) so that word sp·85 + k of the quarter holds element (k, col + sp) of the source. Here: the range check of the
  index vectors, the indexed store's rule restated over the buffer's plain contents, a row load read at a lane, and the
  loops' invariants.
-/
import proofs.«218930_g44392781971697_cont_8to1c4_23_28_alg».proof.Proof.KernelIdealPay
import proofs.«218930_g44392781971697_cont_8to1c4_23_28_alg».proof.Proof.KernelIdealRow
import proofs.«218930_g44392781971697_cont_8to1c4_23_28_alg».proof.Proof.LibLaneIdx
import Idealize.ShloMosaic.Lib.ValueLayout

noncomputable section

namespace Cert.Proof.KernelIdealLoopKit

open Cert.KernelIdeal Cert.KernelIdeal.Gen Cert.Proof.KernelIdealSetup Cert.Proof.KernelIdealPay Cert.Proof.KernelIdealRow Cert.Proof.LibLaneIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev xV : Memref sig .scVector .hbm S48x85x4096 .f32 := Memref.whole main_v0_scv
abbrev oV : Memref sig .scVector .hbm S5570560 .f32 := Memref.whole main_v1_scv
abbrev sA : Memref sig .scVector .vmem S85x512 .f32 := Memref.whole cc0_scratch0
abbrev sB : Memref sig .scVector .vmem S85x512 .f32 := Memref.whole cc0_scratch1
abbrev sC : Memref sig .scVector .vmem S10880 .f32 := Memref.whole cc0_scratch2
abbrev sD : Memref sig .scVector .vmem S10880 .f32 := Memref.whole cc0_scratch3

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Every index of a row's scatter is inside the quarter. -/
theorem chk_gen (v4 : IVec S16 32) (hv4 : ∀ x, (v4 x).toNat = 85 * (x 0).val) (w : BitVec 32) (n : ℕ) (hw : w.toNat = n) (hn : n + 1275 < 10880) :
    ∀ a x, ((![addi v4 (broadcast S16 w)] : Fin 1 → IVec S16 32) a x).toNat < S10880.size a := by
  intro a x
  obtain rfl : a = 0 := Subsingleton.elim _ _
  show (addi v4 (broadcast S16 w) x).toNat < 10880
  rw [add_splat_apply v4 hv4 w n hw (by omega) x]
  have := lane_lt x
  omega

omit [FloatOps F] in
theorem pts_accC (f : Buf (Elt F) ((thr d L).loc cc0_scratch2)) :
    (((sC).access (Rect.whole S10880)).loc (thr d L) ↦[((sC).access (Rect.whole S10880)).set]{fullShare} f : sProp 𝕄)
      = ((sC).view.loc (thr d L) ↦{fullShare} f) := by
  have h : ((sC).access (Rect.whole S10880) : View sig .scVector _ _ _).set = Finset.univ := Memref.set_access_whole cc0_scratch2
  rw [h]

omit [FloatOps F] in
/-- After an indexed store through the whole-buffer view, the buffer holds the scatter of what it held. -/
theorem pts_accC_store [FloatOps F] (f : Buf (Elt F) ((thr d L).loc cc0_scratch2)) (idxs : Fin S10880.rank → IVec S16 32) (v : Vec F S16 .f32)
    (mask : IVec S16 1) (add : Bool) (h : ∀ a x, (idxs a x).toNat < S10880.size a) :
    (((sC).access (Rect.whole S10880)).loc (thr d L) ↦[((sC).access (Rect.whole S10880)).set]{fullShare}
        (((sC).access (Rect.whole S10880)).write (Elt F) f
          (storeIdx (((sC).access (Rect.whole S10880)).read (Elt F) f) idxs v mask add h) Finset.univ) : sProp 𝕄)
      = ((sC).view.loc (thr d L) ↦{fullShare} storeIdx f idxs v mask add h) := by
  have hw : ((sC).access (Rect.whole S10880)).write (Elt F) f
      (storeIdx (((sC).access (Rect.whole S10880)).read (Elt F) f) idxs v mask add h) Finset.univ
        = storeIdx (((sC).access (Rect.whole S10880)).read (Elt F) f) idxs v mask add h :=
    Memref.write_access_whole_univ (Elt F) cc0_scratch2 f _
  have hr : ((sC).access (Rect.whole S10880)).read (Elt F) f = f := Memref.read_access_whole (Elt F) cc0_scratch2 f
  rw [hw, hr]
  exact pts_accC d L _

omit [FloatOps F] in
theorem pts_accD (f : Buf (Elt F) ((thr d L).loc cc0_scratch3)) :
    (((sD).access (Rect.whole S10880)).loc (thr d L) ↦[((sD).access (Rect.whole S10880)).set]{fullShare} f : sProp 𝕄)
      = ((sD).view.loc (thr d L) ↦{fullShare} f) := by
  have h : ((sD).access (Rect.whole S10880) : View sig .scVector _ _ _).set = Finset.univ := Memref.set_access_whole cc0_scratch3
  rw [h]

omit [FloatOps F] in
/-- After an indexed store through the whole-buffer view, the buffer holds the scatter of what it held. -/
theorem pts_accD_store [FloatOps F] (f : Buf (Elt F) ((thr d L).loc cc0_scratch3)) (idxs : Fin S10880.rank → IVec S16 32) (v : Vec F S16 .f32)
    (mask : IVec S16 1) (add : Bool) (h : ∀ a x, (idxs a x).toNat < S10880.size a) :
    (((sD).access (Rect.whole S10880)).loc (thr d L) ↦[((sD).access (Rect.whole S10880)).set]{fullShare}
        (((sD).access (Rect.whole S10880)).write (Elt F) f
          (storeIdx (((sD).access (Rect.whole S10880)).read (Elt F) f) idxs v mask add h) Finset.univ) : sProp 𝕄)
      = ((sD).view.loc (thr d L) ↦{fullShare} storeIdx f idxs v mask add h) := by
  have hw : ((sD).access (Rect.whole S10880)).write (Elt F) f
      (storeIdx (((sD).access (Rect.whole S10880)).read (Elt F) f) idxs v mask add h) Finset.univ
        = storeIdx (((sD).access (Rect.whole S10880)).read (Elt F) f) idxs v mask add h :=
    Memref.write_access_whole_univ (Elt F) cc0_scratch3 f _
  have hr : ((sD).access (Rect.whole S10880)).read (Elt F) f = f := Memref.read_access_whole (Elt F) cc0_scratch3 f
  rw [hw, hr]
  exact pts_accD d L _

/-- A sixteen-lane load of row `r` of a source block at column `c0`, reshaped to a lane vector, read at lane `l`. -/
theorem load_rowA (fin : S85x512.Idx → Elt F .f32) (off : Fin 2 → ℕ) (hinb : ∀ a, off a + S1x16.size a ≤ S85x512.size a)
    (r c0 : ℕ) (hoff : off = ![r, c0]) (hr : r < 85) (hc0 : c0 + 16 ≤ 512) (l : Fin 16) :
    shapeCast S16 (View.readAt (Elt F) (sA).view (Rect.unit (s := S85x512) off S1x16.size hinb).toLoadRect fin) shapeCasts_S1x16_S16 (ValueIdx.ix1 l)
      = fin (ValueIdx.ix2 (⟨r, hr⟩ : Fin 85) (⟨c0 + l.val, by omega⟩ : Fin 512)) := by
  subst hoff
  rw [ValueIdx.shapeCast_1a_a_apply, View.readAt_apply]
  show fin _ = fin _
  congr 1
  funext a
  match a with
  | ⟨0, _⟩ => apply Fin.ext; show r + 1 * 0 = r; omega
  | ⟨1, _⟩ => apply Fin.ext; show c0 + 1 * l.val = c0 + l.val; omega

/-- A sixteen-lane load of row `r` of a source block at column `c0`, reshaped to a lane vector, read at lane `l`. -/
theorem load_rowB (fin : S85x512.Idx → Elt F .f32) (off : Fin 2 → ℕ) (hinb : ∀ a, off a + S1x16.size a ≤ S85x512.size a)
    (r c0 : ℕ) (hoff : off = ![r, c0]) (hr : r < 85) (hc0 : c0 + 16 ≤ 512) (l : Fin 16) :
    shapeCast S16 (View.readAt (Elt F) (sB).view (Rect.unit (s := S85x512) off S1x16.size hinb).toLoadRect fin) shapeCasts_S1x16_S16 (ValueIdx.ix1 l)
      = fin (ValueIdx.ix2 (⟨r, hr⟩ : Fin 85) (⟨c0 + l.val, by omega⟩ : Fin 512)) := by
  subst hoff
  rw [ValueIdx.shapeCast_1a_a_apply, View.readAt_apply]
  show fin _ = fin _
  congr 1
  funext a
  match a with
  | ⟨0, _⟩ => apply Fin.ext; show r + 1 * 0 = r; omega
  | ⟨1, _⟩ => apply Fin.ext; show c0 + 1 * l.val = c0 + l.val; omega

set_option hygiene false in
/-- One indexed store into the first quarter buffer, by the indexed store's rule. -/
macro "scat_storeC" : tactic => `(tactic| (
  ihave Hq := (Entails.of_eq (pts_accC d L _).symm) $$ Hq
  iapply (SparseCore.wp_vectorStoreIdx 𝒱₀ (thr d L) none Set.univ (base := sC)) $$ Hq
  iintro Hq
  ihave Hq := (Entails.of_eq (pts_accC_store d L _ _ _ _ _ _)) $$ Hq))

set_option hygiene false in
/-- One indexed store into the second quarter buffer, by the indexed store's rule. -/
macro "scat_storeD" : tactic => `(tactic| (
  ihave Hq := (Entails.of_eq (pts_accD d L _).symm) $$ Hq
  iapply (SparseCore.wp_vectorStoreIdx 𝒱₀ (thr d L) none Set.univ (base := sD)) $$ Hq
  iintro Hq
  ihave Hq := (Entails.of_eq (pts_accD_store d L _ _ _ _ _ _)) $$ Hq))

set_option hygiene false in
/-- The run between two stores of a row: the next index vector's range check, at its literal offset. -/
macro "row_run" n:num : tactic => `(tactic| (
  sl_exec (disch := exact chk_gen v4 hv4 _ ($n + k.val) (off_word $n (by omega) k.val hk) (by omega))))

/-- The row loop's invariant, source block `sA` and quarter buffer `sC`: the source as it is, the quarter with its first `k` columns in place. -/
def invAC (fin : S85x512.Idx → Elt F .f32) (col : ℕ) (hcol : col + 128 ≤ 512) (k : ℕ) (_ : PUnit) : sProp 𝕄 :=
  iprop((sA.view.loc (thr d L) ↦{fullShare} fin) ∗ ∃ f, ⌜Done fin col hcol k f⌝ ∗ (sC.view.loc (thr d L) ↦{fullShare} f))

/-- The row loop's invariant, source block `sA` and quarter buffer `sD`: the source as it is, the quarter with its first `k` columns in place. -/
def invAD (fin : S85x512.Idx → Elt F .f32) (col : ℕ) (hcol : col + 128 ≤ 512) (k : ℕ) (_ : PUnit) : sProp 𝕄 :=
  iprop((sA.view.loc (thr d L) ↦{fullShare} fin) ∗ ∃ f, ⌜Done fin col hcol k f⌝ ∗ (sD.view.loc (thr d L) ↦{fullShare} f))

/-- The row loop's invariant, source block `sB` and quarter buffer `sC`: the source as it is, the quarter with its first `k` columns in place. -/
def invBC (fin : S85x512.Idx → Elt F .f32) (col : ℕ) (hcol : col + 128 ≤ 512) (k : ℕ) (_ : PUnit) : sProp 𝕄 :=
  iprop((sB.view.loc (thr d L) ↦{fullShare} fin) ∗ ∃ f, ⌜Done fin col hcol k f⌝ ∗ (sC.view.loc (thr d L) ↦{fullShare} f))

/-- The row loop's invariant, source block `sB` and quarter buffer `sD`: the source as it is, the quarter with its first `k` columns in place. -/
def invBD (fin : S85x512.Idx → Elt F .f32) (col : ℕ) (hcol : col + 128 ≤ 512) (k : ℕ) (_ : PUnit) : sProp 𝕄 :=
  iprop((sB.view.loc (thr d L) ↦{fullShare} fin) ∗ ∃ f, ⌜Done fin col hcol k f⌝ ∗ (sD.view.loc (thr d L) ↦{fullShare} f))

end Cert.Proof.KernelIdealLoopKit
end
-- ==== Proof.KernelIdealLoopsA.lean ====
/-
  Four of the eight row loops of a tile's task, each run at its invariant: after k rows the quarter buffer's first k columns
  are in place (the eight indexed stores of row k by the one-row lemma), so after the 85 rows the quarter holds the
  transposed block of 128 columns of the source.
-/
import proofs.«218930_g44392781971697_cont_8to1c4_23_28_alg».proof.Proof.KernelIdealPay
import proofs.«218930_g44392781971697_cont_8to1c4_23_28_alg».proof.Proof.KernelIdealRow
import proofs.«218930_g44392781971697_cont_8to1c4_23_28_alg».proof.Proof.LibLaneIdx
import proofs.«218930_g44392781971697_cont_8to1c4_23_28_alg».proof.Proof.KernelIdealLoopKit

noncomputable section

namespace Cert.Proof.KernelIdealLoopsA

open Cert.Proof.KernelIdealLoopKit  Cert.KernelIdeal Cert.KernelIdeal.Gen Cert.Proof.KernelIdealSetup Cert.Proof.KernelIdealPay Cert.Proof.KernelIdealRow Cert.Proof.LibLaneIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

set_option maxHeartbeats 4000000 in
/-- Row loop 2: the rows of source block `sA`, columns 0 … 127, into quarter buffer `sC`. -/
theorem loop_t2 (v1 : BitVec 32) (v4 : IVec S16 32) (hv4 : ∀ x, (v4 x).toNat = 85 * (x 0).val) (t1 : Fin k0_t1_loop.trips) (v54 v80 v81 : BitVec 32) (v86 : BitVec 1)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sA.view.loc (thr d L) ↦{fullShare} fin) ∗ (sC.view.loc (thr d L) ↦{fullShare} fout))
      ⊢ iprop(((sA.view.loc (thr d L) ↦{fullShare} fin) ∗ (∃ f, ⌜Done fin 0 (by omega) 85 f⌝ ∗ (sC.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t2_loop.for k0_t2_ok PUnit.unit (k0_t2_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v54 v80 v81 v86) >>= rest) Q) := by
  iintro ⟨Hs, Hq⟩ Hk
  sl_for (invAC d L fin 0 (by omega)) $$ [Hs Hq]
  case region =>
    intro k _
    have hk : k.val < 85 := Nat.lt_of_lt_of_le k.isLt k0_t2_abs.2.1
    unfold invAC
    iintro ⟨Hs, %f, %hf, Hq⟩
    row_run 0
    scat_storeC
    row_run 1360
    scat_storeC
    row_run 2720
    scat_storeC
    row_run 4080
    scat_storeC
    row_run 5440
    scat_storeC
    row_run 6800
    scat_storeC
    row_run 8160
    scat_storeC
    row_run 9520
    scat_storeC
    sl_exec
    sl_step
    isplitl [Hs]; · iexact Hs
    iexists _; isplitr
    rotate_left
    · iexact Hq
    · ipureintro
      refine done_step8 fin 0 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowA fin _ _ k.val (0 + 0) (k0_off5_eq k) hk (by omega) l
      case v1 => exact fun l => load_rowA fin _ _ k.val (0 + 16) (k0_off6_eq k) hk (by omega) l
      case v2 => exact fun l => load_rowA fin _ _ k.val (0 + 32) (k0_off7_eq k) hk (by omega) l
      case v3 => exact fun l => load_rowA fin _ _ k.val (0 + 48) (k0_off8_eq k) hk (by omega) l
      case v4 => exact fun l => load_rowA fin _ _ k.val (0 + 64) (k0_off9_eq k) hk (by omega) l
      case v5 => exact fun l => load_rowA fin _ _ k.val (0 + 80) (k0_off10_eq k) hk (by omega) l
      case v6 => exact fun l => load_rowA fin _ _ k.val (0 + 96) (k0_off11_eq k) hk (by omega) l
      case v7 => exact fun l => load_rowA fin _ _ k.val (0 + 112) (k0_off12_eq k) hk (by omega) l
  · unfold invAC
    isplitl [Hs]; · iexact Hs
    iexists fout; isplitr
    · ipureintro; exact done_zero fin 0 (by omega) fout
    · iexact Hq
  iintro %_ HI
  unfold invAC
  icases HI with ⟨Hs, %f, %hf, Hq⟩
  iapply Hk
  isplitl [Hs]; · iexact Hs
  iexists f; isplitr
  · ipureintro
    have e : (Scf.trips k0_t2_loop.lb k0_t2_loop.ub k0_t2_loop.st) = 85 := by decide
    rw [e] at hf; exact hf
  · iexact Hq

set_option maxHeartbeats 4000000 in
/-- Row loop 3: the rows of source block `sA`, columns 128 … 255, into quarter buffer `sD`. -/
theorem loop_t3 (v1 : BitVec 32) (v4 : IVec S16 32) (hv4 : ∀ x, (v4 x).toNat = 85 * (x 0).val) (t1 : Fin k0_t1_loop.trips) (v54 v80 v81 : BitVec 32) (v86 : BitVec 1)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sA.view.loc (thr d L) ↦{fullShare} fin) ∗ (sD.view.loc (thr d L) ↦{fullShare} fout))
      ⊢ iprop(((sA.view.loc (thr d L) ↦{fullShare} fin) ∗ (∃ f, ⌜Done fin 128 (by omega) 85 f⌝ ∗ (sD.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t3_loop.for k0_t3_ok PUnit.unit (k0_t3_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v54 v80 v81 v86) >>= rest) Q) := by
  iintro ⟨Hs, Hq⟩ Hk
  sl_for (invAD d L fin 128 (by omega)) $$ [Hs Hq]
  case region =>
    intro k _
    have hk : k.val < 85 := Nat.lt_of_lt_of_le k.isLt k0_t3_abs.2.1
    unfold invAD
    iintro ⟨Hs, %f, %hf, Hq⟩
    row_run 0
    scat_storeD
    row_run 1360
    scat_storeD
    row_run 2720
    scat_storeD
    row_run 4080
    scat_storeD
    row_run 5440
    scat_storeD
    row_run 6800
    scat_storeD
    row_run 8160
    scat_storeD
    row_run 9520
    scat_storeD
    sl_exec
    sl_step
    isplitl [Hs]; · iexact Hs
    iexists _; isplitr
    rotate_left
    · iexact Hq
    · ipureintro
      refine done_step8 fin 128 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowA fin _ _ k.val (128 + 0) (k0_off15_eq k) hk (by omega) l
      case v1 => exact fun l => load_rowA fin _ _ k.val (128 + 16) (k0_off16_eq k) hk (by omega) l
      case v2 => exact fun l => load_rowA fin _ _ k.val (128 + 32) (k0_off17_eq k) hk (by omega) l
      case v3 => exact fun l => load_rowA fin _ _ k.val (128 + 48) (k0_off18_eq k) hk (by omega) l
      case v4 => exact fun l => load_rowA fin _ _ k.val (128 + 64) (k0_off19_eq k) hk (by omega) l
      case v5 => exact fun l => load_rowA fin _ _ k.val (128 + 80) (k0_off20_eq k) hk (by omega) l
      case v6 => exact fun l => load_rowA fin _ _ k.val (128 + 96) (k0_off21_eq k) hk (by omega) l
      case v7 => exact fun l => load_rowA fin _ _ k.val (128 + 112) (k0_off22_eq k) hk (by omega) l
  · unfold invAD
    isplitl [Hs]; · iexact Hs
    iexists fout; isplitr
    · ipureintro; exact done_zero fin 128 (by omega) fout
    · iexact Hq
  iintro %_ HI
  unfold invAD
  icases HI with ⟨Hs, %f, %hf, Hq⟩
  iapply Hk
  isplitl [Hs]; · iexact Hs
  iexists f; isplitr
  · ipureintro
    have e : (Scf.trips k0_t3_loop.lb k0_t3_loop.ub k0_t3_loop.st) = 85 := by decide
    rw [e] at hf; exact hf
  · iexact Hq

set_option maxHeartbeats 4000000 in
/-- Row loop 4: the rows of source block `sA`, columns 256 … 383, into quarter buffer `sC`. -/
theorem loop_t4 (v1 : BitVec 32) (v4 : IVec S16 32) (hv4 : ∀ x, (v4 x).toNat = 85 * (x 0).val) (t1 : Fin k0_t1_loop.trips) (v52 v54 : BitVec 32)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sA.view.loc (thr d L) ↦{fullShare} fin) ∗ (sC.view.loc (thr d L) ↦{fullShare} fout))
      ⊢ iprop(((sA.view.loc (thr d L) ↦{fullShare} fin) ∗ (∃ f, ⌜Done fin 256 (by omega) 85 f⌝ ∗ (sC.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t4_loop.for k0_t4_ok PUnit.unit (k0_t4_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v52 v54) >>= rest) Q) := by
  iintro ⟨Hs, Hq⟩ Hk
  sl_for (invAC d L fin 256 (by omega)) $$ [Hs Hq]
  case region =>
    intro k _
    have hk : k.val < 85 := Nat.lt_of_lt_of_le k.isLt k0_t4_abs.2.1
    unfold invAC
    iintro ⟨Hs, %f, %hf, Hq⟩
    row_run 0
    scat_storeC
    row_run 1360
    scat_storeC
    row_run 2720
    scat_storeC
    row_run 4080
    scat_storeC
    row_run 5440
    scat_storeC
    row_run 6800
    scat_storeC
    row_run 8160
    scat_storeC
    row_run 9520
    scat_storeC
    sl_exec
    sl_step
    isplitl [Hs]; · iexact Hs
    iexists _; isplitr
    rotate_left
    · iexact Hq
    · ipureintro
      refine done_step8 fin 256 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowA fin _ _ k.val (256 + 0) (k0_off24_eq k) hk (by omega) l
      case v1 => exact fun l => load_rowA fin _ _ k.val (256 + 16) (k0_off25_eq k) hk (by omega) l
      case v2 => exact fun l => load_rowA fin _ _ k.val (256 + 32) (k0_off26_eq k) hk (by omega) l
      case v3 => exact fun l => load_rowA fin _ _ k.val (256 + 48) (k0_off27_eq k) hk (by omega) l
      case v4 => exact fun l => load_rowA fin _ _ k.val (256 + 64) (k0_off28_eq k) hk (by omega) l
      case v5 => exact fun l => load_rowA fin _ _ k.val (256 + 80) (k0_off29_eq k) hk (by omega) l
      case v6 => exact fun l => load_rowA fin _ _ k.val (256 + 96) (k0_off30_eq k) hk (by omega) l
      case v7 => exact fun l => load_rowA fin _ _ k.val (256 + 112) (k0_off31_eq k) hk (by omega) l
  · unfold invAC
    isplitl [Hs]; · iexact Hs
    iexists fout; isplitr
    · ipureintro; exact done_zero fin 256 (by omega) fout
    · iexact Hq
  iintro %_ HI
  unfold invAC
  icases HI with ⟨Hs, %f, %hf, Hq⟩
  iapply Hk
  isplitl [Hs]; · iexact Hs
  iexists f; isplitr
  · ipureintro
    have e : (Scf.trips k0_t4_loop.lb k0_t4_loop.ub k0_t4_loop.st) = 85 := by decide
    rw [e] at hf; exact hf
  · iexact Hq

set_option maxHeartbeats 4000000 in
/-- Row loop 5: the rows of source block `sA`, columns 384 … 511, into quarter buffer `sD`. -/
theorem loop_t5 (v1 : BitVec 32) (v4 : IVec S16 32) (hv4 : ∀ x, (v4 x).toNat = 85 * (x 0).val) (t1 : Fin k0_t1_loop.trips) (v52 v54 : BitVec 32)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sA.view.loc (thr d L) ↦{fullShare} fin) ∗ (sD.view.loc (thr d L) ↦{fullShare} fout))
      ⊢ iprop(((sA.view.loc (thr d L) ↦{fullShare} fin) ∗ (∃ f, ⌜Done fin 384 (by omega) 85 f⌝ ∗ (sD.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t5_loop.for k0_t5_ok PUnit.unit (k0_t5_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v52 v54) >>= rest) Q) := by
  iintro ⟨Hs, Hq⟩ Hk
  sl_for (invAD d L fin 384 (by omega)) $$ [Hs Hq]
  case region =>
    intro k _
    have hk : k.val < 85 := Nat.lt_of_lt_of_le k.isLt k0_t5_abs.2.1
    unfold invAD
    iintro ⟨Hs, %f, %hf, Hq⟩
    row_run 0
    scat_storeD
    row_run 1360
    scat_storeD
    row_run 2720
    scat_storeD
    row_run 4080
    scat_storeD
    row_run 5440
    scat_storeD
    row_run 6800
    scat_storeD
    row_run 8160
    scat_storeD
    row_run 9520
    scat_storeD
    sl_exec
    sl_step
    isplitl [Hs]; · iexact Hs
    iexists _; isplitr
    rotate_left
    · iexact Hq
    · ipureintro
      refine done_step8 fin 384 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowA fin _ _ k.val (384 + 0) (k0_off33_eq k) hk (by omega) l
      case v1 => exact fun l => load_rowA fin _ _ k.val (384 + 16) (k0_off34_eq k) hk (by omega) l
      case v2 => exact fun l => load_rowA fin _ _ k.val (384 + 32) (k0_off35_eq k) hk (by omega) l
      case v3 => exact fun l => load_rowA fin _ _ k.val (384 + 48) (k0_off36_eq k) hk (by omega) l
      case v4 => exact fun l => load_rowA fin _ _ k.val (384 + 64) (k0_off37_eq k) hk (by omega) l
      case v5 => exact fun l => load_rowA fin _ _ k.val (384 + 80) (k0_off38_eq k) hk (by omega) l
      case v6 => exact fun l => load_rowA fin _ _ k.val (384 + 96) (k0_off39_eq k) hk (by omega) l
      case v7 => exact fun l => load_rowA fin _ _ k.val (384 + 112) (k0_off40_eq k) hk (by omega) l
  · unfold invAD
    isplitl [Hs]; · iexact Hs
    iexists fout; isplitr
    · ipureintro; exact done_zero fin 384 (by omega) fout
    · iexact Hq
  iintro %_ HI
  unfold invAD
  icases HI with ⟨Hs, %f, %hf, Hq⟩
  iapply Hk
  isplitl [Hs]; · iexact Hs
  iexists f; isplitr
  · ipureintro
    have e : (Scf.trips k0_t5_loop.lb k0_t5_loop.ub k0_t5_loop.st) = 85 := by decide
    rw [e] at hf; exact hf
  · iexact Hq

end Cert.Proof.KernelIdealLoopsA
end
-- ==== Proof.KernelIdealLoopsB.lean ====
/-
  Four of the eight row loops of a tile's task, each run at its invariant: after k rows the quarter buffer's first k columns
  are in place (the eight indexed stores of row k by the one-row lemma), so after the 85 rows the quarter holds the
  transposed block of 128 columns of the source.
-/
import proofs.«218930_g44392781971697_cont_8to1c4_23_28_alg».proof.Proof.KernelIdealPay
import proofs.«218930_g44392781971697_cont_8to1c4_23_28_alg».proof.Proof.KernelIdealRow
import proofs.«218930_g44392781971697_cont_8to1c4_23_28_alg».proof.Proof.LibLaneIdx
import proofs.«218930_g44392781971697_cont_8to1c4_23_28_alg».proof.Proof.KernelIdealLoopKit

noncomputable section

namespace Cert.Proof.KernelIdealLoopsB

open Cert.Proof.KernelIdealLoopKit  Cert.KernelIdeal Cert.KernelIdeal.Gen Cert.Proof.KernelIdealSetup Cert.Proof.KernelIdealPay Cert.Proof.KernelIdealRow Cert.Proof.LibLaneIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

set_option maxHeartbeats 4000000 in
/-- Row loop 6: the rows of source block `sB`, columns 0 … 127, into quarter buffer `sC`. -/
theorem loop_t6 (v1 : BitVec 32) (v4 : IVec S16 32) (hv4 : ∀ x, (v4 x).toNat = 85 * (x 0).val) (t1 : Fin k0_t1_loop.trips) (v143 : BitVec 32)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sB.view.loc (thr d L) ↦{fullShare} fin) ∗ (sC.view.loc (thr d L) ↦{fullShare} fout))
      ⊢ iprop(((sB.view.loc (thr d L) ↦{fullShare} fin) ∗ (∃ f, ⌜Done fin 0 (by omega) 85 f⌝ ∗ (sC.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t6_loop.for k0_t6_ok PUnit.unit (k0_t6_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v143) >>= rest) Q) := by
  iintro ⟨Hs, Hq⟩ Hk
  sl_for (invBC d L fin 0 (by omega)) $$ [Hs Hq]
  case region =>
    intro k _
    have hk : k.val < 85 := Nat.lt_of_lt_of_le k.isLt k0_t6_abs.2.1
    unfold invBC
    iintro ⟨Hs, %f, %hf, Hq⟩
    row_run 0
    scat_storeC
    row_run 1360
    scat_storeC
    row_run 2720
    scat_storeC
    row_run 4080
    scat_storeC
    row_run 5440
    scat_storeC
    row_run 6800
    scat_storeC
    row_run 8160
    scat_storeC
    row_run 9520
    scat_storeC
    sl_exec
    sl_step
    isplitl [Hs]; · iexact Hs
    iexists _; isplitr
    rotate_left
    · iexact Hq
    · ipureintro
      refine done_step8 fin 0 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowB fin _ _ k.val (0 + 0) (k0_off43_eq k) hk (by omega) l
      case v1 => exact fun l => load_rowB fin _ _ k.val (0 + 16) (k0_off44_eq k) hk (by omega) l
      case v2 => exact fun l => load_rowB fin _ _ k.val (0 + 32) (k0_off45_eq k) hk (by omega) l
      case v3 => exact fun l => load_rowB fin _ _ k.val (0 + 48) (k0_off46_eq k) hk (by omega) l
      case v4 => exact fun l => load_rowB fin _ _ k.val (0 + 64) (k0_off47_eq k) hk (by omega) l
      case v5 => exact fun l => load_rowB fin _ _ k.val (0 + 80) (k0_off48_eq k) hk (by omega) l
      case v6 => exact fun l => load_rowB fin _ _ k.val (0 + 96) (k0_off49_eq k) hk (by omega) l
      case v7 => exact fun l => load_rowB fin _ _ k.val (0 + 112) (k0_off50_eq k) hk (by omega) l
  · unfold invBC
    isplitl [Hs]; · iexact Hs
    iexists fout; isplitr
    · ipureintro; exact done_zero fin 0 (by omega) fout
    · iexact Hq
  iintro %_ HI
  unfold invBC
  icases HI with ⟨Hs, %f, %hf, Hq⟩
  iapply Hk
  isplitl [Hs]; · iexact Hs
  iexists f; isplitr
  · ipureintro
    have e : (Scf.trips k0_t6_loop.lb k0_t6_loop.ub k0_t6_loop.st) = 85 := by decide
    rw [e] at hf; exact hf
  · iexact Hq

set_option maxHeartbeats 4000000 in
/-- Row loop 7: the rows of source block `sB`, columns 128 … 255, into quarter buffer `sD`. -/
theorem loop_t7 (v1 : BitVec 32) (v4 : IVec S16 32) (hv4 : ∀ x, (v4 x).toNat = 85 * (x 0).val) (t1 : Fin k0_t1_loop.trips) (v143 : BitVec 32)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sB.view.loc (thr d L) ↦{fullShare} fin) ∗ (sD.view.loc (thr d L) ↦{fullShare} fout))
      ⊢ iprop(((sB.view.loc (thr d L) ↦{fullShare} fin) ∗ (∃ f, ⌜Done fin 128 (by omega) 85 f⌝ ∗ (sD.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t7_loop.for k0_t7_ok PUnit.unit (k0_t7_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v1 v4 t1 v143) >>= rest) Q) := by
  iintro ⟨Hs, Hq⟩ Hk
  sl_for (invBD d L fin 128 (by omega)) $$ [Hs Hq]
  case region =>
    intro k _
    have hk : k.val < 85 := Nat.lt_of_lt_of_le k.isLt k0_t7_abs.2.1
    unfold invBD
    iintro ⟨Hs, %f, %hf, Hq⟩
    row_run 0
    scat_storeD
    row_run 1360
    scat_storeD
    row_run 2720
    scat_storeD
    row_run 4080
    scat_storeD
    row_run 5440
    scat_storeD
    row_run 6800
    scat_storeD
    row_run 8160
    scat_storeD
    row_run 9520
    scat_storeD
    sl_exec
    sl_step
    isplitl [Hs]; · iexact Hs
    iexists _; isplitr
    rotate_left
    · iexact Hq
    · ipureintro
      refine done_step8 fin 128 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowB fin _ _ k.val (128 + 0) (k0_off52_eq k) hk (by omega) l
      case v1 => exact fun l => load_rowB fin _ _ k.val (128 + 16) (k0_off53_eq k) hk (by omega) l
      case v2 => exact fun l => load_rowB fin _ _ k.val (128 + 32) (k0_off54_eq k) hk (by omega) l
      case v3 => exact fun l => load_rowB fin _ _ k.val (128 + 48) (k0_off55_eq k) hk (by omega) l
      case v4 => exact fun l => load_rowB fin _ _ k.val (128 + 64) (k0_off56_eq k) hk (by omega) l
      case v5 => exact fun l => load_rowB fin _ _ k.val (128 + 80) (k0_off57_eq k) hk (by omega) l
      case v6 => exact fun l => load_rowB fin _ _ k.val (128 + 96) (k0_off58_eq k) hk (by omega) l
      case v7 => exact fun l => load_rowB fin _ _ k.val (128 + 112) (k0_off59_eq k) hk (by omega) l
  · unfold invBD
    isplitl [Hs]; · iexact Hs
    iexists fout; isplitr
    · ipureintro; exact done_zero fin 128 (by omega) fout
    · iexact Hq
  iintro %_ HI
  unfold invBD
  icases HI with ⟨Hs, %f, %hf, Hq⟩
  iapply Hk
  isplitl [Hs]; · iexact Hs
  iexists f; isplitr
  · ipureintro
    have e : (Scf.trips k0_t7_loop.lb k0_t7_loop.ub k0_t7_loop.st) = 85 := by decide
    rw [e] at hf; exact hf
  · iexact Hq

set_option maxHeartbeats 4000000 in
/-- Row loop 8: the rows of source block `sB`, columns 256 … 383, into quarter buffer `sC`. -/
theorem loop_t8 (v4 : IVec S16 32) (hv4 : ∀ x, (v4 x).toNat = 85 * (x 0).val)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sB.view.loc (thr d L) ↦{fullShare} fin) ∗ (sC.view.loc (thr d L) ↦{fullShare} fout))
      ⊢ iprop(((sB.view.loc (thr d L) ↦{fullShare} fin) ∗ (∃ f, ⌜Done fin 256 (by omega) 85 f⌝ ∗ (sC.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t8_loop.for k0_t8_ok PUnit.unit (k0_t8_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v4) >>= rest) Q) := by
  iintro ⟨Hs, Hq⟩ Hk
  sl_for (invBC d L fin 256 (by omega)) $$ [Hs Hq]
  case region =>
    intro k _
    have hk : k.val < 85 := Nat.lt_of_lt_of_le k.isLt k0_t8_abs.2.1
    unfold invBC
    iintro ⟨Hs, %f, %hf, Hq⟩
    row_run 0
    scat_storeC
    row_run 1360
    scat_storeC
    row_run 2720
    scat_storeC
    row_run 4080
    scat_storeC
    row_run 5440
    scat_storeC
    row_run 6800
    scat_storeC
    row_run 8160
    scat_storeC
    row_run 9520
    scat_storeC
    sl_exec
    sl_step
    isplitl [Hs]; · iexact Hs
    iexists _; isplitr
    rotate_left
    · iexact Hq
    · ipureintro
      refine done_step8 fin 256 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowB fin _ _ k.val (256 + 0) (k0_off61_eq k) hk (by omega) l
      case v1 => exact fun l => load_rowB fin _ _ k.val (256 + 16) (k0_off62_eq k) hk (by omega) l
      case v2 => exact fun l => load_rowB fin _ _ k.val (256 + 32) (k0_off63_eq k) hk (by omega) l
      case v3 => exact fun l => load_rowB fin _ _ k.val (256 + 48) (k0_off64_eq k) hk (by omega) l
      case v4 => exact fun l => load_rowB fin _ _ k.val (256 + 64) (k0_off65_eq k) hk (by omega) l
      case v5 => exact fun l => load_rowB fin _ _ k.val (256 + 80) (k0_off66_eq k) hk (by omega) l
      case v6 => exact fun l => load_rowB fin _ _ k.val (256 + 96) (k0_off67_eq k) hk (by omega) l
      case v7 => exact fun l => load_rowB fin _ _ k.val (256 + 112) (k0_off68_eq k) hk (by omega) l
  · unfold invBC
    isplitl [Hs]; · iexact Hs
    iexists fout; isplitr
    · ipureintro; exact done_zero fin 256 (by omega) fout
    · iexact Hq
  iintro %_ HI
  unfold invBC
  icases HI with ⟨Hs, %f, %hf, Hq⟩
  iapply Hk
  isplitl [Hs]; · iexact Hs
  iexists f; isplitr
  · ipureintro
    have e : (Scf.trips k0_t8_loop.lb k0_t8_loop.ub k0_t8_loop.st) = 85 := by decide
    rw [e] at hf; exact hf
  · iexact Hq

set_option maxHeartbeats 4000000 in
/-- Row loop 9: the rows of source block `sB`, columns 384 … 511, into quarter buffer `sD`. -/
theorem loop_t9 (v4 : IVec S16 32) (hv4 : ∀ x, (v4 x).toNat = 85 * (x 0).val)
    (fin : S85x512.Idx → Elt F .f32) (fout : S10880.Idx → Elt F .f32) {α : Type}
    (rest : PUnit → Prog (TpuEff nD τ sig (Elt F) Λ₀ (.scVector ((L 0).castLE hcore0) ((L 1).castLE hsub0))) α) (Q : α → sProp 𝕄) :
    iprop((sB.view.loc (thr d L) ↦{fullShare} fin) ∗ (sD.view.loc (thr d L) ↦{fullShare} fout))
      ⊢ iprop(((sB.view.loc (thr d L) ↦{fullShare} fin) ∗ (∃ f, ⌜Done fin 384 (by omega) 85 f⌝ ∗ (sD.view.loc (thr d L) ↦{fullShare} f))
            -∗ wp frame (wpE (defs₀ (F := F)) 𝒱₀ (thr d L) none) Set.univ (rest ⟨⟩) Q)
          -∗ wp frame (wpE (defs₀ (F := F)) 𝒱₀ (thr d L) none) Set.univ
            (k0_t9_loop.for k0_t9_ok PUnit.unit (k0_t9_body L xV (Memref.isWhole_whole _) oV (Memref.isWhole_whole _) sA (Memref.isWhole_whole _) sB (Memref.isWhole_whole _)
              sC (Memref.isWhole_whole _) sD (Memref.isWhole_whole _) cc0_scratch4 cc0_scratch5 cc0_scratch6 cc0_scratch7 v4) >>= rest) Q) := by
  iintro ⟨Hs, Hq⟩ Hk
  sl_for (invBD d L fin 384 (by omega)) $$ [Hs Hq]
  case region =>
    intro k _
    have hk : k.val < 85 := Nat.lt_of_lt_of_le k.isLt k0_t9_abs.2.1
    unfold invBD
    iintro ⟨Hs, %f, %hf, Hq⟩
    row_run 0
    scat_storeD
    row_run 1360
    scat_storeD
    row_run 2720
    scat_storeD
    row_run 4080
    scat_storeD
    row_run 5440
    scat_storeD
    row_run 6800
    scat_storeD
    row_run 8160
    scat_storeD
    row_run 9520
    scat_storeD
    sl_exec
    sl_step
    isplitl [Hs]; · iexact Hs
    iexists _; isplitr
    rotate_left
    · iexact Hq
    · ipureintro
      refine done_step8 fin 384 (by omega) k.val hk f hf _ _ _ _ _ _ _ _ _ _ _ _ _ _ _ _ _ _ _ _ _ _ _ _ ?i0 ?i1 ?i2 ?i3 ?i4 ?i5 ?i6 ?i7 ?v0 ?v1 ?v2 ?v3 ?v4 ?v5 ?v6 ?v7
      case i0 => exact fun x => add_splat_apply v4 hv4 _ _ (off_word 0 (by omega) k.val hk) (by omega) x
      case i1 => exact fun x => add_splat_apply v4 hv4 _ _ (off_word 1360 (by omega) k.val hk) (by omega) x
      case i2 => exact fun x => add_splat_apply v4 hv4 _ _ (off_word 2720 (by omega) k.val hk) (by omega) x
      case i3 => exact fun x => add_splat_apply v4 hv4 _ _ (off_word 4080 (by omega) k.val hk) (by omega) x
      case i4 => exact fun x => add_splat_apply v4 hv4 _ _ (off_word 5440 (by omega) k.val hk) (by omega) x
      case i5 => exact fun x => add_splat_apply v4 hv4 _ _ (off_word 6800 (by omega) k.val hk) (by omega) x
      case i6 => exact fun x => add_splat_apply v4 hv4 _ _ (off_word 8160 (by omega) k.val hk) (by omega) x
      case i7 => exact fun x => add_splat_apply v4 hv4 _ _ (off_word 9520 (by omega) k.val hk) (by omega) x
      case v0 => exact fun l => load_rowB fin _ _ k.val (384 + 0) (k0_off70_eq k) hk (by omega) l
      case v1 => exact fun l => load_rowB fin _ _ k.val (384 + 16) (k0_off71_eq k) hk (by omega) l
      case v2 => exact fun l => load_rowB fin _ _ k.val (384 + 32) (k0_off72_eq k) hk (by omega) l
      case v3 => exact fun l => load_rowB fin _ _ k.val (384 + 48) (k0_off73_eq k) hk (by omega) l
      case v4 => exact fun l => load_rowB fin _ _ k.val (384 + 64) (k0_off74_eq k) hk (by omega) l
      case v5 => exact fun l => load_rowB fin _ _ k.val (384 + 80) (k0_off75_eq k) hk (by omega) l
      case v6 => exact fun l => load_rowB fin _ _ k.val (384 + 96) (k0_off76_eq k) hk (by omega) l
      case v7 => exact fun l => load_rowB fin _ _ k.val (384 + 112) (k0_off77_eq k) hk (by omega) l
  · unfold invBD
    isplitl [Hs]; · iexact Hs
    iexists fout; isplitr
    · ipureintro; exact done_zero fin 384 (by omega) fout
    · iexact Hq
  iintro %_ HI
  unfold invBD
  icases HI with ⟨Hs, %f, %hf, Hq⟩
  iapply Hk
  isplitl [Hs]; · iexact Hs
  iexists f; isplitr
  · ipureintro
    have e : (Scf.trips k0_t9_loop.lb k0_t9_loop.ub k0_t9_loop.st) = 85 := by decide
    rw [e] at hf; exact hf
  · iexact Hq

end Cert.Proof.KernelIdealLoopsB
end
-- ==== Proof.KernelIdealChunks.lean ====
/-
  The blocks of the input a tile fetches, in closed form. Tile (c, s) is worker w = 2·s + c and fetches chunks 4·w … 4·w + 3
  of the sixteen slabs 32 … 47: chunk q is rows 0 … 84 and columns 512·(q mod 8) … 512·(q mod 8) + 511 of slab 32 + q / 8.
-/
import proofs.«218930_g44392781971697_cont_8to1c4_23_28_alg».proof.Proof.Gen.KernelIdeal

namespace Cert.Proof.KernelIdealChunks

open Cert.KernelIdeal Cert.KernelIdeal.Gen
open Idealize.ShloMosaic

/-- The worker number of a tile. -/
abbrev wOf (L : grid0.Coords) : ℕ := 2 * (L 1).val + (L 0).val

/-- Chunk `q`'s offsets in the input viewed as [48, 85, 4096]. -/
abbrev chunkOff (q : ℕ) : Fin 3 → ℕ := ![32 + q / 8, 0, q % 8 * 512]

set_option maxRecDepth 100000 in
theorem off1_eq : ∀ L : grid0.Coords, k0_off1 L = chunkOff (4 * wOf L) := by decide +kernel
set_option maxRecDepth 100000 in
theorem off2_eq : ∀ (L : grid0.Coords) (t1 : Fin k0_t1_loop.trips), k0_off2 L t1 = chunkOff (4 * wOf L + 2 * t1.val + 1) := by decide +kernel
set_option maxRecDepth 100000 in
theorem off41_eq : ∀ (L : grid0.Coords) (t1 : Fin k0_t1_loop.trips), k0_off41 L t1 = chunkOff (4 * wOf L + 2 * t1.val + 2) := by decide +kernel

end Cert.Proof.KernelIdealChunks
-- ==== Proof.KernelIdealPieces.lean ====
/-
  The write-backs of a tile. Quarter h of chunk t = 2·t1 + b of worker w = 2·s + c goes to the 10880 words of the output
  starting at 10880·(16·w + 8·t1 + 4·b + h): the tile's piece number 8·t1 + 4·b + h. If the quarter buffer holds the
  transposed 128 columns of the chunk (word sp·85 + o = element (o, 128·h + sp) of the chunk) then what lands in the piece is
  the output's specification: word j of the output is element (32 + j / 348160, j mod 85, j / 85 mod 4096) of the input.
-/
import proofs.«218930_g44392781971697_cont_8to1c4_23_28_alg».proof.Proof.KernelIdealLoopKit
import proofs.«218930_g44392781971697_cont_8to1c4_23_28_alg».proof.Proof.KernelIdealChunks
import proofs.«218930_g44392781971697_cont_8to1c4_23_28_alg».proof.Proof.QuarterArith

noncomputable section

namespace Cert.Proof.KernelIdealPieces

open Cert.Proof.KernelIdealLoopKit Cert.Proof.KernelIdealChunks Cert.Proof.QuarterArith
open Cert.KernelIdeal Cert.KernelIdeal.Gen Cert.Proof.KernelIdealSetup Cert.Proof.KernelIdealPay Cert.Proof.KernelIdealRow

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

theorem t1_lt (t1 : Fin k0_t1_loop.trips) : t1.val < 2 := Nat.lt_of_lt_of_le t1.isLt k0_t1_abs.2.1

/-- The tile's piece number of the write-back of quarter `h` of chunk `2·t1 + b`. -/
abbrev kq (t1 : Fin k0_t1_loop.trips) (b : Fin 2) (h : Fin 4) : Fin 16 := ⟨8 * t1.val + 4 * b.val + h.val, by have := t1_lt t1; omega⟩

/-- The write-back's target, as the task slices it out of the output. -/
abbrev outM (L : grid0.Coords) (t1 : Fin k0_t1_loop.trips) (b : Fin 2) (h : Fin 4) : Memref sig .scVector .hbm S10880 .f32 :=
  (oV).slice (Rect.unit (s := S5570560) (k0_off13 L t1 (BitVec.ofNat 32 b.val) (BitVec.ofNat 32 h.val)) S10880.size (k0_off13_inb L t1 b h)) (fun _ => rfl)

theorem unit_congr {s : Shape} {o o' sz sz' : Fin s.rank → ℕ} (ho : o = o') (hs : sz = sz') (h : ∀ a, o a + sz a ≤ s.size a) (h' : ∀ a, o' a + sz' a ≤ s.size a) :
    Rect.unit (s := s) o sz h = Rect.unit o' sz' h' := by subst ho; subst hs; rfl

/-- The target is the tile's piece. -/
theorem out_rect (t1 : Fin k0_t1_loop.trips) (b : Fin 2) (h : Fin 4) :
    Rect.unit (s := S5570560) (k0_off13 L t1 (BitVec.ofNat 32 b.val) (BitVec.ofNat 32 h.val)) S10880.size (k0_off13_inb L t1 b h)
      = pieceR (pieceOf (cL L) (sL L) (kq t1 b h)) := by
  unfold pieceR Rect.part Rect.block
  apply unit_congr
  · rw [k0_off13_eq]
    funext a
    obtain rfl : a = 0 := Subsingleton.elim _ _
    have := t1_lt t1
    have hsz : S5570560.size (0 : Fin 1) / 512 = 10880 := by decide
    have ec : (cL L).val = (L 0).val := rfl
    have es : (sL L).val = (L 1).val := rfl
    have e3 : (pieceOf (cL L) (sL L) (kq t1 b h)).val = (2 * (sL L).val + (cL L).val) * 16 + (8 * t1.val + 4 * b.val + h.val) := rfl
    simp only [Shape.partIx, Shape.partSize, ↓reduceIte, hsz, e3, Matrix.cons_val_zero]
    omega
  · funext a
    obtain rfl : a = 0 := Subsingleton.elim _ _
    have hsz : S5570560.size (0 : Fin 1) / 512 = 10880 := by decide
    simp only [Shape.partSize, ↓reduceIte, hsz]
    rfl

theorem out_set (t1 : Fin k0_t1_loop.trips) (b : Fin 2) (h : Fin 4) :
    (outM L t1 b h).view.set = piece (pieceOf (cL L) (sL L) (kq t1 b h)) := by
  have e := out_rect L t1 b h
  refine (View.set_slice_whole main_v1_scv _).trans ?_
  refine Eq.trans ?_ (View.set_slice_whole main_v1_scv _).symm
  rw [e]

/-- A piece held in the TensorCore's spelling is the target held in the task's. -/
theorem pts_out (t1 : Fin k0_t1_loop.trips) (b : Fin 2) (h : Fin 4) (f : Buf (Elt F) (sLoc d)) :
    (sLoc d ↦[piece (pieceOf (cL L) (sL L) (kq t1 b h))]{fullShare} f : sProp 𝕄)
      = ((outM L t1 b h).view.loc (thr d L) ↦[(outM L t1 b h).view.set]{fullShare} f) := by
  rw [out_set]

/-! ## What lands in a piece -/

theorem w_lt : wOf L < 32 := by
  have h0 : (L 0).val < 2 := (L 0).isLt
  have h1 : (L 1).val < 16 := (L 1).isLt
  show 2 * (L 1).val + (L 0).val < 32
  omega

/-- Chunk `q` of the input: rows 0 … 84, columns 512·(q mod 8) … of slab 32 + q / 8. -/
def chunkFn (q : ℕ) (hq : q < 128) : S85x512.Idx → Elt F .f32 := fun j =>
  Xv m d (ValueIdx.ix3 (⟨32 + q / 8, by omega⟩ : Fin 48) (⟨(j 0).val, (j 0).isLt⟩ : Fin 85)
    (⟨q % 8 * 512 + (j 1).val, by have := (j 1).isLt; have h512 : (j 1).val < 512 := this; omega⟩ : Fin 4096))

/-- The specification of the call's output at word `j` of quarter `h` of chunk `4·w + t`. -/
theorem sv_quarter (w t h sp c : ℕ) (hw : w < 32) (ht : t < 4) (hh : h < 4) (hsp : sp < 128) (hc : c < 85) :
    Sv m d (ValueIdx.ix1 (⟨qj w t h sp c, quarter_lt w t h sp c hw ht hh hsp hc⟩ : Fin 5570560))
      = Xv m d (ValueIdx.ix3 (⟨32 + (4 * w + t) / 8, by omega⟩ : Fin 48) (⟨c, hc⟩ : Fin 85)
          (⟨(4 * w + t) % 8 * 512 + h * 128 + sp, by omega⟩ : Fin 4096)) := by
  unfold Sv
  congr 1
  funext a
  match a with
  | ⟨0, _⟩ => apply Fin.ext; show 32 + qj w t h sp c / 348160 = 32 + (4 * w + t) / 8; rw [quarter_slab w t h sp c hh hsp hc]
  | ⟨1, _⟩ => apply Fin.ext; show qj w t h sp c % 85 = c; exact quarter_col w t h sp c hc
  | ⟨2, _⟩ => apply Fin.ext; show qj w t h sp c / 85 % 4096 = _; exact quarter_row w t h sp c hh hsp hc

theorem idx1_ext (i j : S5570560.Idx) (h : (i 0).val = (j 0).val) : i = j := by
  rw [ValueIdx.eq_ix1 i, ValueIdx.eq_ix1 j]; congr 1; exact Fin.ext h
theorem idxQ_ext (i j : S10880.Idx) (h : (i 0).val = (j 0).val) : i = j := by
  rw [ValueIdx.eq_ix1 i, ValueIdx.eq_ix1 j]; congr 1; exact Fin.ext h

/-- What a whole-quarter write leaves at an element of the target. -/
theorem out_written (t1 : Fin k0_t1_loop.trips) (b : Fin 2) (h : Fin 4) (g : Buf (Elt F) (sLoc d)) (w : S10880.Idx → Elt F .f32) (y : S10880.Idx) :
    (outM L t1 b h).view.writes (Elt F) g [⟨Rect.whole S10880, w⟩] ((outM L t1 b h).view.emb y) = w y := by
  have h1 : (outM L t1 b h).view.emb y = ((outM L t1 b h).view.slice (Rect.whole S10880)).emb y :=
    congrArg (outM L t1 b h).view.emb (Rect.emb_whole_apply S10880 y).symm
  show ((outM L t1 b h).view.slice (Rect.whole S10880)).write (Elt F) g w Finset.univ ((outM L t1 b h).view.emb y) = w y
  rw [h1, View.write_emb_of_mem _ _ (Finset.mem_univ y)]
  exact cast_eq _ _

/-- A quarter buffer that holds the transposed columns 128·h … of chunk `2·t1 + b`, written to its target, is the
    output's specification on the tile's piece. -/
theorem piece_done (t1 : Fin k0_t1_loop.trips) (b : Fin 2) (h : Fin 4) (g : Buf (Elt F) (sLoc d)) (fq w : S10880.Idx → Elt F .f32) (hw : w = fq)
    (hq : Done (chunkFn m d (4 * wOf L + 2 * t1.val + b.val) (by have := w_lt L; have := t1_lt t1; omega)) (128 * h.val) (by omega) 85 fq) :
    ∀ i ∈ (outM L t1 b h).view.set, (outM L t1 b h).view.writes (Elt F) g [⟨Rect.whole S10880, w⟩] i = Sv m d i := by
  intro i hi
  obtain ⟨y, -, rfl⟩ := Finset.mem_map.mp hi
  have hy : (y 0).val < 10880 := (y 0).isLt
  have hwl := w_lt L
  have ht1 := t1_lt t1
  have hsp : (y 0).val / 85 < 128 := by omega
  have hc : (y 0).val % 85 < 85 := Nat.mod_lt _ (by decide)
  have hyq : y = qIx ⟨(y 0).val / 85, hsp⟩ ⟨(y 0).val % 85, hc⟩ := by
    apply idxQ_ext
    show (y 0).val = (y 0).val / 85 * 85 + (y 0).val % 85
    omega
  have hemb : (outM L t1 b h).view.emb y
      = ValueIdx.ix1 (⟨qj (wOf L) (2 * t1.val + b.val) h.val ((y 0).val / 85) ((y 0).val % 85),
          quarter_lt _ _ _ _ _ hwl (by omega) h.isLt hsp hc⟩ : Fin 5570560) := by
    apply idx1_ext
    have e1 := k0_off13_eq L t1 b h
    have e2 := quarter_off (wOf L) (2 * t1.val + b.val) h.val ((y 0).val / 85) ((y 0).val % 85) (L 1).val (L 0).val t1.val b.val rfl rfl
    show (k0_off13 L t1 (BitVec.ofNat 32 b.val) (BitVec.ofNat 32 h.val)) 0 + 1 * (y 0).val
      = qj (wOf L) (2 * t1.val + b.val) h.val ((y 0).val / 85) ((y 0).val % 85)
    rw [e1, e2]
    show 348160 * (L 1).val + 174080 * (L 0).val + 87040 * t1.val + 43520 * b.val + 10880 * h.val + 1 * (y 0).val = _
    omega
  rw [out_written d L t1 b h g w y, hemb, sv_quarter m d (wOf L) (2 * t1.val + b.val) h.val _ _ hwl (by omega) h.isLt hsp hc, hw]
  have hq' := hq ⟨(y 0).val / 85, hsp⟩ ⟨(y 0).val % 85, hc⟩ hc
  rw [← hyq] at hq'
  rw [hq']
  unfold chunkFn
  congr 1
  funext a
  match a with
  | ⟨0, _⟩ => apply Fin.ext; show 32 + (4 * wOf L + 2 * t1.val + b.val) / 8 = 32 + (4 * wOf L + (2 * t1.val + b.val)) / 8; rw [Nat.add_assoc]
  | ⟨1, _⟩ => rfl
  | ⟨2, _⟩ => apply Fin.ext; show (4 * wOf L + 2 * t1.val + b.val) % 8 * 512 + (128 * h.val + (y 0).val / 85) = (4 * wOf L + (2 * t1.val + b.val)) % 8 * 512 + h.val * 128 + (y 0).val / 85; rw [Nat.add_assoc (4 * wOf L)]; omega

/-- A chunk fetched whole into input scratch `sA` is that chunk of the input. -/
theorem chunk_inA (q : ℕ) (hq : q < 128) (offs : Fin 3 → ℕ) (hinb : ∀ a, offs a + S1x85x512.size a ≤ S48x85x4096.size a) (hoff : offs = chunkOff q)
    (fa : S85x512.Idx → Elt F .f32) :
    View.write (Elt F) (sA).view fa (ReadAs.same.apply (View.read (Elt F)
        (((xV).slice (Rect.unit (s := S48x85x4096) offs S1x85x512.size hinb) (fun _ => rfl)).squeeze S85x512 squeezes_S1x85x512_S85x512).view (Xv m d))) Finset.univ
      = chunkFn m d q hq := by
  subst hoff
  refine (View.write_whole_univ cc0_scratch0 fa _).trans ?_
  funext j
  show View.read (Elt F) (((xV).slice (Rect.unit (s := S48x85x4096) (chunkOff q) S1x85x512.size hinb) (fun _ => rfl)).squeeze S85x512 squeezes_S1x85x512_S85x512).view (Xv m d) j = chunkFn m d q hq j
  rw [View.read_apply]
  refine (cast_eq _ _).trans ?_
  unfold chunkFn
  congr 1
  have hre : Shape.reshapeEquiv (squeezes_S1x85x512_S85x512).numel_eq j
      = ValueIdx.ix3 (0 : Fin 1) (⟨(j 0).val, (j 0).isLt⟩ : Fin 85) (⟨(j 1).val, (j 1).isLt⟩ : Fin 512) :=
    Shape.reshapeEquiv_eq_of_rowMajor _ (by
      rw [Shape.rowMajor_val_three, Shape.rowMajor_val_two]
      show (0 * 85 + (j 0).val) * 512 + (j 1).val = (j 0).val * 512 + (j 1).val
      omega)
  show (Rect.unit (s := S48x85x4096) (chunkOff q) S1x85x512.size hinb).emb (Shape.reshapeEquiv (squeezes_S1x85x512_S85x512).numel_eq j) = _
  rw [hre]
  funext a
  match a with
  | ⟨0, _⟩ => apply Fin.ext; show 32 + q / 8 + 1 * 0 = 32 + q / 8; omega
  | ⟨1, _⟩ => apply Fin.ext; show 0 + 1 * (j 0).val = (j 0).val; omega
  | ⟨2, _⟩ => apply Fin.ext; show q % 8 * 512 + 1 * (j 1).val = q % 8 * 512 + (j 1).val; omega

/-- A chunk fetched whole into input scratch `sB` is that chunk of the input. -/
theorem chunk_inB (q : ℕ) (hq : q < 128) (offs : Fin 3 → ℕ) (hinb : ∀ a, offs a + S1x85x512.size a ≤ S48x85x4096.size a) (hoff : offs = chunkOff q)
    (fa : S85x512.Idx → Elt F .f32) :
    View.write (Elt F) (sB).view fa (ReadAs.same.apply (View.read (Elt F)
        (((xV).slice (Rect.unit (s := S48x85x4096) offs S1x85x512.size hinb) (fun _ => rfl)).squeeze S85x512 squeezes_S1x85x512_S85x512).view (Xv m d))) Finset.univ
      = chunkFn m d q hq := by
  subst hoff
  refine (View.write_whole_univ cc0_scratch1 fa _).trans ?_
  funext j
  show View.read (Elt F) (((xV).slice (Rect.unit (s := S48x85x4096) (chunkOff q) S1x85x512.size hinb) (fun _ => rfl)).squeeze S85x512 squeezes_S1x85x512_S85x512).view (Xv m d) j = chunkFn m d q hq j
  rw [View.read_apply]
  refine (cast_eq _ _).trans ?_
  unfold chunkFn
  congr 1
  have hre : Shape.reshapeEquiv (squeezes_S1x85x512_S85x512).numel_eq j
      = ValueIdx.ix3 (0 : Fin 1) (⟨(j 0).val, (j 0).isLt⟩ : Fin 85) (⟨(j 1).val, (j 1).isLt⟩ : Fin 512) :=
    Shape.reshapeEquiv_eq_of_rowMajor _ (by
      rw [Shape.rowMajor_val_three, Shape.rowMajor_val_two]
      show (0 * 85 + (j 0).val) * 512 + (j 1).val = (j 0).val * 512 + (j 1).val
      omega)
  show (Rect.unit (s := S48x85x4096) (chunkOff q) S1x85x512.size hinb).emb (Shape.reshapeEquiv (squeezes_S1x85x512_S85x512).numel_eq j) = _
  rw [hre]
  funext a
  match a with
  | ⟨0, _⟩ => apply Fin.ext; show 32 + q / 8 + 1 * 0 = 32 + q / 8; omega
  | ⟨1, _⟩ => apply Fin.ext; show 0 + 1 * (j 0).val = (j 0).val; omega
  | ⟨2, _⟩ => apply Fin.ext; show q % 8 * 512 + 1 * (j 1).val = q % 8 * 512 + (j 1).val; omega

/-- The loops' conclusion along an equation of the source's contents. -/
theorem done_of_eq {fin fin' : S85x512.Idx → Elt F .f32} (e : fin = fin') {col : ℕ} {hcol : col + 128 ≤ 512} {k : ℕ} {f : S10880.Idx → Elt F .f32}
    (h : Done fin col hcol k f) : Done fin' col hcol k f := e ▸ h

/-- A written-back piece, in the task's spelling, is the tile's piece at the output's specification, in the TensorCore's. -/
theorem piece_back (t1 : Fin k0_t1_loop.trips) (b : Fin 2) (h : Fin 4) (g : Buf (Elt F) (sLoc d)) (fq w : S10880.Idx → Elt F .f32) (hw : w = fq)
    (hq : Done (chunkFn m d (4 * wOf L + 2 * t1.val + b.val) (by have := w_lt L; have := t1_lt t1; omega)) (128 * h.val) (by omega) 85 fq) :
    ((outM L t1 b h).view.loc (thr d L) ↦[(outM L t1 b h).view.set]{fullShare} (outM L t1 b h).view.writes (Elt F) g [⟨Rect.whole S10880, w⟩] : sProp 𝕄)
      = (sLoc d ↦[piece (pieceOf (cL L) (sL L) (kq t1 b h))]{fullShare} Sv m d) := by
  rw [pts_out (F := F) d L t1 b h (Sv m d)]
  exact pointsTo_congr (piece_done m d L t1 b h g fq w hw hq)

/-- The waits a task records are all at the kernels' own index. -/
theorem waits_step {W W' : Waits sig (HIx 1)} {a : SemLoc sig × HIx 1} (ha : a.2 = none) (h : ∀ p ∈ W', p ∈ W ∨ p.2 = none) :
    ∀ p ∈ insert a W', p ∈ W ∨ p.2 = none :=
  fun p hp => (Finset.mem_insert.mp hp).elim (fun e => .inr (e ▸ ha)) (h p)

end Cert.Proof.KernelIdealPieces

end
-- ==== Proof.KernelIdealTile.lean ====
/-
  A tile's task, run whole. Worker w = 2·s + c fetches its four chunks of the input (two input scratches, the next chunk
  fetched while the current one is transposed), transposes each chunk quarter by quarter into the two output scratches (the
  eight row loops) and writes each quarter back to its piece of the flat output while the next quarter is computed: at most
  one copy is outstanding on each of the four semaphores, and no buffer is touched between a copy's issue and its wait.
  The two trips of the outer loop are run one after the other; every row loop is run by its invariant. At the end each of
  the tile's sixteen pieces holds the output's specification: word j of the output is element
  (32 + j / 348160, j mod 85, j / 85 mod 4096) of the input viewed as [48, 85, 4096].
-/
import proofs.«218930_g44392781971697_cont_8to1c4_23_28_alg».proof.Proof.KernelIdealLoopsA
import proofs.«218930_g44392781971697_cont_8to1c4_23_28_alg».proof.Proof.KernelIdealLoopsB
import proofs.«218930_g44392781971697_cont_8to1c4_23_28_alg».proof.Proof.KernelIdealPieces

noncomputable section

namespace Cert.Proof.KernelIdealTile

open Cert.Proof.KernelIdealLoopKit Cert.Proof.KernelIdealLoopsA Cert.Proof.KernelIdealLoopsB Cert.Proof.KernelIdealPieces Cert.Proof.KernelIdealChunks
open Cert.KernelIdeal Cert.KernelIdeal.Gen Cert.Proof.KernelIdealSetup Cert.Proof.KernelIdealPay Cert.Proof.KernelIdealRow Cert.Proof.LibLaneIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile
variable (d : Dev nD) (L : grid0.Coords)

abbrev cell (k : DmaSem sig) : GSem nD τ sig := (thr d L, .dma k)
omit [FloatOps F] in
theorem ownSems0_V :
    (ownSems0 (thr d L) : sProp 𝕄)
      = iprop(semVal (cell d L cc0_scratch4.sem) 0 ∗ semVal (cell d L cc0_scratch5.sem) 0 ∗ semVal (cell d L cc0_scratch6.sem) 0 ∗ semVal (cell d L cc0_scratch7.sem) 0
          ∗ bigSep (((((ownCells (thr d L)).erase (cell d L cc0_scratch4.sem)).erase (cell d L cc0_scratch5.sem)).erase (cell d L cc0_scratch6.sem)).erase (cell d L cc0_scratch7.sem))
              fun g => semVal g 0) := by
  unfold SparseCore.Cfg.ownSems0
  rw [SparseCore.bigSep_erase' ((mem_ownCells (g := cell d L cc0_scratch4.sem)).mpr ⟨rfl, by
      show (SemLoc.dma cc0_scratch4.sem : SemLoc sig).isScoped .scVector = true; decide⟩),
    SparseCore.bigSep_erase' (Finset.mem_erase.mpr ⟨by simp [cell]; decide, (mem_ownCells (g := cell d L cc0_scratch5.sem)).mpr ⟨rfl, by
      show (SemLoc.dma cc0_scratch5.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scratch6.sem)).mpr ⟨rfl, by show (SemLoc.dma cc0_scratch6.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide,
      (mem_ownCells (g := cell d L cc0_scratch7.sem)).mpr ⟨rfl, by show (SemLoc.dma cc0_scratch7.sem : SemLoc sig).isScoped .scVector = true; decide⟩⟩⟩⟩)]

omit [FloatOps F] in
/-- The four scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_x (q : PosShare TreeShare) (f : Buf (Elt F) (xLoc d)) :
    ((xV).view.loc (thr d L) ↦{q} f : sProp 𝕄) = xLoc d ↦{q} f := rfl
omit [FloatOps F] in
theorem pts_sA (f : Buf (Elt F) ((thr d L).loc cc0_scratch0)) :
    ((sA).view.loc (thr d L) ↦{fullShare} f : sProp 𝕄) = (thr d L).loc cc0_scratch0 ↦{fullShare} f := rfl
omit [FloatOps F] in
theorem pts_sB (f : Buf (Elt F) ((thr d L).loc cc0_scratch1)) :
    ((sB).view.loc (thr d L) ↦{fullShare} f : sProp 𝕄) = (thr d L).loc cc0_scratch1 ↦{fullShare} f := rfl
omit [FloatOps F] in
theorem pts_sC (f : Buf (Elt F) ((thr d L).loc cc0_scratch2)) :
    ((sC).view.loc (thr d L) ↦{fullShare} f : sProp 𝕄) = (thr d L).loc cc0_scratch2 ↦{fullShare} f := rfl
omit [FloatOps F] in
theorem pts_sD (f : Buf (Elt F) ((thr d L).loc cc0_scratch3)) :
    ((sD).view.loc (thr d L) ↦{fullShare} f : sProp 𝕄) = (thr d L).loc cc0_scratch3 ↦{fullShare} f := rfl

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

omit [FloatOps F] in
theorem q_lt (t1 : Fin k0_t1_loop.trips) (b : Fin 2) : 4 * wOf L + 2 * t1.val + b.val < 128 := by
  have := w_lt L; have := t1_lt t1; omega

abbrev T0 : Fin k0_t1_loop.trips := ⟨0, by decide⟩
abbrev T1 : Fin k0_t1_loop.trips := ⟨1, by decide⟩

set_option maxHeartbeats 8000000 in
/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ goR m d (cL L) (sL L)
        ∗ scopedBufs (thr d L) ∗ scopedSems0 (thr d L) ∗ owes (thr d L) O W)
      ⊢ wp frame (wpE (defs₀ (F := F)) 𝒱₀ (thr d L) none) Set.univ
          (cc0_sc_kernel L xV (Memref.isWhole_whole _) oV (Memref.isWhole_whole _) sA (Memref.isWhole_whole _) sB (Memref.isWhole_whole _)
            sC (Memref.isWhole_whole _) sD (Memref.isWhole_whole _) cc0_scratch4 cc0_scratch5 cc0_scratch6 cc0_scratch7)
          fun _ => iprop(tdR m d (cL L) (sL L) ∗ scopedBufs (thr d L) ∗ scopedSems0 (thr d L)
            ∗ ∃ W', ⌜∀ p ∈ W', p ∈ W ∨ p.2 = none⌝ ∗ owes (thr d L) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  unfold goR
  iintro ⟨#Hlv, -, ⟨Hx, Ho⟩, ⟨⟨%fa, Ha⟩, ⟨%fb, Hb⟩, ⟨%fc, Hc⟩, ⟨%fd, Hd⟩, Hbufs⟩, ⟨Hs4, Hs5, Hs6, Hs7, Hsems⟩, HO⟩
  ihave Hmw := ((K (F := F)).mayWaits_none (thr := thr d L) hO) $$ Hlv
  ihave Hx' := (Entails.of_eq (pts_x (F := F) d L _ _).symm) $$ Hx
  ihave Ha' := (Entails.of_eq (pts_sA (F := F) d L _).symm) $$ Ha
  ihave Hb' := (Entails.of_eq (pts_sB (F := F) d L _).symm) $$ Hb
  ihave Hc' := (Entails.of_eq (pts_sC (F := F) d L _).symm) $$ Hc
  ihave Hd' := (Entails.of_eq (pts_sD (F := F) d L _).symm) $$ Hd
  ihave Hx2 := (Transfers.pointsTo_toks (tileShare (cL L) (sL L)) 2).1 $$ Hx'
  icases Hx2 with ⟨Hxd, Hxt⟩
  ihave Hxt' := (Entails.of_eq (bigSep_W1 _)) $$ Hxt
  icases Hxt' with ⟨Hx0, Hx1⟩
  ihave Ho' := (Entails.of_eq (bigSep_fin16 _)) $$ Ho
  icases Ho' with ⟨Ho0, Ho1, Ho2, Ho3, Ho4, Ho5, Ho6, Ho7, Ho8, Ho9, Ho10, Ho11, Ho12, Ho13, Ho14, Ho15⟩
  ihave Ho0 := (Entails.of_eq (pts_out (F := F) d L T0 0 0 _)) $$ Ho0
  ihave Ho1 := (Entails.of_eq (pts_out (F := F) d L T0 0 1 _)) $$ Ho1
  ihave Ho2 := (Entails.of_eq (pts_out (F := F) d L T0 0 2 _)) $$ Ho2
  ihave Ho3 := (Entails.of_eq (pts_out (F := F) d L T0 0 3 _)) $$ Ho3
  ihave Ho4 := (Entails.of_eq (pts_out (F := F) d L T0 1 0 _)) $$ Ho4
  ihave Ho5 := (Entails.of_eq (pts_out (F := F) d L T0 1 1 _)) $$ Ho5
  ihave Ho6 := (Entails.of_eq (pts_out (F := F) d L T0 1 2 _)) $$ Ho6
  ihave Ho7 := (Entails.of_eq (pts_out (F := F) d L T0 1 3 _)) $$ Ho7
  ihave Ho8 := (Entails.of_eq (pts_out (F := F) d L T1 0 0 _)) $$ Ho8
  ihave Ho9 := (Entails.of_eq (pts_out (F := F) d L T1 0 1 _)) $$ Ho9
  ihave Ho10 := (Entails.of_eq (pts_out (F := F) d L T1 0 2 _)) $$ Ho10
  ihave Ho11 := (Entails.of_eq (pts_out (F := F) d L T1 0 3 _)) $$ Ho11
  ihave Ho12 := (Entails.of_eq (pts_out (F := F) d L T1 1 0 _)) $$ Ho12
  ihave Ho13 := (Entails.of_eq (pts_out (F := F) d L T1 1 1 _)) $$ Ho13
  ihave Ho14 := (Entails.of_eq (pts_out (F := F) d L T1 1 2 _)) $$ Ho14
  ihave Ho15 := (Entails.of_eq (pts_out (F := F) d L T1 1 3 _)) $$ Ho15
  sl_exec
  sl_unroll
  sl_exec
  iapply (loop_t2 (F := F) d L _ _ (fun x => scaled_iota_apply iota_S16_d0_w32_scVector x) _ _ _ _ _ _ _ _ _) $$ [Ha' Hc']
  · isplitl [Ha']; · iexact Ha'
    iexact Hc'
  iintro ⟨Ha', %q0, %hq0, Hc'⟩
  sl_exec
  iapply (loop_t3 (F := F) d L _ _ (fun x => scaled_iota_apply iota_S16_d0_w32_scVector x) _ _ _ _ _ _ _ _ _) $$ [Ha' Hd']
  · isplitl [Ha']; · iexact Ha'
    iexact Hd'
  iintro ⟨Ha', %q1, %hq1, Hd'⟩
  sl_exec
  iapply (loop_t4 (F := F) d L _ _ (fun x => scaled_iota_apply iota_S16_d0_w32_scVector x) _ _ _ _ _ _ _) $$ [Ha' Hc']
  · isplitl [Ha']; · iexact Ha'
    iexact Hc'
  iintro ⟨Ha', %q2, %hq2, Hc'⟩
  sl_exec
  iapply (loop_t5 (F := F) d L _ _ (fun x => scaled_iota_apply iota_S16_d0_w32_scVector x) _ _ _ _ _ _ _) $$ [Ha' Hd']
  · isplitl [Ha']; · iexact Ha'
    iexact Hd'
  iintro ⟨Ha', %q3, %hq3, Hd'⟩
  sl_exec
  iapply (loop_t6 (F := F) d L _ _ (fun x => scaled_iota_apply iota_S16_d0_w32_scVector x) _ _ _ _ _ _) $$ [Hb' Hc']
  · isplitl [Hb']; · iexact Hb'
    iexact Hc'
  iintro ⟨Hb', %q4, %hq4, Hc'⟩
  sl_exec
  iapply (loop_t7 (F := F) d L _ _ (fun x => scaled_iota_apply iota_S16_d0_w32_scVector x) _ _ _ _ _ _) $$ [Hb' Hd']
  · isplitl [Hb']; · iexact Hb'
    iexact Hd'
  iintro ⟨Hb', %q5, %hq5, Hd'⟩
  sl_exec
  iapply (loop_t8 (F := F) d L _ (fun x => scaled_iota_apply iota_S16_d0_w32_scVector x) _ _ _ _) $$ [Hb' Hc']
  · isplitl [Hb']; · iexact Hb'
    iexact Hc'
  iintro ⟨Hb', %q6, %hq6, Hc'⟩
  sl_exec
  iapply (loop_t9 (F := F) d L _ (fun x => scaled_iota_apply iota_S16_d0_w32_scVector x) _ _ _ _) $$ [Hb' Hd']
  · isplitl [Hb']; · iexact Hb'
    iexact Hd'
  iintro ⟨Hb', %q7, %hq7, Hd'⟩
  sl_exec
  iapply (loop_t2 (F := F) d L _ _ (fun x => scaled_iota_apply iota_S16_d0_w32_scVector x) _ _ _ _ _ _ _ _ _) $$ [Ha' Hc']
  · isplitl [Ha']; · iexact Ha'
    iexact Hc'
  iintro ⟨Ha', %q8, %hq8, Hc'⟩
  sl_exec
  iapply (loop_t3 (F := F) d L _ _ (fun x => scaled_iota_apply iota_S16_d0_w32_scVector x) _ _ _ _ _ _ _ _ _) $$ [Ha' Hd']
  · isplitl [Ha']; · iexact Ha'
    iexact Hd'
  iintro ⟨Ha', %q9, %hq9, Hd'⟩
  sl_exec
  iapply (loop_t4 (F := F) d L _ _ (fun x => scaled_iota_apply iota_S16_d0_w32_scVector x) _ _ _ _ _ _ _) $$ [Ha' Hc']
  · isplitl [Ha']; · iexact Ha'
    iexact Hc'
  iintro ⟨Ha', %q10, %hq10, Hc'⟩
  sl_exec
  iapply (loop_t5 (F := F) d L _ _ (fun x => scaled_iota_apply iota_S16_d0_w32_scVector x) _ _ _ _ _ _ _) $$ [Ha' Hd']
  · isplitl [Ha']; · iexact Ha'
    iexact Hd'
  iintro ⟨Ha', %q11, %hq11, Hd'⟩
  sl_exec
  iapply (loop_t6 (F := F) d L _ _ (fun x => scaled_iota_apply iota_S16_d0_w32_scVector x) _ _ _ _ _ _) $$ [Hb' Hc']
  · isplitl [Hb']; · iexact Hb'
    iexact Hc'
  iintro ⟨Hb', %q12, %hq12, Hc'⟩
  sl_exec
  iapply (loop_t7 (F := F) d L _ _ (fun x => scaled_iota_apply iota_S16_d0_w32_scVector x) _ _ _ _ _ _) $$ [Hb' Hd']
  · isplitl [Hb']; · iexact Hb'
    iexact Hd'
  iintro ⟨Hb', %q13, %hq13, Hd'⟩
  sl_exec
  iapply (loop_t8 (F := F) d L _ (fun x => scaled_iota_apply iota_S16_d0_w32_scVector x) _ _ _ _) $$ [Hb' Hc']
  · isplitl [Hb']; · iexact Hb'
    iexact Hc'
  iintro ⟨Hb', %q14, %hq14, Hc'⟩
  sl_exec
  iapply (loop_t9 (F := F) d L _ (fun x => scaled_iota_apply iota_S16_d0_w32_scVector x) _ _ _ _) $$ [Hb' Hd']
  · isplitl [Hb']; · iexact Hb'
    iexact Hd'
  iintro ⟨Hb', %q15, %hq15, Hd'⟩
  sl_exec
  sl_step
  -- what the four chunks hold: the input's blocks
  have hch00 := fun (fa : S85x512.Idx → Elt F .f32) => chunk_inA m d (4 * wOf L + 2 * (T0).val + (0 : Fin 2).val) (q_lt L T0 0) (k0_off1 L) (k0_off1_inb L) (off1_eq L) fa
  have hch01 := fun (fa : S85x512.Idx → Elt F .f32) => chunk_inB m d (4 * wOf L + 2 * (T0).val + (1 : Fin 2).val) (q_lt L T0 1) (k0_off2 L T0) (k0_off2_inb L T0 (by decide)) (off2_eq L T0) fa
  have hch10 := fun (fa : S85x512.Idx → Elt F .f32) => chunk_inA m d (4 * wOf L + 2 * (T1).val + (0 : Fin 2).val) (q_lt L T1 0) (k0_off41 L T0) (k0_off41_inb L T0 (by decide)) ((off41_eq L T0).trans (congrArg chunkOff (by show 4 * wOf L + 2 * 0 + 2 = 4 * wOf L + 2 * 1 + 0; omega))) fa
  have hch11 := fun (fa : S85x512.Idx → Elt F .f32) => chunk_inB m d (4 * wOf L + 2 * (T1).val + (1 : Fin 2).val) (q_lt L T1 1) (k0_off2 L T1) (k0_off2_inb L T1 (by decide)) (off2_eq L T1) fa
  have hd0 := done_of_eq (hch00 _) hq0
  have hd1 := done_of_eq (hch00 _) hq1
  have hd2 := done_of_eq (hch00 _) hq2
  have hd3 := done_of_eq (hch00 _) hq3
  have hd4 := done_of_eq (hch01 _) hq4
  have hd5 := done_of_eq (hch01 _) hq5
  have hd6 := done_of_eq (hch01 _) hq6
  have hd7 := done_of_eq (hch01 _) hq7
  have hd8 := done_of_eq (hch10 _) hq8
  have hd9 := done_of_eq (hch10 _) hq9
  have hd10 := done_of_eq (hch10 _) hq10
  have hd11 := done_of_eq (hch10 _) hq11
  have hd12 := done_of_eq (hch11 _) hq12
  have hd13 := done_of_eq (hch11 _) hq13
  have hd14 := done_of_eq (hch11 _) hq14
  have hd15 := done_of_eq (hch11 _) hq15
  ihave Ho0 := (Entails.of_eq (piece_back (F := F) m d L T0 0 0 (outM L T0 0 0).view.junk q0 (tile_body.sl.dma0_2 q0) rfl hd0)) $$ Ho0
  ihave Ho1 := (Entails.of_eq (piece_back (F := F) m d L T0 0 1 (outM L T0 0 1).view.junk q1 (tile_body.sl.dma0_3 q1) rfl hd1)) $$ Ho1
  ihave Ho2 := (Entails.of_eq (piece_back (F := F) m d L T0 0 2 (outM L T0 0 2).view.junk q2 (tile_body.sl.dma0_4 q2) rfl hd2)) $$ Ho2
  ihave Ho3 := (Entails.of_eq (piece_back (F := F) m d L T0 0 3 (outM L T0 0 3).view.junk q3 (tile_body.sl.dma0_5 q3) rfl hd3)) $$ Ho3
  ihave Ho4 := (Entails.of_eq (piece_back (F := F) m d L T0 1 0 (outM L T0 1 0).view.junk q4 (tile_body.sl.dma0_7 q4) rfl hd4)) $$ Ho4
  ihave Ho5 := (Entails.of_eq (piece_back (F := F) m d L T0 1 1 (outM L T0 1 1).view.junk q5 (tile_body.sl.dma0_8 q5) rfl hd5)) $$ Ho5
  ihave Ho6 := (Entails.of_eq (piece_back (F := F) m d L T0 1 2 (outM L T0 1 2).view.junk q6 (tile_body.sl.dma0_9 q6) rfl hd6)) $$ Ho6
  ihave Ho7 := (Entails.of_eq (piece_back (F := F) m d L T0 1 3 (outM L T0 1 3).view.junk q7 (tile_body.sl.dma0_10 q7) rfl hd7)) $$ Ho7
  ihave Ho8 := (Entails.of_eq (piece_back (F := F) m d L T1 0 0 (outM L T1 0 0).view.junk q8 (tile_body.sl.dma0_12 q8) rfl hd8)) $$ Ho8
  ihave Ho9 := (Entails.of_eq (piece_back (F := F) m d L T1 0 1 (outM L T1 0 1).view.junk q9 (tile_body.sl.dma0_13 q9) rfl hd9)) $$ Ho9
  ihave Ho10 := (Entails.of_eq (piece_back (F := F) m d L T1 0 2 (outM L T1 0 2).view.junk q10 (tile_body.sl.dma0_14 q10) rfl hd10)) $$ Ho10
  ihave Ho11 := (Entails.of_eq (piece_back (F := F) m d L T1 0 3 (outM L T1 0 3).view.junk q11 (tile_body.sl.dma0_15 q11) rfl hd11)) $$ Ho11
  ihave Ho12 := (Entails.of_eq (piece_back (F := F) m d L T1 1 0 (outM L T1 1 0).view.junk q12 (tile_body.sl.dma0_16 q12) rfl hd12)) $$ Ho12
  ihave Ho13 := (Entails.of_eq (piece_back (F := F) m d L T1 1 1 (outM L T1 1 1).view.junk q13 (tile_body.sl.dma0_17 q13) rfl hd13)) $$ Ho13
  ihave Ho14 := (Entails.of_eq (piece_back (F := F) m d L T1 1 2 (m (sLoc d)) q14 (tile_body.sl.dma0_18 q14) rfl hd14)) $$ Ho14
  ihave Ho15 := (Entails.of_eq (piece_back (F := F) m d L T1 1 3 (m (sLoc d)) q15 (tile_body.sl.dma0_19 q15) rfl hd15)) $$ Ho15
  -- the read share of the input, whole again
  ihave Hxt := (Entails.of_eq (bigSep_W1 (fun i : Fin 2 => ((xV).view.loc (thr d L) ↦{Transfers.shareTok (tileShare (cL L) (sL L)) 2 i} Xv m d : sProp 𝕄))).symm) $$ [Hx0 Hx1]
  · isplitl [Hx0]; · iexact Hx0
    iexact Hx1
  ihave Hx := (Transfers.pointsTo_toks (tileShare (cL L) (sL L)) 2).2 $$ [Hxd Hxt]
  · isplitl [Hxd]; · iexact Hxd
    iexact Hxt
  unfold tdR
  isplitl [Hx Ho0 Ho1 Ho2 Ho3 Ho4 Ho5 Ho6 Ho7 Ho8 Ho9 Ho10 Ho11 Ho12 Ho13 Ho14 Ho15]
  · isplitl [Hx]; · iexact Hx
    rw [bigSep_fin16]
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  isplitl [Ha' Hb' Hc' Hd' Hbufs]
  · isplitl [Ha']; · iexists _; iexact Ha'
    isplitl [Hb']; · iexists _; iexact Hb'
    isplitl [Hc']; · iexists _; iexact Hc'
    isplitl [Hd']; · iexists _; iexact Hd'
    iexact Hbufs
  isplitl [Hs4 Hs5 Hs6 Hs7 Hsems]
  · isplitl [Hs4]; · iexact Hs4
    isplitl [Hs5]; · iexact Hs5
    isplitl [Hs6]; · iexact Hs6
    isplitl [Hs7]; · iexact Hs7
    iexact Hsems
  iexists _; isplitr
  rotate_left
  · iexact HO
  · ipureintro
    repeat (apply waits_step rfl)
    exact fun p hp => .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s)
          xV (Memref.isWhole_whole _) oV (Memref.isWhole_whole _) sA (Memref.isWhole_whole _) sB (Memref.isWhole_whole _)
          sC (Memref.isWhole_whole _) sD (Memref.isWhole_whole _) cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's obligation of the one call: its task takes the tile's read share and pieces, and hands the pieces back at the
    output's specification. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KernelIdealTile
end
-- ==== Proof.KernelIdealRegionValue.lean ====
/-
  What the TensorCore region leaves in its output array, index by index: word (n, r, o) of the array is word (n, o, r) of
  the input viewed as 48 slabs of 85 rows of 4096 words, for each of the 32 slabs the region transposes. Point `t` of the
  grid writes back slabs 8t … 8t + 7, each the transposed slab of the input's block at `t`; the four blocks tile the array.
-/
import proofs.«218930_g44392781971697_cont_8to1c4_23_28_alg».proof.Proof.KernelIdealRegion
import Idealize.ShloMosaic.Lib.ValueLayout
import Idealize.ShloMosaic.Lib.Pipeline.Value

set_option maxRecDepth 16384

noncomputable section

namespace Cert.Proof.KernelIdealRegionValue

open Cert.KernelIdeal Cert.KernelIdeal.Gen Cert.Proof.KernelIdealSetup Cert.Proof.KernelIdealRegion

open Idealize.ShloMosaic Idealize.ShloMosaic.TcCoe
open Idealize.ShloMosaic.ValueIdx
open Idealize.SL Idealize.SL.Sem
open Idealize.ShloMosaic.Pipeline (Dat Cfg Window)

variable {F : FTy → Type} [FloatOps F]

variable (Vr : Valuation τ sig (Elt F))

theorem hz3 : (![0, 0, 0] : Fin 3 → Nat) = fun _ => 0 := funext fun a => by fin_cases a <;> rfl

/-- The first 32 slabs of `X`, each transposed. -/
def Tr (X : S48x85x4096.Idx → Elt F .f32) : S32x4096x85.Idx → Elt F .f32 := fun i =>
  X (ix3 (⟨(i 0).val, lt_of_lt_of_le (i 0).isLt (by decide)⟩ : Fin 48) (⟨(i 2).val, (i 2).isLt⟩ : Fin 85) (⟨(i 1).val, (i 1).isLt⟩ : Fin 4096))

theorem Tr_apply (X : S48x85x4096.Idx → Elt F .f32) (n : Fin 32) (r : Fin 4096) (o : Fin 85) :
    Tr X (ix3 n r o) = X (ix3 (⟨n.val, lt_of_lt_of_le n.isLt (by decide)⟩ : Fin 48) o r) := rfl

/-- The printed index maps over the grid: both windows' blocks move along the slab axis only, together; four blocks. -/
theorem idx_facts : ∀ t : Fin cfg1.N, win1_0.index t (0 : Fin 3) = win1_1.index t (0 : Fin 3) ∧ win1_0.index t (1 : Fin 3) = 0
    ∧ win1_0.index t (2 : Fin 3) = 0 ∧ win1_1.index t (1 : Fin 3) = 0 ∧ win1_1.index t (2 : Fin 3) = 0 ∧ win1_1.index t (0 : Fin 3) ≤ 3 :=
  (by decide +kernel : ∀ t : Fin grid1.N, _)

/-- Every block of eight slabs is some point's. -/
theorem idx_onto : ∀ q : Fin 4, ∃ t : Fin cfg1.N, win1_1.index t = ![q.val, 0, 0] :=
  (by decide +kernel : ∀ q : Fin 4, ∃ t : Fin grid1.N, win1_1.index t = ![q.val, 0, 0])

/-- The body's payload at an index: the input block's word with the last two coordinates exchanged. -/
theorem pay_apply (x0 : Vec F S8x85x4096 .f32) (a : Fin 8) (s : Fin 4096) (o : Fin 85) :
    k1_pay1 x0 (ix3 a s o) = x0 (ix3 a o s) := by
  unfold k1_pay1
  rw [shapeCast_self]
  exact transpose_ix3_021_apply x0 _ a s o

/-- WHAT POINT `t` WRITES BACK is block `t` of the transposed slabs of the input as the region finds it. -/
theorem flushed_eq (d : Dev nD) (t : Fin cfg1.N) :
    (dats Vr 0 d).flushed 1 t = ((cfg1.win 1).blk t).view.read (Elt F) (Tr (Vtc Vr d main_v0)) := by
  show (cfg1.win 1).cut (grid1.coords t) ((dats Vr 0 d).after 1 t) = _
  rw [after_out]
  unfold outBlk
  rw [View.canon_unit_zero hz3]
  simp only [View.ld_unit_zero (S := S8x85x4096) hz3]
  obtain ⟨e0, e1, e2, e3, e4, e5⟩ := idx_facts t
  funext j
  obtain ⟨a, s, o, rfl⟩ : ∃ (a : Fin 8) (s : Fin 4096) (o : Fin 85), j = ix3 a s o := ⟨j 0, j 1, j 2, eq_ix3 j⟩
  refine (pay_apply (iblk Vr d 0 t) a s o).trans ?_
  show Vtc Vr d main_v0 (((cfg1.win 0).blk t).view.emb (ix3 a o s)) = Tr (Vtc Vr d main_v0) (((cfg1.win 1).blk t).view.emb (ix3 a s o))
  unfold Tr
  refine congrArg (Vtc Vr d main_v0) (funext fun c => Fin.ext ?_)
  match c with
  | ⟨0, _⟩ =>
    show win1_0.index t (0 : Fin 3) * 8 + 1 * a.val = win1_1.index t (0 : Fin 3) * 8 + 1 * a.val
    omega
  | ⟨1, _⟩ =>
    show win1_0.index t (1 : Fin 3) * 85 + 1 * o.val = win1_1.index t (2 : Fin 3) * 85 + 1 * o.val
    omega
  | ⟨2, _⟩ =>
    show win1_0.index t (2 : Fin 3) * 4096 + 1 * s.val = win1_1.index t (1 : Fin 3) * 4096 + 1 * s.val
    omega

/-- An index of the output array is in point `t`'s block iff each coordinate is in the block's range on its axis. -/
theorem mem_blk (t : Fin cfg1.N) (i : S32x4096x85.Idx) :
    i ∈ ((cfg1.win 1).blk t).view.set ↔ ∀ a : Fin 3, win1_1.index t a * S8x4096x85.size a ≤ (i a).val ∧ (i a).val < win1_1.index t a * S8x4096x85.size a + S8x4096x85.size a := by
  show i ∈ ((View.whole main_v2).slice (win1_1.rect t)).set ↔ _
  rw [View.set_slice_whole, Rect.mem_set_unit]
  exact Iff.rfl

/-- The four blocks cover the array. -/
theorem covered (i : S32x4096x85.Idx) : ∃ t : Fin cfg1.N, (cfg1.win 1).flush t = true ∧ i ∈ ((cfg1.win 1).blk t).view.set := by
  have hi0 : (i 0).val < 32 := (i 0).isLt
  have hi1 : (i 1).val < 4096 := (i 1).isLt
  have hi2 : (i 2).val < 85 := (i 2).isLt
  obtain ⟨t, ht⟩ := idx_onto ⟨(i 0).val / 8, by omega⟩
  have q0 : win1_1.index t (0 : Fin 3) = (i 0).val / 8 := congrFun ht 0
  have q1 : win1_1.index t (1 : Fin 3) = 0 := congrFun ht 1
  have q2 : win1_1.index t (2 : Fin 3) = 0 := congrFun ht 2
  refine ⟨t, flush1_1 t, ?_⟩
  rw [mem_blk]
  intro a
  match a with
  | ⟨0, _⟩ => show win1_1.index t (0 : Fin 3) * 8 ≤ (i 0).val ∧ (i 0).val < win1_1.index t (0 : Fin 3) * 8 + 8; omega
  | ⟨1, _⟩ => show win1_1.index t (1 : Fin 3) * 4096 ≤ (i 1).val ∧ (i 1).val < win1_1.index t (1 : Fin 3) * 4096 + 4096; omega
  | ⟨2, _⟩ => show win1_1.index t (2 : Fin 3) * 85 ≤ (i 2).val ∧ (i 2).val < win1_1.index t (2 : Fin 3) * 85 + 85; omega

/-- THE OUTPUT ARRAY after the region: the transposed first 32 slabs of the input as the region finds it. -/
theorem final (d : Dev nD) : (dats Vr 0 d).arrAt 1 cfg1.N = Tr (Vtc Vr d main_v0) :=
  (dats Vr 0 d).arrAt_eq_of_cover 1 (Tr (Vtc Vr d main_v0)) (fun t _ => flushed_eq Vr d t) covered

/-- Index by index: word (n, r, o) of the output array is word (n, o, r) of the input's view. -/
theorem final_apply (d : Dev nD) (n : Fin 32) (r : Fin 4096) (o : Fin 85) :
    (dats Vr 0 d).arrAt 1 cfg1.N (ix3 n r o) = Vtc Vr d main_v0 (ix3 (⟨n.val, lt_of_lt_of_le n.isLt (by decide)⟩ : Fin 48) o r) := by
  rw [final]; rfl

end Cert.Proof.KernelIdealRegionValue

end
-- ==== Proof.KernelIdealOut.lean ====
/-
  The program's result as one term of the launch memory: the region's output array (the first 32 slabs of the input's view,
  each transposed) and the SparseCore call's output array (the last 16, each transposed, flat) reshaped, concatenated
  along the slab axis and reshaped to [16, 3, 64, 64, 85].
-/
import proofs.«218930_g44392781971697_cont_8to1c4_23_28_alg».proof.Proof.KernelIdealLaunch
import proofs.«218930_g44392781971697_cont_8to1c4_23_28_alg».proof.Proof.KernelIdealRegionValue

noncomputable section

namespace Cert.Proof.KernelIdealOut

open Cert.KernelIdeal Cert.KernelIdeal.Gen Cert.Proof.KernelIdealSetup Cert.Proof.KernelIdealPay Cert.Proof.KernelIdealRegion
open Cert.Proof.KernelIdealLaunch

open Idealize.ShloMosaic Idealize.ShloMosaic.TcCoe
open Idealize.ShloMosaic.ValueIdx
open Idealize.SL Idealize.SL.Sem

variable {F : FTy → Type} [FloatOps F]

variable (m : (ℓ : Loc nD τ sig) → Buf (Elt F) ℓ)

/-- The region finds the input's view in `main_v0`. -/
theorem V2_x (d : Dev nD) : V2 m d x' = Xv m d := by
  rw [V2_ne m d (b := x') (by decide), V1_x]

/-- The region's output array, index by index: word (n, r, o) is word (n, o, r) of the input's view. -/
theorem Tv_apply (d : Dev nD) (n : Fin 32) (r : Fin 4096) (o : Fin 85) :
    Tv m d (ix3 n r o) = Xv m d (ix3 (⟨n.val, lt_of_lt_of_le n.isLt (by decide)⟩ : Fin 48) o r) := by
  unfold Tv
  rw [KernelIdealRegionValue.final_apply]
  show V2 m d x' _ = _
  rw [V2_x]

/-- The program's result: the two halves, the second reshaped to 16 slabs, concatenated and reshaped. -/
theorem Out_eq (d : Dev nD) :
    Out m d = shapeCast S16x3x64x64x85
      (concatenate S48x4096x85 0 [⟨S32x4096x85, Tv m d⟩, ⟨S16x4096x85, shapeCast S16x4096x85 (Sv m d) shapeCasts_S5570560_S16x4096x85⟩]
        concatenates_S32x4096x85_S16x4096x85_S48x4096x85_d0)
      shapeCasts_S48x4096x85_S16x3x64x64x85 := by
  unfold Out V4
  rw [StableHlo.reshape_result, StableHlo.binary_result, StableHlo.reshape_result_ne (h := (by decide : main_v2 ≠ main_v3)),
    StableHlo.reshape_result, V3_t, V3_ne m d (b := s') (by decide), V2_s]
  rfl

end Cert.Proof.KernelIdealOut

end
-- ==== Proof.ValueSpec.lean ====
/-
  The value specification of the layout change, and the two layout facts about it. No program is mentioned here:
  only arrays as functions of their indices.

  An array `p` over [16, 255, 64, 64] (a batch of 16 images with 255 = 3 · 85 channels of 64 × 64 positions) is sent to
  the array `G p` over [16, 3, 64, 64, 85] with
      G p (b, a, y, x, o) = p (b, a · 85 + o, y, x):
  the channel axis is split into 3 groups of 85 and the position within a group becomes the last, fastest axis.

  Two ways of computing `G p` are shown to be `G p`, index by index, each by comparing row-major positions:
  * `reference_eq`: cast `p` to [16, 3, 85, 64, 64] and permute the axes by [0, 1, 3, 4, 2];
  * `host_tail_eq`: view `p` as 48 slabs `X` of shape [85, 4096] (slab n = b · 3 + a, position s = y · 64 + x), take ANY
    array `tc` over [32, 4096, 85] that holds the first 32 slabs transposed and ANY flat array `scf` of 16 · 4096 · 85
    elements that holds the last 16 slabs transposed in row-major order, cast the flat array to [16, 4096, 85], lay
    the two end to end along the slab axis and cast the result to [16, 3, 64, 64, 85].
-/
import Idealize.ShloMosaic.Lib.ValueLayout

noncomputable section

namespace Cert.Proof.ValueSpec

open Idealize.ShloMosaic Idealize.ShloMosaic.ValueIdx

/-! ## The shapes -/

/-- The argument: [16, 255, 64, 64]. -/
abbrev SP : Shape := ⟨4, ![16, 255, 64, 64]⟩
/-- The argument with its channel axis split: [16, 3, 85, 64, 64]. -/
abbrev SR : Shape := ⟨5, ![16, 3, 85, 64, 64]⟩
/-- The result: [16, 3, 64, 64, 85]. -/
abbrev SO : Shape := ⟨5, ![16, 3, 64, 64, 85]⟩
/-- The argument as 48 slabs of 85 rows of 4096 positions. -/
abbrev SX : Shape := ⟨3, ![48, 85, 4096]⟩
/-- The first 32 slabs, transposed. -/
abbrev STc : Shape := ⟨3, ![32, 4096, 85]⟩
/-- The last 16 slabs, transposed. -/
abbrev SSc : Shape := ⟨3, ![16, 4096, 85]⟩
/-- All 48 slabs, transposed. -/
abbrev SCat : Shape := ⟨3, ![48, 4096, 85]⟩
/-- The last 16 slabs, transposed, as one row of 16 · 4096 · 85 = 5570560 elements. -/
abbrev SFlat : Shape := ⟨1, ![5570560]⟩

/-! ## The specification -/

/-- Channel `a · 85 + o` of the argument: output `o` of anchor `a`. -/
def chan (a : Fin 3) (o : Fin 85) : Fin 255 := ⟨a.val * 85 + o.val, by omega⟩

/-- Slab `b · 3 + a`: anchor `a` of image `b`. -/
def slab (b : Fin 16) (a : Fin 3) : Fin 48 := ⟨b.val * 3 + a.val, by omega⟩

/-- Position `y · 64 + x` within a slab's row. -/
def pos (y x : Fin 64) : Fin 4096 := ⟨y.val * 64 + x.val, by omega⟩

/-- THE SPECIFICATION: `G p (b, a, y, x, o) = p (b, a · 85 + o, y, x)`. -/
def G {α : Type} (p : SP.Idx → α) : SO.Idx → α :=
  fun i => p (ix4 (i 0 : Fin 16) (chan (i 1 : Fin 3) (i 4 : Fin 85)) (i 2 : Fin 64) (i 3 : Fin 64))

/-- The specification at an index given by its coordinates. -/
theorem G_ix5 {α : Type} (p : SP.Idx → α) (b : Fin 16) (a : Fin 3) (y x : Fin 64) (o : Fin 85) :
    G p (ix5 b a y x o) = p (ix4 b (chan a o) y x) := rfl

/-! ## The argument as 48 slabs -/

/-- The argument viewed as slabs reads, at slab `b · 3 + a`, row `o`, position `y · 64 + x`, the argument at
    `(b, a · 85 + o, y, x)`: both have row-major position `((b · 255 + a · 85 + o) · 64 + y) · 64 + x`. -/
theorem slabs_apply {α : Type} (p : SP.Idx → α) (hX : SP.ShapeCasts SX) (b : Fin 16) (a : Fin 3) (y x : Fin 64) (o : Fin 85)
    (n : Fin 48) (hn : n.val = b.val * 3 + a.val) (s : Fin 4096) (hs : s.val = y.val * 64 + x.val) :
    shapeCast SX p hX (ix3 n o s) = p (ix4 b (chan a o) y x) :=
  shapeCast_apply p hX _ _ (by
    rw [Shape.rowMajor_val_four, Shape.rowMajor_val_three]
    show ((b.val * 255 + (a.val * 85 + o.val)) * 64 + y.val) * 64 + x.val = (n.val * 85 + o.val) * 4096 + s.val
    rw [hn, hs]; omega)

/-! ## The reference: split the channel axis, then permute -/

/-- (1a) Casting the argument to [16, 3, 85, 64, 64] and permuting the axes by [0, 1, 3, 4, 2] gives `G p`: the
    permuted array at `(b, a, y, x, o)` is the cast one at `(b, a, o, y, x)`, whose row-major position
    `(((b · 3 + a) · 85 + o) · 64 + y) · 64 + x` is that of `(b, a · 85 + o, y, x)` in the argument. -/
theorem reference_eq {α : Type} (p : SP.Idx → α) (h : SP.ShapeCasts SR) (h' : SR.Transposes [0, 1, 3, 4, 2] SO) :
    transpose SO [0, 1, 3, 4, 2] (shapeCast SR p h) h' = G p := by
  funext i
  obtain ⟨b, a, y, x, o, rfl⟩ : ∃ (b : Fin 16) (a : Fin 3) (y x : Fin 64) (o : Fin 85), i = ix5 b a y x o :=
    ⟨i 0, i 1, i 2, i 3, i 4, eq_ix5 i⟩
  refine (transpose_apply _ _ h' (ix5 b a y x o) (ix5 b a o y x) (fun c => ?_)).trans ?_
  · match c with
    | ⟨0, _⟩ => rfl
    | ⟨1, _⟩ => rfl
    | ⟨2, _⟩ => rfl
    | ⟨3, _⟩ => rfl
    | ⟨4, _⟩ => rfl
  · refine (shapeCast_apply p h (ix5 b a o y x) (ix4 b (chan a o) y x) ?_).trans (G_ix5 p b a y x o).symm
    rw [Shape.rowMajor_val_four, Shape.rowMajor_val_five]
    show ((b.val * 255 + (a.val * 85 + o.val)) * 64 + y.val) * 64 + x.val
      = (((b.val * 3 + a.val) * 85 + o.val) * 64 + y.val) * 64 + x.val
    omega

/-! ## The kernel's host tail: two transposed pieces laid end to end -/

/-- (1b) Let `X` be the argument viewed as 48 slabs. If `tc` holds slabs 0 … 31 transposed,
    `tc (n, s, o) = X (n, o, s)`, and the flat array `scf` holds slabs 32 … 47 transposed in row-major order,
    `scf ((n · 4096 + s) · 85 + o) = X (32 + n, o, s)`, then casting `scf` to [16, 4096, 85], laying `tc` and it end to
    end along the slab axis and casting the result to [16, 3, 64, 64, 85] gives `G p`: the result at `(b, a, y, x, o)`
    is the concatenation at `(b · 3 + a, y · 64 + x, o)`, which is `X (b · 3 + a, o, y · 64 + x)` from whichever piece
    holds slab `b · 3 + a`. -/
theorem host_tail_eq {α : Type} (p : SP.Idx → α) (hX : SP.ShapeCasts SX) (tc : STc.Idx → α) (scf : SFlat.Idx → α)
    (hF : SFlat.ShapeCasts SSc) (hC : Shape.Concatenates [STc, SSc] SCat 0) (hO : SCat.ShapeCasts SO)
    (htc : ∀ (n : Fin 32) (s : Fin 4096) (o : Fin 85),
      tc (ix3 n s o) = shapeCast SX p hX (ix3 (⟨n.val, by omega⟩ : Fin 48) o s))
    (hsc : ∀ (n : Fin 16) (s : Fin 4096) (o : Fin 85),
      scf (ix1 (⟨(n.val * 4096 + s.val) * 85 + o.val, by omega⟩ : Fin 5570560))
        = shapeCast SX p hX (ix3 (⟨32 + n.val, by omega⟩ : Fin 48) o s)) :
    shapeCast SO (concatenate SCat 0 [⟨STc, tc⟩, ⟨SSc, shapeCast SSc scf hF⟩] hC) hO = G p := by
  funext i
  obtain ⟨b, a, y, x, o, rfl⟩ : ∃ (b : Fin 16) (a : Fin 3) (y x : Fin 64) (o : Fin 85), i = ix5 b a y x o :=
    ⟨i 0, i 1, i 2, i 3, i 4, eq_ix5 i⟩
  rw [G_ix5]
  -- the result at (b, a, y, x, o) is the concatenation at (b · 3 + a, y · 64 + x, o)
  refine (shapeCast_apply _ hO (ix5 b a y x o) (ix3 (slab b a) (pos y x) o) ?_).trans ?_
  · rw [Shape.rowMajor_val_three, Shape.rowMajor_val_five]
    show ((b.val * 3 + a.val) * 4096 + (y.val * 64 + x.val)) * 85 + o.val
      = (((b.val * 3 + a.val) * 64 + y.val) * 64 + x.val) * 85 + o.val
    omega
  by_cases hlt : b.val * 3 + a.val < 32
  · -- slab b · 3 + a is one of the first 32: it is read from `tc`
    refine (concatenate_pair_apply_left (0 : Fin 3) tc (shapeCast SSc scf hF) hC (ix3 (slab b a) (pos y x) o) rfl
      (ix3 (⟨b.val * 3 + a.val, hlt⟩ : Fin 32) (pos y x) o) (fun c => ?_)).trans ?_
    · match c with
      | ⟨0, _⟩ => rfl
      | ⟨1, _⟩ => rfl
      | ⟨2, _⟩ => rfl
    · rw [htc]
      exact slabs_apply p hX b a y x o _ rfl _ rfl
  · -- slab b · 3 + a is one of the last 16: it is read from the flat array, cast
    have hge : 32 ≤ b.val * 3 + a.val := Nat.le_of_not_lt hlt
    have hb := b.isLt
    have ha := a.isLt
    refine (concatenate_pair_apply_right (0 : Fin 3) tc (shapeCast SSc scf hF) hC (ix3 (slab b a) (pos y x) o) rfl rfl
      (ix3 (⟨b.val * 3 + a.val - 32, by omega⟩ : Fin 16) (pos y x) o) (fun c hc => ?_) ?_).trans ?_
    · match c, hc with
      | ⟨0, _⟩, hc => exact absurd rfl hc
      | ⟨1, _⟩, _ => rfl
      | ⟨2, _⟩, _ => rfl
    · show b.val * 3 + a.val - 32 + 32 = b.val * 3 + a.val
      omega
    · refine (shapeCast_apply scf hF (ix3 (⟨b.val * 3 + a.val - 32, by omega⟩ : Fin 16) (pos y x) o)
        (ix1 (⟨((b.val * 3 + a.val - 32) * 4096 + (pos y x).val) * 85 + o.val, by
          have := (pos y x).isLt; have := o.isLt; omega⟩ : Fin 5570560)) ?_).trans ?_
      · rw [Shape.rowMajor_val_one, Shape.rowMajor_val_three]
        rfl
      · rw [hsc (⟨b.val * 3 + a.val - 32, by omega⟩ : Fin 16) (pos y x) o]
        exact slabs_apply p hX b a y x o _ (by show 32 + (b.val * 3 + a.val - 32) = _; omega) _ rfl

/-! ## One block of eight slabs, transposed -/

/-- The block of eight slabs [8, 85, 4096]. -/
abbrev SBlk : Shape := ⟨3, ![8, 85, 4096]⟩
/-- The block of eight slabs, each transposed: [8, 4096, 85]. -/
abbrev SBlkT : Shape := ⟨3, ![8, 4096, 85]⟩

/-- A block of eight slabs with the last two axes swapped reads, at `(a, s, o)`, the block at `(a, o, s)`. -/
theorem block_transpose_apply {α : Type} (v : SBlk.Idx → α) (h : SBlk.Transposes [0, 2, 1] SBlkT)
    (a : Fin 8) (s : Fin 4096) (o : Fin 85) :
    transpose SBlkT [0, 2, 1] v h (ix3 a s o) = v (ix3 a o s) :=
  transpose_ix3_021_apply v h a s o

end Cert.Proof.ValueSpec

end
-- ==== Proof.KernelIdealOutSpec.lean ====
/-
  The program's result is the specification of its input: the region's output array holds the first 32 slabs of the input's
  view transposed, the SparseCore call's flat output the last 16 transposed in row-major order, and the three host
  operations lay them end to end and recast — which is `G` of the input, index by index.
-/
import proofs.«218930_g44392781971697_cont_8to1c4_23_28_alg».proof.Proof.KernelIdealOut
import proofs.«218930_g44392781971697_cont_8to1c4_23_28_alg».proof.Proof.ValueSpec

noncomputable section

namespace Cert.Proof.KernelIdealOutSpec

open Cert.KernelIdeal Cert.KernelIdeal.Gen Cert.Proof.KernelIdealSetup Cert.Proof.KernelIdealPay Cert.Proof.KernelIdealRegion
open Cert.Proof.KernelIdealLaunch Cert.Proof.KernelIdealOut

open Idealize.ShloMosaic Idealize.ShloMosaic.TcCoe
open Idealize.ShloMosaic.ValueIdx
open Idealize.SL Idealize.SL.Sem

variable {F : FTy → Type} [FloatOps F]

variable (m : (ℓ : Loc nD τ sig) → Buf (Elt F) ℓ)

/-- Word ((n · 4096 + s) · 85 + o) of the call's flat output is word (32 + n, o, s) of the input's view. -/
theorem Sv_apply (d : Dev nD) (n : Fin 16) (s : Fin 4096) (o : Fin 85) :
    Sv m d (ix1 (⟨(n.val * 4096 + s.val) * 85 + o.val, by have := n.isLt; have := s.isLt; have := o.isLt; omega⟩ : Fin 5570560))
      = Xv m d (ix3 (⟨32 + n.val, by have := n.isLt; omega⟩ : Fin 48) o s) := by
  have hn := n.isLt; have hs := s.isLt; have ho := o.isLt
  unfold Sv
  refine congrArg (Xv m d) (funext fun c => ?_)
  match c with
  | ⟨0, _⟩ => exact Fin.ext (by show 32 + ((n.val * 4096 + s.val) * 85 + o.val) / 348160 = 32 + n.val; omega)
  | ⟨1, _⟩ => exact Fin.ext (by show ((n.val * 4096 + s.val) * 85 + o.val) % 85 = o.val; omega)
  | ⟨2, _⟩ => exact Fin.ext (by show ((n.val * 4096 + s.val) * 85 + o.val) / 85 % 4096 = s.val; omega)

/-- THE VALUE: the program's result is the specification `G` of its input array. -/
theorem Out_spec (d : Dev nD) : Out m d = Cert.Proof.ValueSpec.G (m ((d.tc : Thread nD τ).loc main_arg0)) :=
  (Out_eq m d).trans
    (Cert.Proof.ValueSpec.host_tail_eq (m (pLoc d)) shapeCasts_S16x255x64x64_S48x85x4096 (Tv m d) (Sv m d)
      shapeCasts_S5570560_S16x4096x85 concatenates_S32x4096x85_S16x4096x85_S48x4096x85_d0 shapeCasts_S48x4096x85_S16x3x64x64x85
      (fun n s o => Tv_apply m d n s o) (fun n s o => Sv_apply m d n s o))

end Cert.Proof.KernelIdealOutSpec

end
-- ==== Proof.RefValue.lean ====
/-
  The reference's side of the value claim. The reference casts its argument [16, 255, 64, 64] to [16, 3, 85, 64, 64]
  and permutes the axes by [0, 1, 3, 4, 2]; its generated run states that every weakly fair execution ends with the
  result array at that term of the argument, the argument unchanged. That term is the specification `G` of the
  argument (ValueSpec's `reference_eq`: equal row-major positions), for every float instance.
-/
import proofs.«218930_g44392781971697_cont_8to1c4_23_28_alg».proof.Defs
import proofs.«218930_g44392781971697_cont_8to1c4_23_28_alg».proof.Proof.Gen.ReferenceIdeal.Run
import proofs.«218930_g44392781971697_cont_8to1c4_23_28_alg».proof.Proof.Gen.Pre_finite_inputs
import proofs.«218930_g44392781971697_cont_8to1c4_23_28_alg».proof.Proof.ValueSpec

noncomputable section

namespace Cert.Proof.RefValue

open Idealize.ShloMosaic Idealize.ShloMosaic.TcCoe Idealize.SL.Sem
open Cert.ReferenceIdeal

/-- The reference's run, for every float instance: from any memory with zero counters every weakly fair execution of
    the reference terminates with its result array the specification `G` of its argument array, and the argument
    array unchanged. -/
theorem ref_run_gen {F : FTy → Type} [FloatOps F] (m' : (ℓ : Loc nD τ sig) → Buf (Elt F) ℓ) (ρ' : Dev nD → PrngReg) :
    θ_run (defs (F := F)) (onTc (τ := τ) (main (F := F))) ⟨m', fun _ => 0, ρ'⟩ (fun r => ∀ c : Dev nD,
      r.2.mem ((c.tc : Thread nD τ).loc main_v1) = Cert.Proof.ValueSpec.G (m' ((c.tc : Thread nD τ).loc main_arg0))
      ∧ r.2.mem ((c.tc : Thread nD τ).loc main_arg0) = m' ((c.tc : Thread nD τ).loc main_arg0)) :=
  (θ_run defs _ _).mono
    (fun _ h c => ⟨(h c).1.trans (Cert.Proof.ValueSpec.reference_eq _ _ _), (h c).2⟩)
    (Cert.ReferenceIdeal.Value.run (F := F) m' ρ')

/-- The reference's run at the ideal instance, in the shape the algebraic claim's second run takes. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v1)
          = Cert.Proof.ValueSpec.G (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  ref_run_gen (F := Ideal) m' ρ'

/-- The reference terminates, faults nowhere and leaves its argument array unchanged: its run with the result
    dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefValue

end
-- ==== Proof.lean ====
/-
  The certificate's five claims, assembled.
  The kernel transposes the input, viewed as 48 slabs of 85 rows of 4096 words, slab by slab: slabs 32 … 47 on the
  SparseCores (32 tiles, four chunks of 512 columns each, every chunk scattered quarter by quarter into a flat output),
  slabs 0 … 31 by a TensorCore pipeline in blocks of eight slabs; the host then concatenates the two and views the result as
  [16, 3, 64, 64, 85]. The reference views the input as [16, 3, 85, 64, 64] and permutes the axes. Both are the array
  G p (b, a, y, x, o) = p (b, 85·a + o, y, x): pure data movement, the same at the word level and on the extended reals.
  Frames: each program's run (every weakly fair execution of all its threads terminates without a fault) with its result
  dropped. The idealization rewrote nothing, so `preserves` is trivial. `algebraic`: the kernel's run leaves the named array
  `Out`, which is G of the input; the reference's run leaves G of its input; the inputs agree.
-/
import proofs.«218930_g44392781971697_cont_8to1c4_23_28_alg».proof.Defs
import proofs.«218930_g44392781971697_cont_8to1c4_23_28_alg».proof.Proof.Gen.Kernel
import proofs.«218930_g44392781971697_cont_8to1c4_23_28_alg».proof.Proof.Gen.KernelIdeal
import proofs.«218930_g44392781971697_cont_8to1c4_23_28_alg».proof.Proof.Gen.ReferenceIdeal
import proofs.«218930_g44392781971697_cont_8to1c4_23_28_alg».proof.Proof.Gen.Pre_finite_inputs
import proofs.«218930_g44392781971697_cont_8to1c4_23_28_alg».proof.Proof.KernelLaunch
import proofs.«218930_g44392781971697_cont_8to1c4_23_28_alg».proof.Proof.KernelTile
import proofs.«218930_g44392781971697_cont_8to1c4_23_28_alg».proof.Proof.KernelIdealLaunch
import proofs.«218930_g44392781971697_cont_8to1c4_23_28_alg».proof.Proof.KernelIdealTile
import proofs.«218930_g44392781971697_cont_8to1c4_23_28_alg».proof.Proof.KernelIdealOutSpec
import proofs.«218930_g44392781971697_cont_8to1c4_23_28_alg».proof.Proof.RefValue
import Idealize.ShloMosaic.Adequacy
import Idealize.ShloMosaic.Init

noncomputable section

namespace Cert.Proof

open Idealize.ShloMosaic Idealize.SL.Sem

/-- The word-level kernel runs and leaves its input unchanged. -/
theorem frame_kernel : Cert.frame_Kernel := fun m ρ _ =>
  (θ_run Cert.Kernel.defs _ _).mono (fun _ h c => (h c).2)
    (Cert.Proof.KernelLaunch.run_main (F := Bits) m ρ (Cert.Proof.KernelTile.tileObl m Cert.Proof.KernelSetup.facts))

/-- The idealized kernel runs and leaves its input unchanged. -/
theorem frame_kernelIdeal : Cert.frame_KernelIdeal := fun m ρ _ =>
  (θ_run Cert.KernelIdeal.defs _ _).mono (fun _ h c => (h c).2)
    (Cert.Proof.KernelIdealLaunch.run_main (F := Ideal) m ρ (Cert.Proof.KernelIdealTile.tileObl m Cert.Proof.KernelIdealSetup.facts))

/-- The idealized kernel and the idealized reference, from agreeing inputs, end with the same array. -/
theorem algebraic : Cert.algebraic_KernelIdeal_ReferenceIdeal := fun m ρ m' ρ' _ hagree =>
  ⟨fun c => Cert.Proof.KernelIdealLaunch.Out m c,
    Cert.Proof.KernelIdealLaunch.run_main (F := Ideal) m ρ (Cert.Proof.KernelIdealTile.tileObl m Cert.Proof.KernelIdealSetup.facts),
    (θ_run Cert.ReferenceIdeal.defs _ _).mono
      (fun _ h c => ⟨(h c).1.trans ((congrArg Cert.Proof.ValueSpec.G (hagree c)).trans (Cert.Proof.KernelIdealOutSpec.Out_spec m c).symm), (h c).2⟩)
      (Cert.Proof.RefValue.ref_run m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, Cert.Proof.RefValue.frame_ri, trivial, algebraic⟩

end Cert.Proof

end
